-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x48x80x80x48 : Shape := ⟨5, ![2, 48, 80, 80, 48]⟩
abbrev S2x2x80x80x48 : Shape := ⟨5, ![2, 2, 80, 80, 48]⟩
abbrev S2x1x80x80x48 : Shape := ⟨5, ![2, 1, 80, 80, 48]⟩
abbrev S_ : Shape := ⟨0, ![]⟩

class Facts : Prop where
  bcast_S_S2x48x80x80x48 : S_.BroadcastsInDim S2x48x80x80x48 (![] : Fin 0 → Fin S2x48x80x80x48.rank)
  reducesTo_S2x48x80x80x48_S_d0_1_2_3_4 : S2x48x80x80x48.ReducesTo [0, 1, 2, 3, 4] S_
  h_S_ : 0 < S_.numel
  bcast_S_S2x2x80x80x48 : S_.BroadcastsInDim S2x2x80x80x48 (![] : Fin 0 → Fin S2x2x80x80x48.rank)
  reducesTo_S2x2x80x80x48_S_d0_1_2_3_4 : S2x2x80x80x48.ReducesTo [0, 1, 2, 3, 4] S_

variable [Facts]

def fn {F : FTy → Type} [FloatOps F] (main_arg0 : FVec F S2x48x80x80x48 .f32) (main_arg1 : FVec F S2x2x80x80x48 .f32) (main_arg2 : IVec S2x1x80x80x48 32) : IVec S_ 1 :=
  let main_v0 : FVec F S2x48x80x80x48 .f32 := Host.absf main_arg0
  let main_cst : FVec F S_ .f32 := constant S_ .f32 0x7F800000#32
  let main_v1 : FVec F S2x48x80x80x48 .f32 := broadcastInDim S2x48x80x80x48 ![] bcast_S_S2x48x80x80x48 main_cst
  let main_v2 : IVec S2x48x80x80x48 1 := cmpf .olt main_v0 main_v1
  let main_c : IVec S_ 1 := constantI S_ 1 1#1
  let main_v3 : IVec S_ 1 := (fun x v => Host.reduce IntOp.andi x v reducesTo_S2x48x80x80x48_S_d0_1_2_3_4 h_S_) main_v2 main_c
  let main_v4 : FVec F S2x2x80x80x48 .f32 := Host.absf main_arg1
  let main_cst_0 : FVec F S_ .f32 := constant S_ .f32 0x7F800000#32
  let main_v5 : FVec F S2x2x80x80x48 .f32 := broadcastInDim S2x2x80x80x48 ![] bcast_S_S2x2x80x80x48 main_cst_0
  let main_v6 : IVec S2x2x80x80x48 1 := cmpf .olt main_v4 main_v5
  let main_c_1 : IVec S_ 1 := constantI S_ 1 1#1
  let main_v7 : IVec S_ 1 := (fun x v => Host.reduce IntOp.andi x v reducesTo_S2x2x80x80x48_S_d0_1_2_3_4 h_S_) main_v6 main_c_1
  let main_v8 : IVec S_ 1 := andi main_v3 main_v7
  main_v8
-- ==== Kernel.lean ====
abbrev S2x48x80x80x48 : Shape := ⟨5, ![2, 48, 80, 80, 48]⟩
abbrev S2x2x80x80x48 : Shape := ⟨5, ![2, 2, 80, 80, 48]⟩
abbrev S2x1x80x80x48 : Shape := ⟨5, ![2, 1, 80, 80, 48]⟩
abbrev S2x2x48 : Shape := ⟨3, ![2, 2, 48]⟩
abbrev S1x48x4x80x48 : Shape := ⟨5, ![1, 48, 4, 80, 48]⟩
abbrev S1x1x4x80x48 : Shape := ⟨5, ![1, 1, 4, 80, 48]⟩
abbrev S1x2x48 : Shape := ⟨3, ![1, 2, 48]⟩
abbrev S48x4x80x48 : Shape := ⟨4, ![48, 4, 80, 48]⟩
abbrev S4x80x48 : Shape := ⟨3, ![4, 80, 48]⟩
abbrev S1x4x80x48 : Shape := ⟨4, ![1, 4, 80, 48]⟩
abbrev S48x4x80 : Shape := ⟨3, ![48, 4, 80]⟩
abbrev S48x4 : Shape := ⟨2, ![48, 4]⟩
abbrev S48 : Shape := ⟨1, ![48]⟩
abbrev S2x48 : Shape := ⟨2, ![2, 48]⟩
abbrev S1x1x48 : Shape := ⟨3, ![1, 1, 48]⟩
abbrev S2x307200 : Shape := ⟨2, ![2, 307200]⟩
abbrev S_ : Shape := ⟨0, ![]⟩
abbrev S2 : Shape := ⟨1, ![2]⟩
abbrev S2x1 : Shape := ⟨2, ![2, 1]⟩
abbrev S2x2 : Shape := ⟨2, ![2, 2]⟩
abbrev S2x2x1 : Shape := ⟨3, ![2, 2, 1]⟩
abbrev S2x1x1 : Shape := ⟨3, ![2, 1, 1]⟩
abbrev S1x2x4x80x48 : Shape := ⟨5, ![1, 2, 4, 80, 48]⟩
abbrev S1x2x1 : Shape := ⟨3, ![1, 2, 1]⟩
abbrev S1x1x1 : Shape := ⟨3, ![1, 1, 1]⟩
abbrev S48x80x48 : Shape := ⟨3, ![48, 80, 48]⟩
abbrev S80x48 : Shape := ⟨2, ![80, 48]⟩
abbrev S2x4x80x48 : Shape := ⟨4, ![2, 4, 80, 48]⟩
abbrev S1x48 : Shape := ⟨2, ![1, 48]⟩
abbrev S48x1x1x1 : Shape := ⟨4, ![48, 1, 1, 1]⟩
abbrev S4x80 : Shape := ⟨2, ![4, 80]⟩
abbrev S4 : Shape := ⟨1, ![4]⟩
abbrev S4x1 : Shape := ⟨2, ![4, 1]⟩
abbrev S1 : Shape := ⟨1, ![1]⟩
abbrev S1x1 : Shape := ⟨2, ![1, 1]⟩
abbrev S48x3x80x48 : Shape := ⟨4, ![48, 3, 80, 48]⟩
abbrev S3x80x48 : Shape := ⟨3, ![3, 80, 48]⟩
abbrev S3x80 : Shape := ⟨2, ![3, 80]⟩
abbrev S3 : Shape := ⟨1, ![3]⟩
abbrev S3x1 : Shape := ⟨2, ![3, 1]⟩
abbrev S48x1x80x48 : Shape := ⟨4, ![48, 1, 80, 48]⟩
abbrev S1x80x48 : Shape := ⟨3, ![1, 80, 48]⟩
abbrev S80 : Shape := ⟨1, ![80]⟩
abbrev S80x1 : Shape := ⟨2, ![80, 1]⟩
abbrev S48x4x79x48 : Shape := ⟨4, ![48, 4, 79, 48]⟩
abbrev S4x79x48 : Shape := ⟨3, ![4, 79, 48]⟩
abbrev S4x79 : Shape := ⟨2, ![4, 79]⟩
abbrev S48x4x80x47 : Shape := ⟨4, ![48, 4, 80, 47]⟩
abbrev S48x1 : Shape := ⟨2, ![48, 1]⟩
abbrev S2x1x48 : Shape := ⟨3, ![2, 1, 48]⟩

abbrev nBuf : Space → Nat
  | .hbm => 124
  | .vmem => 24
  | .smem => 0
  | _ => 0

abbrev bufTy : (tb : Table) → Fin (tcTables nBuf tb) → BufTy
  | .hbm, ⟨0, _⟩ => ⟨S2x48x80x80x48, .f32⟩
  | .hbm, ⟨1, _⟩ => ⟨S2x2x80x80x48, .f32⟩
  | .hbm, ⟨2, _⟩ => ⟨S2x1x80x80x48, .i32⟩
  | .hbm, ⟨3, _⟩ => ⟨S2x2x48, .f32⟩
  | .hbm, ⟨4, _⟩ => ⟨S2x307200, .i32⟩
  | .hbm, ⟨5, _⟩ => ⟨S_, .i32⟩
  | .hbm, ⟨6, _⟩ => ⟨S2x307200, .i32⟩
  | .hbm, ⟨7, _⟩ => ⟨S2x307200, .i1⟩
  | .hbm, ⟨8, _⟩ => ⟨S2x307200, .i32⟩
  | .hbm, ⟨9, _⟩ => ⟨S_, .i32⟩
  | .hbm, ⟨10, _⟩ => ⟨S2, .i32⟩
  | .hbm, ⟨11, _⟩ => ⟨S_, .i32⟩
  | .hbm, ⟨12, _⟩ => ⟨S2x307200, .i32⟩
  | .hbm, ⟨13, _⟩ => ⟨S2x307200, .i1⟩
  | .hbm, ⟨14, _⟩ => ⟨S2x307200, .i32⟩
  | .hbm, ⟨15, _⟩ => ⟨S_, .i32⟩
  | .hbm, ⟨16, _⟩ => ⟨S2, .i32⟩
  | .hbm, ⟨17, _⟩ => ⟨S2x1, .i32⟩
  | .hbm, ⟨18, _⟩ => ⟨S2x1, .i32⟩
  | .hbm, ⟨19, _⟩ => ⟨S2x2, .i32⟩
  | .hbm, ⟨20, _⟩ => ⟨S2x2, .f32⟩
  | .hbm, ⟨21, _⟩ => ⟨S_, .f32⟩
  | .hbm, ⟨22, _⟩ => ⟨S2x2, .f32⟩
  | .hbm, ⟨23, _⟩ => ⟨S2x2, .f32⟩
  | .hbm, ⟨24, _⟩ => ⟨S2x2x1, .f32⟩
  | .hbm, ⟨25, _⟩ => ⟨S2x2x48, .f32⟩
  | .hbm, ⟨26, _⟩ => ⟨S2x2x48, .f32⟩
  | .hbm, ⟨27, _⟩ => ⟨S2x2x1, .f32⟩
  | .hbm, ⟨28, _⟩ => ⟨S2x1x1, .f32⟩
  | .hbm, ⟨29, _⟩ => ⟨S2x1x1, .f32⟩
  | .hbm, ⟨30, _⟩ => ⟨S2x1x1, .f32⟩
  | .hbm, ⟨31, _⟩ => ⟨S2x2, .f32⟩
  | .hbm, ⟨32, _⟩ => ⟨S_, .f32⟩
  | .hbm, ⟨33, _⟩ => ⟨S2x2, .f32⟩
  | .hbm, ⟨34, _⟩ => ⟨S2x2, .f32⟩
  | .hbm, ⟨35, _⟩ => ⟨S2x2, .f32⟩
  | .hbm, ⟨36, _⟩ => ⟨S_, .f32⟩
  | .hbm, ⟨37, _⟩ => ⟨S2x2, .f32⟩
  | .hbm, ⟨38, _⟩ => ⟨S2x2, .i1⟩
  | .hbm, ⟨39, _⟩ => ⟨S2x2, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S2x2, .f32⟩
  | .hbm, ⟨47, _⟩ => ⟨S2x2, .f32⟩
  | .hbm, ⟨48, _⟩ => ⟨S_, .f32⟩
  | .hbm, ⟨49, _⟩ => ⟨S_, .f32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x2, .f32⟩
  | .hbm, ⟨59, _⟩ => ⟨S2x2, .i1⟩
  | .hbm, ⟨60, _⟩ => ⟨S2x1x48, .f32⟩
  | .hbm, ⟨61, _⟩ => ⟨S2x48, .f32⟩
  | .hbm, ⟨62, _⟩ => ⟨S2x1x48, .f32⟩
  | .hbm, ⟨63, _⟩ => ⟨S2x48, .f32⟩
  | .hbm, ⟨64, _⟩ => ⟨S2x48, .f32⟩
  | .hbm, ⟨65, _⟩ => ⟨S2x48, .f32⟩
  | .hbm, ⟨66, _⟩ => ⟨S_, .f32⟩
  | .hbm, ⟨67, _⟩ => ⟨S2, .f32⟩
  | .hbm, ⟨68, _⟩ => ⟨S_, .f32⟩
  | .hbm, ⟨69, _⟩ => ⟨S2, .f32⟩
  | .hbm, ⟨70, _⟩ => ⟨S2, .f32⟩
  | .hbm, ⟨71, _⟩ => ⟨S2, .f32⟩
  | .hbm, ⟨72, _⟩ => ⟨S_, .f32⟩
  | .hbm, ⟨73, _⟩ => ⟨S2, .f32⟩
  | .hbm, ⟨74, _⟩ => ⟨S2, .f32⟩
  | .hbm, ⟨75, _⟩ => ⟨S_, .f32⟩
  | .hbm, ⟨76, _⟩ => ⟨S2, .f32⟩
  | .hbm, ⟨77, _⟩ => ⟨S2, .f32⟩
  | .hbm, ⟨78, _⟩ => ⟨S2x1, .i1⟩
  | .hbm, ⟨79, _⟩ => ⟨S2, .i1⟩
  | .hbm, ⟨80, _⟩ => ⟨S2x1, .i1⟩
  | .hbm, ⟨81, _⟩ => ⟨S2, .i1⟩
  | .hbm, ⟨82, _⟩ => ⟨S2, .i1⟩
  | .hbm, ⟨83, _⟩ => ⟨S_, .f32⟩
  | .hbm, ⟨84, _⟩ => ⟨S_, .f32⟩
  | .hbm, ⟨85, _⟩ => ⟨S2, .f32⟩
  | .hbm, ⟨86, _⟩ => ⟨S2, .f32⟩
  | .hbm, ⟨87, _⟩ => ⟨S_, .f32⟩
  | .hbm, ⟨88, _⟩ => ⟨S_, .f32⟩
  | .hbm, ⟨89, _⟩ => ⟨S2, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S1x48x4x80x48, .f32⟩
  | .local _ .vmem, ⟨1, _⟩ => ⟨S1x48x4x80x48, .f32⟩
  | .local _ .vmem, ⟨2, _⟩ => ⟨S1x1x4x80x48, .i32⟩
  | .local _ .vmem, ⟨3, _⟩ => ⟨S1x1x4x80x48, .i32⟩
  | .local _ .vmem, ⟨4, _⟩ => ⟨S1x2x48, .f32⟩
  | .local _ .vmem, ⟨5, _⟩ => ⟨S1x2x48, .f32⟩
  | .local _ .vmem, ⟨6, _⟩ => ⟨S1x48x4x80x48, .f32⟩
  | .local _ .vmem, ⟨7, _⟩ => ⟨S1x48x4x80x48, .f32⟩
  | .local _ .vmem, ⟨8, _⟩ => ⟨S1x1x4x80x48, .i32⟩
  | .local _ .vmem, ⟨9, _⟩ => ⟨S1x1x4x80x48, .i32⟩
  | .local _ .vmem, ⟨10, _⟩ => ⟨S1x2x4x80x48, .f32⟩
  | .local _ .vmem, ⟨11, _⟩ => ⟨S1x2x4x80x48, .f32⟩
  | .local _ .vmem, ⟨12, _⟩ => ⟨S1x2x48, .f32⟩
  | .local _ .vmem, ⟨13, _⟩ => ⟨S1x2x48, .f32⟩
  | .local _ .vmem, ⟨14, _⟩ => ⟨S1x2x1, .f32⟩
  | .local _ .vmem, ⟨15, _⟩ => ⟨S1x2x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S48x80x48, .f32⟩
  | .local _ .vmem, ⟨23, _⟩ => ⟨S80x48, .f32⟩
  | _, _ => ⟨S2x48x80x80x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_call1_v0 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_cst_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_call3_v0 : Ref sig .tc := ⟨.hbm, 84, rfl⟩
abbrev main_call3_v1 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_cst_18 : Ref sig .tc := ⟨.hbm, 92, rfl⟩
abbrev main_v59 : Ref sig .tc := ⟨.hbm, 93, rfl⟩
abbrev main_cst_19 : Ref sig .tc := ⟨.hbm, 94, rfl⟩
abbrev main_v60 : Ref sig .tc := ⟨.hbm, 95, rfl⟩
abbrev main_v61 : Ref sig .tc := ⟨.hbm, 96, rfl⟩
abbrev main_cst_20 : Ref sig .tc := ⟨.hbm, 97, rfl⟩
abbrev main_call4_v0 : Ref sig .tc := ⟨.hbm, 98, rfl⟩
abbrev main_v62 : Ref sig .tc := ⟨.hbm, 99, rfl⟩
abbrev main_cst_21 : Ref sig .tc := ⟨.hbm, 100, rfl⟩
abbrev main_v63 : Ref sig .tc := ⟨.hbm, 101, rfl⟩
abbrev main_cst_22 : Ref sig .tc := ⟨.hbm, 102, rfl⟩
abbrev main_v64 : Ref sig .tc := ⟨.hbm, 103, rfl⟩
abbrev main_cst_23 : Ref sig .tc := ⟨.hbm, 104, rfl⟩
abbrev main_v65 : Ref sig .tc := ⟨.hbm, 105, rfl⟩
abbrev main_cst_24 : Ref sig .tc := ⟨.hbm, 106, rfl⟩
abbrev main_v66 : Ref sig .tc := ⟨.hbm, 107, rfl⟩
abbrev main_cst_25 : Ref sig .tc := ⟨.hbm, 108, rfl⟩
abbrev main_v67 : Ref sig .tc := ⟨.hbm, 109, rfl⟩
abbrev main_cst_26 : Ref sig .tc := ⟨.hbm, 110, rfl⟩
abbrev main_v68 : Ref sig .tc := ⟨.hbm, 111, rfl⟩
abbrev main_cst_27 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_28 : Ref sig .tc := ⟨.hbm, 116, rfl⟩
abbrev main_v72 : Ref sig .tc := ⟨.hbm, 117, rfl⟩
abbrev main_cst_29 : Ref sig .tc := ⟨.hbm, 118, rfl⟩
abbrev main_v73 : Ref sig .tc := ⟨.hbm, 119, rfl⟩
abbrev main_v74 : Ref sig .tc := ⟨.hbm, 120, rfl⟩
abbrev main_cst_30 : Ref sig .tc := ⟨.hbm, 121, rfl⟩
abbrev main_v75 : Ref sig .tc := ⟨.hbm, 122, rfl⟩
abbrev main_v76 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 20], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x48x4x80x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x80x48 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 20], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x48x4x80x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4x80x48 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x4x80x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1x48x4x80x48_S1x48x4x80x48_0_0_0_0_0 : ∀ a, (![0, 0, 0, 0, 0] : Fin 5 → Nat) a + S1x48x4x80x48.size a ≤ S1x48x4x80x48.size a
  h_S1x48x4x80x48 : 0 < S1x48x4x80x48.numel
  shapeCasts_S1x48x4x80x48_S48x4x80x48 : S1x48x4x80x48.ShapeCasts S48x4x80x48
  inb_S1x1x4x80x48_S1x1x4x80x48_0_0_0_0_0 : ∀ a, (![0, 0, 0, 0, 0] : Fin 5 → Nat) a + S1x1x4x80x48.size a ≤ S1x1x4x80x48.size a
  h_S1x1x4x80x48 : 0 < S1x1x4x80x48.numel
  shapeCasts_S1x1x4x80x48_S4x80x48 : S1x1x4x80x48.ShapeCasts S4x80x48
  natLt_1_32 : 1 < 32
  shapeCasts_S4x80x48_S1x4x80x48 : S4x80x48.ShapeCasts S1x4x80x48
  broadcasts_S1x4x80x48_S48x4x80x48 : S1x4x80x48.Broadcasts S48x4x80x48
  reduces_S48x4x80x48_S48x4x80 : S48x4x80x48.Reduces [3] S48x4x80
  reduces_S48x4x80_S48x4 : S48x4x80.Reduces [2] S48x4
  reduces_S48x4_S48 : S48x4.Reduces [1] S48
  inb_S1x2x48_S1x2x48_0_0_0 : ∀ a, (![0, 0, 0] : Fin 3 → Nat) a + S1x2x48.size a ≤ S1x2x48.size a
  h_S1x2x48 : 0 < S1x2x48.numel
  shapeCasts_S1x2x48_S2x48 : S1x2x48.ShapeCasts S2x48
  shapeCasts_S2x48_S1x2x48 : S2x48.ShapeCasts S1x2x48
  inb_S1x2x48_S1x1x48_0_0_0 : ∀ a, (![0, 0, 0] : Fin 3 → Nat) a + S1x1x48.size a ≤ S1x2x48.size a
  h_S1x1x48 : 0 < S1x1x48.numel
  shapeCasts_S1x1x48_S48 : S1x1x48.ShapeCasts S48
  shapeCasts_S48_S1x1x48 : S48.ShapeCasts S1x1x48
  inb_S1x2x48_S1x1x48_0_1_0 : ∀ a, (![0, 1, 0] : Fin 3 → Nat) a + S1x1x48.size a ≤ S1x2x48.size a
  shapeCasts_S2x1x80x80x48_S2x307200 : S2x1x80x80x48.ShapeCasts S2x307200
  bcast_S_S2x307200 : S_.BroadcastsInDim S2x307200 (![] : Fin 0 → Fin S2x307200.rank)
  reducesTo_S2x307200_S2_d1 : S2x307200.ReducesTo [1] S2
  h_S_ : 0 < S_.numel
  bcast_S2_S2x1_0 : S2.BroadcastsInDim S2x1 (![0] : Fin 1 → Fin S2x1.rank)
  concatenates_S2x1_S2x1_S2x2_d1 : Shape.Concatenates [S2x1, S2x1] S2x2 1
  bcast_S_S2x2 : S_.BroadcastsInDim S2x2 (![] : Fin 0 → Fin S2x2.rank)
  bcast_S2x2_S2x2x1_0_1 : S2x2.BroadcastsInDim S2x2x1 (![0, 1] : Fin 2 → Fin S2x2x1.rank)
  bcast_S2x2x1_S2x2x48_0_1_2 : S2x2x1.BroadcastsInDim S2x2x48 (![0, 1, 2] : Fin 3 → Fin S2x2x48.rank)
  inb_S1x2x4x80x48_S1x2x4x80x48_0_0_0_0_0 : ∀ a, (![0, 0, 0, 0, 0] : Fin 5 → Nat) a + S1x2x4x80x48.size a ≤ S1x2x4x80x48.size a
  h_S1x2x4x80x48 : 0 < S1x2x4x80x48.numel
  shapeCasts_S1x2x4x80x48_S2x4x80x48 : S1x2x4x80x48.ShapeCasts S2x4x80x48
  slices_S2x4x80x48_o0_0_0_0_S1x4x80x48 : S2x4x80x48.Slices ![0, 0, 0, 0] S1x4x80x48
  shapeCasts_S1x4x80x48_S4x80x48 : S1x4x80x48.ShapeCasts S4x80x48
  slices_S2x4x80x48_o1_0_0_0_S1x4x80x48 : S2x4x80x48.Slices ![1, 0, 0, 0] S1x4x80x48
  slices_S2x48_o0_0_S1x48 : S2x48.Slices ![0, 0] S1x48
  shapeCasts_S1x48_S48 : S1x48.ShapeCasts S48
  slices_S2x48_o1_0_S1x48 : S2x48.Slices ![1, 0] S1x48
  shapeCasts_S48_S48x1x1x1 : S48.ShapeCasts S48x1x1x1
  broadcasts_S48x1x1x1_S48x4x80x48 : S48x1x1x1.Broadcasts S48x4x80x48
  reduces_S48x4x80x48_S4x80x48 : S48x4x80x48.Reduces [0] S4x80x48
  reduces_S4x80x48_S4x80 : S4x80x48.Reduces [2] S4x80
  reduces_S4x80_S4 : S4x80.Reduces [1] S4
  shapeCasts_S4_S4x1 : S4.ShapeCasts S4x1
  reduces_S4x1_S1 : S4x1.Reduces [0] S1
  shapeCasts_S1_S1x1 : S1.ShapeCasts S1x1
  inb_S1x2x1_S1x2x1_0_0_0 : ∀ a, (![0, 0, 0] : Fin 3 → Nat) a + S1x2x1.size a ≤ S1x2x1.size a
  h_S1x2x1 : 0 < S1x2x1.numel
  shapeCasts_S1x2x1_S2x1 : S1x2x1.ShapeCasts S2x1
  shapeCasts_S2x1_S1x2x1 : S2x1.ShapeCasts S1x2x1
  inb_S1x2x1_S1x1x1_0_0_0 : ∀ a, (![0, 0, 0] : Fin 3 → Nat) a + S1x1x1.size a ≤ S1x2x1.size a
  h_S1x1x1 : 0 < S1x1x1.numel
  shapeCasts_S1x1x1_S1x1 : S1x1x1.ShapeCasts S1x1
  shapeCasts_S1x1_S1x1x1 : S1x1.ShapeCasts S1x1x1
  inb_S1x2x1_S1x1x1_0_1_0 : ∀ a, (![0, 1, 0] : Fin 3 → Nat) a + S1x1x1.size a ≤ S1x2x1.size a
  slices_S48x4x80x48_o0_1_0_0_S48x3x80x48 : S48x4x80x48.Slices ![0, 1, 0, 0] S48x3x80x48
  slices_S48x4x80x48_o0_0_0_0_S48x3x80x48 : S48x4x80x48.Slices ![0, 0, 0, 0] S48x3x80x48
  slices_S4x80x48_o1_0_0_S3x80x48 : S4x80x48.Slices ![1, 0, 0] S3x80x48
  slices_S4x80x48_o0_0_0_S3x80x48 : S4x80x48.Slices ![0, 0, 0] S3x80x48
  reduces_S48x3x80x48_S3x80x48 : S48x3x80x48.Reduces [0] S3x80x48
  reduces_S3x80x48_S3x80 : S3x80x48.Reduces [2] S3x80
  reduces_S3x80_S3 : S3x80.Reduces [1] S3
  shapeCasts_S3_S3x1 : S3.ShapeCasts S3x1
  reduces_S3x1_S1 : S3x1.Reduces [0] S1
  slices_S48x4x80x48_o0_0_0_0_S48x1x80x48 : S48x4x80x48.Slices ![0, 0, 0, 0] S48x1x80x48
  shapeCasts_S48x1x80x48_S48x80x48 : S48x1x80x48.ShapeCasts S48x80x48
  slices_S4x80x48_o0_0_0_S1x80x48 : S4x80x48.Slices ![0, 0, 0] S1x80x48
  shapeCasts_S1x80x48_S80x48 : S1x80x48.ShapeCasts S80x48
  slices_S48x4x80x48_o0_3_0_0_S48x1x80x48 : S48x4x80x48.Slices ![0, 3, 0, 0] S48x1x80x48
  slices_S4x80x48_o3_0_0_S1x80x48 : S4x80x48.Slices ![3, 0, 0] S1x80x48
  inb_S48x80x48_S48x80x48_0_0_0 : ∀ a, (![0, 0, 0] : Fin 3 → Nat) a + S48x80x48.size a ≤ S48x80x48.size a
  h_S48x80x48 : 0 < S48x80x48.numel
  inb_S80x48_S80x48_0_0 : ∀ a, (![0, 0] : Fin 2 → Nat) a + S80x48.size a ≤ S80x48.size a
  h_S80x48 : 0 < S80x48.numel
  reduces_S48x80x48_S80x48 : S48x80x48.Reduces [0] S80x48
  reduces_S80x48_S80 : S80x48.Reduces [1] S80
  shapeCasts_S80_S80x1 : S80.ShapeCasts S80x1
  reduces_S80x1_S1 : S80x1.Reduces [0] S1
  shapeCasts_S48x80x48_S48x80x48 : S48x80x48.ShapeCasts S48x80x48
  shapeCasts_S80x48_S80x48 : S80x48.ShapeCasts S80x48
  inb_S1x1x1_S1x1x1_0_0_0 : ∀ a, (![0, 0, 0] : Fin 3 → Nat) a + S1x1x1.size a ≤ S1x1x1.size a
  slices_S48x4x80x48_o0_0_1_0_S48x4x79x48 : S48x4x80x48.Slices ![0, 0, 1, 0] S48x4x79x48
  slices_S48x4x80x48_o0_0_0_0_S48x4x79x48 : S48x4x80x48.Slices ![0, 0, 0, 0] S48x4x79x48
  slices_S4x80x48_o0_1_0_S4x79x48 : S4x80x48.Slices ![0, 1, 0] S4x79x48
  slices_S4x80x48_o0_0_0_S4x79x48 : S4x80x48.Slices ![0, 0, 0] S4x79x48
  reduces_S48x4x79x48_S4x79x48 : S48x4x79x48.Reduces [0] S4x79x48
  reduces_S4x79x48_S4x79 : S4x79x48.Reduces [2] S4x79
  reduces_S4x79_S4 : S4x79.Reduces [1] S4
  slices_S48x4x80x48_o0_0_0_1_S48x4x80x47 : S48x4x80x48.Slices ![0, 0, 0, 1] S48x4x80x47
  slices_S48x4x80x48_o0_0_0_0_S48x4x80x47 : S48x4x80x48.Slices ![0, 0, 0, 0] S48x4x80x47
  reduces_S48x4x80x47_S48x4x80 : S48x4x80x47.Reduces [3] S48x4x80
  shapeCasts_S48_S48x1 : S48.ShapeCasts S48x1
  reduces_S48x1_S1 : S48x1.Reduces [0] S1
  shapeCasts_S2x2x1_S2x2 : S2x2x1.ShapeCasts S2x2
  reducesTo_S2x2_S_d0_1 : S2x2.ReducesTo [0, 1] S_
  slices_S2x2x48_S2x1x48_0_0_0 : S2x2x48.Slices ![0, 0, 0] S2x1x48
  shapeCasts_S2x1x48_S2x48 : S2x1x48.ShapeCasts S2x48
  slices_S2x2x48_S2x1x48_0_1_0 : S2x2x48.Slices ![0, 1, 0] S2x1x48
  reducesTo_S2x48_S2_d1 : S2x48.ReducesTo [1] S2
  bcast_S_S2 : S_.BroadcastsInDim S2 (![] : Fin 0 → Fin S2.rank)
  slices_S2x2_S2x1_0_0 : S2x2.Slices ![0, 0] S2x1
  shapeCasts_S2x1_S2 : S2x1.ShapeCasts S2
  slices_S2x2_S2x1_0_1 : S2x2.Slices ![0, 1] S2x1
  reducesTo_S2_S_d0 : S2.ReducesTo [0] S_
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x4x80x48.size a ≤ S2x48x80x80x48.size a
  hwx0_0 : ∀ i : grid0.Coords, EltTy.bits .f32 = 32 ∨ (Rect.block (s := S2x48x80x80x48) S1x48x4x80x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4x80x48.size a ≤ S2x1x80x80x48.size a
  hwx0_1 : ∀ i : grid0.Coords, EltTy.bits .i32 = 32 ∨ (Rect.block (s := S2x1x80x80x48) S1x1x4x80x48.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x48.size a ≤ S2x2x48.size a
  hwx0_2 : ∀ i : grid0.Coords, EltTy.bits .f32 = 32 ∨ (Rect.block (s := S2x2x48) S1x2x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x48x4x80x48.size a ≤ S2x48x80x80x48.size a
  hwx1_0 : ∀ i : grid1.Coords, EltTy.bits .f32 = 32 ∨ (Rect.block (s := S2x48x80x80x48) S1x48x4x80x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4x80x48.size a ≤ S2x1x80x80x48.size a
  hwx1_1 : ∀ i : grid1.Coords, EltTy.bits .i32 = 32 ∨ (Rect.block (s := S2x1x80x80x48) S1x1x4x80x48.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x4x80x48.size a ≤ S2x2x80x80x48.size a
  hwx1_2 : ∀ i : grid1.Coords, EltTy.bits .f32 = 32 ∨ (Rect.block (s := S2x2x80x80x48) S1x2x4x80x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x48.size a ≤ S2x2x48.size a
  hwx1_3 : ∀ i : grid1.Coords, EltTy.bits .f32 = 32 ∨ (Rect.block (s := S2x2x48) S1x2x48.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x1.size a ≤ S2x2x1.size a
  hwx1_4 : ∀ i : grid1.Coords, EltTy.bits .f32 = 32 ∨ (Rect.block (s := S2x2x1) S1x2x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S2x1x1.size a
  hwx1_5 : ∀ i : grid1.Coords, EltTy.bits .f32 = 32 ∨ (Rect.block (s := S2x1x1) S1x1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1.size a ≤ S2x1x1.size a
  hwx1_7 : ∀ i : grid1.Coords, EltTy.bits .f32 = 32 ∨ (Rect.block (s := S2x1x1) S1x1x1.size (cc1_transform_7 i) (hinb1_7 i)).WholeWords (EltTy.packing .f32)

variable [Facts₀]

abbrev win0_0 : Pipeline.Window sig grid0 :=
  Pipeline.Window.ofSpec (Memref.whole main_arg0) S1x48x4x80x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x4x80x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x48x4x80x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x4x80x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x2x4x80x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x2x48.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S1x2x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S1x1x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_2) S1x1x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v19_3) S1x1x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x48x80x80x48 : Shape := ⟨5, ![2, 48, 80, 80, 48]⟩
abbrev S2x2x80x80x48 : Shape := ⟨5, ![2, 2, 80, 80, 48]⟩
abbrev S2x1x80x80x48 : Shape := ⟨5, ![2, 1, 80, 80, 48]⟩
abbrev S_ : Shape := ⟨0, ![]⟩
abbrev S2x80x80x48 : Shape := ⟨4, ![2, 80, 80, 48]⟩
abbrev S2x48x307200 : Shape := ⟨3, ![2, 48, 307200]⟩
abbrev S2x307200x48 : Shape := ⟨3, ![2, 307200, 48]⟩
abbrev S2x307200 : Shape := ⟨2, ![2, 307200]⟩
abbrev S2x2x307200 : Shape := ⟨3, ![2, 2, 307200]⟩
abbrev S2x307200x1 : Shape := ⟨3, ![2, 307200, 1]⟩
abbrev S2 : Shape := ⟨1, ![2]⟩
abbrev S1x1x2 : Shape := ⟨3, ![1, 1, 2]⟩
abbrev S2x307200x2 : Shape := ⟨3, ![2, 307200, 2]⟩
abbrev S2x2 : Shape := ⟨2, ![2, 2]⟩
abbrev S2x2x48 : Shape := ⟨3, ![2, 2, 48]⟩
abbrev S2x2x1 : Shape := ⟨3, ![2, 2, 1]⟩
abbrev S2x1x307200x48 : Shape := ⟨4, ![2, 1, 307200, 48]⟩
abbrev S2x2x1x48 : Shape := ⟨4, ![2, 2, 1, 48]⟩
abbrev S2x2x307200x48 : Shape := ⟨4, ![2, 2, 307200, 48]⟩
abbrev S2x1x48 : Shape := ⟨3, ![2, 1, 48]⟩
abbrev S2x48 : Shape := ⟨2, ![2, 48]⟩
abbrev S2x1 : Shape := ⟨2, ![2, 1]⟩
abbrev S2x48x79x80x48 : Shape := ⟨5, ![2, 48, 79, 80, 48]⟩
abbrev S2x79x80x48 : Shape := ⟨4, ![2, 79, 80, 48]⟩
abbrev S2x48x80x79x48 : Shape := ⟨5, ![2, 48, 80, 79, 48]⟩
abbrev S2x80x79x48 : Shape := ⟨4, ![2, 80, 79, 48]⟩
abbrev S2x48x80x80x47 : Shape := ⟨5, ![2, 48, 80, 80, 47]⟩

abbrev nBuf : Space → Nat
  | .hbm => 183
  | .vmem => 0
  | .smem => 0
  | _ => 0

abbrev hbmTy0_0 (i : Nat) : BufTy := match i % 128 with
  | 0 => ⟨S2x48x80x80x48, .f32⟩
  | 1 => ⟨S2x2x80x80x48, .f32⟩
  | 2 => ⟨S2x1x80x80x48, .i32⟩
  | 3 => ⟨S_, .f32⟩
  | 4 => ⟨S2x80x80x48, .f32⟩
  | 5 => ⟨S_, .f32⟩
  | 6 => ⟨S2x80x80x48, .f32⟩
  | 7 => ⟨S2x80x80x48, .f32⟩
  | 8 => ⟨S2x1x80x80x48, .f32⟩
  | 9 => ⟨S2x2x80x80x48, .f32⟩
  | 10 => ⟨S2x2x80x80x48, .f32⟩
  | 11 => ⟨S2x2x80x80x48, .f32⟩
  | 12 => ⟨S_, .f32⟩
  | 13 => ⟨S2x80x80x48, .f32⟩
  | 14 => ⟨S2x1x80x80x48, .f32⟩
  | 15 => ⟨S2x2x80x80x48, .f32⟩
  | 16 => ⟨S2x2x80x80x48, .f32⟩
  | 17 => ⟨S2x48x307200, .f32⟩
  | 18 => ⟨S2x307200x48, .f32⟩
  | 19 => ⟨S2x307200, .i32⟩
  | 20 => ⟨S2x2x307200, .f32⟩
  | 21 => ⟨S2x307200x1, .i32⟩
  | 22 => ⟨S2, .i32⟩
  | 23 => ⟨S1x1x2, .i32⟩
  | 24 => ⟨S2x307200x2, .i32⟩
  | 25 => ⟨S2x307200x2, .i32⟩
  | 26 => ⟨S2x307200x2, .i1⟩
  | 27 => ⟨S2x307200x2, .f32⟩
  | 28 => ⟨S_, .f32⟩
  | 29 => ⟨S2x2, .f32⟩
  | 30 => ⟨S2x2x48, .f32⟩
  | 31 => ⟨S_, .f32⟩
  | 32 => ⟨S2x2, .f32⟩
  | 33 => ⟨S2x2, .f32⟩
  | 34 => ⟨S2x2x1, .f32⟩
  | 35 => ⟨S2x2x48, .f32⟩
  | 36 => ⟨S2x2x48, .f32⟩
  | 37 => ⟨S2x1x307200x48, .f32⟩
  | 38 => ⟨S2x2x1x48, .f32⟩
  | 39 => ⟨S2x2x307200x48, .f32⟩
  | 40 => ⟨S2x2x307200x48, .f32⟩
  | 41 => ⟨S2x2x307200x48, .f32⟩
  | 42 => ⟨S2x2x307200x48, .f32⟩
  | 43 => ⟨S_, .f32⟩
  | 44 => ⟨S2x2x307200, .f32⟩
  | 45 => ⟨S_, .f32⟩
  | 46 => ⟨S2x2x307200, .f32⟩
  | 47 => ⟨S2x2x307200, .f32⟩
  | 48 => ⟨S2x2x307200, .f32⟩
  | 49 => ⟨S2x2x307200, .f32⟩
  | 50 => ⟨S2x2x307200, .f32⟩
  | 51 => ⟨S2x2x307200, .f32⟩
  | 52 => ⟨S_, .f32⟩
  | 53 => ⟨S2x2, .f32⟩
  | 54 => ⟨S_, .f32⟩
  | 55 => ⟨S2x2, .f32⟩
  | 56 => ⟨S2x2, .f32⟩
  | 57 => ⟨S2x2, .f32⟩
  | 58 => ⟨S_, .f32⟩
  | 59 => ⟨S2x2, .f32⟩
  | 60 => ⟨S2x2, .i1⟩
  | 61 => ⟨S2x2, .i32⟩
  | 62 => ⟨S_, .i32⟩
  | 63 => ⟨S_, .i32⟩
  | 64 => ⟨S_, .i32⟩
  | 65 => ⟨S_, .i1⟩
  | 66 => ⟨S_, .f32⟩
  | 67 => ⟨S_, .f32⟩
  | 68 => ⟨S2x2, .f32⟩
  | 69 => ⟨S2x2, .f32⟩
  | 70 => ⟨S_, .f32⟩
  | 71 => ⟨S_, .f32⟩
  | 72 => ⟨S_, .i32⟩
  | 73 => ⟨S_, .i32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S2x2, .f32⟩
  | 81 => ⟨S2x2, .i1⟩
  | 82 => ⟨S2x1x48, .f32⟩
  | 83 => ⟨S2x48, .f32⟩
  | 84 => ⟨S2x1x48, .f32⟩
  | 85 => ⟨S2x48, .f32⟩
  | 86 => ⟨S2x48, .f32⟩
  | 87 => ⟨S2x48, .f32⟩
  | 88 => ⟨S_, .f32⟩
  | 89 => ⟨S2, .f32⟩
  | 90 => ⟨S_, .f32⟩
  | 91 => ⟨S2, .f32⟩
  | 92 => ⟨S2, .f32⟩
  | 93 => ⟨S2, .f32⟩
  | 94 => ⟨S_, .f32⟩
  | 95 => ⟨S2, .f32⟩
  | 96 => ⟨S2, .f32⟩
  | 97 => ⟨S_, .f32⟩
  | 98 => ⟨S2, .f32⟩
  | 99 => ⟨S2, .f32⟩
  | 100 => ⟨S2x1, .i1⟩
  | 101 => ⟨S2, .i1⟩
  | 102 => ⟨S2x1, .i1⟩
  | 103 => ⟨S2, .i1⟩
  | 104 => ⟨S2, .i1⟩
  | 105 => ⟨S_, .f32⟩
  | 106 => ⟨S_, .f32⟩
  | 107 => ⟨S2, .f32⟩
  | 108 => ⟨S2, .f32⟩
  | 109 => ⟨S_, .f32⟩
  | 110 => ⟨S_, .f32⟩
  | 111 => ⟨S_, .f32⟩
  | 112 => ⟨S_, .f32⟩
  | 113 => ⟨S2, .i32⟩
  | 114 => ⟨S_, .i32⟩
  | 115 => ⟨S_, .i32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x48x80x80x48, .f32⟩

abbrev hbmTy0_1 (i : Nat) : BufTy := match i % 128 with
  | 0 => ⟨S2x80x80x48, .f32⟩
  | 1 => ⟨S2x48x79x80x48, .f32⟩
  | 2 => ⟨S2x48x79x80x48, .f32⟩
  | 3 => ⟨S2x48x79x80x48, .f32⟩
  | 4 => ⟨S2x79x80x48, .f32⟩
  | 5 => ⟨S2x79x80x48, .f32⟩
  | 6 => ⟨S2x79x80x48, .f32⟩
  | 7 => ⟨S_, .f32⟩
  | 8 => ⟨S2x79x80x48, .f32⟩
  | 9 => ⟨S2x79x80x48, .f32⟩
  | 10 => ⟨S2x48x79x80x48, .f32⟩
  | 11 => ⟨S_, .f32⟩
  | 12 => ⟨S2x79x80x48, .f32⟩
  | 13 => ⟨S2x79x80x48, .f32⟩
  | 14 => ⟨S_, .f32⟩
  | 15 => ⟨S_, .f32⟩
  | 16 => ⟨S_, .f32⟩
  | 17 => ⟨S_, .f32⟩
  | 18 => ⟨S2x48x80x79x48, .f32⟩
  | 19 => ⟨S2x48x80x79x48, .f32⟩
  | 20 => ⟨S2x48x80x79x48, .f32⟩
  | 21 => ⟨S2x80x79x48, .f32⟩
  | 22 => ⟨S2x80x79x48, .f32⟩
  | 23 => ⟨S2x80x79x48, .f32⟩
  | 24 => ⟨S_, .f32⟩
  | 25 => ⟨S2x80x79x48, .f32⟩
  | 26 => ⟨S2x80x79x48, .f32⟩
  | 27 => ⟨S2x48x80x79x48, .f32⟩
  | 28 => ⟨S_, .f32⟩
  | 29 => ⟨S2x80x79x48, .f32⟩
  | 30 => ⟨S2x80x79x48, .f32⟩
  | 31 => ⟨S_, .f32⟩
  | 32 => ⟨S_, .f32⟩
  | 33 => ⟨S_, .f32⟩
  | 34 => ⟨S_, .f32⟩
  | 35 => ⟨S2x48x80x80x47, .f32⟩
  | 36 => ⟨S2x48x80x80x47, .f32⟩
  | 37 => ⟨S2x48x80x80x47, .f32⟩
  | 38 => ⟨S2x48x80x80x47, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S2x48x80x80x48, .f32⟩

abbrev hbmTy (i : Nat) : BufTy := match i / 128 with
  | 0 => hbmTy0_0 i
  | 1 => hbmTy0_1 i
  | _ => ⟨S2x48x80x80x48, .f32⟩

abbrev bufTy : (tb : Table) → Fin (tcTables nBuf tb) → BufTy
  | .hbm, ⟨i, _⟩ => hbmTy i
  | _, _ => ⟨S2x48x80x80x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_cst_10 : Ref sig .tc := ⟨.hbm, 66, rfl⟩
abbrev main_call0_v0 : Ref sig .tc := ⟨.hbm, 67, rfl⟩
abbrev main_call0_v1 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_call1_v0 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_call3_v0 : Ref sig .tc := ⟨.hbm, 106, rfl⟩
abbrev main_call3_v1 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_cst_20 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_cst_23 : Ref sig .tc := ⟨.hbm, 119, rfl⟩
abbrev main_v84 : Ref sig .tc := ⟨.hbm, 120, rfl⟩
abbrev main_cst_24 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_call4_v0 : Ref sig .tc := ⟨.hbm, 125, rfl⟩
abbrev main_v87 : Ref sig .tc := ⟨.hbm, 126, rfl⟩
abbrev main_cst_26 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_27 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_28 : Ref sig .tc := ⟨.hbm, 139, rfl⟩
abbrev main_v98 : Ref sig .tc := ⟨.hbm, 140, rfl⟩
abbrev main_v99 : Ref sig .tc := ⟨.hbm, 141, rfl⟩
abbrev main_cst_29 : Ref sig .tc := ⟨.hbm, 142, rfl⟩
abbrev main_v100 : Ref sig .tc := ⟨.hbm, 143, rfl⟩
abbrev main_cst_30 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_31 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_32 : Ref sig .tc := ⟨.hbm, 156, rfl⟩
abbrev main_v111 : Ref sig .tc := ⟨.hbm, 157, rfl⟩
abbrev main_v112 : Ref sig .tc := ⟨.hbm, 158, rfl⟩
abbrev main_cst_33 : Ref sig .tc := ⟨.hbm, 159, rfl⟩
abbrev main_v113 : Ref sig .tc := ⟨.hbm, 160, rfl⟩
abbrev main_cst_34 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_35 : Ref sig .tc := ⟨.hbm, 167, rfl⟩
abbrev main_v119 : Ref sig .tc := ⟨.hbm, 168, rfl⟩
abbrev main_cst_36 : Ref sig .tc := ⟨.hbm, 169, rfl⟩
abbrev main_v120 : Ref sig .tc := ⟨.hbm, 170, rfl⟩
abbrev main_cst_37 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_38 : Ref sig .tc := ⟨.hbm, 175, rfl⟩
abbrev main_v124 : Ref sig .tc := ⟨.hbm, 176, rfl⟩
abbrev main_cst_39 : Ref sig .tc := ⟨.hbm, 177, rfl⟩
abbrev main_v125 : Ref sig .tc := ⟨.hbm, 178, rfl⟩
abbrev main_v126 : Ref sig .tc := ⟨.hbm, 179, rfl⟩
abbrev main_cst_40 : Ref sig .tc := ⟨.hbm, 180, rfl⟩
abbrev main_v127 : Ref sig .tc := ⟨.hbm, 181, rfl⟩
abbrev main_v128 : Ref sig .tc := ⟨.hbm, 182, rfl⟩

abbrev nD : Nat := 1
abbrev τ : Topo := Topo.v7x

variable {F : FTy → Type} [FloatOps F]

class Facts₀ : Prop where
  reducesTo_S2x2x80x80x48_S2x80x80x48_d1 : S2x2x80x80x48.ReducesTo [1] S2x80x80x48
  h_S_ : 0 < S_.numel
  bcast_S_S2x80x80x48 : S_.BroadcastsInDim S2x80x80x48 (![] : Fin 0 → Fin S2x80x80x48.rank)
  bcast_S2x80x80x48_S2x1x80x80x48_0_2_3_4 : S2x80x80x48.BroadcastsInDim S2x1x80x80x48 (![0, 2, 3, 4] : Fin 4 → Fin S2x1x80x80x48.rank)
  bcast_S2x1x80x80x48_S2x2x80x80x48_0_1_2_3_4 : S2x1x80x80x48.BroadcastsInDim S2x2x80x80x48 (![0, 1, 2, 3, 4] : Fin 5 → Fin S2x2x80x80x48.rank)
  shapeCasts_S2x48x80x80x48_S2x48x307200 : S2x48x80x80x48.ShapeCasts S2x48x307200
  transposes_S2x48x307200_S2x307200x48_0_2_1 : S2x48x307200.Transposes [0, 2, 1] S2x307200x48
  shapeCasts_S2x1x80x80x48_S2x307200 : S2x1x80x80x48.ShapeCasts S2x307200
  shapeCasts_S2x2x80x80x48_S2x2x307200 : S2x2x80x80x48.ShapeCasts S2x2x307200
  bcast_S2x307200_S2x307200x1_0_1 : S2x307200.BroadcastsInDim S2x307200x1 (![0, 1] : Fin 2 → Fin S2x307200x1.rank)
  bcast_S2_S1x1x2_2 : S2.BroadcastsInDim S1x1x2 (![2] : Fin 1 → Fin S1x1x2.rank)
  bcast_S2x307200x1_S2x307200x2_0_1_2 : S2x307200x1.BroadcastsInDim S2x307200x2 (![0, 1, 2] : Fin 3 → Fin S2x307200x2.rank)
  bcast_S1x1x2_S2x307200x2_0_1_2 : S1x1x2.BroadcastsInDim S2x307200x2 (![0, 1, 2] : Fin 3 → Fin S2x307200x2.rank)
  reducesTo_S2x307200x2_S2x2_d1 : S2x307200x2.ReducesTo [1] S2x2
  bcast_S_S2x2 : S_.BroadcastsInDim S2x2 (![] : Fin 0 → Fin S2x2.rank)
  bcast_S2x2_S2x2x1_0_1 : S2x2.BroadcastsInDim S2x2x1 (![0, 1] : Fin 2 → Fin S2x2x1.rank)
  bcast_S2x2x1_S2x2x48_0_1_2 : S2x2x1.BroadcastsInDim S2x2x48 (![0, 1, 2] : Fin 3 → Fin S2x2x48.rank)
  bcast_S2x307200x48_S2x1x307200x48_0_2_3 : S2x307200x48.BroadcastsInDim S2x1x307200x48 (![0, 2, 3] : Fin 3 → Fin S2x1x307200x48.rank)
  bcast_S2x2x48_S2x2x1x48_0_1_3 : S2x2x48.BroadcastsInDim S2x2x1x48 (![0, 1, 3] : Fin 3 → Fin S2x2x1x48.rank)
  bcast_S2x1x307200x48_S2x2x307200x48_0_1_2_3 : S2x1x307200x48.BroadcastsInDim S2x2x307200x48 (![0, 1, 2, 3] : Fin 4 → Fin S2x2x307200x48.rank)
  bcast_S2x2x1x48_S2x2x307200x48_0_1_2_3 : S2x2x1x48.BroadcastsInDim S2x2x307200x48 (![0, 1, 2, 3] : Fin 4 → Fin S2x2x307200x48.rank)
  reducesTo_S2x2x307200x48_S2x2x307200_d3 : S2x2x307200x48.ReducesTo [3] S2x2x307200
  bcast_S_S2x2x307200 : S_.BroadcastsInDim S2x2x307200 (![] : Fin 0 → Fin S2x2x307200.rank)
  transposes_S2x307200x2_S2x2x307200_0_2_1 : S2x307200x2.Transposes [0, 2, 1] S2x2x307200
  reducesTo_S2x2x307200_S2x2_d2 : S2x2x307200.ReducesTo [2] S2x2
  natLt_1_32 : 1 < 32
  reducesTo_S2x2_S_d0_1 : S2x2.ReducesTo [0, 1] S_
  slices_S2x2x48_S2x1x48_0_0_0 : S2x2x48.Slices ![0, 0, 0] S2x1x48
  shapeCasts_S2x1x48_S2x48 : S2x1x48.ShapeCasts S2x48
  slices_S2x2x48_S2x1x48_0_1_0 : S2x2x48.Slices ![0, 1, 0] S2x1x48
  reducesTo_S2x48_S2_d1 : S2x48.ReducesTo [1] S2
  bcast_S_S2 : S_.BroadcastsInDim S2 (![] : Fin 0 → Fin S2.rank)
  slices_S2x2_S2x1_0_0 : S2x2.Slices ![0, 0] S2x1
  shapeCasts_S2x1_S2 : S2x1.ShapeCasts S2
  slices_S2x2_S2x1_0_1 : S2x2.Slices ![0, 1] S2x1
  reducesTo_S2_S_d0 : S2.ReducesTo [0] S_
  slices_S2x48x80x80x48_S2x48x79x80x48_0_0_1_0_0 : S2x48x80x80x48.Slices ![0, 0, 1, 0, 0] S2x48x79x80x48
  slices_S2x48x80x80x48_S2x48x79x80x48_0_0_0_0_0 : S2x48x80x80x48.Slices ![0, 0, 0, 0, 0] S2x48x79x80x48
  slices_S2x80x80x48_S2x79x80x48_0_1_0_0 : S2x80x80x48.Slices ![0, 1, 0, 0] S2x79x80x48
  slices_S2x80x80x48_S2x79x80x48_0_0_0_0 : S2x80x80x48.Slices ![0, 0, 0, 0] S2x79x80x48
  bcast_S_S2x79x80x48 : S_.BroadcastsInDim S2x79x80x48 (![] : Fin 0 → Fin S2x79x80x48.rank)
  reducesTo_S2x48x79x80x48_S2x79x80x48_d1 : S2x48x79x80x48.ReducesTo [1] S2x79x80x48
  reducesTo_S2x79x80x48_S_d0_1_2_3 : S2x79x80x48.ReducesTo [0, 1, 2, 3] S_
  slices_S2x48x80x80x48_S2x48x80x79x48_0_0_0_1_0 : S2x48x80x80x48.Slices ![0, 0, 0, 1, 0] S2x48x80x79x48
  slices_S2x48x80x80x48_S2x48x80x79x48_0_0_0_0_0 : S2x48x80x80x48.Slices ![0, 0, 0, 0, 0] S2x48x80x79x48
  slices_S2x80x80x48_S2x80x79x48_0_0_1_0 : S2x80x80x48.Slices ![0, 0, 1, 0] S2x80x79x48
  slices_S2x80x80x48_S2x80x79x48_0_0_0_0 : S2x80x80x48.Slices ![0, 0, 0, 0] S2x80x79x48
  bcast_S_S2x80x79x48 : S_.BroadcastsInDim S2x80x79x48 (![] : Fin 0 → Fin S2x80x79x48.rank)
  reducesTo_S2x48x80x79x48_S2x80x79x48_d1 : S2x48x80x79x48.ReducesTo [1] S2x80x79x48
  reducesTo_S2x80x79x48_S_d0_1_2_3 : S2x80x79x48.ReducesTo [0, 1, 2, 3] S_
  slices_S2x48x80x80x48_S2x48x80x80x47_0_0_0_0_1 : S2x48x80x80x48.Slices ![0, 0, 0, 0, 1] S2x48x80x80x47
  slices_S2x48x80x80x48_S2x48x80x80x47_0_0_0_0_0 : S2x48x80x80x48.Slices ![0, 0, 0, 0, 0] S2x48x80x80x47
  reducesTo_S2x48x80x80x47_S_d0_1_2_3_4 : S2x48x80x80x47.ReducesTo [0, 1, 2, 3, 4] S_
  dot_S2x307200x2_S2x307200x48_S2x2x48_1_1_2_2_0_0_wf : DotDims.WF S2x307200x2 S2x307200x48 S2x2x48 [1] [1] [2] [2] [0] [0]

variable [Facts₀]

def dot_S2x307200x2_S2x307200x48_S2x2x48_1_1_2_2_0_0 : DotDims S2x307200x2 S2x307200x48 S2x2x48 where
  lhsContracting := [1]
  rhsContracting := [1]
  lhsNonContracting := [2]
  rhsNonContracting := [2]
  lhsBatch := [0]
  rhsBatch := [0]
  wf := dot_S2x307200x2_S2x307200x48_S2x2x48_1_1_2_2_0_0_wf

class Facts : Prop extends Facts₀ where

variable [Facts]
-- ==== Proof.RefFrame.lean ====
/-
  The reference program is a straight line of host operations: its run terminates with every
  argument array as launched.
-/
import proofs.«158333_j65738769433119_2_alg».proof.Defs
import proofs.«158333_j65738769433119_2_alg».proof.Proof.Gen.ReferenceIdeal
import proofs.«158333_j65738769433119_2_alg».proof.Proof.Gen.Pre_finite_inputs
import proofs.«158333_j65738769433119_2_alg».proof.Proof.RefRunPatched

noncomputable section

namespace Cert.Proof.RefSide

open Idealize.ShloMosaic Idealize.ShloMosaic.TcCoe Idealize.SL.Sem

/-- Every weakly fair execution of the reference ends, faults nowhere and leaves its three arguments unchanged:
    the run of its host operations with the result forgotten. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.RefSide

end
-- ==== Proof.CentersShared.lean ====
/-
  The first kernel (per batch and class, the sum over all positions of the feature vector times the class mask,
  accumulated over the twenty row tiles of a batch): what its per-case runs share. The grid is (batch, tile),
  a point's tile number is its position modulo twenty; the output block is zeroed at tile 0 and added to at
  every tile.
-/
import proofs.«158333_j65738769433119_2_alg».proof.Proof.Gen.KernelIdeal.Launch
import proofs.«158333_j65738769433119_2_alg».proof.Proof.Gen.KernelIdeal.Skeleton
import proofs.«158333_j65738769433119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the kernel is entered: a parameter, fixed later by the program's run
variable (V : (c : Dev nD) → (b : Ref sig .tc) → Buf (Elt F) ((c : Thread nD τ).loc b))

/-- Window `w`'s block at grid point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block before the body, whenever the body leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label window's staging buffer holds the point's block before the body, whenever the body leaves it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the tile coordinate is zero. -/
abbrev cond0_0 (i : grid0.Coords) : Prop := (Scalar.cmpi .ne (Scalar.extui (Scalar.cmpi .eq (BitVec.ofNat 32 (i 1).val) 0#32)) 0#32) = 1#1
/-- It holds exactly at the first tile of each batch. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of the output window, through which its contents are stated. -/
abbrev VO0_2 : View sig .tc .vmem S1x2x48 .f32 := (Memref.whole cc0_stg2_0 : Memref sig .tc .vmem S1x2x48 .f32).view
/-- Each window's current staging buffer at point `t`, and its wholeness. -/
abbrev ms0_0 (t : Fin cfg0.N) : Memref sig .tc .vmem S1x48x4x80x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x80x48 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x48 .f32 := win0_2.stage (cfg0.slots t 2)
abbrev hs0_2 (t : Fin cfg0.N) : (ms0_2 t).IsWhole := hstage0_2 ((cfg0.slots t 2).cast nbuf0_2)

end Cert.KernelIdeal.Gen.Centers

end
-- ==== Proof.CentersRunA.lean ====
/-
  The first kernel's body at a point of tile 0 (the output block is zeroed, then added to):
  it runs to the end on whole staging buffers and leaves the output buffer with the listed stores written.
-/
import proofs.«158333_j65738769433119_2_alg».proof.Proof.CentersShared

set_option maxRecDepth 16384

noncomputable section

namespace Cert.KernelIdeal.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first) in this case, with the proof that the body
    runs to its continuation holding the inputs as they were and the output buffer with those stores written. -/
noncomputable def kernelRun0_A (c : Dev nD) (i : grid0.Coords) (arg2 : Memref sig .tc .vmem S1x48x4x80x48 .f32) (harg2 : arg2.IsWhole)
    (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) :
    { L2 : List (View.Piece (Elt F) S1x2x48 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__centers_kernel i arg2 harg2 arg3 harg3 arg4 harg4) K } := by
  refine ⟨?_, fun E K => ?run⟩
  case run =>
    simp only [cc0__centers_kernel_eq_skeleton]; unfold cc0__centers_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Gen.Centers

end
-- ==== Proof.CentersRunB.lean ====
/-
  The first kernel's body at a point of a later tile (the output block holds the running sums and is added to):
  it runs to the end on whole staging buffers and leaves the output buffer with the listed stores written.
-/
import proofs.«158333_j65738769433119_2_alg».proof.Proof.CentersRunA

set_option maxRecDepth 16384

noncomputable section

namespace Cert.KernelIdeal.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first) in this case, with the proof that the body
    runs to its continuation holding the inputs as they were and the output buffer with those stores written. -/
noncomputable def kernelRun0_B (c : Dev nD) (i : grid0.Coords) (arg2 : Memref sig .tc .vmem S1x48x4x80x48 .f32) (harg2 : arg2.IsWhole)
    (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) :
    { L2 : List (View.Piece (Elt F) S1x2x48 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__centers_kernel i arg2 harg2 arg3 harg3 arg4 harg4) K } := by
  refine ⟨?_, fun E K => ?run⟩
  case run =>
    simp only [cc0__centers_kernel_eq_skeleton]; unfold cc0__centers_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Gen.Centers

end
-- ==== Proof.CentersFrame.lean ====
/-
  The first kernel over its whole grid: what the output's staging buffer holds after every point (the zeroed block plus
  the tiles' masked sums so far, restarted at the first tile of each batch), the pipeline's proof data, and the body's
  obligation at a generic point.
-/
import proofs.«158333_j65738769433119_2_alg».proof.Proof.CentersRunB

set_option maxRecDepth 16384

noncomputable section

namespace Cert.KernelIdeal.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 the body's stores cover the output block. -/
theorem cover0_A_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) (y : S1x2x48.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x2x48.size (by sl_kernel_rfl) y

/-- What the body leaves in the output block at tile 0. -/
def out0_A_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) : Vec F S1x2x48 .f32 :=
  VO0_2.read (Elt F) (VO0_2.writes (Elt F) VO0_2.junk (kernelRun0_A c i arg2 harg2 arg3 harg3 arg4 harg4 hc0 x0 x1).1)

/-- At a later tile the body's stores cover the output block. -/
theorem cover0_B_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) (y : S1x2x48.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x48.size (by sl_kernel_rfl) y

/-- What the body leaves in the output block at a later tile, from what the block held. -/
def out0_B_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) : Vec F S1x2x48 .f32 :=
  VO0_2.read (Elt F) (VO0_2.writes (Elt F) VO0_2.junk (kernelRun0_B c i arg2 harg2 arg3 harg3 arg4 harg4 hc0 x0 x1 xo2).1)

/-- What the output's staging buffer holds after the body at position `n`: restarted at the first tile of a batch,
    otherwise built on what position `n - 1` left. -/
def outsAt0 (c : Dev nD) : (n : ℕ) → n < cfg0.N → Vec F S1x2x48 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 20 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 20 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 20 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data: the arrays as the kernel finds them; after the body each input's buffer at its block and
    the output's at `outsAt0`; scratch space and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the output's staging buffer still holds what the point before left: it is written back only after
    the last tile of a batch. -/
theorem before0_2_B (c : Dev nD) (t : Fin cfg0.N) (h0 : ¬t.val % 20 = 0) (d) :
    (dat0 V c).before 2 t d = (outsAt0 V c (t.val - 1) (Nat.lt_of_le_of_lt (Nat.sub_le _ _) t.isLt)) := by
  have hN : t.val < 40 := lt_of_lt_of_eq t.isLt (show cfg0.N = 40 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' buffers hold their blocks; the tile number says which case the point is in; at a
    later tile the output's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 40 := lt_of_lt_of_eq t.isLt (show cfg0.N = 40 from N_0)
  by_cases h0 : t.val % 20 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation of the first kernel's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen.Centers

end
-- ==== Proof.SmoothShared.lean ====
/-
  The second kernel (per batch: the confidence-weighted distances to the two class centres, and the three total-variation
  sums along rows, columns and channels, each accumulated over the twenty row tiles of a batch): what its per-case runs
  share. The grid is (batch, tile), a point's tile number is its position modulo twenty; each of the four output blocks is
  zeroed at tile 0 and added to at every tile; two scratch buffers carry the last row of the tile before (features and
  confidence) to the next point, and what is read from them enters the row sum only at a tile after the first.
-/
import proofs.«158333_j65738769433119_2_alg».proof.Proof.Gen.KernelIdeal.Launch
import proofs.«158333_j65738769433119_2_alg».proof.Proof.Gen.KernelIdeal.Skeleton
import proofs.«158333_j65738769433119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the kernel is entered: a parameter, fixed later by the program's run
variable (V : (c : Dev nD) → (b : Ref sig .tc) → Buf (Elt F) ((c : Thread nD τ).loc b))

/-- Window `w`'s block at grid point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the point's block before the body, whenever the body leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The label window's staging buffer holds the point's block before the body, whenever the body leaves it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The prediction window's staging buffer holds the point's block before the body, whenever the body leaves it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The class-centre window's staging buffer holds the point's block before the body, whenever the body leaves it there. It is fetched only at the first tile of a batch; at the other tiles its block index has not moved, so the buffer still holds the block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's branch condition (the same for its four conditionals): the tile coordinate is zero. -/
abbrev cond1_0 (i : grid1.Coords) : Prop := (Scalar.cmpi .ne (Scalar.extui (Scalar.cmpi .eq (BitVec.ofNat 32 (i 1).val) 0#32)) 0#32) = 1#1
/-- It holds exactly at the first tile of each batch. -/
theorem hcond1_0 : ∀ t : Fin cfg1.N, cond1_0 (grid1.coords t) ↔ t.val % 20 = 0 :=
  (by decide +kernel : ∀ t : Fin grid1.N, cond1_0 (grid1.coords t) ↔ t.val % 20 = 0)

/-- One staging buffer of each output window, through which its contents are stated. -/
abbrev VO1_4 : View sig .tc .vmem S1x2x1 .f32 := (Memref.whole cc1_stg4_0 : Memref sig .tc .vmem S1x2x1 .f32).view
abbrev VO1_5 : View sig .tc .vmem S1x1x1 .f32 := (Memref.whole cc1_stg5_0 : Memref sig .tc .vmem S1x1x1 .f32).view
abbrev VO1_6 : View sig .tc .vmem S1x1x1 .f32 := (Memref.whole cc1_stg6_0 : Memref sig .tc .vmem S1x1x1 .f32).view
abbrev VO1_7 : View sig .tc .vmem S1x1x1 .f32 := (Memref.whole cc1_stg7_0 : Memref sig .tc .vmem S1x1x1 .f32).view
/-- Each window's current staging buffer at point `t`, and its wholeness. -/
abbrev ms1_0 (t : Fin cfg1.N) : Memref sig .tc .vmem S1x48x4x80x48 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4x80x48 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2x4x80x48 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2x48 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1 .f32 := win1_7.stage (cfg1.slots t 7)
abbrev hs1_7 (t : Fin cfg1.N) : (ms1_7 t).IsWhole := hstage1_7 ((cfg1.slots t 7).cast nbuf1_7)
/-- The two scratch operands: whole buffers of the kernel's own, passed beside the windows and carried between points. -/
abbrev scM1_0 : Memref sig .tc .vmem S48x80x48 .f32 := Memref.whole cc1_scratch0
abbrev scM1_1 : Memref sig .tc .vmem S80x48 .f32 := Memref.whole cc1_scratch1
/-- The scratch operands as views: what they hold is stated through these. -/
abbrev VS1_0 : View sig .tc .vmem S48x80x48 .f32 := scM1_0.view
abbrev VS1_1 : View sig .tc .vmem S80x48 .f32 := scM1_1.view

/-- What the pipeline keeps aside for the body besides the windows: the first kernel's six staging buffers at anything,
    the two scratch buffers owned as memrefs at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Gen.Smooth

end
-- ==== Proof.SmoothRunA.lean ====
/-
  The second kernel's body at a point of tile 0 (each output block is zeroed, then added to; the two scratch buffers are
  read, then overwritten with the tile's last row): it runs to the end on whole staging buffers and leaves every output
  buffer and both scratch buffers with the listed stores written.
-/
import proofs.«158333_j65738769433119_2_alg».proof.Proof.SmoothShared

set_option maxRecDepth 16384

noncomputable section

namespace Cert.KernelIdeal.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the body leaves in the four outputs' staging buffers and in the two scratch buffers (last first) in this
    case, with the proof that the body runs to its continuation holding the inputs as they were and those buffers with
    the stores written. The scratch buffers are entered at any given contents. -/
noncomputable def kernelRun1_A (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32)
    (xs0 : Vec F S48x80x48 .f32) (xs1 : Vec F S80x48 .f32) :
    Σ' (L4 : List (View.Piece (Elt F) S1x2x1 .f32)) (L5 : List (View.Piece (Elt F) S1x1x1 .f32)) (L6 : List (View.Piece (Elt F) S1x1x1 .f32)) (L7 : List (View.Piece (Elt F) S1x1x1 .f32)) (LS0 : List (View.Piece (Elt F) S48x80x48 .f32)), { LS1 : List (View.Piece (Elt F) S80x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__smooth_class_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__smooth_class_kernel_eq_skeleton]; unfold cc1__smooth_class_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Gen.Smooth

end
-- ==== Proof.SmoothRunB.lean ====
/-
  The second kernel's body at a point of a later tile (each output block holds the running sums and is added to; the two
  scratch buffers hold the last row of the tile before, are read, then overwritten with this tile's last row): it runs to
  the end on whole staging buffers and leaves every output buffer and both scratch buffers with the listed stores written.
-/
import proofs.«158333_j65738769433119_2_alg».proof.Proof.SmoothRunA

set_option maxRecDepth 16384

noncomputable section

namespace Cert.KernelIdeal.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the body leaves in the four outputs' staging buffers and in the two scratch buffers (last first) in this
    case, with the proof that the body runs to its continuation holding the inputs as they were and those buffers with
    the stores written. The outputs are entered at their running contents, the scratch buffers at any given contents. -/
noncomputable def kernelRun1_B (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32)
    (xs0 : Vec F S48x80x48 .f32) (xs1 : Vec F S80x48 .f32)
    (xo4 : Vec F S1x2x1 .f32) (xo5 : Vec F S1x1x1 .f32) (xo6 : Vec F S1x1x1 .f32) (xo7 : Vec F S1x1x1 .f32) :
    Σ' (L4 : List (View.Piece (Elt F) S1x2x1 .f32)) (L5 : List (View.Piece (Elt F) S1x1x1 .f32)) (L6 : List (View.Piece (Elt F) S1x1x1 .f32)) (L7 : List (View.Piece (Elt F) S1x1x1 .f32)) (LS0 : List (View.Piece (Elt F) S48x80x48 .f32)), { LS1 : List (View.Piece (Elt F) S80x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6 ∗ owns (c : Thread nD τ) arg9 fullShare xo7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__smooth_class_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__smooth_class_kernel_eq_skeleton]; unfold cc1__smooth_class_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Gen.Smooth

end
-- ==== Proof.SmoothFrame.lean ====
/-
  The second kernel over its whole grid: what the four outputs' staging buffers and the two scratch buffers hold after
  every point (the zeroed blocks plus the tiles' sums so far, restarted at the first tile of each batch; the scratch at the
  tile's last row), the pipeline's proof data with the scratch contents carried by the invariant, and the body's
  obligation at a generic point.
-/
import proofs.«158333_j65738769433119_2_alg».proof.Proof.SmoothRunB

set_option maxRecDepth 16384

noncomputable section

namespace Cert.KernelIdeal.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 the body's stores cover the class-distance block. -/
theorem cover1_A_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x2x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).1 S1x1x1.size (by sl_kernel_rfl) y

/-- What the body leaves in the class-distance block at tile 0. -/
def out1_A_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x2x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 x0 x1 x2 x3 xs0 xs1).1)

/-- At tile 0 the body's stores cover the row-variation block. -/
theorem cover1_A_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.1 S1x1x1.size (by sl_kernel_rfl) y

/-- What the body leaves in the row-variation block at tile 0. -/
def out1_A_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 x0 x1 x2 x3 xs0 xs1).2.1)

/-- At tile 0 the body's stores cover the column-variation block. -/
theorem cover1_A_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.1 S1x1x1.size (by sl_kernel_rfl) y

/-- What the body leaves in the column-variation block at tile 0. -/
def out1_A_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 xs0 xs1).2.2.1)

/-- At tile 0 the body's stores cover the channel-variation block. -/
theorem cover1_A_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.1 S1x1x1.size (by sl_kernel_rfl) y

/-- What the body leaves in the channel-variation block at tile 0. -/
def out1_A_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 xs0 xs1).2.2.2.1)

/-- At tile 0 the body's store covers the feature-row scratch. -/
theorem scover1_A_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S48x80x48.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.2.1 S48x80x48.size (by sl_kernel_rfl) y

/-- What the body leaves in the feature-row scratch at tile 0: the tile's last row. -/
def sout1_A_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S48x80x48 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 xs0 xs1).2.2.2.2.1)

/-- At tile 0 the body's store covers the confidence-row scratch. -/
theorem scover1_A_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S80x48.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1 S80x48.size (by sl_kernel_rfl) y

/-- What the body leaves in the confidence-row scratch at tile 0: the tile's last row. -/
def sout1_A_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S80x48 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1)

/-- At a later tile the body's stores cover the class-distance block. -/
theorem cover1_B_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x2x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1 S1x1x1.size (by sl_kernel_rfl) y

/-- What the body leaves in the class-distance block at a later tile, from what the blocks held. -/
def out1_B_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x2x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1)

/-- At a later tile the body's stores cover the row-variation block. -/
theorem cover1_B_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1 S1x1x1.size (by sl_kernel_rfl) y

/-- What the body leaves in the row-variation block at a later tile, from what the blocks held. -/
def out1_B_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1)

/-- At a later tile the body's stores cover the column-variation block. -/
theorem cover1_B_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1 S1x1x1.size (by sl_kernel_rfl) y

/-- What the body leaves in the column-variation block at a later tile, from what the blocks held. -/
def out1_B_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1)

/-- At a later tile the body's stores cover the channel-variation block. -/
theorem cover1_B_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1 S1x1x1.size (by sl_kernel_rfl) y

/-- What the body leaves in the channel-variation block at a later tile, from what the blocks held. -/
def out1_B_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1)

/-- At a later tile the body's store covers the feature-row scratch. -/
theorem scover1_B_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S48x80x48.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1 S48x80x48.size (by sl_kernel_rfl) y

/-- What the body leaves in the feature-row scratch at a later tile: the tile's last row. -/
def sout1_B_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S48x80x48 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1)

/-- At a later tile the body's store covers the confidence-row scratch. -/
theorem scover1_B_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S80x48.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1 S80x48.size (by sl_kernel_rfl) y

/-- What the body leaves in the confidence-row scratch at a later tile: the tile's last row. -/
def sout1_B_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S80x48 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1)

/-- The contents of the four output blocks, then of the two scratch buffers. -/
abbrev Outs1 (F : FTy → Type) : Type :=
  Vec F S1x2x1 .f32 × Vec F S1x1x1 .f32 × Vec F S1x1x1 .f32 × Vec F S1x1x1 .f32 × Vec F S48x80x48 .f32 × Vec F S80x48 .f32

/-- What a point of tile 0 leaves, from the contents `p` before it (of which only the scratch is read). -/
def stepA1 (c : Dev nD) (t : Fin cfg1.N) (h0 : t.val % 20 = 0) (p : Outs1 F) : Outs1 F :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2)

/-- What a point of a later tile leaves, from the contents `p` the point before left. -/
def stepB1 (c : Dev nD) (t : Fin cfg1.N) (h0 : ¬t.val % 20 = 0) (p : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1)

/-- Fixed arbitrary contents: what the buffers are taken to hold before the first point. -/
def junkOuts1 : Outs1 F :=
  (VO1_4.read (Elt F) VO1_4.junk, VO1_5.read (Elt F) VO1_5.junk, VO1_6.read (Elt F) VO1_6.junk, VO1_7.read (Elt F) VO1_7.junk,
   VS1_0.read (Elt F) VS1_0.junk, VS1_1.read (Elt F) VS1_1.junk)

/-- What the outputs' staging buffers and the two scratch buffers hold after the body at position `n`: restarted at the
    first tile of a batch (the scratch then read at what the point before left; before the very first point, at fixed
    arbitrary contents), otherwise built on what position `n - 1` left. -/
def outsAt1 (c : Dev nD) : (n : ℕ) → n < cfg1.N → Outs1 F
  | 0, hn => stepA1 V c ⟨0, hn⟩ (Nat.zero_mod _) junkOuts1
  | n + 1, hn =>
    if h0 : (n + 1) % 20 = 0 then stepA1 V c ⟨n + 1, hn⟩ h0 (outsAt1 c n (Nat.lt_of_succ_lt hn))
    else stepB1 V c ⟨n + 1, hn⟩ h0 (outsAt1 c n (Nat.lt_of_succ_lt hn))

/-- The contents before position `n`: fixed arbitrary ones before the first, else what position `n - 1` left. -/
def prevOuts1 (c : Dev nD) : (n : ℕ) → n < cfg1.N → Outs1 F
  | 0, _ => junkOuts1
  | n + 1, hn => outsAt1 V c n (Nat.lt_of_succ_lt hn)

theorem prevOuts1_zero (c : Dev nD) (n : ℕ) (hn : n < cfg1.N) (hz : n = 0) : prevOuts1 V c n hn = junkOuts1 := by
  subst hz; rfl

theorem prevOuts1_pos (c : Dev nD) (n : ℕ) (hn : n < cfg1.N) (hz : n ≠ 0) :
    prevOuts1 V c n hn = outsAt1 V c (n - 1) (Nat.lt_of_le_of_lt (Nat.sub_le _ _) hn) := by
  cases n with
  | zero => exact absurd rfl hz
  | succ n => rfl

theorem outsAt1_A (c : Dev nD) (t : Fin cfg1.N) (h0 : t.val % 20 = 0) :
    outsAt1 V c t.val t.isLt = stepA1 V c t h0 (prevOuts1 V c t.val t.isLt) := by
  obtain ⟨n, hn⟩ := t
  cases n with
  | zero => exact rfl
  | succ n => exact (dif_pos h0).trans rfl

theorem outsAt1_B (c : Dev nD) (t : Fin cfg1.N) (h0 : ¬t.val % 20 = 0) :
    outsAt1 V c t.val t.isLt = stepB1 V c t h0 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: before the first point what the launch hands over (both scratch buffers at
    anything); afterwards the same with the two scratch buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.2.2.2.1 ∗ owns (c : Thread nD τ) scM1_1 fullShare (outsAt1 V c n hn).2.2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.2.2.2.1 ∗ owns (c : Thread nD τ) scM1_1 fullShare (outsAt1 V c n hn).2.2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.2.2.2.1 ∗ owns (c : Thread nD τ) scM1_1 fullShare (outsAt1 V c (n - 1) (by omega)).2.2.2.2.2) ∗ (∃ r, prngReg c r)) := by
  cases n with
  | zero => exact absurd rfl hz
  | succ n => rfl

/-- The pipeline's proof data: the arrays as the kernel finds them; after the body each input's buffer at its block and
    each output's at its component of `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- Before the first point the invariant is what the launch hands over. -/
theorem Phi1_first (c : Dev nD) : (dat1 V c).Φ 0 = Pipeline.ΦA spec1 c := rfl

theorem PhiS_castSucc (c : Dev nD) (t : Fin cfg1.N) :
    (dat1 V c).Φ t.castSucc = PhiS V c t.val (Nat.le_of_lt t.isLt) := by
  dsimp only [dat1]; simp only [Fin.coe_castSucc]

/-- After any point but the first the invariant gives back what the launch handed over: the scratch buffers' named
    contents are forgotten. -/
theorem Phi1_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨A1, A2, A3, A4, A5, A6, HS0, HS1⟩, Hg⟩
  isplitl [A1 A2 A3 A4 A5 A6 HS0 HS1]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    iexists _; iexact HS1
  iexact Hg

/-- The same after the last point. -/
theorem Phi1_last (c : Dev nD) : (dat1 V c).Φ (Fin.last cfg1.N) ⊢ Pipeline.ΦA spec1 c :=
  Phi1_out V c _ (by rw [Fin.val_last]; have : cfg1.N = 40 := N_1; omega)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later tile the class-distance block's staging buffer still holds what the point before left: it is written back only
    after the last tile of a batch. -/
theorem before1_4_B (c : Dev nD) (t : Fin cfg1.N) (h0 : ¬t.val % 20 = 0) (d) :
    (dat1 V c).before 4 t d = (outsAt1 V c (t.val - 1) (Nat.lt_of_le_of_lt (Nat.sub_le _ _) t.isLt)).1 := by
  have hN : t.val < 40 := lt_of_lt_of_eq t.isLt (show cfg1.N = 40 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a later tile the row-variation block's staging buffer still holds what the point before left: it is written back only
    after the last tile of a batch. -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.1 := by
  have hN : t.val < 40 := lt_of_lt_of_eq t.isLt (show cfg1.N = 40 from N_1)
  rw [Dat.before_out_kept _ 5 rfl t (by omega) (Bool.eq_false_iff.mpr fun h => by have := (flush1_5 _).mp h; dsimp only at this; omega)
    (fun _ => rfl) (fun _ _ => rfl)]
  dsimp only [dat1]
/-- At a later tile the column-variation block's staging buffer still holds what the point before left: it is written back only
    after the last tile of a batch. -/
theorem before1_6_B (c : Dev nD) (t : Fin cfg1.N) (h0 : ¬t.val % 20 = 0) (d) :
    (dat1 V c).before 6 t d = (outsAt1 V c (t.val - 1) (Nat.lt_of_le_of_lt (Nat.sub_le _ _) t.isLt)).2.2.1 := by
  have hN : t.val < 40 := lt_of_lt_of_eq t.isLt (show cfg1.N = 40 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a later tile the channel-variation block's staging buffer still holds what the point before left: it is written back only
    after the last tile of a batch. -/
theorem before1_7_B (c : Dev nD) (t : Fin cfg1.N) (h0 : ¬t.val % 20 = 0) (d) :
    (dat1 V c).before 7 t d = (outsAt1 V c (t.val - 1) (Nat.lt_of_le_of_lt (Nat.sub_le _ _) t.isLt)).2.2.2.1 := by
  have hN : t.val < 40 := lt_of_lt_of_eq t.isLt (show cfg1.N = 40 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

/-- One bit that is zero selects the second operand. -/
theorem select_zero1 {α : Type} (a b : α) : Scalar.select 0#1 a b = b := if_neg (by decide)

/-- At the first tile of a batch the comparison "tile coordinate above zero" fails. -/
theorem hsgt1 : ∀ t : Fin cfg1.N, t.val % 20 = 0 → Scalar.cmpi .sgt (BitVec.ofNat 32 ((grid1.coords t) 1).val) 0#32 = 0#1 :=
  (by decide +kernel : ∀ t : Fin grid1.N, t.val % 20 = 0 → Scalar.cmpi .sgt (BitVec.ofNat 32 ((grid1.coords t) 1).val) 0#32 = 0#1)

/-- What is stored in the row-variation block when the comparison "tile coordinate above zero" fails: the select takes
    its zero operand, so the value read from the scratch buffers does not enter. -/
noncomputable def rowSumAtZero (v93 : FVec F S1x1 .f32) (v128 : Vec F S1x1x1 .f32) : FVec F S1x1x1 .f32 :=
  k1_pay33 v93 v93 0#1 v128

theorem k1_pay33_zero (v93 v114 : FVec F S1x1 .f32) (v128 : Vec F S1x1x1 .f32) :
    k1_pay33 v93 v114 0#1 v128 = rowSumAtZero v93 v128 := by
  unfold rowSumAtZero k1_pay33
  simp only [select_zero1]

/-- So under a condition that is zero the stored value is the same whatever the selected operand. -/
theorem k1_pay33_cond_zero (v93 v114 v114' : FVec F S1x1 .f32) (v128 : Vec F S1x1x1 .f32) (v : BitVec 1) (hv : v = 0#1) :
    k1_pay33 v93 v114 v v128 = k1_pay33 v93 v114' v v128 := by
  subst hv; rw [k1_pay33_zero, k1_pay33_zero]

theorem L4_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).1 = (kernelRun1_A c i arg2 harg2 arg3 harg3 arg4 harg4 arg5 harg5 arg6 harg6 arg7 harg7 arg8 harg8 arg9 harg9 arg10 harg10 arg11 harg11 hc0 x0 x1 x2 x3 xs0' xs1').1 := by
  unfold kernelRun1_A
  dsimp only

/-- At tile 0 the stores into the row-variation block do not depend on what the scratch buffers held. -/
theorem L5_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) (hsgt : Scalar.cmpi .sgt (BitVec.ofNat 32 (i 1).val) 0#32 = 0#1) :
    (kernelRun1_A c i arg2 harg2 arg3 harg3 arg4 harg4 arg5 harg5 arg6 harg6 arg7 harg7 arg8 harg8 arg9 harg9 arg10 harg10 arg11 harg11 hc0 x0 x1 x2 x3 xs0 xs1).2.1 = (kernelRun1_A c i arg2 harg2 arg3 harg3 arg4 harg4 arg5 harg5 arg6 harg6 arg7 harg7 arg8 harg8 arg9 harg9 arg10 harg10 arg11 harg11 hc0 x0 x1 x2 x3 xs0' xs1').2.1 := by
  unfold kernelRun1_A
  dsimp only
  refine congrArg (fun w => (⟨_, w⟩ : View.Piece (Elt F) S1x1x1 .f32) :: _) ?_
  exact k1_pay33_cond_zero _ _ _ _ _ hsgt

theorem L6_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.1 := by
  unfold kernelRun1_A
  dsimp only

theorem L7_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.1 := by
  unfold kernelRun1_A
  dsimp only

theorem LS0_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.2.1 := by
  unfold kernelRun1_A
  dsimp only

theorem LS1_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.2.2.1 := by
  unfold kernelRun1_A
  dsimp only

theorem out1_A_4_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_4 c i arg2 harg2 arg3 harg3 arg4 harg4 arg5 harg5 arg6 harg6 arg7 harg7 arg8 harg8 arg9 harg9 arg10 harg10 arg11 harg11 hc0 x0 x1 x2 x3 xs0 xs1 = out1_A_4 c i arg2 harg2 arg3 harg3 arg4 harg4 arg5 harg5 arg6 harg6 arg7 harg7 arg8 harg8 arg9 harg9 arg10 harg10 arg11 harg11 hc0 x0 x1 x2 x3 xs0' xs1' :=
  congrArg (fun L => VO1_4.read (Elt F) (VO1_4.writes (Elt F) VO1_4.junk L)) (L4_indep c i arg2 harg2 arg3 harg3 arg4 harg4 arg5 harg5 arg6 harg6 arg7 harg7 arg8 harg8 arg9 harg9 arg10 harg10 arg11 harg11 hc0 x0 x1 x2 x3 xs0 xs0' xs1 xs1')

theorem out1_A_5_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) (hsgt : Scalar.cmpi .sgt (BitVec.ofNat 32 (i 1).val) 0#32 = 0#1) :
    out1_A_5 c i arg2 harg2 arg3 harg3 arg4 harg4 arg5 harg5 arg6 harg6 arg7 harg7 arg8 harg8 arg9 harg9 arg10 harg10 arg11 harg11 hc0 x0 x1 x2 x3 xs0 xs1 = out1_A_5 c i arg2 harg2 arg3 harg3 arg4 harg4 arg5 harg5 arg6 harg6 arg7 harg7 arg8 harg8 arg9 harg9 arg10 harg10 arg11 harg11 hc0 x0 x1 x2 x3 xs0' xs1' :=
  congrArg (fun L => VO1_5.read (Elt F) (VO1_5.writes (Elt F) VO1_5.junk L)) (L5_indep c i arg2 harg2 arg3 harg3 arg4 harg4 arg5 harg5 arg6 harg6 arg7 harg7 arg8 harg8 arg9 harg9 arg10 harg10 arg11 harg11 hc0 x0 x1 x2 x3 xs0 xs0' xs1 xs1' hsgt)

theorem out1_A_6_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_6 c i arg2 harg2 arg3 harg3 arg4 harg4 arg5 harg5 arg6 harg6 arg7 harg7 arg8 harg8 arg9 harg9 arg10 harg10 arg11 harg11 hc0 x0 x1 x2 x3 xs0 xs1 = out1_A_6 c i arg2 harg2 arg3 harg3 arg4 harg4 arg5 harg5 arg6 harg6 arg7 harg7 arg8 harg8 arg9 harg9 arg10 harg10 arg11 harg11 hc0 x0 x1 x2 x3 xs0' xs1' :=
  congrArg (fun L => VO1_6.read (Elt F) (VO1_6.writes (Elt F) VO1_6.junk L)) (L6_indep c i arg2 harg2 arg3 harg3 arg4 harg4 arg5 harg5 arg6 harg6 arg7 harg7 arg8 harg8 arg9 harg9 arg10 harg10 arg11 harg11 hc0 x0 x1 x2 x3 xs0 xs0' xs1 xs1')

theorem out1_A_7_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_7 c i arg2 harg2 arg3 harg3 arg4 harg4 arg5 harg5 arg6 harg6 arg7 harg7 arg8 harg8 arg9 harg9 arg10 harg10 arg11 harg11 hc0 x0 x1 x2 x3 xs0 xs1 = out1_A_7 c i arg2 harg2 arg3 harg3 arg4 harg4 arg5 harg5 arg6 harg6 arg7 harg7 arg8 harg8 arg9 harg9 arg10 harg10 arg11 harg11 hc0 x0 x1 x2 x3 xs0' xs1' :=
  congrArg (fun L => VO1_7.read (Elt F) (VO1_7.writes (Elt F) VO1_7.junk L)) (L7_indep c i arg2 harg2 arg3 harg3 arg4 harg4 arg5 harg5 arg6 harg6 arg7 harg7 arg8 harg8 arg9 harg9 arg10 harg10 arg11 harg11 hc0 x0 x1 x2 x3 xs0 xs0' xs1 xs1')

theorem sout1_A_0_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    sout1_A_0 c i arg2 harg2 arg3 harg3 arg4 harg4 arg5 harg5 arg6 harg6 arg7 harg7 arg8 harg8 arg9 harg9 arg10 harg10 arg11 harg11 hc0 x0 x1 x2 x3 xs0 xs1 = sout1_A_0 c i arg2 harg2 arg3 harg3 arg4 harg4 arg5 harg5 arg6 harg6 arg7 harg7 arg8 harg8 arg9 harg9 arg10 harg10 arg11 harg11 hc0 x0 x1 x2 x3 xs0' xs1' :=
  congrArg (fun L => VS1_0.read (Elt F) (VS1_0.writes (Elt F) VS1_0.junk L)) (LS0_indep c i arg2 harg2 arg3 harg3 arg4 harg4 arg5 harg5 arg6 harg6 arg7 harg7 arg8 harg8 arg9 harg9 arg10 harg10 arg11 harg11 hc0 x0 x1 x2 x3 xs0 xs0' xs1 xs1')

theorem sout1_A_1_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    sout1_A_1 c i arg2 harg2 arg3 harg3 arg4 harg4 arg5 harg5 arg6 harg6 arg7 harg7 arg8 harg8 arg9 harg9 arg10 harg10 arg11 harg11 hc0 x0 x1 x2 x3 xs0 xs1 = sout1_A_1 c i arg2 harg2 arg3 harg3 arg4 harg4 arg5 harg5 arg6 harg6 arg7 harg7 arg8 harg8 arg9 harg9 arg10 harg10 arg11 harg11 hc0 x0 x1 x2 x3 xs0' xs1' :=
  congrArg (fun L => VS1_1.read (Elt F) (VS1_1.writes (Elt F) VS1_1.junk L)) (LS1_indep c i arg2 harg2 arg3 harg3 arg4 harg4 arg5 harg5 arg6 harg6 arg7 harg7 arg8 harg8 arg9 harg9 arg10 harg10 arg11 harg11 hc0 x0 x1 x2 x3 xs0 xs0' xs1 xs1')

/-- What a point of tile 0 leaves does not depend on what the scratch buffers held before it: the one value read from
    them enters the row sum through a select on "tile coordinate above zero", which fails there. -/
theorem stepA1_indep (c : Dev nD) (t : Fin cfg1.N) (h0 : t.val % 20 = 0)
    (hsgt : Scalar.cmpi .sgt (BitVec.ofNat 32 ((grid1.coords t) 1).val) 0#32 = 0#1) (p p' : Outs1 F) :
    stepA1 V c t h0 p = stepA1 V c t h0 p' := by
  unfold stepA1
  exact congrArg₂ Prod.mk (out1_A_4_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (out1_A_5_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2 hsgt)
    (congrArg₂ Prod.mk (out1_A_6_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (out1_A_7_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (sout1_A_0_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
      (sout1_A_1_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)))))

set_option maxHeartbeats 6400000 in
/-- The body at any point: the inputs' buffers hold their blocks; the tile number says which case the point is in; at a
    later tile each output's buffer holds what the point before left; the invariant hands over the two scratch buffers at
    what the point before left (before the first point, at anything: what tile 0 leaves does not depend on it) and takes
    them back at this point's contents; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5, after1_6, after1_7]
  have hN : t.val < 40 := lt_of_lt_of_eq t.isLt (show cfg1.N = 40 from N_1)
  by_cases h0 : t.val % 20 = 0
  · rw [outsAt1_A V c t h0]
    by_cases hz : t.val = 0
    · rw [PhiS_castSucc V c t, PhiS_zero V c _ _ hz, PhiA1_eq, prevOuts1_zero V c _ _ hz]
      iintro ⟨⟨⟨A1, A2, A3, A4, A5, A6, ⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [stepA1_indep V c t h0 (hsgt1 t h0) junkOuts1 ((junkOuts1 (F := F)).1, (junkOuts1 (F := F)).2.1, (junkOuts1 (F := F)).2.2.1, (junkOuts1 (F := F)).2.2.2.1, s0, s1)]
      unfold stepA1 out1_A_4 out1_A_5 out1_A_6 out1_A_7 sout1_A_0 sout1_A_1; (try dsimp only)
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) s0 s1).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [A1 A2 A3 A4 A5 A6 HS0 HS1 Hg]
      · isplitl [A1 A2 A3 A4 A5 A6 HS0 HS1]
        · isplitl [A1]; · iexact A1
          isplitl [A2]; · iexact A2
          isplitl [A3]; · iexact A3
          isplitl [A4]; · iexact A4
          isplitl [A5]; · iexact A5
          isplitl [A6]; · iexact A6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
    · rw [PhiS_castSucc V c t, PhiS_pos V c _ _ hz, prevOuts1_pos V c _ _ hz]
      unfold stepA1 out1_A_4 out1_A_5 out1_A_6 out1_A_7 sout1_A_0 sout1_A_1; (try dsimp only)
      iintro ⟨⟨⟨A1, A2, A3, A4, A5, A6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [A1 A2 A3 A4 A5 A6 HS0 HS1 Hg]
      · isplitl [A1 A2 A3 A4 A5 A6 HS0 HS1]
        · isplitl [A1]; · iexact A1
          isplitl [A2]; · iexact A2
          isplitl [A3]; · iexact A3
          isplitl [A4]; · iexact A4
          isplitl [A5]; · iexact A5
          isplitl [A6]; · iexact A6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
  · have hz : t.val ≠ 0 := fun h => h0 (by rw [h])
    rw [outsAt1_B V c t h0]
    simp only [before1_4_B V c t h0, before1_5_B V c t h0, before1_6_B V c t h0, before1_7_B V c t h0]
    rw [PhiS_castSucc V c t, PhiS_pos V c _ _ hz]
    unfold stepB1 out1_B_4 out1_B_5 out1_B_6 out1_B_7 sout1_B_0 sout1_B_1; (try dsimp only)
    iintro ⟨⟨⟨A1, A2, A3, A4, A5, A6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) _ _ _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, ⟨%e4, H4⟩, ⟨%e5, H5⟩, ⟨%e6, H6⟩, ⟨%e7, H7⟩, ⟨%es0, HS0⟩, ⟨%es1, HS1⟩⟩
    isplitl [A1 A2 A3 A4 A5 A6 HS0 HS1 Hg]
    · isplitl [A1 A2 A3 A4 A5 A6 HS0 HS1]
      · isplitl [A1]; · iexact A1
        isplitl [A2]; · iexact A2
        isplitl [A3]; · iexact A3
        isplitl [A4]; · iexact A4
        isplitl [A5]; · iexact A5
        isplitl [A6]; · iexact A6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _ _ _ _ _ _ _ _)

/-- The body obligation of the second kernel's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen.Smooth

end
-- ==== Proof.MainRun.lean ====
/-
  The whole program's run: the first kernel, the host operations that turn its sums into class centres, the second
  kernel, and the host operations that combine its four accumulators into the loss. The buffer contents at every
  boundary are a fold from the launch memory; every weakly fair execution terminates with every unscoped buffer at
  the last boundary's contents, from which the argument arrays (unchanged) and the result are read.
-/
import proofs.«158333_j65738769433119_2_alg».proof.Proof.CentersFrame
import proofs.«158333_j65738769433119_2_alg».proof.Proof.SmoothFrame
import proofs.«158333_j65738769433119_2_alg».proof.Proof.Gen.KernelIdeal.Regions

set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen.Centers Cert.KernelIdeal.Gen.Smooth

variable (m : (ℓ : Loc nD τ sig) → Buf (Elt F) ℓ) (ρ : Dev nD → PrngReg)

/-- Core `c`'s buffers at launch (the first kernel is entered from them). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first kernel: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the kernels (the second kernel is entered from them). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- After `hostOps2_1`. -/
abbrev W6 : Dev nD → Valuation τ sig (Elt F) := fun c => StableHlo.after hostOps2_1 (W5 m ρ c)
/-- After `hostOps2_2`. -/
abbrev W7 : Dev nD → Valuation τ sig (Elt F) := fun c => StableHlo.after hostOps2_2 (W6 m ρ c)
/-- After `hostOps2_3`. -/
abbrev W8 : Dev nD → Valuation τ sig (Elt F) := fun c => StableHlo.after hostOps2_3 (W7 m ρ c)
/-- After `hostOps2_4`. -/
abbrev W9 : Dev nD → Valuation τ sig (Elt F) := fun c => StableHlo.after hostOps2_4 (W8 m ρ c)
/-- After `hostOps2_5`. -/
abbrev W10 : Dev nD → Valuation τ sig (Elt F) := fun c => StableHlo.after hostOps2_5 (W9 m ρ c)
/-- After `hostOps2_6`. -/
abbrev W11 : Dev nD → Valuation τ sig (Elt F) := fun c => StableHlo.after hostOps2_6 (W10 m ρ c)
/-- After `hostOps2_7`. -/
abbrev W12 : Dev nD → Valuation τ sig (Elt F) := fun c => StableHlo.after hostOps2_7 (W11 m ρ c)
/-- After `hostOps2_8`. -/
abbrev W13 : Dev nD → Valuation τ sig (Elt F) := fun c => StableHlo.after hostOps2_8 (W12 m ρ c)
/-- After `hostOps2_9`. -/
abbrev W14 : Dev nD → Valuation τ sig (Elt F) := fun c => StableHlo.after hostOps2_9 (W13 m ρ c)
/-- After `hostOps2_10`. -/
abbrev W15 : Dev nD → Valuation τ sig (Elt F) := fun c => StableHlo.after hostOps2_10 (W14 m ρ c)

/-! The arguments end as launched: no host operation writes one and both kernels only read them. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps2_10 _ hostOps2_10_writes (by decide)
    _ = W13 m ρ c (Proc.devRef .tc main_arg0) := StableHlo.after_of_writes_sub hostOps2_9 _ hostOps2_9_writes (by decide)
    _ = W12 m ρ c (Proc.devRef .tc main_arg0) := StableHlo.after_of_writes_sub hostOps2_8 _ hostOps2_8_writes (by decide)
    _ = W11 m ρ c (Proc.devRef .tc main_arg0) := StableHlo.after_of_writes_sub hostOps2_7 _ hostOps2_7_writes (by decide)
    _ = W10 m ρ c (Proc.devRef .tc main_arg0) := StableHlo.after_of_writes_sub hostOps2_6 _ hostOps2_6_writes (by decide)
    _ = W9 m ρ c (Proc.devRef .tc main_arg0) := StableHlo.after_of_writes_sub hostOps2_5 _ hostOps2_5_writes (by decide)
    _ = W8 m ρ c (Proc.devRef .tc main_arg0) := StableHlo.after_of_writes_sub hostOps2_4 _ hostOps2_4_writes (by decide)
    _ = W7 m ρ c (Proc.devRef .tc main_arg0) := StableHlo.after_of_writes_sub hostOps2_3 _ hostOps2_3_writes (by decide)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps2_10 _ hostOps2_10_writes (by decide)
    _ = W13 m ρ c (Proc.devRef .tc main_arg1) := StableHlo.after_of_writes_sub hostOps2_9 _ hostOps2_9_writes (by decide)
    _ = W12 m ρ c (Proc.devRef .tc main_arg1) := StableHlo.after_of_writes_sub hostOps2_8 _ hostOps2_8_writes (by decide)
    _ = W11 m ρ c (Proc.devRef .tc main_arg1) := StableHlo.after_of_writes_sub hostOps2_7 _ hostOps2_7_writes (by decide)
    _ = W10 m ρ c (Proc.devRef .tc main_arg1) := StableHlo.after_of_writes_sub hostOps2_6 _ hostOps2_6_writes (by decide)
    _ = W9 m ρ c (Proc.devRef .tc main_arg1) := StableHlo.after_of_writes_sub hostOps2_5 _ hostOps2_5_writes (by decide)
    _ = W8 m ρ c (Proc.devRef .tc main_arg1) := StableHlo.after_of_writes_sub hostOps2_4 _ hostOps2_4_writes (by decide)
    _ = W7 m ρ c (Proc.devRef .tc main_arg1) := StableHlo.after_of_writes_sub hostOps2_3 _ hostOps2_3_writes (by decide)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (by decide)
    _ = W0 m ρ c (Proc.devRef .tc main_arg1) := W2_of_ne m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps2_10 _ hostOps2_10_writes (by decide)
    _ = W13 m ρ c (Proc.devRef .tc main_arg2) := StableHlo.after_of_writes_sub hostOps2_9 _ hostOps2_9_writes (by decide)
    _ = W12 m ρ c (Proc.devRef .tc main_arg2) := StableHlo.after_of_writes_sub hostOps2_8 _ hostOps2_8_writes (by decide)
    _ = W11 m ρ c (Proc.devRef .tc main_arg2) := StableHlo.after_of_writes_sub hostOps2_7 _ hostOps2_7_writes (by decide)
    _ = W10 m ρ c (Proc.devRef .tc main_arg2) := StableHlo.after_of_writes_sub hostOps2_6 _ hostOps2_6_writes (by decide)
    _ = W9 m ρ c (Proc.devRef .tc main_arg2) := StableHlo.after_of_writes_sub hostOps2_5 _ hostOps2_5_writes (by decide)
    _ = W8 m ρ c (Proc.devRef .tc main_arg2) := StableHlo.after_of_writes_sub hostOps2_4 _ hostOps2_4_writes (by decide)
    _ = W7 m ρ c (Proc.devRef .tc main_arg2) := StableHlo.after_of_writes_sub hostOps2_3 _ hostOps2_3_writes (by decide)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (by decide)
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
/-- Kernel 0 as a segment: entered with every unscoped buffer at `W0`, left with them at `W2`; its arrays are
    split out of the unscoped buffers and put back at what the pipeline leaves; the generator register goes into the
    kernel's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered with every unscoped buffer at `W3`, left with them at `W4`; its arrays are
    split out of the unscoped buffers and put back at what the pipeline leaves; the generator register goes into the
    kernel's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The frame: every execution terminates, faults nowhere, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c)⟩) (run_all m ρ)

end Cert.KernelIdeal.Gen.Whole

end
-- ==== Proof.KCentersShared.lean ====
/-
  The first kernel (per batch and class, the sum over all positions of the feature vector times the class mask,
  accumulated over the twenty row tiles of a batch): what its per-case runs share. The grid is (batch, tile),
  a point's tile number is its position modulo twenty; the output block is zeroed at tile 0 and added to at
  every tile.
-/
import proofs.«158333_j65738769433119_2_alg».proof.Proof.Gen.Kernel.Launch
import proofs.«158333_j65738769433119_2_alg».proof.Proof.Gen.Kernel.Skeleton
import proofs.«158333_j65738769433119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the kernel is entered: a parameter, fixed later by the program's run
variable (V : (c : Dev nD) → (b : Ref sig .tc) → Buf (Elt F) ((c : Thread nD τ).loc b))

/-- Window `w`'s block at grid point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block before the body, whenever the body leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label window's staging buffer holds the point's block before the body, whenever the body leaves it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the tile coordinate is zero. -/
abbrev cond0_0 (i : grid0.Coords) : Prop := (Scalar.cmpi .ne (Scalar.extui (Scalar.cmpi .eq (BitVec.ofNat 32 (i 1).val) 0#32)) 0#32) = 1#1
/-- It holds exactly at the first tile of each batch. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of the output window, through which its contents are stated. -/
abbrev VO0_2 : View sig .tc .vmem S1x2x48 .f32 := (Memref.whole cc0_stg2_0 : Memref sig .tc .vmem S1x2x48 .f32).view
/-- Each window's current staging buffer at point `t`, and its wholeness. -/
abbrev ms0_0 (t : Fin cfg0.N) : Memref sig .tc .vmem S1x48x4x80x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x80x48 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x48 .f32 := win0_2.stage (cfg0.slots t 2)
abbrev hs0_2 (t : Fin cfg0.N) : (ms0_2 t).IsWhole := hstage0_2 ((cfg0.slots t 2).cast nbuf0_2)

end Cert.Kernel.Gen.Centers

end
-- ==== Proof.KCentersRunA.lean ====
/-
  The first kernel's body at a point of tile 0 (the output block is zeroed, then added to):
  it runs to the end on whole staging buffers and leaves the output buffer with the listed stores written.
-/
import proofs.«158333_j65738769433119_2_alg».proof.Proof.KCentersShared

set_option maxRecDepth 16384

noncomputable section

namespace Cert.Kernel.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first) in this case, with the proof that the body
    runs to its continuation holding the inputs as they were and the output buffer with those stores written. -/
noncomputable def kernelRun0_A (c : Dev nD) (i : grid0.Coords) (arg2 : Memref sig .tc .vmem S1x48x4x80x48 .f32) (harg2 : arg2.IsWhole)
    (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) :
    { L2 : List (View.Piece (Elt F) S1x2x48 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__centers_kernel i arg2 harg2 arg3 harg3 arg4 harg4) K } := by
  refine ⟨?_, fun E K => ?run⟩
  case run =>
    simp only [cc0__centers_kernel_eq_skeleton]; unfold cc0__centers_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Gen.Centers

end
-- ==== Proof.KCentersRunB.lean ====
/-
  The first kernel's body at a point of a later tile (the output block holds the running sums and is added to):
  it runs to the end on whole staging buffers and leaves the output buffer with the listed stores written.
-/
import proofs.«158333_j65738769433119_2_alg».proof.Proof.KCentersRunA

set_option maxRecDepth 16384

noncomputable section

namespace Cert.Kernel.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's staging buffer (last first) in this case, with the proof that the body
    runs to its continuation holding the inputs as they were and the output buffer with those stores written. -/
noncomputable def kernelRun0_B (c : Dev nD) (i : grid0.Coords) (arg2 : Memref sig .tc .vmem S1x48x4x80x48 .f32) (harg2 : arg2.IsWhole)
    (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) :
    { L2 : List (View.Piece (Elt F) S1x2x48 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__centers_kernel i arg2 harg2 arg3 harg3 arg4 harg4) K } := by
  refine ⟨?_, fun E K => ?run⟩
  case run =>
    simp only [cc0__centers_kernel_eq_skeleton]; unfold cc0__centers_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Gen.Centers

end
-- ==== Proof.KCentersFrame.lean ====
/-
  The first kernel over its whole grid: what the output's staging buffer holds after every point (the zeroed block plus
  the tiles' masked sums so far, restarted at the first tile of each batch), the pipeline's proof data, and the body's
  obligation at a generic point.
-/
import proofs.«158333_j65738769433119_2_alg».proof.Proof.KCentersRunB

set_option maxRecDepth 16384

noncomputable section

namespace Cert.Kernel.Gen.Centers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 the body's stores cover the output block. -/
theorem cover0_A_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) (y : S1x2x48.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x2x48.size (by sl_kernel_rfl) y

/-- What the body leaves in the output block at tile 0. -/
def out0_A_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : cond0_0 i)
    (x0 : Vec F S1x48x4x80x48 .f32) (x1 : Vec F S1x1x4x80x48 .i32) : Vec F S1x2x48 .f32 :=
  VO0_2.read (Elt F) (VO0_2.writes (Elt F) VO0_2.junk (kernelRun0_A c i arg2 harg2 arg3 harg3 arg4 harg4 hc0 x0 x1).1)

/-- At a later tile the body's stores cover the output block. -/
theorem cover0_B_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) (y : S1x2x48.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x48.size (by sl_kernel_rfl) y

/-- What the body leaves in the output block at a later tile, from what the block held. -/
def out0_B_2 (c : Dev nD) (i : grid0.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x48 .f32) (harg4 : arg4.IsWhole) (hc0 : ¬cond0_0 i)
    (x0 : Vec F S1x48x4x80x48 .f32) (x1 : Vec F S1x1x4x80x48 .i32) (xo2 : Vec F S1x2x48 .f32) : Vec F S1x2x48 .f32 :=
  VO0_2.read (Elt F) (VO0_2.writes (Elt F) VO0_2.junk (kernelRun0_B c i arg2 harg2 arg3 harg3 arg4 harg4 hc0 x0 x1 xo2).1)

/-- What the output's staging buffer holds after the body at position `n`: restarted at the first tile of a batch,
    otherwise built on what position `n - 1` left. -/
def outsAt0 (c : Dev nD) : (n : ℕ) → n < cfg0.N → Vec F S1x2x48 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 20 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 20 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 20 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data: the arrays as the kernel finds them; after the body each input's buffer at its block and
    the output's at `outsAt0`; scratch space and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the output's staging buffer still holds what the point before left: it is written back only after
    the last tile of a batch. -/
theorem before0_2_B (c : Dev nD) (t : Fin cfg0.N) (h0 : ¬t.val % 20 = 0) (d) :
    (dat0 V c).before 2 t d = (outsAt0 V c (t.val - 1) (Nat.lt_of_le_of_lt (Nat.sub_le _ _) t.isLt)) := by
  have hN : t.val < 40 := lt_of_lt_of_eq t.isLt (show cfg0.N = 40 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' buffers hold their blocks; the tile number says which case the point is in; at a
    later tile the output's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 40 := lt_of_lt_of_eq t.isLt (show cfg0.N = 40 from N_0)
  by_cases h0 : t.val % 20 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation of the first kernel's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Gen.Centers

end
-- ==== Proof.KSmoothShared.lean ====
/-
  The second kernel (per batch: the confidence-weighted distances to the two class centres, and the three total-variation
  sums along rows, columns and channels, each accumulated over the twenty row tiles of a batch): what its per-case runs
  share. The grid is (batch, tile), a point's tile number is its position modulo twenty; each of the four output blocks is
  zeroed at tile 0 and added to at every tile; two scratch buffers carry the last row of the tile before (features and
  confidence) to the next point, and what is read from them enters the row sum only at a tile after the first.
-/
import proofs.«158333_j65738769433119_2_alg».proof.Proof.Gen.Kernel.Launch
import proofs.«158333_j65738769433119_2_alg».proof.Proof.Gen.Kernel.Skeleton
import proofs.«158333_j65738769433119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the kernel is entered: a parameter, fixed later by the program's run
variable (V : (c : Dev nD) → (b : Ref sig .tc) → Buf (Elt F) ((c : Thread nD τ).loc b))

/-- Window `w`'s block at grid point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the point's block before the body, whenever the body leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The label window's staging buffer holds the point's block before the body, whenever the body leaves it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The prediction window's staging buffer holds the point's block before the body, whenever the body leaves it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The class-centre window's staging buffer holds the point's block before the body, whenever the body leaves it there. It is fetched only at the first tile of a batch; at the other tiles its block index has not moved, so the buffer still holds the block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's branch condition (the same for its four conditionals): the tile coordinate is zero. -/
abbrev cond1_0 (i : grid1.Coords) : Prop := (Scalar.cmpi .ne (Scalar.extui (Scalar.cmpi .eq (BitVec.ofNat 32 (i 1).val) 0#32)) 0#32) = 1#1
/-- It holds exactly at the first tile of each batch. -/
theorem hcond1_0 : ∀ t : Fin cfg1.N, cond1_0 (grid1.coords t) ↔ t.val % 20 = 0 :=
  (by decide +kernel : ∀ t : Fin grid1.N, cond1_0 (grid1.coords t) ↔ t.val % 20 = 0)

/-- One staging buffer of each output window, through which its contents are stated. -/
abbrev VO1_4 : View sig .tc .vmem S1x2x1 .f32 := (Memref.whole cc1_stg4_0 : Memref sig .tc .vmem S1x2x1 .f32).view
abbrev VO1_5 : View sig .tc .vmem S1x1x1 .f32 := (Memref.whole cc1_stg5_0 : Memref sig .tc .vmem S1x1x1 .f32).view
abbrev VO1_6 : View sig .tc .vmem S1x1x1 .f32 := (Memref.whole cc1_stg6_0 : Memref sig .tc .vmem S1x1x1 .f32).view
abbrev VO1_7 : View sig .tc .vmem S1x1x1 .f32 := (Memref.whole cc1_stg7_0 : Memref sig .tc .vmem S1x1x1 .f32).view
/-- Each window's current staging buffer at point `t`, and its wholeness. -/
abbrev ms1_0 (t : Fin cfg1.N) : Memref sig .tc .vmem S1x48x4x80x48 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4x80x48 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2x4x80x48 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2x48 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1 .f32 := win1_7.stage (cfg1.slots t 7)
abbrev hs1_7 (t : Fin cfg1.N) : (ms1_7 t).IsWhole := hstage1_7 ((cfg1.slots t 7).cast nbuf1_7)
/-- The two scratch operands: whole buffers of the kernel's own, passed beside the windows and carried between points. -/
abbrev scM1_0 : Memref sig .tc .vmem S48x80x48 .f32 := Memref.whole cc1_scratch0
abbrev scM1_1 : Memref sig .tc .vmem S80x48 .f32 := Memref.whole cc1_scratch1
/-- The scratch operands as views: what they hold is stated through these. -/
abbrev VS1_0 : View sig .tc .vmem S48x80x48 .f32 := scM1_0.view
abbrev VS1_1 : View sig .tc .vmem S80x48 .f32 := scM1_1.view

/-- What the pipeline keeps aside for the body besides the windows: the first kernel's six staging buffers at anything,
    the two scratch buffers owned as memrefs at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Gen.Smooth

end
-- ==== Proof.KSmoothRunA.lean ====
/-
  The second kernel's body at a point of tile 0 (each output block is zeroed, then added to; the two scratch buffers are
  read, then overwritten with the tile's last row): it runs to the end on whole staging buffers and leaves every output
  buffer and both scratch buffers with the listed stores written.
-/
import proofs.«158333_j65738769433119_2_alg».proof.Proof.KSmoothShared

set_option maxRecDepth 16384

noncomputable section

namespace Cert.Kernel.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the body leaves in the four outputs' staging buffers and in the two scratch buffers (last first) in this
    case, with the proof that the body runs to its continuation holding the inputs as they were and those buffers with
    the stores written. The scratch buffers are entered at any given contents. -/
noncomputable def kernelRun1_A (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32)
    (xs0 : Vec F S48x80x48 .f32) (xs1 : Vec F S80x48 .f32) :
    Σ' (L4 : List (View.Piece (Elt F) S1x2x1 .f32)) (L5 : List (View.Piece (Elt F) S1x1x1 .f32)) (L6 : List (View.Piece (Elt F) S1x1x1 .f32)) (L7 : List (View.Piece (Elt F) S1x1x1 .f32)) (LS0 : List (View.Piece (Elt F) S48x80x48 .f32)), { LS1 : List (View.Piece (Elt F) S80x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__smooth_class_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__smooth_class_kernel_eq_skeleton]; unfold cc1__smooth_class_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel.Gen.Smooth

end
-- ==== Proof.KSmoothRunB.lean ====
/-
  The second kernel's body at a point of a later tile (each output block holds the running sums and is added to; the two
  scratch buffers hold the last row of the tile before, are read, then overwritten with this tile's last row): it runs to
  the end on whole staging buffers and leaves every output buffer and both scratch buffers with the listed stores written.
-/
import proofs.«158333_j65738769433119_2_alg».proof.Proof.KSmoothRunA

set_option maxRecDepth 16384

noncomputable section

namespace Cert.Kernel.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the body leaves in the four outputs' staging buffers and in the two scratch buffers (last first) in this
    case, with the proof that the body runs to its continuation holding the inputs as they were and those buffers with
    the stores written. The outputs are entered at their running contents, the scratch buffers at any given contents. -/
noncomputable def kernelRun1_B (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32)
    (xs0 : Vec F S48x80x48 .f32) (xs1 : Vec F S80x48 .f32)
    (xo4 : Vec F S1x2x1 .f32) (xo5 : Vec F S1x1x1 .f32) (xo6 : Vec F S1x1x1 .f32) (xo7 : Vec F S1x1x1 .f32) :
    Σ' (L4 : List (View.Piece (Elt F) S1x2x1 .f32)) (L5 : List (View.Piece (Elt F) S1x1x1 .f32)) (L6 : List (View.Piece (Elt F) S1x1x1 .f32)) (L7 : List (View.Piece (Elt F) S1x1x1 .f32)) (LS0 : List (View.Piece (Elt F) S48x80x48 .f32)), { LS1 : List (View.Piece (Elt F) S80x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6 ∗ owns (c : Thread nD τ) arg9 fullShare xo7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__smooth_class_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__smooth_class_kernel_eq_skeleton]; unfold cc1__smooth_class_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel.Gen.Smooth

end
-- ==== Proof.KSmoothFrame.lean ====
/-
  The second kernel over its whole grid: what the four outputs' staging buffers and the two scratch buffers hold after
  every point (the zeroed blocks plus the tiles' sums so far, restarted at the first tile of each batch; the scratch at the
  tile's last row), the pipeline's proof data with the scratch contents carried by the invariant, and the body's
  obligation at a generic point.
-/
import proofs.«158333_j65738769433119_2_alg».proof.Proof.KSmoothRunB

set_option maxRecDepth 16384

noncomputable section

namespace Cert.Kernel.Gen.Smooth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At tile 0 the body's stores cover the class-distance block. -/
theorem cover1_A_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x2x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).1 S1x1x1.size (by sl_kernel_rfl) y

/-- What the body leaves in the class-distance block at tile 0. -/
def out1_A_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x2x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 x0 x1 x2 x3 xs0 xs1).1)

/-- At tile 0 the body's stores cover the row-variation block. -/
theorem cover1_A_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.1 S1x1x1.size (by sl_kernel_rfl) y

/-- What the body leaves in the row-variation block at tile 0. -/
def out1_A_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 x0 x1 x2 x3 xs0 xs1).2.1)

/-- At tile 0 the body's stores cover the column-variation block. -/
theorem cover1_A_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.1 S1x1x1.size (by sl_kernel_rfl) y

/-- What the body leaves in the column-variation block at tile 0. -/
def out1_A_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 xs0 xs1).2.2.1)

/-- At tile 0 the body's stores cover the channel-variation block. -/
theorem cover1_A_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S1x1x1.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.1 S1x1x1.size (by sl_kernel_rfl) y

/-- What the body leaves in the channel-variation block at tile 0. -/
def out1_A_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S1x1x1 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 xs0 xs1).2.2.2.1)

/-- At tile 0 the body's store covers the feature-row scratch. -/
theorem scover1_A_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S48x80x48.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.2.1 S48x80x48.size (by sl_kernel_rfl) y

/-- What the body leaves in the feature-row scratch at tile 0: the tile's last row. -/
def sout1_A_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S48x80x48 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 xs0 xs1).2.2.2.2.1)

/-- At tile 0 the body's store covers the confidence-row scratch. -/
theorem scover1_A_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (y : S80x48.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1 S80x48.size (by sl_kernel_rfl) y

/-- What the body leaves in the confidence-row scratch at tile 0: the tile's last row. -/
def sout1_A_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) : Vec F S80x48 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1)

/-- At a later tile the body's stores cover the class-distance block. -/
theorem cover1_B_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x2x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1 S1x1x1.size (by sl_kernel_rfl) y

/-- What the body leaves in the class-distance block at a later tile, from what the blocks held. -/
def out1_B_4 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x2x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).1)

/-- At a later tile the body's stores cover the row-variation block. -/
theorem cover1_B_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1 S1x1x1.size (by sl_kernel_rfl) y

/-- What the body leaves in the row-variation block at a later tile, from what the blocks held. -/
def out1_B_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.1)

/-- At a later tile the body's stores cover the column-variation block. -/
theorem cover1_B_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1 S1x1x1.size (by sl_kernel_rfl) y

/-- What the body leaves in the column-variation block at a later tile, from what the blocks held. -/
def out1_B_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.1)

/-- At a later tile the body's stores cover the channel-variation block. -/
theorem cover1_B_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1 S1x1x1.size (by sl_kernel_rfl) y

/-- What the body leaves in the channel-variation block at a later tile, from what the blocks held. -/
def out1_B_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S1x1x1 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.1)

/-- At a later tile the body's store covers the feature-row scratch. -/
theorem scover1_B_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S48x80x48.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1 S48x80x48.size (by sl_kernel_rfl) y

/-- What the body leaves in the feature-row scratch at a later tile: the tile's last row. -/
def sout1_B_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S48x80x48 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.1)

/-- At a later tile the body's store covers the confidence-row scratch. -/
theorem scover1_B_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) (y : S80x48.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1 S80x48.size (by sl_kernel_rfl) y

/-- What the body leaves in the confidence-row scratch at a later tile: the tile's last row. -/
def sout1_B_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) : Vec F S80x48 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 x0 x1 x2 x3 xs0 xs1 xo4 xo5 xo6 xo7).2.2.2.2.2.1)

/-- The contents of the four output blocks, then of the two scratch buffers. -/
abbrev Outs1 (F : FTy → Type) : Type :=
  Vec F S1x2x1 .f32 × Vec F S1x1x1 .f32 × Vec F S1x1x1 .f32 × Vec F S1x1x1 .f32 × Vec F S48x80x48 .f32 × Vec F S80x48 .f32

/-- What a point of tile 0 leaves, from the contents `p` before it (of which only the scratch is read). -/
def stepA1 (c : Dev nD) (t : Fin cfg1.N) (h0 : t.val % 20 = 0) (p : Outs1 F) : Outs1 F :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2,
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2)

/-- What a point of a later tile leaves, from the contents `p` the point before left. -/
def stepB1 (c : Dev nD) (t : Fin cfg1.N) (h0 : ¬t.val % 20 = 0) (p : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1)

/-- Fixed arbitrary contents: what the buffers are taken to hold before the first point. -/
def junkOuts1 : Outs1 F :=
  (VO1_4.read (Elt F) VO1_4.junk, VO1_5.read (Elt F) VO1_5.junk, VO1_6.read (Elt F) VO1_6.junk, VO1_7.read (Elt F) VO1_7.junk,
   VS1_0.read (Elt F) VS1_0.junk, VS1_1.read (Elt F) VS1_1.junk)

/-- What the outputs' staging buffers and the two scratch buffers hold after the body at position `n`: restarted at the
    first tile of a batch (the scratch then read at what the point before left; before the very first point, at fixed
    arbitrary contents), otherwise built on what position `n - 1` left. -/
def outsAt1 (c : Dev nD) : (n : ℕ) → n < cfg1.N → Outs1 F
  | 0, hn => stepA1 V c ⟨0, hn⟩ (Nat.zero_mod _) junkOuts1
  | n + 1, hn =>
    if h0 : (n + 1) % 20 = 0 then stepA1 V c ⟨n + 1, hn⟩ h0 (outsAt1 c n (Nat.lt_of_succ_lt hn))
    else stepB1 V c ⟨n + 1, hn⟩ h0 (outsAt1 c n (Nat.lt_of_succ_lt hn))

/-- The contents before position `n`: fixed arbitrary ones before the first, else what position `n - 1` left. -/
def prevOuts1 (c : Dev nD) : (n : ℕ) → n < cfg1.N → Outs1 F
  | 0, _ => junkOuts1
  | n + 1, hn => outsAt1 V c n (Nat.lt_of_succ_lt hn)

theorem prevOuts1_zero (c : Dev nD) (n : ℕ) (hn : n < cfg1.N) (hz : n = 0) : prevOuts1 V c n hn = junkOuts1 := by
  subst hz; rfl

theorem prevOuts1_pos (c : Dev nD) (n : ℕ) (hn : n < cfg1.N) (hz : n ≠ 0) :
    prevOuts1 V c n hn = outsAt1 V c (n - 1) (Nat.lt_of_le_of_lt (Nat.sub_le _ _) hn) := by
  cases n with
  | zero => exact absurd rfl hz
  | succ n => rfl

theorem outsAt1_A (c : Dev nD) (t : Fin cfg1.N) (h0 : t.val % 20 = 0) :
    outsAt1 V c t.val t.isLt = stepA1 V c t h0 (prevOuts1 V c t.val t.isLt) := by
  obtain ⟨n, hn⟩ := t
  cases n with
  | zero => exact rfl
  | succ n => exact (dif_pos h0).trans rfl

theorem outsAt1_B (c : Dev nD) (t : Fin cfg1.N) (h0 : ¬t.val % 20 = 0) :
    outsAt1 V c t.val t.isLt = stepB1 V c t h0 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: before the first point what the launch hands over (both scratch buffers at
    anything); afterwards the same with the two scratch buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.2.2.2.1 ∗ owns (c : Thread nD τ) scM1_1 fullShare (outsAt1 V c n hn).2.2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.2.2.2.1 ∗ owns (c : Thread nD τ) scM1_1 fullShare (outsAt1 V c n hn).2.2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.2.2.2.1 ∗ owns (c : Thread nD τ) scM1_1 fullShare (outsAt1 V c (n - 1) (by omega)).2.2.2.2.2) ∗ (∃ r, prngReg c r)) := by
  cases n with
  | zero => exact absurd rfl hz
  | succ n => rfl

/-- The pipeline's proof data: the arrays as the kernel finds them; after the body each input's buffer at its block and
    each output's at its component of `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- Before the first point the invariant is what the launch hands over. -/
theorem Phi1_first (c : Dev nD) : (dat1 V c).Φ 0 = Pipeline.ΦA spec1 c := rfl

theorem PhiS_castSucc (c : Dev nD) (t : Fin cfg1.N) :
    (dat1 V c).Φ t.castSucc = PhiS V c t.val (Nat.le_of_lt t.isLt) := by
  dsimp only [dat1]; simp only [Fin.coe_castSucc]

/-- After any point but the first the invariant gives back what the launch handed over: the scratch buffers' named
    contents are forgotten. -/
theorem Phi1_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨A1, A2, A3, A4, A5, A6, HS0, HS1⟩, Hg⟩
  isplitl [A1 A2 A3 A4 A5 A6 HS0 HS1]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    iexists _; iexact HS1
  iexact Hg

/-- The same after the last point. -/
theorem Phi1_last (c : Dev nD) : (dat1 V c).Φ (Fin.last cfg1.N) ⊢ Pipeline.ΦA spec1 c :=
  Phi1_out V c _ (by rw [Fin.val_last]; have : cfg1.N = 40 := N_1; omega)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later tile the class-distance block's staging buffer still holds what the point before left: it is written back only
    after the last tile of a batch. -/
theorem before1_4_B (c : Dev nD) (t : Fin cfg1.N) (h0 : ¬t.val % 20 = 0) (d) :
    (dat1 V c).before 4 t d = (outsAt1 V c (t.val - 1) (Nat.lt_of_le_of_lt (Nat.sub_le _ _) t.isLt)).1 := by
  have hN : t.val < 40 := lt_of_lt_of_eq t.isLt (show cfg1.N = 40 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a later tile the row-variation block's staging buffer still holds what the point before left: it is written back only
    after the last tile of a batch. -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.1 := by
  have hN : t.val < 40 := lt_of_lt_of_eq t.isLt (show cfg1.N = 40 from N_1)
  rw [Dat.before_out_kept _ 5 rfl t (by omega) (Bool.eq_false_iff.mpr fun h => by have := (flush1_5 _).mp h; dsimp only at this; omega)
    (fun _ => rfl) (fun _ _ => rfl)]
  dsimp only [dat1]
/-- At a later tile the column-variation block's staging buffer still holds what the point before left: it is written back only
    after the last tile of a batch. -/
theorem before1_6_B (c : Dev nD) (t : Fin cfg1.N) (h0 : ¬t.val % 20 = 0) (d) :
    (dat1 V c).before 6 t d = (outsAt1 V c (t.val - 1) (Nat.lt_of_le_of_lt (Nat.sub_le _ _) t.isLt)).2.2.1 := by
  have hN : t.val < 40 := lt_of_lt_of_eq t.isLt (show cfg1.N = 40 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a later tile the channel-variation block's staging buffer still holds what the point before left: it is written back only
    after the last tile of a batch. -/
theorem before1_7_B (c : Dev nD) (t : Fin cfg1.N) (h0 : ¬t.val % 20 = 0) (d) :
    (dat1 V c).before 7 t d = (outsAt1 V c (t.val - 1) (Nat.lt_of_le_of_lt (Nat.sub_le _ _) t.isLt)).2.2.2.1 := by
  have hN : t.val < 40 := lt_of_lt_of_eq t.isLt (show cfg1.N = 40 from N_1)
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

/-- One bit that is zero selects the second operand. -/
theorem select_zero1 {α : Type} (a b : α) : Scalar.select 0#1 a b = b := if_neg (by decide)

/-- At the first tile of a batch the comparison "tile coordinate above zero" fails. -/
theorem hsgt1 : ∀ t : Fin cfg1.N, t.val % 20 = 0 → Scalar.cmpi .sgt (BitVec.ofNat 32 ((grid1.coords t) 1).val) 0#32 = 0#1 :=
  (by decide +kernel : ∀ t : Fin grid1.N, t.val % 20 = 0 → Scalar.cmpi .sgt (BitVec.ofNat 32 ((grid1.coords t) 1).val) 0#32 = 0#1)

/-- What is stored in the row-variation block when the comparison "tile coordinate above zero" fails: the select takes
    its zero operand, so the value read from the scratch buffers does not enter. -/
noncomputable def rowSumAtZero (v93 : FVec F S1x1 .f32) (v128 : Vec F S1x1x1 .f32) : FVec F S1x1x1 .f32 :=
  k1_pay33 v93 v93 0#1 v128

theorem k1_pay33_zero (v93 v114 : FVec F S1x1 .f32) (v128 : Vec F S1x1x1 .f32) :
    k1_pay33 v93 v114 0#1 v128 = rowSumAtZero v93 v128 := by
  unfold rowSumAtZero k1_pay33
  simp only [select_zero1]

/-- So under a condition that is zero the stored value is the same whatever the selected operand. -/
theorem k1_pay33_cond_zero (v93 v114 v114' : FVec F S1x1 .f32) (v128 : Vec F S1x1x1 .f32) (v : BitVec 1) (hv : v = 0#1) :
    k1_pay33 v93 v114 v v128 = k1_pay33 v93 v114' v v128 := by
  subst hv; rw [k1_pay33_zero, k1_pay33_zero]

theorem L4_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).1 = (kernelRun1_A c i arg2 harg2 arg3 harg3 arg4 harg4 arg5 harg5 arg6 harg6 arg7 harg7 arg8 harg8 arg9 harg9 arg10 harg10 arg11 harg11 hc0 x0 x1 x2 x3 xs0' xs1').1 := by
  unfold kernelRun1_A
  dsimp only

/-- At tile 0 the stores into the row-variation block do not depend on what the scratch buffers held. -/
theorem L5_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) (hsgt : Scalar.cmpi .sgt (BitVec.ofNat 32 (i 1).val) 0#32 = 0#1) :
    (kernelRun1_A c i arg2 harg2 arg3 harg3 arg4 harg4 arg5 harg5 arg6 harg6 arg7 harg7 arg8 harg8 arg9 harg9 arg10 harg10 arg11 harg11 hc0 x0 x1 x2 x3 xs0 xs1).2.1 = (kernelRun1_A c i arg2 harg2 arg3 harg3 arg4 harg4 arg5 harg5 arg6 harg6 arg7 harg7 arg8 harg8 arg9 harg9 arg10 harg10 arg11 harg11 hc0 x0 x1 x2 x3 xs0' xs1').2.1 := by
  unfold kernelRun1_A
  dsimp only
  refine congrArg (fun w => (⟨_, w⟩ : View.Piece (Elt F) S1x1x1 .f32) :: _) ?_
  exact k1_pay33_cond_zero _ _ _ _ _ hsgt

theorem L6_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.1 := by
  unfold kernelRun1_A
  dsimp only

theorem L7_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.1 := by
  unfold kernelRun1_A
  dsimp only

theorem LS0_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.2.1 := by
  unfold kernelRun1_A
  dsimp only

theorem LS1_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    (kernelRun1_A c i arg2 harg2 arg3 harg3 arg4 harg4 arg5 harg5 arg6 harg6 arg7 harg7 arg8 harg8 arg9 harg9 arg10 harg10 arg11 harg11 hc0 x0 x1 x2 x3 xs0 xs1).2.2.2.2.2.1 = (kernelRun1_A c i arg2 harg2 arg3 harg3 arg4 harg4 arg5 harg5 arg6 harg6 arg7 harg7 arg8 harg8 arg9 harg9 arg10 harg10 arg11 harg11 hc0 x0 x1 x2 x3 xs0' xs1').2.2.2.2.2.1 := by
  unfold kernelRun1_A
  dsimp only

theorem out1_A_4_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_4 c i arg2 harg2 arg3 harg3 arg4 harg4 arg5 harg5 arg6 harg6 arg7 harg7 arg8 harg8 arg9 harg9 arg10 harg10 arg11 harg11 hc0 x0 x1 x2 x3 xs0 xs1 = out1_A_4 c i arg2 harg2 arg3 harg3 arg4 harg4 arg5 harg5 arg6 harg6 arg7 harg7 arg8 harg8 arg9 harg9 arg10 harg10 arg11 harg11 hc0 x0 x1 x2 x3 xs0' xs1' :=
  congrArg (fun L => VO1_4.read (Elt F) (VO1_4.writes (Elt F) VO1_4.junk L)) (L4_indep c i arg2 harg2 arg3 harg3 arg4 harg4 arg5 harg5 arg6 harg6 arg7 harg7 arg8 harg8 arg9 harg9 arg10 harg10 arg11 harg11 hc0 x0 x1 x2 x3 xs0 xs0' xs1 xs1')

theorem out1_A_5_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) (hsgt : Scalar.cmpi .sgt (BitVec.ofNat 32 (i 1).val) 0#32 = 0#1) :
    out1_A_5 c i arg2 harg2 arg3 harg3 arg4 harg4 arg5 harg5 arg6 harg6 arg7 harg7 arg8 harg8 arg9 harg9 arg10 harg10 arg11 harg11 hc0 x0 x1 x2 x3 xs0 xs1 = out1_A_5 c i arg2 harg2 arg3 harg3 arg4 harg4 arg5 harg5 arg6 harg6 arg7 harg7 arg8 harg8 arg9 harg9 arg10 harg10 arg11 harg11 hc0 x0 x1 x2 x3 xs0' xs1' :=
  congrArg (fun L => VO1_5.read (Elt F) (VO1_5.writes (Elt F) VO1_5.junk L)) (L5_indep c i arg2 harg2 arg3 harg3 arg4 harg4 arg5 harg5 arg6 harg6 arg7 harg7 arg8 harg8 arg9 harg9 arg10 harg10 arg11 harg11 hc0 x0 x1 x2 x3 xs0 xs0' xs1 xs1' hsgt)

theorem out1_A_6_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_6 c i arg2 harg2 arg3 harg3 arg4 harg4 arg5 harg5 arg6 harg6 arg7 harg7 arg8 harg8 arg9 harg9 arg10 harg10 arg11 harg11 hc0 x0 x1 x2 x3 xs0 xs1 = out1_A_6 c i arg2 harg2 arg3 harg3 arg4 harg4 arg5 harg5 arg6 harg6 arg7 harg7 arg8 harg8 arg9 harg9 arg10 harg10 arg11 harg11 hc0 x0 x1 x2 x3 xs0' xs1' :=
  congrArg (fun L => VO1_6.read (Elt F) (VO1_6.writes (Elt F) VO1_6.junk L)) (L6_indep c i arg2 harg2 arg3 harg3 arg4 harg4 arg5 harg5 arg6 harg6 arg7 harg7 arg8 harg8 arg9 harg9 arg10 harg10 arg11 harg11 hc0 x0 x1 x2 x3 xs0 xs0' xs1 xs1')

theorem out1_A_7_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    out1_A_7 c i arg2 harg2 arg3 harg3 arg4 harg4 arg5 harg5 arg6 harg6 arg7 harg7 arg8 harg8 arg9 harg9 arg10 harg10 arg11 harg11 hc0 x0 x1 x2 x3 xs0 xs1 = out1_A_7 c i arg2 harg2 arg3 harg3 arg4 harg4 arg5 harg5 arg6 harg6 arg7 harg7 arg8 harg8 arg9 harg9 arg10 harg10 arg11 harg11 hc0 x0 x1 x2 x3 xs0' xs1' :=
  congrArg (fun L => VO1_7.read (Elt F) (VO1_7.writes (Elt F) VO1_7.junk L)) (L7_indep c i arg2 harg2 arg3 harg3 arg4 harg4 arg5 harg5 arg6 harg6 arg7 harg7 arg8 harg8 arg9 harg9 arg10 harg10 arg11 harg11 hc0 x0 x1 x2 x3 xs0 xs0' xs1 xs1')

theorem sout1_A_0_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    sout1_A_0 c i arg2 harg2 arg3 harg3 arg4 harg4 arg5 harg5 arg6 harg6 arg7 harg7 arg8 harg8 arg9 harg9 arg10 harg10 arg11 harg11 hc0 x0 x1 x2 x3 xs0 xs1 = sout1_A_0 c i arg2 harg2 arg3 harg3 arg4 harg4 arg5 harg5 arg6 harg6 arg7 harg7 arg8 harg8 arg9 harg9 arg10 harg10 arg11 harg11 hc0 x0 x1 x2 x3 xs0' xs1' :=
  congrArg (fun L => VS1_0.read (Elt F) (VS1_0.writes (Elt F) VS1_0.junk L)) (LS0_indep c i arg2 harg2 arg3 harg3 arg4 harg4 arg5 harg5 arg6 harg6 arg7 harg7 arg8 harg8 arg9 harg9 arg10 harg10 arg11 harg11 hc0 x0 x1 x2 x3 xs0 xs0' xs1 xs1')

theorem sout1_A_1_indep (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 xs0' : Vec F S48x80x48 .f32) (xs1 xs1' : Vec F S80x48 .f32) :
    sout1_A_1 c i arg2 harg2 arg3 harg3 arg4 harg4 arg5 harg5 arg6 harg6 arg7 harg7 arg8 harg8 arg9 harg9 arg10 harg10 arg11 harg11 hc0 x0 x1 x2 x3 xs0 xs1 = sout1_A_1 c i arg2 harg2 arg3 harg3 arg4 harg4 arg5 harg5 arg6 harg6 arg7 harg7 arg8 harg8 arg9 harg9 arg10 harg10 arg11 harg11 hc0 x0 x1 x2 x3 xs0' xs1' :=
  congrArg (fun L => VS1_1.read (Elt F) (VS1_1.writes (Elt F) VS1_1.junk L)) (LS1_indep c i arg2 harg2 arg3 harg3 arg4 harg4 arg5 harg5 arg6 harg6 arg7 harg7 arg8 harg8 arg9 harg9 arg10 harg10 arg11 harg11 hc0 x0 x1 x2 x3 xs0 xs0' xs1 xs1')

/-- What a point of tile 0 leaves does not depend on what the scratch buffers held before it: the one value read from
    them enters the row sum through a select on "tile coordinate above zero", which fails there. -/
theorem stepA1_indep (c : Dev nD) (t : Fin cfg1.N) (h0 : t.val % 20 = 0)
    (hsgt : Scalar.cmpi .sgt (BitVec.ofNat 32 ((grid1.coords t) 1).val) 0#32 = 0#1) (p p' : Outs1 F) :
    stepA1 V c t h0 p = stepA1 V c t h0 p' := by
  unfold stepA1
  exact congrArg₂ Prod.mk (out1_A_4_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (out1_A_5_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2 hsgt)
    (congrArg₂ Prod.mk (out1_A_6_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (out1_A_7_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
    (congrArg₂ Prod.mk (sout1_A_0_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)
      (sout1_A_1_indep c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p'.2.2.2.2.1 p.2.2.2.2.2 p'.2.2.2.2.2)))))

set_option maxHeartbeats 6400000 in
/-- The body at any point: the inputs' buffers hold their blocks; the tile number says which case the point is in; at a
    later tile each output's buffer holds what the point before left; the invariant hands over the two scratch buffers at
    what the point before left (before the first point, at anything: what tile 0 leaves does not depend on it) and takes
    them back at this point's contents; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5, after1_6, after1_7]
  have hN : t.val < 40 := lt_of_lt_of_eq t.isLt (show cfg1.N = 40 from N_1)
  by_cases h0 : t.val % 20 = 0
  · rw [outsAt1_A V c t h0]
    by_cases hz : t.val = 0
    · rw [PhiS_castSucc V c t, PhiS_zero V c _ _ hz, PhiA1_eq, prevOuts1_zero V c _ _ hz]
      iintro ⟨⟨⟨A1, A2, A3, A4, A5, A6, ⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [stepA1_indep V c t h0 (hsgt1 t h0) junkOuts1 ((junkOuts1 (F := F)).1, (junkOuts1 (F := F)).2.1, (junkOuts1 (F := F)).2.2.1, (junkOuts1 (F := F)).2.2.2.1, s0, s1)]
      unfold stepA1 out1_A_4 out1_A_5 out1_A_6 out1_A_7 sout1_A_0 sout1_A_1; (try dsimp only)
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) s0 s1).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [A1 A2 A3 A4 A5 A6 HS0 HS1 Hg]
      · isplitl [A1 A2 A3 A4 A5 A6 HS0 HS1]
        · isplitl [A1]; · iexact A1
          isplitl [A2]; · iexact A2
          isplitl [A3]; · iexact A3
          isplitl [A4]; · iexact A4
          isplitl [A5]; · iexact A5
          isplitl [A6]; · iexact A6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
    · rw [PhiS_castSucc V c t, PhiS_pos V c _ _ hz, prevOuts1_pos V c _ _ hz]
      unfold stepA1 out1_A_4 out1_A_5 out1_A_6 out1_A_7 sout1_A_0 sout1_A_1; (try dsimp only)
      iintro ⟨⟨⟨A1, A2, A3, A4, A5, A6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [A1 A2 A3 A4 A5 A6 HS0 HS1 Hg]
      · isplitl [A1 A2 A3 A4 A5 A6 HS0 HS1]
        · isplitl [A1]; · iexact A1
          isplitl [A2]; · iexact A2
          isplitl [A3]; · iexact A3
          isplitl [A4]; · iexact A4
          isplitl [A5]; · iexact A5
          isplitl [A6]; · iexact A6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
  · have hz : t.val ≠ 0 := fun h => h0 (by rw [h])
    rw [outsAt1_B V c t h0]
    simp only [before1_4_B V c t h0, before1_5_B V c t h0, before1_6_B V c t h0, before1_7_B V c t h0]
    rw [PhiS_castSucc V c t, PhiS_pos V c _ _ hz]
    unfold stepB1 out1_B_4 out1_B_5 out1_B_6 out1_B_7 sout1_B_0 sout1_B_1; (try dsimp only)
    iintro ⟨⟨⟨A1, A2, A3, A4, A5, A6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) _ _ _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, ⟨%e4, H4⟩, ⟨%e5, H5⟩, ⟨%e6, H6⟩, ⟨%e7, H7⟩, ⟨%es0, HS0⟩, ⟨%es1, HS1⟩⟩
    isplitl [A1 A2 A3 A4 A5 A6 HS0 HS1 Hg]
    · isplitl [A1 A2 A3 A4 A5 A6 HS0 HS1]
      · isplitl [A1]; · iexact A1
        isplitl [A2]; · iexact A2
        isplitl [A3]; · iexact A3
        isplitl [A4]; · iexact A4
        isplitl [A5]; · iexact A5
        isplitl [A6]; · iexact A6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _ _ _ _ _ _ _ _ _)

/-- The body obligation of the second kernel's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Gen.Smooth

end
-- ==== Proof.KMainRun.lean ====
/-
  The whole program's run: the first kernel, the host operations that turn its sums into class centres, the second
  kernel, and the host operations that combine its four accumulators into the loss. The buffer contents at every
  boundary are a fold from the launch memory; every weakly fair execution terminates with every unscoped buffer at
  the last boundary's contents, from which the argument arrays (unchanged) and the result are read.
-/
import proofs.«158333_j65738769433119_2_alg».proof.Proof.KCentersFrame
import proofs.«158333_j65738769433119_2_alg».proof.Proof.KSmoothFrame
import proofs.«158333_j65738769433119_2_alg».proof.Proof.Gen.Kernel.Regions

set_option maxRecDepth 16384

noncomputable section

namespace Cert.Kernel.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen.Centers Cert.Kernel.Gen.Smooth

variable (m : (ℓ : Loc nD τ sig) → Buf (Elt F) ℓ) (ρ : Dev nD → PrngReg)

/-- Core `c`'s buffers at launch (the first kernel is entered from them). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first kernel: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the kernels (the second kernel is entered from them). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- After `hostOps2_1`. -/
abbrev W6 : Dev nD → Valuation τ sig (Elt F) := fun c => StableHlo.after hostOps2_1 (W5 m ρ c)
/-- After `hostOps2_2`. -/
abbrev W7 : Dev nD → Valuation τ sig (Elt F) := fun c => StableHlo.after hostOps2_2 (W6 m ρ c)
/-- After `hostOps2_3`. -/
abbrev W8 : Dev nD → Valuation τ sig (Elt F) := fun c => StableHlo.after hostOps2_3 (W7 m ρ c)
/-- After `hostOps2_4`. -/
abbrev W9 : Dev nD → Valuation τ sig (Elt F) := fun c => StableHlo.after hostOps2_4 (W8 m ρ c)
/-- After `hostOps2_5`. -/
abbrev W10 : Dev nD → Valuation τ sig (Elt F) := fun c => StableHlo.after hostOps2_5 (W9 m ρ c)
/-- After `hostOps2_6`. -/
abbrev W11 : Dev nD → Valuation τ sig (Elt F) := fun c => StableHlo.after hostOps2_6 (W10 m ρ c)
/-- After `hostOps2_7`. -/
abbrev W12 : Dev nD → Valuation τ sig (Elt F) := fun c => StableHlo.after hostOps2_7 (W11 m ρ c)
/-- After `hostOps2_8`. -/
abbrev W13 : Dev nD → Valuation τ sig (Elt F) := fun c => StableHlo.after hostOps2_8 (W12 m ρ c)
/-- After `hostOps2_9`. -/
abbrev W14 : Dev nD → Valuation τ sig (Elt F) := fun c => StableHlo.after hostOps2_9 (W13 m ρ c)
/-- After `hostOps2_10`. -/
abbrev W15 : Dev nD → Valuation τ sig (Elt F) := fun c => StableHlo.after hostOps2_10 (W14 m ρ c)

/-! The arguments end as launched: no host operation writes one and both kernels only read them. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps2_10 _ hostOps2_10_writes (by decide)
    _ = W13 m ρ c (Proc.devRef .tc main_arg0) := StableHlo.after_of_writes_sub hostOps2_9 _ hostOps2_9_writes (by decide)
    _ = W12 m ρ c (Proc.devRef .tc main_arg0) := StableHlo.after_of_writes_sub hostOps2_8 _ hostOps2_8_writes (by decide)
    _ = W11 m ρ c (Proc.devRef .tc main_arg0) := StableHlo.after_of_writes_sub hostOps2_7 _ hostOps2_7_writes (by decide)
    _ = W10 m ρ c (Proc.devRef .tc main_arg0) := StableHlo.after_of_writes_sub hostOps2_6 _ hostOps2_6_writes (by decide)
    _ = W9 m ρ c (Proc.devRef .tc main_arg0) := StableHlo.after_of_writes_sub hostOps2_5 _ hostOps2_5_writes (by decide)
    _ = W8 m ρ c (Proc.devRef .tc main_arg0) := StableHlo.after_of_writes_sub hostOps2_4 _ hostOps2_4_writes (by decide)
    _ = W7 m ρ c (Proc.devRef .tc main_arg0) := StableHlo.after_of_writes_sub hostOps2_3 _ hostOps2_3_writes (by decide)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps2_10 _ hostOps2_10_writes (by decide)
    _ = W13 m ρ c (Proc.devRef .tc main_arg1) := StableHlo.after_of_writes_sub hostOps2_9 _ hostOps2_9_writes (by decide)
    _ = W12 m ρ c (Proc.devRef .tc main_arg1) := StableHlo.after_of_writes_sub hostOps2_8 _ hostOps2_8_writes (by decide)
    _ = W11 m ρ c (Proc.devRef .tc main_arg1) := StableHlo.after_of_writes_sub hostOps2_7 _ hostOps2_7_writes (by decide)
    _ = W10 m ρ c (Proc.devRef .tc main_arg1) := StableHlo.after_of_writes_sub hostOps2_6 _ hostOps2_6_writes (by decide)
    _ = W9 m ρ c (Proc.devRef .tc main_arg1) := StableHlo.after_of_writes_sub hostOps2_5 _ hostOps2_5_writes (by decide)
    _ = W8 m ρ c (Proc.devRef .tc main_arg1) := StableHlo.after_of_writes_sub hostOps2_4 _ hostOps2_4_writes (by decide)
    _ = W7 m ρ c (Proc.devRef .tc main_arg1) := StableHlo.after_of_writes_sub hostOps2_3 _ hostOps2_3_writes (by decide)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (by decide)
    _ = W0 m ρ c (Proc.devRef .tc main_arg1) := W2_of_ne m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps2_10 _ hostOps2_10_writes (by decide)
    _ = W13 m ρ c (Proc.devRef .tc main_arg2) := StableHlo.after_of_writes_sub hostOps2_9 _ hostOps2_9_writes (by decide)
    _ = W12 m ρ c (Proc.devRef .tc main_arg2) := StableHlo.after_of_writes_sub hostOps2_8 _ hostOps2_8_writes (by decide)
    _ = W11 m ρ c (Proc.devRef .tc main_arg2) := StableHlo.after_of_writes_sub hostOps2_7 _ hostOps2_7_writes (by decide)
    _ = W10 m ρ c (Proc.devRef .tc main_arg2) := StableHlo.after_of_writes_sub hostOps2_6 _ hostOps2_6_writes (by decide)
    _ = W9 m ρ c (Proc.devRef .tc main_arg2) := StableHlo.after_of_writes_sub hostOps2_5 _ hostOps2_5_writes (by decide)
    _ = W8 m ρ c (Proc.devRef .tc main_arg2) := StableHlo.after_of_writes_sub hostOps2_4 _ hostOps2_4_writes (by decide)
    _ = W7 m ρ c (Proc.devRef .tc main_arg2) := StableHlo.after_of_writes_sub hostOps2_3 _ hostOps2_3_writes (by decide)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (by decide)
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
/-- Kernel 0 as a segment: entered with every unscoped buffer at `W0`, left with them at `W2`; its arrays are
    split out of the unscoped buffers and put back at what the pipeline leaves; the generator register goes into the
    kernel's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered with every unscoped buffer at `W3`, left with them at `W4`; its arrays are
    split out of the unscoped buffers and put back at what the pipeline leaves; the generator register goes into the
    kernel's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The frame: every execution terminates, faults nowhere, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c)⟩) (run_all m ρ)

end Cert.Kernel.Gen.Whole

end
-- ==== Proof.TailFn.lean ====
/-
  The host operations after the second kernel, as ONE function of the six arrays they read: the label counts, the class
  centres, and the second kernel's four accumulators. It divides the class sums by the counts and averages them over
  the classes with at least two positions; takes the hinge of one minus the distance between a batch's two centres,
  averaged over the batches where both classes occur; divides the three total-variation sums by their numbers of
  neighbouring pairs (the depth term also by ten); and returns 1.0 · compact + 0.5 · separation + 0.3 · smoothness.
  The program's result is this function of what the two kernels and the host operations between them leave.
-/
import proofs.«158333_j65738769433119_2_alg».proof.Proof.Gen.KernelIdeal
import Idealize.ShloMosaic.PureOps.Ideal

set_option maxRecDepth 16384

noncomputable section

namespace Cert.KernelIdeal.Gen.Tail

open Idealize.ShloMosaic Idealize.ShloMosaic.TcCoe

/-- The loss from the counts `n`, the centres `cen` and the four accumulators. -/
def tailFn (n : FVec Ideal S2x2 .f32) (cen : FVec Ideal S2x2x48 .f32) (a0 : FVec Ideal S2x2x1 .f32)
    (a1 a2 a3 : FVec Ideal S2x1x1 .f32) : FVec Ideal S_ .f32 :=
  have z0 : FVec Ideal S_ .f32 := (constant (F := Ideal) S_ .f32 0x00000000#32)
  have v20 : FVec Ideal S2x2 .f32 := shapeCast S2x2 a0 shapeCasts_S2x2x1_S2x2
  have v22 : FVec Ideal S2x2 .f32 := maximumf n (broadcastInDim S2x2 ![] bcast_S_S2x2 (constant (F := Ideal) S_ .f32 0x3F800000#32))
  have v23 : FVec Ideal S2x2 .f32 := Host.divf v20 v22
  have v25 : IVec S2x2 1 := cmpf .oge n (broadcastInDim S2x2 ![] bcast_S_S2x2 (constant (F := Ideal) S_ .f32 0x40000000#32))
  have v27 : IVec S_ 32 := Host.reduce IntOp.addi (extui 32 v25 natLt_1_32) (constantI S_ 32 0#32) reducesTo_S2x2_S_d0_1 h_S_
  have v28 : IVec S_ 1 := cmpi .sgt v27 (constantI S_ 32 0#32)
  have v29 : FVec Ideal S2x2 .f32 := select v25 v23 (broadcastInDim S2x2 ![] bcast_S_S2x2 z0)
  have v30 : FVec Ideal S_ .f32 := Host.reduceAdd v29 z0 reducesTo_S2x2_S_d0_1 h_S_
  have v32 : FVec Ideal S_ .f32 := sitofp .f32 (maxsi v27 (constantI S_ 32 1#32))
  have v34 : FVec Ideal S_ .f32 := select v28 (Host.divf v30 v32) z0
  have v36 : IVec S2x2 1 := cmpf .ogt n (broadcastInDim S2x2 ![] bcast_S_S2x2 z0)
  have v38 : FVec Ideal S2x48 .f32 := shapeCast S2x48 (extractStridedSlice S2x1x48 ![0, 0, 0] cen slices_S2x2x48_S2x1x48_0_0_0) shapeCasts_S2x1x48_S2x48
  have v40 : FVec Ideal S2x48 .f32 := shapeCast S2x48 (extractStridedSlice S2x1x48 ![0, 1, 0] cen slices_S2x2x48_S2x1x48_0_1_0) shapeCasts_S2x1x48_S2x48
  have v41 : FVec Ideal S2x48 .f32 := subf v38 v40
  have v43 : FVec Ideal S2 .f32 := Host.reduceAdd (mulf v41 v41) z0 reducesTo_S2x48_S2_d1 h_S_
  have v46 : FVec Ideal S2 .f32 := Host.sqrt (addf v43 (broadcastInDim S2 ![] bcast_S_S2 (constant (F := Ideal) S_ .f32 0x2B8CBCCC#32)))
  have v48 : FVec Ideal S2 .f32 := subf (broadcastInDim S2 ![] bcast_S_S2 (constant (F := Ideal) S_ .f32 0x3F800000#32)) v46
  have v49 : FVec Ideal S2 .f32 := maximumf v48 (broadcastInDim S2 ![] bcast_S_S2 z0)
  have v51 : IVec S2 1 := shapeCast S2 (extractStridedSlice S2x1 ![0, 0] v36 slices_S2x2_S2x1_0_0) shapeCasts_S2x1_S2
  have v53 : IVec S2 1 := shapeCast S2 (extractStridedSlice S2x1 ![0, 1] v36 slices_S2x2_S2x1_0_1) shapeCasts_S2x1_S2
  have v54 : IVec S2 1 := andi v51 v53
  have v55 : FVec Ideal S2 .f32 := select v54 v49 (broadcastInDim S2 ![] bcast_S_S2 z0)
  have v56 : FVec Ideal S_ .f32 := Host.reduceAdd v55 z0 reducesTo_S2_S_d0 h_S_
  have v58 : FVec Ideal S_ .f32 := Host.reduceAdd (uitofp .f32 v54 : FVec Ideal S2 .f32) z0 reducesTo_S2_S_d0 h_S_
  have v59 : IVec S_ 1 := cmpf .ogt v58 z0
  have v61 : FVec Ideal S_ .f32 := Host.divf v56 (maximumf v58 (constant (F := Ideal) S_ .f32 0x3F800000#32))
  have v62 : FVec Ideal S_ .f32 := select v59 v61 z0
  have v64 : FVec Ideal S_ .f32 := Host.divf (Host.reduceAdd a1 z0 reducesTo_S2x1x1_S_d0_1_2 h_S_) (constant (F := Ideal) S_ .f32 0x49142000#32)
  have v66 : FVec Ideal S_ .f32 := Host.divf (Host.reduceAdd a2 z0 reducesTo_S2x1x1_S_d0_1_2 h_S_) (constant (F := Ideal) S_ .f32 0x49142000#32)
  have v68 : FVec Ideal S_ .f32 := Host.divf (Host.reduceAdd a3 z0 reducesTo_S2x1x1_S_d0_1_2 h_S_) (constant (F := Ideal) S_ .f32 0x4BDC5000#32)
  have v69 : FVec Ideal S_ .f32 := mulf v68 (constant (F := Ideal) S_ .f32 0x3DCCCCCD#32)
  have v71 : FVec Ideal S_ .f32 := addf (addf v64 v66) v69
  have v72 : FVec Ideal S_ .f32 := mulf (constant (F := Ideal) S_ .f32 0x3F800000#32) v34
  have v73 : FVec Ideal S_ .f32 := mulf (constant (F := Ideal) S_ .f32 0x3F000000#32) v62
  addf (addf v72 v73) (mulf (constant (F := Ideal) S_ .f32 0x3E99999A#32) v71)

end Cert.KernelIdeal.Gen.Tail

end
-- ==== Proof.Tail.lean ====
/-
  The kernel program's result is the tail function (the host operations after the second kernel, composed) of the six
  arrays the second kernel's exit leaves: the host stretches are folded one after the other over those contents.
-/
import proofs.«158333_j65738769433119_2_alg».proof.Proof.MainRun
import proofs.«158333_j65738769433119_2_alg».proof.Proof.TailFn

set_option maxRecDepth 16384

noncomputable section

namespace Cert.KernelIdeal.Gen.Tail

open Idealize.ShloMosaic Idealize.ShloMosaic.TcCoe Idealize.SL.Sem
open Cert.KernelIdeal.Gen.Whole

variable (m : (ℓ : Loc nD τ sig) → Buf (Elt Ideal) ℓ) (ρ : Dev nD → PrngReg)

set_option maxHeartbeats 3200000 in
/-- The program's result is the tail function of the six arrays as the second kernel's exit leaves them. -/
theorem tail_value (c : Dev nD) :
    W15 (F := Ideal) m ρ c (Proc.devRef .tc main_v76)
      = tailFn (W4 (F := Ideal) m ρ c (Proc.devRef .tc main_v13)) (W4 (F := Ideal) m ρ c (Proc.devRef .tc main_v18))
          (W4 (F := Ideal) m ρ c (Proc.devRef .tc main_v19_0)) (W4 (F := Ideal) m ρ c (Proc.devRef .tc main_v19_1))
          (W4 (F := Ideal) m ρ c (Proc.devRef .tc main_v19_2)) (W4 (F := Ideal) m ρ c (Proc.devRef .tc main_v19_3)) := by
  dsimp only [W15, W14, W13, W12, W11, W10, W9, W8, W7, W6, W5]
  generalize W4 (F := Ideal) m ρ c = V
  after_results_simp <;> rfl

end Cert.KernelIdeal.Gen.Tail

end
-- ==== Proof.RefValueDefs.lean ====
/-
  The reference program's intermediate arrays, each a function of the three argument arrays: the class indicator,
  the label counts, the feature rows, the class centres, the distances, the two-class softmax and its larger entry,
  the class sums and the three total-variation sums; the remaining scalar operations as one function of those; and the
  statement that the program's composed result term is that function of them.
-/
import proofs.«158333_j65738769433119_2_alg».proof.Proof.RefRunPatched
import Idealize.ShloMosaic.Lib.ValueIdx

noncomputable section

namespace Cert.ReferenceIdeal.RefValue

open Cert.ReferenceIdeal Cert.ReferenceIdeal.Gen Idealize.ShloMosaic Idealize.ShloMosaic.TcCoe

def refOnehot (T : IVec S2x1x80x80x48 32) :=
  uitofp (F := Ideal) .f32 (cmpi .eq (broadcastInDim S2x307200x2 ![0, 1, 2] bcast_S2x307200x1_S2x307200x2_0_1_2 (broadcastInDim S2x307200x1 ![0, 1] bcast_S2x307200_S2x307200x1_0_1 (shapeCast _ T shapeCasts_S2x1x80x80x48_S2x307200))) (broadcastInDim S2x307200x2 ![0, 1, 2] bcast_S1x1x2_S2x307200x2_0_1_2 (broadcastInDim S1x1x2 ![2] bcast_S2_S1x1x2_2 (iotaInDim S2 32 0))))

def refN (T : IVec S2x1x80x80x48 32) :=
  Host.reduceAdd (refOnehot T) (constant (F := Ideal) S_ .f32 0x00000000#32) reducesTo_S2x307200x2_S2x2_d1 h_S_

def refFeat (X : FVec Ideal S2x48x80x80x48 .f32) :=
  transpose S2x307200x48 [0, 2, 1] (shapeCast _ X shapeCasts_S2x48x80x80x48_S2x48x307200) transposes_S2x48x307200_S2x307200x48_0_2_1

def refCsum (X : FVec Ideal S2x48x80x80x48 .f32) (T : IVec S2x1x80x80x48 32) :=
  Host.dotGeneral dot_S2x307200x2_S2x307200x48_S2x2x48_1_1_2_2_0_0 none (refOnehot T) (refFeat X)

def refNmax (T : IVec S2x1x80x80x48 32) :=
  maximumf (refN T) (broadcastInDim S2x2 ![] bcast_S_S2x2 (constant (F := Ideal) S_ .f32 0x3F800000#32))

def refCenter (X : FVec Ideal S2x48x80x80x48 .f32) (T : IVec S2x1x80x80x48 32) :=
  Host.divf (refCsum X T) (broadcastInDim S2x2x48 ![0, 1, 2] bcast_S2x2x1_S2x2x48_0_1_2 (broadcastInDim S2x2x1 ![0, 1] bcast_S2x2_S2x2x1_0_1 (refNmax T)))

def refSq (X : FVec Ideal S2x48x80x80x48 .f32) (T : IVec S2x1x80x80x48 32) :=
  Host.reduceAdd (mulf (subf (broadcastInDim S2x2x307200x48 ![0, 1, 2, 3] bcast_S2x1x307200x48_S2x2x307200x48_0_1_2_3 (broadcastInDim S2x1x307200x48 ![0, 2, 3] bcast_S2x307200x48_S2x1x307200x48_0_2_3 (refFeat X))) (broadcastInDim S2x2x307200x48 ![0, 1, 2, 3] bcast_S2x2x1x48_S2x2x307200x48_0_1_2_3 (broadcastInDim S2x2x1x48 ![0, 1, 3] bcast_S2x2x48_S2x2x1x48_0_1_3 (refCenter X T)))) (subf (broadcastInDim S2x2x307200x48 ![0, 1, 2, 3] bcast_S2x1x307200x48_S2x2x307200x48_0_1_2_3 (broadcastInDim S2x1x307200x48 ![0, 2, 3] bcast_S2x307200x48_S2x1x307200x48_0_2_3 (refFeat X))) (broadcastInDim S2x2x307200x48 ![0, 1, 2, 3] bcast_S2x2x1x48_S2x2x307200x48_0_1_2_3 (broadcastInDim S2x2x1x48 ![0, 1, 3] bcast_S2x2x48_S2x2x1x48_0_1_3 (refCenter X T))))) (constant (F := Ideal) S_ .f32 0x00000000#32) reducesTo_S2x2x307200x48_S2x2x307200_d3 h_S_

def refDist (X : FVec Ideal S2x48x80x80x48 .f32) (T : IVec S2x1x80x80x48 32) :=
  Host.sqrt (addf (refSq X T) (broadcastInDim S2x2x307200 ![] bcast_S_S2x2x307200 (constant (F := Ideal) S_ .f32 0x2B8CBCCC#32)))

def refMax0 (P : FVec Ideal S2x2x80x80x48 .f32) :=
  Host.reduce FloatOps.maximumf P (constant (F := Ideal) S_ .f32 0xFF800000#32) reducesTo_S2x2x80x80x48_S2x80x80x48_d1 h_S_

def refMx (P : FVec Ideal S2x2x80x80x48 .f32) :=
  maximumf (broadcastInDim S2x80x80x48 ![] bcast_S_S2x80x80x48 (constant (F := Ideal) S_ .f32 0xFF800000#32)) (refMax0 P)

def refEx (P : FVec Ideal S2x2x80x80x48 .f32) :=
  Host.exp (subf P (broadcastInDim S2x2x80x80x48 ![0, 1, 2, 3, 4] bcast_S2x1x80x80x48_S2x2x80x80x48_0_1_2_3_4 (broadcastInDim S2x1x80x80x48 ![0, 2, 3, 4] bcast_S2x80x80x48_S2x1x80x80x48_0_2_3_4 (refMx P))))

def refDen (P : FVec Ideal S2x2x80x80x48 .f32) :=
  Host.reduceAdd (refEx P) (constant (F := Ideal) S_ .f32 0x00000000#32) reducesTo_S2x2x80x80x48_S2x80x80x48_d1 h_S_

def refProbs (P : FVec Ideal S2x2x80x80x48 .f32) :=
  Host.divf (refEx P) (broadcastInDim S2x2x80x80x48 ![0, 1, 2, 3, 4] bcast_S2x1x80x80x48_S2x2x80x80x48_0_1_2_3_4 (broadcastInDim S2x1x80x80x48 ![0, 2, 3, 4] bcast_S2x80x80x48_S2x1x80x80x48_0_2_3_4 (refDen P)))

def refPflat (P : FVec Ideal S2x2x80x80x48 .f32) :=
  shapeCast _ (refProbs P) shapeCasts_S2x2x80x80x48_S2x2x307200

def refMask (T : IVec S2x1x80x80x48 32) :=
  transpose S2x2x307200 [0, 2, 1] (refOnehot T) transposes_S2x307200x2_S2x2x307200_0_2_1

def refClassTerm (X : FVec Ideal S2x48x80x80x48 .f32) (P : FVec Ideal S2x2x80x80x48 .f32) (T : IVec S2x1x80x80x48 32) :=
  mulf (mulf (refDist X T) (refPflat P)) (refMask T)

def refClassSum (X : FVec Ideal S2x48x80x80x48 .f32) (P : FVec Ideal S2x2x80x80x48 .f32) (T : IVec S2x1x80x80x48 32) :=
  Host.reduceAdd (refClassTerm X P T) (constant (F := Ideal) S_ .f32 0x00000000#32) reducesTo_S2x2x307200_S2x2_d2 h_S_

def refDh2 (X : FVec Ideal S2x48x80x80x48 .f32) :=
  Host.reduceAdd (mulf (subf (extractStridedSlice S2x48x79x80x48 ![0, 0, 1, 0, 0] X slices_S2x48x80x80x48_S2x48x79x80x48_0_0_1_0_0) (extractStridedSlice S2x48x79x80x48 ![0, 0, 0, 0, 0] X slices_S2x48x80x80x48_S2x48x79x80x48_0_0_0_0_0)) (subf (extractStridedSlice S2x48x79x80x48 ![0, 0, 1, 0, 0] X slices_S2x48x80x80x48_S2x48x79x80x48_0_0_1_0_0) (extractStridedSlice S2x48x79x80x48 ![0, 0, 0, 0, 0] X slices_S2x48x80x80x48_S2x48x79x80x48_0_0_0_0_0))) (constant (F := Ideal) S_ .f32 0x00000000#32) reducesTo_S2x48x79x80x48_S2x79x80x48_d1 h_S_

def refConf (P : FVec Ideal S2x2x80x80x48 .f32) :=
  Host.reduce FloatOps.maximumf (refProbs P) (constant (F := Ideal) S_ .f32 0xFF800000#32) reducesTo_S2x2x80x80x48_S2x80x80x48_d1 h_S_

def refWh (P : FVec Ideal S2x2x80x80x48 .f32) :=
  mulf (broadcastInDim S2x79x80x48 ![] bcast_S_S2x79x80x48 (constant (F := Ideal) S_ .f32 0x3F000000#32)) (addf (extractStridedSlice S2x79x80x48 ![0, 1, 0, 0] (refConf P) slices_S2x80x80x48_S2x79x80x48_0_1_0_0) (extractStridedSlice S2x79x80x48 ![0, 0, 0, 0] (refConf P) slices_S2x80x80x48_S2x79x80x48_0_0_0_0))

def refTvHTerm (X : FVec Ideal S2x48x80x80x48 .f32) (P : FVec Ideal S2x2x80x80x48 .f32) :=
  mulf (refDh2 X) (refWh P)

def refTvH (X : FVec Ideal S2x48x80x80x48 .f32) (P : FVec Ideal S2x2x80x80x48 .f32) :=
  Host.reduceAdd (refTvHTerm X P) (constant (F := Ideal) S_ .f32 0x00000000#32) reducesTo_S2x79x80x48_S_d0_1_2_3 h_S_

def refDw2 (X : FVec Ideal S2x48x80x80x48 .f32) :=
  Host.reduceAdd (mulf (subf (extractStridedSlice S2x48x80x79x48 ![0, 0, 0, 1, 0] X slices_S2x48x80x80x48_S2x48x80x79x48_0_0_0_1_0) (extractStridedSlice S2x48x80x79x48 ![0, 0, 0, 0, 0] X slices_S2x48x80x80x48_S2x48x80x79x48_0_0_0_0_0)) (subf (extractStridedSlice S2x48x80x79x48 ![0, 0, 0, 1, 0] X slices_S2x48x80x80x48_S2x48x80x79x48_0_0_0_1_0) (extractStridedSlice S2x48x80x79x48 ![0, 0, 0, 0, 0] X slices_S2x48x80x80x48_S2x48x80x79x48_0_0_0_0_0))) (constant (F := Ideal) S_ .f32 0x00000000#32) reducesTo_S2x48x80x79x48_S2x80x79x48_d1 h_S_

def refWw (P : FVec Ideal S2x2x80x80x48 .f32) :=
  mulf (broadcastInDim S2x80x79x48 ![] bcast_S_S2x80x79x48 (constant (F := Ideal) S_ .f32 0x3F000000#32)) (addf (extractStridedSlice S2x80x79x48 ![0, 0, 1, 0] (refConf P) slices_S2x80x80x48_S2x80x79x48_0_0_1_0) (extractStridedSlice S2x80x79x48 ![0, 0, 0, 0] (refConf P) slices_S2x80x80x48_S2x80x79x48_0_0_0_0))

def refTvWTerm (X : FVec Ideal S2x48x80x80x48 .f32) (P : FVec Ideal S2x2x80x80x48 .f32) :=
  mulf (refDw2 X) (refWw P)

def refTvW (X : FVec Ideal S2x48x80x80x48 .f32) (P : FVec Ideal S2x2x80x80x48 .f32) :=
  Host.reduceAdd (refTvWTerm X P) (constant (F := Ideal) S_ .f32 0x00000000#32) reducesTo_S2x80x79x48_S_d0_1_2_3 h_S_

def refDd2 (X : FVec Ideal S2x48x80x80x48 .f32) :=
  mulf (subf (extractStridedSlice S2x48x80x80x47 ![0, 0, 0, 0, 1] X slices_S2x48x80x80x48_S2x48x80x80x47_0_0_0_0_1) (extractStridedSlice S2x48x80x80x47 ![0, 0, 0, 0, 0] X slices_S2x48x80x80x48_S2x48x80x80x47_0_0_0_0_0)) (subf (extractStridedSlice S2x48x80x80x47 ![0, 0, 0, 0, 1] X slices_S2x48x80x80x48_S2x48x80x80x47_0_0_0_0_1) (extractStridedSlice S2x48x80x80x47 ![0, 0, 0, 0, 0] X slices_S2x48x80x80x48_S2x48x80x80x47_0_0_0_0_0))

def refTvD (X : FVec Ideal S2x48x80x80x48 .f32) :=
  Host.reduceAdd (refDd2 X) (constant (F := Ideal) S_ .f32 0x00000000#32) reducesTo_S2x48x80x80x47_S_d0_1_2_3_4 h_S_

/-- The scalar operations after the array stages: the compactness mean over the classes with at least two positions,
    the separation hinge on the two centres' distance, and the weighted sum with the three total-variation means. -/
def refTail (n : FVec Ideal S2x2 .f32) (ctr : FVec Ideal S2x2x48 .f32) (cs : FVec Ideal S2x2 .f32)
    (tvh tvw tvd : FVec Ideal S_ .f32) : FVec Ideal S_ .f32 :=
  addf (addf (mulf (constant (F := Ideal) S_ .f32 0x3F800000#32) (select (cmpi .sgt (Host.reduce IntOp.addi (extui 32 (cmpf (F := Ideal) .oge n (broadcastInDim S2x2 ![] bcast_S_S2x2 (constant (F := Ideal) S_ .f32 0x40000000#32))) natLt_1_32) (constantI S_ 32 0#32) reducesTo_S2x2_S_d0_1 h_S_) (constantI S_ 32 0#32)) (Host.divf (Host.reduceAdd (select (cmpf (F := Ideal) .oge n (broadcastInDim S2x2 ![] bcast_S_S2x2 (constant (F := Ideal) S_ .f32 0x40000000#32))) (Host.divf cs (maximumf n (broadcastInDim S2x2 ![] bcast_S_S2x2 (constant (F := Ideal) S_ .f32 0x3F800000#32)))) (broadcastInDim S2x2 ![] bcast_S_S2x2 (id (constant (F := Ideal) S_ .f32 0x00000000#32)))) (constant (F := Ideal) S_ .f32 0x00000000#32) reducesTo_S2x2_S_d0_1 h_S_) (sitofp (F := Ideal) .f32 (maxsi (Host.reduce IntOp.addi (extui 32 (cmpf (F := Ideal) .oge n (broadcastInDim S2x2 ![] bcast_S_S2x2 (constant (F := Ideal) S_ .f32 0x40000000#32))) natLt_1_32) (constantI S_ 32 0#32) reducesTo_S2x2_S_d0_1 h_S_) (constantI S_ 32 1#32)))) (id (constant (F := Ideal) S_ .f32 0x00000000#32)))) (mulf (constant (F := Ideal) S_ .f32 0x3F000000#32) (select (cmpf (F := Ideal) .ogt (addf (constant (F := Ideal) S_ .f32 0x00000000#32) (sitofp (F := Ideal) .f32 (Host.reduce IntOp.addi (extui 32 (andi (shapeCast _ (extractStridedSlice S2x1 ![0, 0] (cmpf (F := Ideal) .ogt n (broadcastInDim S2x2 ![] bcast_S_S2x2 (constant (F := Ideal) S_ .f32 0x00000000#32))) slices_S2x2_S2x1_0_0) shapeCasts_S2x1_S2) (shapeCast _ (extractStridedSlice S2x1 ![0, 1] (cmpf (F := Ideal) .ogt n (broadcastInDim S2x2 ![] bcast_S_S2x2 (constant (F := Ideal) S_ .f32 0x00000000#32))) slices_S2x2_S2x1_0_1) shapeCasts_S2x1_S2)) natLt_1_32) (constantI S_ 32 0#32) reducesTo_S2_S_d0 h_S_))) (constant (F := Ideal) S_ .f32 0x00000000#32)) (Host.divf (addf (constant (F := Ideal) S_ .f32 0x00000000#32) (Host.reduceAdd (select (andi (shapeCast _ (extractStridedSlice S2x1 ![0, 0] (cmpf (F := Ideal) .ogt n (broadcastInDim S2x2 ![] bcast_S_S2x2 (constant (F := Ideal) S_ .f32 0x00000000#32))) slices_S2x2_S2x1_0_0) shapeCasts_S2x1_S2) (shapeCast _ (extractStridedSlice S2x1 ![0, 1] (cmpf (F := Ideal) .ogt n (broadcastInDim S2x2 ![] bcast_S_S2x2 (constant (F := Ideal) S_ .f32 0x00000000#32))) slices_S2x2_S2x1_0_1) shapeCasts_S2x1_S2)) (maximumf (subf (broadcastInDim S2 ![] bcast_S_S2 (constant (F := Ideal) S_ .f32 0x3F800000#32)) (Host.sqrt (addf (Host.reduceAdd (mulf (subf (shapeCast _ (extractStridedSlice S2x1x48 ![0, 0, 0] ctr slices_S2x2x48_S2x1x48_0_0_0) shapeCasts_S2x1x48_S2x48) (shapeCast _ (extractStridedSlice S2x1x48 ![0, 1, 0] ctr slices_S2x2x48_S2x1x48_0_1_0) shapeCasts_S2x1x48_S2x48)) (subf (shapeCast _ (extractStridedSlice S2x1x48 ![0, 0, 0] ctr slices_S2x2x48_S2x1x48_0_0_0) shapeCasts_S2x1x48_S2x48) (shapeCast _ (extractStridedSlice S2x1x48 ![0, 1, 0] ctr slices_S2x2x48_S2x1x48_0_1_0) shapeCasts_S2x1x48_S2x48))) (constant (F := Ideal) S_ .f32 0x00000000#32) reducesTo_S2x48_S2_d1 h_S_) (broadcastInDim S2 ![] bcast_S_S2 (constant (F := Ideal) S_ .f32 0x2B8CBCCC#32))))) (broadcastInDim S2 ![] bcast_S_S2 (constant (F := Ideal) S_ .f32 0x00000000#32))) (broadcastInDim S2 ![] bcast_S_S2 (id (constant (F := Ideal) S_ .f32 0x00000000#32)))) (constant (F := Ideal) S_ .f32 0x00000000#32) reducesTo_S2_S_d0 h_S_)) (maximumf (addf (constant (F := Ideal) S_ .f32 0x00000000#32) (sitofp (F := Ideal) .f32 (Host.reduce IntOp.addi (extui 32 (andi (shapeCast _ (extractStridedSlice S2x1 ![0, 0] (cmpf (F := Ideal) .ogt n (broadcastInDim S2x2 ![] bcast_S_S2x2 (constant (F := Ideal) S_ .f32 0x00000000#32))) slices_S2x2_S2x1_0_0) shapeCasts_S2x1_S2) (shapeCast _ (extractStridedSlice S2x1 ![0, 1] (cmpf (F := Ideal) .ogt n (broadcastInDim S2x2 ![] bcast_S_S2x2 (constant (F := Ideal) S_ .f32 0x00000000#32))) slices_S2x2_S2x1_0_1) shapeCasts_S2x1_S2)) natLt_1_32) (constantI S_ 32 0#32) reducesTo_S2_S_d0 h_S_))) (constant (F := Ideal) S_ .f32 0x3F800000#32))) (id (constant (F := Ideal) S_ .f32 0x00000000#32))))) (mulf (constant (F := Ideal) S_ .f32 0x3E99999A#32) (addf (addf (Host.divf tvh (constant (F := Ideal) S_ .f32 0x49142000#32)) (Host.divf tvw (constant (F := Ideal) S_ .f32 0x49142000#32))) (mulf (Host.divf tvd (constant (F := Ideal) S_ .f32 0x4BDC5000#32)) (constant (F := Ideal) S_ .f32 0x3DCCCCCD#32))))

/-- The whole loss as a function of the three arrays. -/
def refLoss (X : FVec Ideal S2x48x80x80x48 .f32) (P : FVec Ideal S2x2x80x80x48 .f32) (T : IVec S2x1x80x80x48 32) : FVec Ideal S_ .f32 :=
  refTail (refN T) (refCenter X T) (refClassSum X P T) (refTvH X P) (refTvW X P) (refTvD X)

set_option maxRecDepth 8192 in
set_option maxHeartbeats 4000000 in
/-- The program's composed result term is the loss function of the three argument arrays as launched. -/
theorem res_eq (m : (ℓ : Loc nD τ sig) → Buf (Elt Ideal) ℓ) (c : Dev nD) :
    ValueP.res_main_v128 (F := Ideal) m c
      = refLoss (m ((c.tc : Thread nD τ).loc main_arg0)) (m ((c.tc : Thread nD τ).loc main_arg1))
          (m ((c.tc : Thread nD τ).loc main_arg2)) := rfl

end Cert.ReferenceIdeal.RefValue

end
-- ==== Proof.TailBridge.lean ====
/-
  The two programs' scalar tails are one function. The reference's tail, read as a function of the label counts, the
  centres, the class sums and the three total-variation sums, and the kernel program's tail, read as a function of the
  counts, the centres and the second kernel's four accumulators, differ in two places only, both in the separation term:
  the reference counts the batches where both classes occur with an integer sum that it then converts, the kernel
  program with a float sum of the converted bits; and the reference adds a zero in front of the pair loss and the pair
  count. Over two batches the two counts are the same number (four cases of two bits), and zero plus a value is the value.
-/
import proofs.«158333_j65738769433119_2_alg».proof.Proof.TailFn
import proofs.«158333_j65738769433119_2_alg».proof.Proof.RefValueDefs
import Idealize.ShloMosaic.Lib.IdealHost
import Mathlib.Data.BitVec

noncomputable section

namespace Cert.Proof.TailBridge

open Cert.ReferenceIdeal Cert.ReferenceIdeal.Gen Cert.ReferenceIdeal.RefValue Idealize.ShloMosaic Idealize.ShloMosaic.ValueIdx
open scoped BigOperators

/-! ## The reference's tail in parts -/

def tlValid (n : FVec Ideal S2x2 .f32) :=
  cmpf (F := Ideal) .oge n (broadcastInDim S2x2 ![] bcast_S_S2x2 (constant (F := Ideal) S_ .f32 0x40000000#32))

def tlVcount (n : FVec Ideal S2x2 .f32) :=
  Host.reduce IntOp.addi (extui 32 (tlValid n) natLt_1_32) (constantI S_ 32 0#32) reducesTo_S2x2_S_d0_1 h_S_

def tlClassLoss (n : FVec Ideal S2x2 .f32) (cs : FVec Ideal S2x2 .f32) :=
  Host.divf cs (maximumf n (broadcastInDim S2x2 ![] bcast_S_S2x2 (constant (F := Ideal) S_ .f32 0x3F800000#32)))

def tlCompactNum (n : FVec Ideal S2x2 .f32) (cs : FVec Ideal S2x2 .f32) :=
  Host.reduceAdd (select (tlValid n) (tlClassLoss n cs) (broadcastInDim S2x2 ![] bcast_S_S2x2 (id (constant (F := Ideal) S_ .f32 0x00000000#32)))) (constant (F := Ideal) S_ .f32 0x00000000#32) reducesTo_S2x2_S_d0_1 h_S_

def tlCompact (n : FVec Ideal S2x2 .f32) (cs : FVec Ideal S2x2 .f32) :=
  select (cmpi .sgt (tlVcount n) (constantI S_ 32 0#32)) (Host.divf (tlCompactNum n cs) (sitofp (F := Ideal) .f32 (maxsi (tlVcount n) (constantI S_ 32 1#32)))) (id (constant (F := Ideal) S_ .f32 0x00000000#32))

def tlPresent (n : FVec Ideal S2x2 .f32) :=
  cmpf (F := Ideal) .ogt n (broadcastInDim S2x2 ![] bcast_S_S2x2 (constant (F := Ideal) S_ .f32 0x00000000#32))

def tlPairV (n : FVec Ideal S2x2 .f32) :=
  andi (shapeCast _ (extractStridedSlice S2x1 ![0, 0] (tlPresent n) slices_S2x2_S2x1_0_0) shapeCasts_S2x1_S2) (shapeCast _ (extractStridedSlice S2x1 ![0, 1] (tlPresent n) slices_S2x2_S2x1_0_1) shapeCasts_S2x1_S2)

def tlPairCount (n : FVec Ideal S2x2 .f32) :=
  addf (constant (F := Ideal) S_ .f32 0x00000000#32) (sitofp (F := Ideal) .f32 (Host.reduce IntOp.addi (extui 32 (tlPairV n) natLt_1_32) (constantI S_ 32 0#32) reducesTo_S2_S_d0 h_S_))

def tlPairDist (ctr : FVec Ideal S2x2x48 .f32) :=
  Host.sqrt (addf (Host.reduceAdd (mulf (subf (shapeCast _ (extractStridedSlice S2x1x48 ![0, 0, 0] ctr slices_S2x2x48_S2x1x48_0_0_0) shapeCasts_S2x1x48_S2x48) (shapeCast _ (extractStridedSlice S2x1x48 ![0, 1, 0] ctr slices_S2x2x48_S2x1x48_0_1_0) shapeCasts_S2x1x48_S2x48)) (subf (shapeCast _ (extractStridedSlice S2x1x48 ![0, 0, 0] ctr slices_S2x2x48_S2x1x48_0_0_0) shapeCasts_S2x1x48_S2x48) (shapeCast _ (extractStridedSlice S2x1x48 ![0, 1, 0] ctr slices_S2x2x48_S2x1x48_0_1_0) shapeCasts_S2x1x48_S2x48))) (constant (F := Ideal) S_ .f32 0x00000000#32) reducesTo_S2x48_S2_d1 h_S_) (broadcastInDim S2 ![] bcast_S_S2 (constant (F := Ideal) S_ .f32 0x2B8CBCCC#32)))

def tlPairL (ctr : FVec Ideal S2x2x48 .f32) :=
  maximumf (subf (broadcastInDim S2 ![] bcast_S_S2 (constant (F := Ideal) S_ .f32 0x3F800000#32)) (tlPairDist ctr)) (broadcastInDim S2 ![] bcast_S_S2 (constant (F := Ideal) S_ .f32 0x00000000#32))

def tlPairLoss (n : FVec Ideal S2x2 .f32) (ctr : FVec Ideal S2x2x48 .f32) :=
  addf (constant (F := Ideal) S_ .f32 0x00000000#32) (Host.reduceAdd (select (tlPairV n) (tlPairL ctr) (broadcastInDim S2 ![] bcast_S_S2 (id (constant (F := Ideal) S_ .f32 0x00000000#32)))) (constant (F := Ideal) S_ .f32 0x00000000#32) reducesTo_S2_S_d0 h_S_)

def tlSep (n : FVec Ideal S2x2 .f32) (ctr : FVec Ideal S2x2x48 .f32) :=
  select (cmpf (F := Ideal) .ogt (tlPairCount n) (constant (F := Ideal) S_ .f32 0x00000000#32)) (Host.divf (tlPairLoss n ctr) (maximumf (tlPairCount n) (constant (F := Ideal) S_ .f32 0x3F800000#32))) (id (constant (F := Ideal) S_ .f32 0x00000000#32))

def tlSmooth (tvh : FVec Ideal S_ .f32) (tvw : FVec Ideal S_ .f32) (tvd : FVec Ideal S_ .f32) :=
  addf (addf (Host.divf tvh (constant (F := Ideal) S_ .f32 0x49142000#32)) (Host.divf tvw (constant (F := Ideal) S_ .f32 0x49142000#32))) (mulf (Host.divf tvd (constant (F := Ideal) S_ .f32 0x4BDC5000#32)) (constant (F := Ideal) S_ .f32 0x3DCCCCCD#32))

/-- The reference's tail is the weighted sum of its three parts. -/
theorem refTail_eq (n : FVec Ideal S2x2 .f32) (ctr : FVec Ideal S2x2x48 .f32) (cs : FVec Ideal S2x2 .f32)
    (tvh tvw tvd : FVec Ideal S_ .f32) :
    refTail n ctr cs tvh tvw tvd
      = addf (addf (mulf (constant (F := Ideal) S_ .f32 0x3F800000#32) (tlCompact n cs)) (mulf (constant (F := Ideal) S_ .f32 0x3F000000#32) (tlSep n ctr))) (mulf (constant (F := Ideal) S_ .f32 0x3E99999A#32) (tlSmooth tvh tvw tvd)) := rfl

/-! ## The kernel program's separation term -/

/-- The number of batches where both classes occur, as the float sum of the converted bits. -/
def kPairCount (n : FVec Ideal S2x2 .f32) :=
  Host.reduceAdd (uitofp (F := Ideal) .f32 (tlPairV n)) (constant (F := Ideal) S_ .f32 0x00000000#32) reducesTo_S2_S_d0 h_S_

/-- The pair loss with no zero in front. -/
def kPairLoss (n : FVec Ideal S2x2 .f32) (ctr : FVec Ideal S2x2x48 .f32) :=
  Host.reduceAdd (select (tlPairV n) (tlPairL ctr) (broadcastInDim S2 ![] bcast_S_S2 (id (constant (F := Ideal) S_ .f32 0x00000000#32)))) (constant (F := Ideal) S_ .f32 0x00000000#32) reducesTo_S2_S_d0 h_S_

/-- The separation term over those. -/
def kSep (n : FVec Ideal S2x2 .f32) (ctr : FVec Ideal S2x2x48 .f32) :=
  select (cmpf (F := Ideal) .ogt (kPairCount n) (constant (F := Ideal) S_ .f32 0x00000000#32)) (Host.divf (kPairLoss n ctr) (maximumf (kPairCount n) (constant (F := Ideal) S_ .f32 0x3F800000#32))) (constant (F := Ideal) S_ .f32 0x00000000#32)

/-- The kernel program's tail is the same weighted sum, with its own separation term. -/
theorem tailFn_eq (n : FVec Ideal Cert.KernelIdeal.S2x2 .f32) (cen : FVec Ideal Cert.KernelIdeal.S2x2x48 .f32)
    (a0 : FVec Ideal Cert.KernelIdeal.S2x2x1 .f32) (a1 a2 a3 : FVec Ideal Cert.KernelIdeal.S2x1x1 .f32) :
    Cert.KernelIdeal.Gen.Tail.tailFn n cen a0 a1 a2 a3
      = addf (addf (mulf (constant (F := Ideal) S_ .f32 0x3F800000#32) (tlCompact n (shapeCast Cert.KernelIdeal.S2x2 a0 Cert.KernelIdeal.Gen.shapeCasts_S2x2x1_S2x2)))
            (mulf (constant (F := Ideal) S_ .f32 0x3F000000#32) (kSep n cen)))
          (mulf (constant (F := Ideal) S_ .f32 0x3E99999A#32)
            (tlSmooth (Host.reduceAdd a1 (constant (F := Ideal) S_ .f32 0x00000000#32) Cert.KernelIdeal.Gen.reducesTo_S2x1x1_S_d0_1_2 Cert.KernelIdeal.Gen.h_S_)
              (Host.reduceAdd a2 (constant (F := Ideal) S_ .f32 0x00000000#32) Cert.KernelIdeal.Gen.reducesTo_S2x1x1_S_d0_1_2 Cert.KernelIdeal.Gen.h_S_)
              (Host.reduceAdd a3 (constant (F := Ideal) S_ .f32 0x00000000#32) Cert.KernelIdeal.Gen.reducesTo_S2x1x1_S_d0_1_2 Cert.KernelIdeal.Gen.h_S_))) := rfl

/-! ## Sums over rank-1 and rank-3 index sets -/

def idxEquiv1 {n0 : Nat} : (⟨1, ![n0]⟩ : Shape).Idx ≃ Fin n0 where
  toFun i := i 0
  invFun a := ix1 a
  left_inv i := (eq_ix1 i).symm
  right_inv _ := rfl

theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of a per-batch accumulator [2,1,1] over every axis, from zero, is the sum of its two entries. -/
theorem sumBatch (a : FVec Ideal Cert.KernelIdeal.S2x1x1 .f32) :
    Host.reduceAdd a (constant (F := Ideal) S_ .f32 0x00000000#32) Cert.KernelIdeal.Gen.reducesTo_S2x1x1_S_d0_1_2 Cert.KernelIdeal.Gen.h_S_ ix0
      = a (ix3 (0 : Fin 2) (0 : Fin 1) (0 : Fin 1)) + a (ix3 (1 : Fin 2) (0 : Fin 1) (0 : Fin 1)) := by
  rw [hostReduceAdd_apply, Ideal.hostReduceAdd_total _ (fun b => b.elim0)]
  show Ideal.ofBits .f32 0x00000000#32 + ∑ i : (⟨3, ![2, 1, 1]⟩ : Shape).Idx, a i = _
  rw [Ideal.ofBits_zero_f32, zero_add, sum_idx3, Fin.sum_univ_two]
  simp only [Fin.sum_univ_one]

/-! ## The two pair counts and the two pair losses -/

/-- Two bits counted as words and converted, or converted and added as extended reals: the same number. -/
theorem count_two_bits (x y : BitVec 1) :
    (((x.setWidth 32 + y.setWidth 32).toInt : ℝ) : EReal) = ((x.toNat : ℝ) : EReal) + ((y.toNat : ℝ) : EReal) := by
  rcases BitVec.eq_zero_or_eq_one x with rfl | rfl <;> rcases BitVec.eq_zero_or_eq_one y with rfl | rfl <;>
    simp <;> norm_num <;> norm_cast

/-- A fold of word addition from zero is the sum of the words. -/
theorem fold_addi_eq_sum {ι : Type*} (f : ι → BitVec 32) (s : Finset ι) : s.fold IntOp.addi 0#32 f = ∑ i ∈ s, f i := by
  induction s using Finset.cons_induction with
  | empty => simp
  | cons a S ha ih => rw [Finset.fold_cons, Finset.sum_cons, ih]; rfl

/-- The integer sum of the widened bits over the two batches. -/
theorem reduceAddi_two (V : IVec S2 1) :
    Host.reduce IntOp.addi (extui 32 V natLt_1_32) (constantI S_ 32 0#32) reducesTo_S2_S_d0 h_S_ ix0
      = (V (ix1 (0 : Fin 2))).setWidth 32 + (V (ix1 (1 : Fin 2))).setWidth 32 := by
  rw [Host.reduce_eq_fold]
  rw [Finset.filter_true_of_mem (fun i _ => funext fun a => a.elim0)]
  show Finset.fold IntOp.addi 0#32 (fun i : (⟨1, ![2]⟩ : Shape).Idx => (V i).setWidth 32) Finset.univ = _
  rw [fold_addi_eq_sum, sum_idx1, Fin.sum_univ_two]

/-- The float sum of the converted bits over the two batches. -/
theorem reduceAddf_two (V : IVec S2 1) :
    Host.reduceAdd (uitofp (F := Ideal) .f32 V) (constant (F := Ideal) S_ .f32 0x00000000#32) reducesTo_S2_S_d0 h_S_ ix0
      = (((V (ix1 (0 : Fin 2))).toNat : ℝ) : EReal) + (((V (ix1 (1 : Fin 2))).toNat : ℝ) : EReal) := by
  rw [hostReduceAdd_apply, Ideal.hostReduceAdd_total _ (fun b => b.elim0)]
  show Ideal.ofBits .f32 0x00000000#32 + ∑ i : (⟨1, ![2]⟩ : Shape).Idx, (((V i).toNat : ℝ) : EReal) = _
  rw [Ideal.ofBits_zero_f32, zero_add, sum_idx1, Fin.sum_univ_two]

/-- The reference's pair count is the kernel program's. -/
theorem pairCount_eq (n : FVec Ideal S2x2 .f32) : tlPairCount n = kPairCount n := by
  funext i
  obtain rfl : i = ix0 := eq_ix0 i
  unfold tlPairCount kPairCount
  rw [addf_apply, constant_apply, Ideal.ofBits_zero_f32, zero_add, sitofp_apply, reduceAddi_two, reduceAddf_two]
  exact count_two_bits _ _

/-- The reference's pair loss is the kernel program's: the zero in front adds nothing. -/
theorem pairLoss_eq (n : FVec Ideal S2x2 .f32) (ctr : FVec Ideal S2x2x48 .f32) : tlPairLoss n ctr = kPairLoss n ctr := by
  funext i
  unfold tlPairLoss kPairLoss
  rw [addf_apply, constant_apply, Ideal.ofBits_zero_f32, zero_add]

/-- So the two separation terms are one. -/
theorem sep_eq (n : FVec Ideal S2x2 .f32) (ctr : FVec Ideal S2x2x48 .f32) : tlSep n ctr = kSep n ctr := by
  unfold tlSep kSep
  rw [pairCount_eq, pairLoss_eq]
  rfl

/-- THE BRIDGE: the kernel program's tail of the counts, the centres and the four accumulators is the reference's tail of
    the counts, the centres, the class sums without their unit axis and the three accumulators' totals. -/
theorem tail_bridge (n : FVec Ideal Cert.KernelIdeal.S2x2 .f32) (cen : FVec Ideal Cert.KernelIdeal.S2x2x48 .f32)
    (a0 : FVec Ideal Cert.KernelIdeal.S2x2x1 .f32) (a1 a2 a3 : FVec Ideal Cert.KernelIdeal.S2x1x1 .f32) :
    Cert.KernelIdeal.Gen.Tail.tailFn n cen a0 a1 a2 a3
      = refTail n cen (shapeCast Cert.KernelIdeal.S2x2 a0 Cert.KernelIdeal.Gen.shapeCasts_S2x2x1_S2x2)
          (Host.reduceAdd a1 (constant (F := Ideal) S_ .f32 0x00000000#32) Cert.KernelIdeal.Gen.reducesTo_S2x1x1_S_d0_1_2 Cert.KernelIdeal.Gen.h_S_)
          (Host.reduceAdd a2 (constant (F := Ideal) S_ .f32 0x00000000#32) Cert.KernelIdeal.Gen.reducesTo_S2x1x1_S_d0_1_2 Cert.KernelIdeal.Gen.h_S_)
          (Host.reduceAdd a3 (constant (F := Ideal) S_ .f32 0x00000000#32) Cert.KernelIdeal.Gen.reducesTo_S2x1x1_S_d0_1_2 Cert.KernelIdeal.Gen.h_S_) := by
  rw [tailFn_eq, refTail_eq, sep_eq]

end Cert.Proof.TailBridge

end
-- ==== Proof.Spec.lean ====
/-
  The mathematics of the loss, index by index over the extended reals, as functions of the three argument arrays:
  features X[b, ch, h, w, d], logits P[b, k, h, w, d] (two classes), labels T[b, 0, h, w, d]. Every quantity the kernel
  accumulates tile by tile and the reference computes with whole-array operations is stated here once, as plain finite sums.
  Float literals are kept as the binary words both programs print.
-/
import Idealize.ShloMosaic.PureOps.Ideal
import Idealize.ShloMosaic.Lib.ValueIdx

noncomputable section

namespace Cert.Proof.Spec

open Idealize.ShloMosaic Idealize.ShloMosaic.ValueIdx

abbrev SX : Shape := ⟨5, ![2, 48, 80, 80, 48]⟩
abbrev SP : Shape := ⟨5, ![2, 2, 80, 80, 48]⟩
abbrev ST : Shape := ⟨5, ![2, 1, 80, 80, 48]⟩
abbrev SC : Shape := ⟨3, ![2, 2, 48]⟩

/-- The literals: 1.0, 1e-12 (as f32), 0.5. -/
abbrev one : EReal := Ideal.ofBits .f32 0x3F800000#32
abbrev eps : EReal := Ideal.ofBits .f32 0x2B8CBCCC#32
abbrev half : EReal := Ideal.ofBits .f32 0x3F000000#32

variable (X : SX.Idx → EReal) (P : SP.Idx → EReal) (T : ST.Idx → BitVec 32)

/-- The indicator of class `k` at a label word. -/
def ind (k : Fin 2) (t : BitVec 32) : EReal := if t = BitVec.ofNat 32 k.val then 1 else 0

def feat (b : Fin 2) (ch : Fin 48) (h w : Fin 80) (d : Fin 48) : EReal := X (ix5 b ch h w d)
def logit (b k : Fin 2) (h w : Fin 80) (d : Fin 48) : EReal := P (ix5 b k h w d)
def lab (b : Fin 2) (h w : Fin 80) (d : Fin 48) : BitVec 32 := T (ix5 b (0 : Fin 1) h w d)

/-- The number of positions of batch `b` labelled `k`. -/
def cnt (b k : Fin 2) : EReal := ∑ h : Fin 80, ∑ w : Fin 80, ∑ d : Fin 48, ind k (lab T b h w d)

/-- The sum of channel `ch` over the positions of batch `b` labelled `k`. -/
def csum (b k : Fin 2) (ch : Fin 48) : EReal :=
  ∑ h : Fin 80, ∑ w : Fin 80, ∑ d : Fin 48, feat X b ch h w d * ind k (lab T b h w d)

/-- The class centre: the sum divided by the count, the count taken at least one. -/
def center (b k : Fin 2) (ch : Fin 48) : EReal := Ideal.div (csum X T b k ch) (max (cnt T b k) one)

/-- The two-class softmax with the maximum subtracted, and the confidence (the larger probability). -/
def mx (b : Fin 2) (h w : Fin 80) (d : Fin 48) : EReal := max (logit P b 0 h w d) (logit P b 1 h w d)
def ex (b k : Fin 2) (h w : Fin 80) (d : Fin 48) : EReal := Ideal.exp (logit P b k h w d - mx P b h w d)
def prob (b k : Fin 2) (h w : Fin 80) (d : Fin 48) : EReal := Ideal.div (ex P b k h w d) (ex P b 0 h w d + ex P b 1 h w d)
def conf (b : Fin 2) (h w : Fin 80) (d : Fin 48) : EReal := max (prob P b 0 h w d) (prob P b 1 h w d)

section OverCentres
-- the centres as an array, whatever it holds: the second pass is stated over it
variable (C : SC.Idx → EReal)

/-- The distance of a position's feature vector to centre `k` of its batch (with the small constant under the root). -/
def dist (b k : Fin 2) (h w : Fin 80) (d : Fin 48) : EReal :=
  Ideal.sqrt ((∑ ch : Fin 48, (feat X b ch h w d - C (ix3 b k ch)) * (feat X b ch h w d - C (ix3 b k ch))) + eps)

/-- The class term: distance times probability, over the positions labelled `k`. -/
def classSum (b k : Fin 2) : EReal :=
  ∑ h : Fin 80, ∑ w : Fin 80, ∑ d : Fin 48, dist X C b k h w d * prob P b k h w d * ind k (lab T b h w d)

end OverCentres

/-- Squared step of the feature vector between two positions, summed over channels. -/
def sqStep (b : Fin 2) (h w : Fin 80) (d : Fin 48) (h' w' : Fin 80) (d' : Fin 48) : EReal :=
  ∑ ch : Fin 48, (feat X b ch h' w' d' - feat X b ch h w d) * (feat X b ch h' w' d' - feat X b ch h w d)

/-- Total variation along rows, columns and depth: each neighbouring pair once; along rows and columns weighted by half
    the sum of the two confidences. -/
def tvRows (b : Fin 2) : EReal :=
  ∑ h : Fin 79, ∑ w : Fin 80, ∑ d : Fin 48,
    sqStep X b h.castSucc w d h.succ w d * (half * (conf P b h.succ w d + conf P b h.castSucc w d))
def tvCols (b : Fin 2) : EReal :=
  ∑ h : Fin 80, ∑ w : Fin 79, ∑ d : Fin 48,
    sqStep X b h w.castSucc d h w.succ d * (half * (conf P b h w.succ d + conf P b h w.castSucc d))
def tvDepth (b : Fin 2) : EReal :=
  ∑ ch : Fin 48, ∑ h : Fin 80, ∑ w : Fin 80, ∑ d : Fin 47,
    (feat X b ch h w d.succ - feat X b ch h w d.castSucc) * (feat X b ch h w d.succ - feat X b ch h w d.castSucc)

end Cert.Proof.Spec

end
-- ==== Proof.RefValue1.lean ====
/-
  The reference's two-class softmax and its larger entry, read index by index: the maximum over the class axis from −∞ is
  the larger of the two logits, the sum over it from 0 is the sum of the two exponentials, a broadcast along the class axis
  reads the reduced array, and so each probability and the confidence are the specification's.
-/
import proofs.«158333_j65738769433119_2_alg».proof.Proof.RefValueDefs
import proofs.«158333_j65738769433119_2_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.Proof
open scoped BigOperators

/-- The word of −∞ denotes the bottom of the extended reals. -/
theorem ofBits_neg_inf : Ideal.ofBits .f32 0xFF800000#32 = ⊥ := by simp [Ideal.ofBits, Ideal.ieee]

/-- A fold of `max` over the two-element index set. -/
theorem fold_max_fin2 (b : EReal) (f : Fin 2 → EReal) :
    (Finset.univ : Finset (Fin 2)).fold max b f = max (f 0) (max (f 1) b) := by
  rw [show (Finset.univ : Finset (Fin 2)) = insert 0 {1} from by decide]
  rw [Finset.fold_insert (by decide), Finset.fold_singleton]

/-- Dropping the class axis of [2,2,80,80,48] leaves [2,80,80,48]. -/
theorem redK : S2x2x80x80x48.Reduces [1] S2x80x80x48 := by decide

/-- The index over (b,h,w,d) with class coordinate k is (b,k,h,w,d). -/
theorem redK_lift (b k : Fin 2) (h w : Fin 80) (d : Fin 48) : redK.lift (ix4 b h w d) k = ix5 b k h w d := by
  funext a
  apply Fin.ext
  match a with
  | ⟨0, _⟩ => rfl
  | ⟨1, _⟩ => rfl
  | ⟨2, _⟩ => rfl
  | ⟨3, _⟩ => rfl
  | ⟨4, _⟩ => rfl

/-- The maximum over the class axis from −∞ is the larger of the two entries. -/
theorem reduceMaxK_apply (A : FVec Ideal S2x2x80x80x48 .f32) (b : Fin 2) (h w : Fin 80) (d : Fin 48) :
    Host.reduce FloatOps.maximumf A (constant (F := Ideal) S_ .f32 0xFF800000#32) reducesTo_S2x2x80x80x48_S2x80x80x48_d1 h_S_
        (ix4 b h w d) = max (A (ix5 b 0 h w d)) (A (ix5 b 1 h w d)) := by
  rw [Host.reduce_eq_fold_single _ _ _ _ redK]
  refine (fold_max_fin2 (Ideal.ofBits .f32 0xFF800000#32) (A ∘ redK.lift (ix4 b h w d))).trans ?_
  rw [ofBits_neg_inf]
  simp only [Function.comp, redK_lift, max_bot_right]

/-- The sum over the class axis from 0 is the sum of the two entries. -/
theorem reduceAddK_apply (A : FVec Ideal S2x2x80x80x48 .f32) (b : Fin 2) (h w : Fin 80) (d : Fin 48) :
    Host.reduceAdd A (constant (F := Ideal) S_ .f32 0x00000000#32) reducesTo_S2x2x80x80x48_S2x80x80x48_d1 h_S_
        (ix4 b h w d) = A (ix5 b 0 h w d) + A (ix5 b 1 h w d) := by
  rw [hostReduceAdd_apply, Ideal.hostReduceAdd_single _ redK]
  show Ideal.ofBits .f32 0x00000000#32 + ∑ k : Fin 2, A (redK.lift (ix4 b h w d) k) = _
  rw [Ideal.ofBits_zero_f32, zero_add, Fin.sum_univ_two, redK_lift, redK_lift]

/-- A [2,80,80,48] array broadcast along a new class axis reads the array, whatever the class. -/
theorem bcastK_apply {α : Type} (V : S2x80x80x48.Idx → α) (b k : Fin 2) (h w : Fin 80) (d : Fin 48) :
    broadcastInDim S2x2x80x80x48 ![0, 1, 2, 3, 4] bcast_S2x1x80x80x48_S2x2x80x80x48_0_1_2_3_4
        (broadcastInDim S2x1x80x80x48 ![0, 2, 3, 4] bcast_S2x80x80x48_S2x1x80x80x48_0_2_3_4 V) (ix5 b k h w d)
      = V (ix4 b h w d) := by
  rw [broadcastInDim_apply _ _ _ _ (ix5 b (0 : Fin 1) h w d) (fun a => by
    match a with
    | ⟨0, _⟩ => rfl
    | ⟨1, _⟩ => rfl
    | ⟨2, _⟩ => rfl
    | ⟨3, _⟩ => rfl
    | ⟨4, _⟩ => rfl)]
  exact broadcastInDim_apply _ _ _ _ (ix4 b h w d) (fun a => by
    match a with
    | ⟨0, _⟩ => rfl
    | ⟨1, _⟩ => rfl
    | ⟨2, _⟩ => rfl
    | ⟨3, _⟩ => rfl)

variable (P : FVec Ideal S2x2x80x80x48 .f32)

/-- The subtracted maximum is the larger logit. -/
theorem refMx_apply (b : Fin 2) (h w : Fin 80) (d : Fin 48) : refMx P (ix4 b h w d) = Spec.mx P b h w d := by
  unfold refMx refMax0
  rw [maximumf_apply, broadcastInDim_scalar_apply, constant_apply, reduceMaxK_apply, ofBits_neg_inf, max_bot_left]
  rfl

/-- The exponentials. -/
theorem refEx_apply (b k : Fin 2) (h w : Fin 80) (d : Fin 48) : refEx P (ix5 b k h w d) = Spec.ex P b k h w d := by
  unfold refEx
  show Ideal.exp (P (ix5 b k h w d) - _) = _
  rw [bcastK_apply, refMx_apply]
  rfl

/-- The normalizer. -/
theorem refDen_apply (b : Fin 2) (h w : Fin 80) (d : Fin 48) :
    refDen P (ix4 b h w d) = Spec.ex P b 0 h w d + Spec.ex P b 1 h w d := by
  unfold refDen
  rw [reduceAddK_apply, refEx_apply, refEx_apply]

/-- THE PROBABILITIES: the reference's softmax at (b,k,h,w,d) is the specification's. -/
theorem refProbs_apply (b k : Fin 2) (h w : Fin 80) (d : Fin 48) :
    refProbs P (ix5 b k h w d) = Spec.prob P b k h w d := by
  unfold refProbs
  rw [hostDivf_apply, bcastK_apply, refDen_apply, refEx_apply]
  rfl

/-- THE CONFIDENCE: the reference's maximum of the probabilities over the class axis is the specification's. -/
theorem refConf_apply (b : Fin 2) (h w : Fin 80) (d : Fin 48) : refConf P (ix4 b h w d) = Spec.conf P b h w d := by
  unfold refConf
  rw [reduceMaxK_apply, refProbs_apply, refProbs_apply]
  rfl

end Cert.ReferenceIdeal.RefValue

end
-- ==== Proof.RefValue2.lean ====
/-
  The reference's label counts and class centres, read index by index. The reference flattens the 80 × 80 × 48 positions
  of a batch to one axis of 307200 in row-major order; a sum over that axis is the triple sum over (h, w, d). The
  class indicator is the conversion of the comparison bit; the count is the sum of the indicators; the centre is the
  contraction of the indicators with the feature rows over the positions, divided by the count taken at least one.
-/
import proofs.«158333_j65738769433119_2_alg».proof.Proof.RefValueDefs
import proofs.«158333_j65738769433119_2_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.Proof
open scoped BigOperators

/-! ## The flattened position axis -/

/-- The row-major position of (h, w, d) among the 80 × 80 × 48 positions. -/
abbrev flat (h w : Fin 80) (d : Fin 48) : Fin 307200 :=
  ⟨(h.val * 80 + w.val) * 48 + d.val, by have := h.isLt; have := w.isLt; have := d.isLt; omega⟩

/-- The positions are the triples (h, w, d). -/
def flatEquiv : Fin 80 × Fin 80 × Fin 48 ≃ Fin 307200 where
  toFun p := flat p.1 p.2.1 p.2.2
  invFun n := (⟨n.val / 3840, by have := n.isLt; omega⟩, ⟨n.val / 48 % 80, by omega⟩, ⟨n.val % 48, by omega⟩)
  left_inv p := by
    obtain ⟨h, w, d⟩ := p
    have := h.isLt; have := w.isLt; have := d.isLt
    refine Prod.ext (Fin.ext ?_) (Prod.ext (Fin.ext ?_) (Fin.ext ?_))
    · show ((h.val * 80 + w.val) * 48 + d.val) / 3840 = h.val; omega
    · show ((h.val * 80 + w.val) * 48 + d.val) / 48 % 80 = w.val; omega
    · show ((h.val * 80 + w.val) * 48 + d.val) % 48 = d.val; omega
  right_inv n := Fin.ext (by
    have := n.isLt
    show (n.val / 3840 * 80 + n.val / 48 % 80) * 48 + n.val % 48 = n.val; omega)

/-- A sum over the flattened positions is the triple sum over (h, w, d). -/
theorem sum_flat {M : Type*} [AddCommMonoid M] (f : Fin 307200 → M) :
    ∑ n, f n = ∑ h : Fin 80, ∑ w : Fin 80, ∑ d : Fin 48, f (flat h w d) := by
  rw [← Equiv.sum_comp flatEquiv f, Fintype.sum_prod_type]
  refine Finset.sum_congr rfl fun h _ => ?_
  rw [Fintype.sum_prod_type]
  rfl

variable (X : FVec Ideal S2x48x80x80x48 .f32) (T : IVec S2x1x80x80x48 32)

/-! ## The labels and their indicator -/

/-- The flattened labels at (b, position of (h,w,d)) are the labels at (b, 0, h, w, d). -/
theorem flatT_apply (b : Fin 2) (h w : Fin 80) (d : Fin 48) :
    shapeCast S2x307200 T shapeCasts_S2x1x80x80x48_S2x307200 (ix2 b (flat h w d)) = Spec.lab T b h w d :=
  shapeCast_apply _ _ _ (ix5 b (0 : Fin 1) h w d) (by
    rw [Shape.rowMajor_val_five, Shape.rowMajor_val_two]
    show (((b.val * 1 + 0) * 80 + h.val) * 80 + w.val) * 48 + d.val = b.val * 307200 + ((h.val * 80 + w.val) * 48 + d.val)
    omega)

/-- The conversion of the comparison bit of a label against class k is the indicator of class k. -/
theorem uitofp_cmpi_eq (t : BitVec 32) (k : Fin 2) :
    FloatOps.uitofp (F := Ideal) .f32 (IntOp.cmpi .eq t (BitVec.ofNat 32 k.val)) = Spec.ind k t := by
  unfold Spec.ind
  show (((IntOp.cmpi .eq t (BitVec.ofNat 32 k.val)).toNat : ℝ) : EReal) = _
  by_cases h : t = BitVec.ofNat 32 k.val
  · rw [if_pos h]; subst h; simp [IntOp.cmpi]
  · rw [if_neg h]; simp [IntOp.cmpi, h]

/-- THE INDICATOR ARRAY at (b, position of (h,w,d), k). -/
theorem refOnehot_apply (b : Fin 2) (h w : Fin 80) (d : Fin 48) (k : Fin 2) :
    refOnehot T (ix3 b (flat h w d) k) = Spec.ind k (Spec.lab T b h w d) := by
  unfold refOnehot
  show FloatOps.uitofp (F := Ideal) .f32 (IntOp.cmpi .eq _ _) = _
  rw [broadcastInDim_apply _ _ _ (ix3 b (flat h w d) k) (ix3 b (flat h w d) (0 : Fin 1)) (fun a => by
    match a with
    | ⟨0, _⟩ => rfl
    | ⟨1, _⟩ => rfl
    | ⟨2, _⟩ => rfl)]
  rw [broadcastInDim_apply _ _ _ (ix3 b (flat h w d) (0 : Fin 1)) (ix2 b (flat h w d)) (fun a => by
    match a with
    | ⟨0, _⟩ => rfl
    | ⟨1, _⟩ => rfl)]
  rw [broadcastInDim_apply _ _ _ (ix3 b (flat h w d) k) (ix3 (0 : Fin 1) (0 : Fin 1) k) (fun a => by
    match a with
    | ⟨0, _⟩ => rfl
    | ⟨1, _⟩ => rfl
    | ⟨2, _⟩ => rfl)]
  rw [broadcastInDim_apply _ _ _ (ix3 (0 : Fin 1) (0 : Fin 1) k) (ix1 k) (fun a => by
    match a with
    | ⟨0, _⟩ => rfl)]
  rw [flatT_apply, iotaInDim_apply]
  exact uitofp_cmpi_eq _ k

/-! ## The counts -/

/-- Dropping the position axis of [2,307200,2] leaves [2,2]. -/
theorem redN : S2x307200x2.Reduces [1] S2x2 := by decide

theorem redN_lift (b k : Fin 2) (n : Fin 307200) : redN.lift (ix2 b k) n = ix3 b n k := by
  funext a
  apply Fin.ext
  match a with
  | ⟨0, _⟩ => rfl
  | ⟨1, _⟩ => rfl
  | ⟨2, _⟩ => rfl

/-- THE COUNTS: the reference's sum of the indicator over the positions is the specification's count. -/
theorem refN_apply (b k : Fin 2) : refN T (ix2 b k) = Spec.cnt T b k := by
  unfold refN Spec.cnt
  rw [hostReduceAdd_apply, Ideal.hostReduceAdd_single _ redN]
  show Ideal.ofBits .f32 0x00000000#32 + ∑ n : Fin 307200, refOnehot T (redN.lift (ix2 b k) n) = _
  rw [Ideal.ofBits_zero_f32, zero_add, sum_flat]
  refine Finset.sum_congr rfl fun h _ => Finset.sum_congr rfl fun w _ => Finset.sum_congr rfl fun d _ => ?_
  rw [redN_lift, refOnehot_apply]

/-! ## The feature rows, the contraction and the centres -/

/-- The feature rows at (b, position of (h,w,d), ch) are the features at (b, ch, h, w, d). -/
theorem refFeat_apply (b : Fin 2) (h w : Fin 80) (d : Fin 48) (ch : Fin 48) :
    refFeat X (ix3 b (flat h w d) ch) = Spec.feat X b ch h w d := by
  unfold refFeat
  rw [transpose_apply _ _ _ (ix3 b (flat h w d) ch) (ix3 b ch (flat h w d)) (fun a => by
    match a with
    | ⟨0, _⟩ => rfl
    | ⟨1, _⟩ => rfl
    | ⟨2, _⟩ => rfl)]
  exact shapeCast_apply _ _ _ (ix5 b ch h w d) (by
    rw [Shape.rowMajor_val_five, Shape.rowMajor_val_three]
    show (((b.val * 48 + ch.val) * 80 + h.val) * 80 + w.val) * 48 + d.val
      = (b.val * 48 + ch.val) * 307200 + ((h.val * 80 + w.val) * 48 + d.val)
    omega)

/-- The contraction's one axis is the position axis. -/
abbrev dotD := dot_S2x307200x2_S2x307200x48_S2x2x48_1_1_2_2_0_0
theorem dotD_rank : dotD.contr.rank = 1 := rfl
theorem dotD_size : dotD.contr.size ⟨0, by rw [dotD_rank]; omega⟩ = 307200 := rfl

theorem dotD_lhsIdx (b k : Fin 2) (ch : Fin 48) (n : Fin 307200) :
    dotD.lhsIdx (ix3 b k ch) ((contrEquiv1 dotD 307200 dotD_rank dotD_size).symm n) = ix3 b n k := by
  funext a
  apply Fin.ext
  match a with
  | ⟨0, _⟩ => rfl
  | ⟨1, _⟩ => rfl
  | ⟨2, _⟩ => rfl

theorem dotD_rhsIdx (b k : Fin 2) (ch : Fin 48) (n : Fin 307200) :
    dotD.rhsIdx (ix3 b k ch) ((contrEquiv1 dotD 307200 dotD_rank dotD_size).symm n) = ix3 b n ch := by
  funext a
  apply Fin.ext
  match a with
  | ⟨0, _⟩ => rfl
  | ⟨1, _⟩ => rfl
  | ⟨2, _⟩ => rfl

/-- The contraction of the indicators with the feature rows is the masked channel sum. -/
theorem refCsum_apply (b k : Fin 2) (ch : Fin 48) : refCsum X T (ix3 b k ch) = Spec.csum X T b k ch := by
  unfold refCsum Spec.csum
  simp only [Host.dotGeneral]
  rw [Ideal.dotGeneral_apply, ← Equiv.sum_comp (contrEquiv1 dotD 307200 dotD_rank dotD_size).symm, sum_flat]
  refine Finset.sum_congr rfl fun h _ => Finset.sum_congr rfl fun w _ => Finset.sum_congr rfl fun d _ => ?_
  rw [dotD_lhsIdx, dotD_rhsIdx, refOnehot_apply, refFeat_apply, mul_comm]

/-- The word of 1.0 is the specification's literal. -/
theorem refNmax_apply (b k : Fin 2) : refNmax T (ix2 b k) = max (Spec.cnt T b k) Spec.one := by
  unfold refNmax
  rw [maximumf_apply, broadcastInDim_scalar_apply, constant_apply, refN_apply]

/-- THE CENTRES: the reference's centre at (b, k, ch) is the specification's. -/
theorem refCenter_apply (b k : Fin 2) (ch : Fin 48) : refCenter X T (ix3 b k ch) = Spec.center X T b k ch := by
  unfold refCenter Spec.center
  rw [hostDivf_apply, refCsum_apply]
  rw [broadcastInDim_apply _ _ _ (ix3 b k ch) (ix3 b k (0 : Fin 1)) (fun a => by
    match a with
    | ⟨0, _⟩ => rfl
    | ⟨1, _⟩ => rfl
    | ⟨2, _⟩ => rfl)]
  rw [broadcastInDim_apply _ _ _ (ix3 b k (0 : Fin 1)) (ix2 b k) (fun a => by
    match a with
    | ⟨0, _⟩ => rfl
    | ⟨1, _⟩ => rfl)]
  rw [refNmax_apply]

end Cert.ReferenceIdeal.RefValue

end
-- ==== Proof.RefValue3.lean ====
/-
  The reference's distances to the class centres and its class sums, read index by index: the squared distance is the
  sum over the channels of the squared difference of the feature row and the centre, both broadcast; the class term is
  distance times probability times indicator; its sum over the flattened positions is the triple sum over (h, w, d).
-/
import proofs.«158333_j65738769433119_2_alg».proof.Proof.RefValue1
import proofs.«158333_j65738769433119_2_alg».proof.Proof.RefValue2

noncomputable section

namespace Cert.ReferenceIdeal.RefValue

open Cert.ReferenceIdeal Cert.ReferenceIdeal.Gen Idealize.ShloMosaic Idealize.ShloMosaic.ValueIdx Cert.Proof
open scoped BigOperators

variable (X : FVec Ideal S2x48x80x80x48 .f32) (P : FVec Ideal S2x2x80x80x48 .f32) (T : IVec S2x1x80x80x48 32)

/-- Dropping the channel axis of [2,2,307200,48] leaves [2,2,307200]. -/
theorem redC : S2x2x307200x48.Reduces [3] S2x2x307200 := by decide

theorem redC_lift (b k : Fin 2) (n : Fin 307200) (ch : Fin 48) : redC.lift (ix3 b k n) ch = ix4 b k n ch := by
  funext a
  apply Fin.ext
  match a with
  | ⟨0, _⟩ => rfl
  | ⟨1, _⟩ => rfl
  | ⟨2, _⟩ => rfl
  | ⟨3, _⟩ => rfl

/-- The feature rows broadcast over the class axis. -/
theorem bcastFeat_apply {α : Type} (V : S2x307200x48.Idx → α) (b k : Fin 2) (n : Fin 307200) (ch : Fin 48) :
    broadcastInDim S2x2x307200x48 ![0, 1, 2, 3] bcast_S2x1x307200x48_S2x2x307200x48_0_1_2_3
        (broadcastInDim S2x1x307200x48 ![0, 2, 3] bcast_S2x307200x48_S2x1x307200x48_0_2_3 V) (ix4 b k n ch)
      = V (ix3 b n ch) := by
  rw [broadcastInDim_apply _ _ _ (ix4 b k n ch) (ix4 b (0 : Fin 1) n ch) (fun a => by
    match a with
    | ⟨0, _⟩ => rfl
    | ⟨1, _⟩ => rfl
    | ⟨2, _⟩ => rfl
    | ⟨3, _⟩ => rfl)]
  exact broadcastInDim_apply _ _ _ (ix4 b (0 : Fin 1) n ch) (ix3 b n ch) (fun a => by
    match a with
    | ⟨0, _⟩ => rfl
    | ⟨1, _⟩ => rfl
    | ⟨2, _⟩ => rfl)

/-- The centres broadcast over the position axis. -/
theorem bcastCtr_apply {α : Type} (V : S2x2x48.Idx → α) (b k : Fin 2) (n : Fin 307200) (ch : Fin 48) :
    broadcastInDim S2x2x307200x48 ![0, 1, 2, 3] bcast_S2x2x1x48_S2x2x307200x48_0_1_2_3
        (broadcastInDim S2x2x1x48 ![0, 1, 3] bcast_S2x2x48_S2x2x1x48_0_1_3 V) (ix4 b k n ch)
      = V (ix3 b k ch) := by
  rw [broadcastInDim_apply _ _ _ (ix4 b k n ch) (ix4 b k (0 : Fin 1) ch) (fun a => by
    match a with
    | ⟨0, _⟩ => rfl
    | ⟨1, _⟩ => rfl
    | ⟨2, _⟩ => rfl
    | ⟨3, _⟩ => rfl)]
  exact broadcastInDim_apply _ _ _ (ix4 b k (0 : Fin 1) ch) (ix3 b k ch) (fun a => by
    match a with
    | ⟨0, _⟩ => rfl
    | ⟨1, _⟩ => rfl
    | ⟨2, _⟩ => rfl)

/-- The squared distance: the sum over the channels of the squared difference. -/
theorem refSq_apply (b k : Fin 2) (h w : Fin 80) (d : Fin 48) :
    refSq X T (ix3 b k (flat h w d))
      = ∑ ch : Fin 48, (Spec.feat X b ch h w d - refCenter X T (ix3 b k ch)) * (Spec.feat X b ch h w d - refCenter X T (ix3 b k ch)) := by
  unfold refSq
  rw [hostReduceAdd_apply, Ideal.hostReduceAdd_single _ redC]
  show Ideal.ofBits .f32 0x00000000#32 + ∑ ch : Fin 48, _ = _
  rw [Ideal.ofBits_zero_f32, zero_add]
  refine Finset.sum_congr rfl fun ch _ => ?_
  rw [redC_lift, mulf_apply, subf_apply, bcastFeat_apply, bcastCtr_apply, refFeat_apply]

/-- The host's square root at an index is the extended reals' square root of the element. -/
theorem hostSqrt_apply {s : Shape} (A : FVec Ideal s .f32) (i : s.Idx) : Host.sqrt A i = Ideal.sqrt (A i) := rfl

/-- THE DISTANCES at (b, k, position of (h,w,d)), over the reference's own centres. -/
theorem refDist_apply (b k : Fin 2) (h w : Fin 80) (d : Fin 48) :
    refDist X T (ix3 b k (flat h w d)) = Spec.dist X (refCenter X T) b k h w d := by
  unfold refDist Spec.dist
  rw [hostSqrt_apply, addf_apply, refSq_apply, broadcastInDim_scalar_apply, constant_apply]

/-- The flattened probabilities. -/
theorem refPflat_apply (b k : Fin 2) (h w : Fin 80) (d : Fin 48) :
    refPflat P (ix3 b k (flat h w d)) = Spec.prob P b k h w d := by
  unfold refPflat
  rw [shapeCast_apply _ _ _ (ix5 b k h w d) (by
    rw [Shape.rowMajor_val_five, Shape.rowMajor_val_three]
    show (((b.val * 2 + k.val) * 80 + h.val) * 80 + w.val) * 48 + d.val
      = (b.val * 2 + k.val) * 307200 + ((h.val * 80 + w.val) * 48 + d.val)
    omega)]
  exact refProbs_apply P b k h w d

/-- The indicator with the class axis in front of the positions. -/
theorem refMask_apply (b k : Fin 2) (h w : Fin 80) (d : Fin 48) :
    refMask T (ix3 b k (flat h w d)) = Spec.ind k (Spec.lab T b h w d) := by
  unfold refMask
  rw [transpose_apply _ _ _ (ix3 b k (flat h w d)) (ix3 b (flat h w d) k) (fun a => by
    match a with
    | ⟨0, _⟩ => rfl
    | ⟨1, _⟩ => rfl
    | ⟨2, _⟩ => rfl)]
  exact refOnehot_apply T b h w d k

/-- Dropping the position axis of [2,2,307200] leaves [2,2]. -/
theorem redS : S2x2x307200.Reduces [2] S2x2 := by decide

theorem redS_lift (b k : Fin 2) (n : Fin 307200) : redS.lift (ix2 b k) n = ix3 b k n := by
  funext a
  apply Fin.ext
  match a with
  | ⟨0, _⟩ => rfl
  | ⟨1, _⟩ => rfl
  | ⟨2, _⟩ => rfl

/-- THE CLASS SUMS: the reference's sum of distance times probability times indicator over the positions is the
    specification's, over the reference's own centres. -/
theorem refClassSum_apply (b k : Fin 2) :
    refClassSum X P T (ix2 b k) = Spec.classSum X P T (refCenter X T) b k := by
  unfold refClassSum Spec.classSum
  rw [hostReduceAdd_apply, Ideal.hostReduceAdd_single _ redS]
  show Ideal.ofBits .f32 0x00000000#32 + ∑ n : Fin 307200, refClassTerm X P T (redS.lift (ix2 b k) n) = _
  rw [Ideal.ofBits_zero_f32, zero_add, sum_flat]
  refine Finset.sum_congr rfl fun h _ => Finset.sum_congr rfl fun w _ => Finset.sum_congr rfl fun d _ => ?_
  rw [redS_lift]
  unfold refClassTerm
  rw [mulf_apply, mulf_apply, refDist_apply, refPflat_apply, refMask_apply]

end Cert.ReferenceIdeal.RefValue

end
-- ==== Proof.RefValue4.lean ====
/-
  The reference's three total-variation sums, read index by index: a unit-stride slice reads the array shifted by its
  offsets, so the difference of the two slices along an axis is the step between neighbours; the sum over the channels of
  its square is the squared step; the weight is half the sum of the two confidences; and the sum over every axis is the
  iterated sum over the coordinates.
-/
import proofs.«158333_j65738769433119_2_alg».proof.Proof.RefValue1

noncomputable section

namespace Cert.ReferenceIdeal.RefValue

open Cert.ReferenceIdeal Cert.ReferenceIdeal.Gen Idealize.ShloMosaic Idealize.ShloMosaic.ValueIdx Cert.Proof
open scoped BigOperators

/-! ## Sums over rank-4 and rank-5 index sets -/

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

variable (X : FVec Ideal S2x48x80x80x48 .f32) (P : FVec Ideal S2x2x80x80x48 .f32)

/-! ## Along the rows -/

theorem redH : S2x48x79x80x48.Reduces [1] S2x79x80x48 := by decide

theorem redH_lift (b : Fin 2) (h : Fin 79) (w : Fin 80) (d : Fin 48) (ch : Fin 48) :
    redH.lift (ix4 b h w d) ch = ix5 b ch h w d := by
  funext a
  apply Fin.ext
  match a with
  | ⟨0, _⟩ => rfl
  | ⟨1, _⟩ => rfl
  | ⟨2, _⟩ => rfl
  | ⟨3, _⟩ => rfl
  | ⟨4, _⟩ => rfl

/-- The squared step between rows h and h+1, summed over the channels. -/
theorem refDh2_apply (b : Fin 2) (h : Fin 79) (w : Fin 80) (d : Fin 48) :
    refDh2 X (ix4 b h w d) = Spec.sqStep X b h.castSucc w d h.succ w d := by
  unfold refDh2 Spec.sqStep
  rw [hostReduceAdd_apply, Ideal.hostReduceAdd_single _ redH]
  show Ideal.ofBits .f32 0x00000000#32 + ∑ ch : Fin 48, _ = _
  rw [Ideal.ofBits_zero_f32, zero_add]
  refine Finset.sum_congr rfl fun ch _ => ?_
  rw [redH_lift, mulf_apply, subf_apply]
  rw [extractStridedSlice_apply _ _ _ (ix5 b ch h w d) (ix5 b ch h.succ w d) (fun a => by
    match a with
    | ⟨0, _⟩ =>
      show b.val = 0 + b.val
      omega
    | ⟨1, _⟩ =>
      show ch.val = 0 + ch.val
      omega
    | ⟨2, _⟩ =>
      show h.val + 1 = 1 + h.val
      omega
    | ⟨3, _⟩ =>
      show w.val = 0 + w.val
      omega
    | ⟨4, _⟩ =>
      show d.val = 0 + d.val
      omega)]
  rw [extractStridedSlice_apply _ _ _ (ix5 b ch h w d) (ix5 b ch h.castSucc w d) (fun a => by
    match a with
    | ⟨0, _⟩ =>
      show b.val = 0 + b.val
      omega
    | ⟨1, _⟩ =>
      show ch.val = 0 + ch.val
      omega
    | ⟨2, _⟩ =>
      show h.val = 0 + h.val
      omega
    | ⟨3, _⟩ =>
      show w.val = 0 + w.val
      omega
    | ⟨4, _⟩ =>
      show d.val = 0 + d.val
      omega)]
  rfl

/-- The weight: half the sum of the confidences at rows h+1 and h. -/
theorem refWh_apply (b : Fin 2) (h : Fin 79) (w : Fin 80) (d : Fin 48) :
    refWh P (ix4 b h w d) = Spec.half * (Spec.conf P b h.succ w d + Spec.conf P b h.castSucc w d) := by
  unfold refWh
  rw [mulf_apply, broadcastInDim_scalar_apply, constant_apply, addf_apply]
  rw [extractStridedSlice_apply _ _ _ (ix4 b h w d) (ix4 b h.succ w d) (fun a => by
    match a with
    | ⟨0, _⟩ =>
      show b.val = 0 + b.val
      omega
    | ⟨1, _⟩ =>
      show h.val + 1 = 1 + h.val
      omega
    | ⟨2, _⟩ =>
      show w.val = 0 + w.val
      omega
    | ⟨3, _⟩ =>
      show d.val = 0 + d.val
      omega)]
  rw [extractStridedSlice_apply _ _ _ (ix4 b h w d) (ix4 b h.castSucc w d) (fun a => by
    match a with
    | ⟨0, _⟩ =>
      show b.val = 0 + b.val
      omega
    | ⟨1, _⟩ =>
      show h.val = 0 + h.val
      omega
    | ⟨2, _⟩ =>
      show w.val = 0 + w.val
      omega
    | ⟨3, _⟩ =>
      show d.val = 0 + d.val
      omega)]
  rw [refConf_apply, refConf_apply]

/-- THE ROW TOTAL VARIATION: the reference's sum over every axis is the sum over the batches of the specification's. -/
theorem refTvH_apply : refTvH X P ix0 = ∑ b : Fin 2, Spec.tvRows X P b := by
  unfold refTvH
  rw [hostReduceAdd_apply, Ideal.hostReduceAdd_total _ (fun a => a.elim0)]
  show Ideal.ofBits .f32 0x00000000#32 + ∑ i : S2x79x80x48.Idx, refTvHTerm X P i = _
  rw [Ideal.ofBits_zero_f32, zero_add, sum_idx4]
  refine Finset.sum_congr rfl fun b _ => ?_
  unfold Spec.tvRows
  refine Finset.sum_congr rfl fun h _ => Finset.sum_congr rfl fun w _ => Finset.sum_congr rfl fun d _ => ?_
  unfold refTvHTerm
  rw [mulf_apply, refDh2_apply, refWh_apply]

/-! ## Along the columns -/

theorem redW : S2x48x80x79x48.Reduces [1] S2x80x79x48 := by decide

theorem redW_lift (b : Fin 2) (h : Fin 80) (w : Fin 79) (d : Fin 48) (ch : Fin 48) :
    redW.lift (ix4 b h w d) ch = ix5 b ch h w d := by
  funext a
  apply Fin.ext
  match a with
  | ⟨0, _⟩ => rfl
  | ⟨1, _⟩ => rfl
  | ⟨2, _⟩ => rfl
  | ⟨3, _⟩ => rfl
  | ⟨4, _⟩ => rfl

/-- The squared step between columns w and w+1, summed over the channels. -/
theorem refDw2_apply (b : Fin 2) (h : Fin 80) (w : Fin 79) (d : Fin 48) :
    refDw2 X (ix4 b h w d) = Spec.sqStep X b h w.castSucc d h w.succ d := by
  unfold refDw2 Spec.sqStep
  rw [hostReduceAdd_apply, Ideal.hostReduceAdd_single _ redW]
  show Ideal.ofBits .f32 0x00000000#32 + ∑ ch : Fin 48, _ = _
  rw [Ideal.ofBits_zero_f32, zero_add]
  refine Finset.sum_congr rfl fun ch _ => ?_
  rw [redW_lift, mulf_apply, subf_apply]
  rw [extractStridedSlice_apply _ _ _ (ix5 b ch h w d) (ix5 b ch h w.succ d) (fun a => by
    match a with
    | ⟨0, _⟩ =>
      show b.val = 0 + b.val
      omega
    | ⟨1, _⟩ =>
      show ch.val = 0 + ch.val
      omega
    | ⟨2, _⟩ =>
      show h.val = 0 + h.val
      omega
    | ⟨3, _⟩ =>
      show w.val + 1 = 1 + w.val
      omega
    | ⟨4, _⟩ =>
      show d.val = 0 + d.val
      omega)]
  rw [extractStridedSlice_apply _ _ _ (ix5 b ch h w d) (ix5 b ch h w.castSucc d) (fun a => by
    match a with
    | ⟨0, _⟩ =>
      show b.val = 0 + b.val
      omega
    | ⟨1, _⟩ =>
      show ch.val = 0 + ch.val
      omega
    | ⟨2, _⟩ =>
      show h.val = 0 + h.val
      omega
    | ⟨3, _⟩ =>
      show w.val = 0 + w.val
      omega
    | ⟨4, _⟩ =>
      show d.val = 0 + d.val
      omega)]
  rfl

/-- The weight: half the sum of the confidences at columns w+1 and w. -/
theorem refWw_apply (b : Fin 2) (h : Fin 80) (w : Fin 79) (d : Fin 48) :
    refWw P (ix4 b h w d) = Spec.half * (Spec.conf P b h w.succ d + Spec.conf P b h w.castSucc d) := by
  unfold refWw
  rw [mulf_apply, broadcastInDim_scalar_apply, constant_apply, addf_apply]
  rw [extractStridedSlice_apply _ _ _ (ix4 b h w d) (ix4 b h w.succ d) (fun a => by
    match a with
    | ⟨0, _⟩ =>
      show b.val = 0 + b.val
      omega
    | ⟨1, _⟩ =>
      show h.val = 0 + h.val
      omega
    | ⟨2, _⟩ =>
      show w.val + 1 = 1 + w.val
      omega
    | ⟨3, _⟩ =>
      show d.val = 0 + d.val
      omega)]
  rw [extractStridedSlice_apply _ _ _ (ix4 b h w d) (ix4 b h w.castSucc d) (fun a => by
    match a with
    | ⟨0, _⟩ =>
      show b.val = 0 + b.val
      omega
    | ⟨1, _⟩ =>
      show h.val = 0 + h.val
      omega
    | ⟨2, _⟩ =>
      show w.val = 0 + w.val
      omega
    | ⟨3, _⟩ =>
      show d.val = 0 + d.val
      omega)]
  rw [refConf_apply, refConf_apply]

/-- THE COLUMN TOTAL VARIATION. -/
theorem refTvW_apply : refTvW X P ix0 = ∑ b : Fin 2, Spec.tvCols X P b := by
  unfold refTvW
  rw [hostReduceAdd_apply, Ideal.hostReduceAdd_total _ (fun a => a.elim0)]
  show Ideal.ofBits .f32 0x00000000#32 + ∑ i : S2x80x79x48.Idx, refTvWTerm X P i = _
  rw [Ideal.ofBits_zero_f32, zero_add, sum_idx4]
  refine Finset.sum_congr rfl fun b _ => ?_
  unfold Spec.tvCols
  refine Finset.sum_congr rfl fun h _ => Finset.sum_congr rfl fun w _ => Finset.sum_congr rfl fun d _ => ?_
  unfold refTvWTerm
  rw [mulf_apply, refDw2_apply, refWw_apply]

/-! ## Along the depth -/

/-- The squared step between depths d and d+1 of one channel. -/
theorem refDd2_apply (b : Fin 2) (ch : Fin 48) (h w : Fin 80) (d : Fin 47) :
    refDd2 X (ix5 b ch h w d)
      = (Spec.feat X b ch h w d.succ - Spec.feat X b ch h w d.castSucc) * (Spec.feat X b ch h w d.succ - Spec.feat X b ch h w d.castSucc) := by
  unfold refDd2
  rw [mulf_apply, subf_apply]
  rw [extractStridedSlice_apply _ _ _ (ix5 b ch h w d) (ix5 b ch h w d.succ) (fun a => by
    match a with
    | ⟨0, _⟩ =>
      show b.val = 0 + b.val
      omega
    | ⟨1, _⟩ =>
      show ch.val = 0 + ch.val
      omega
    | ⟨2, _⟩ =>
      show h.val = 0 + h.val
      omega
    | ⟨3, _⟩ =>
      show w.val = 0 + w.val
      omega
    | ⟨4, _⟩ =>
      show d.val + 1 = 1 + d.val
      omega)]
  rw [extractStridedSlice_apply _ _ _ (ix5 b ch h w d) (ix5 b ch h w d.castSucc) (fun a => by
    match a with
    | ⟨0, _⟩ =>
      show b.val = 0 + b.val
      omega
    | ⟨1, _⟩ =>
      show ch.val = 0 + ch.val
      omega
    | ⟨2, _⟩ =>
      show h.val = 0 + h.val
      omega
    | ⟨3, _⟩ =>
      show w.val = 0 + w.val
      omega
    | ⟨4, _⟩ =>
      show d.val = 0 + d.val
      omega)]
  rfl

/-- THE DEPTH TOTAL VARIATION. -/
theorem refTvD_apply : refTvD X ix0 = ∑ b : Fin 2, Spec.tvDepth X b := by
  unfold refTvD
  rw [hostReduceAdd_apply, Ideal.hostReduceAdd_total _ (fun a => a.elim0)]
  show Ideal.ofBits .f32 0x00000000#32 + ∑ i : S2x48x80x80x47.Idx, refDd2 X i = _
  rw [Ideal.ofBits_zero_f32, zero_add, sum_idx5]
  refine Finset.sum_congr rfl fun b _ => ?_
  unfold Spec.tvDepth
  refine Finset.sum_congr rfl fun ch _ => Finset.sum_congr rfl fun h _ => Finset.sum_congr rfl fun w _ =>
    Finset.sum_congr rfl fun d _ => ?_
  exact refDd2_apply X b ch h w d

end Cert.ReferenceIdeal.RefValue

end
-- ==== Proof.RefAssemble.lean ====
/-
  The reference's loss assembled from the specification's quantities: the five index-by-index readings of the reference's
  arrays and the bridge between the two programs' tails give the reference's loss as the kernel program's tail of any six
  arrays that hold the specification's counts, centres, class sums and total-variation sums.
-/
import proofs.«158333_j65738769433119_2_alg».proof.Proof.TailBridge
import proofs.«158333_j65738769433119_2_alg».proof.Proof.RefValue3
import proofs.«158333_j65738769433119_2_alg».proof.Proof.RefValue4

noncomputable section

namespace Cert.Proof.TailBridge

open Cert.ReferenceIdeal Cert.ReferenceIdeal.Gen Cert.ReferenceIdeal.RefValue Idealize.ShloMosaic Idealize.ShloMosaic.ValueIdx Cert.Proof
open scoped BigOperators

/-- The class sums without their unit axis. -/
theorem dropUnit_apply (a0 : FVec Ideal Cert.KernelIdeal.S2x2x1 .f32) (b k : Fin 2) :
    shapeCast Cert.KernelIdeal.S2x2 a0 Cert.KernelIdeal.Gen.shapeCasts_S2x2x1_S2x2 (ix2 b k) = a0 (ix3 b k (0 : Fin 1)) :=
  shapeCast_apply _ _ _ (ix3 b k (0 : Fin 1)) (by
    rw [Shape.rowMajor_val_three, Shape.rowMajor_val_two]
    show (b.val * 2 + k.val) * 1 + 0 = b.val * 2 + k.val
    omega)

/-- THE REFERENCE'S LOSS FROM THE SPECIFICATION'S QUANTITIES: whenever six arrays hold, index by index, the label counts,
    the class centres, the class sums over those centres and the three per-batch total-variation sums of the
    specification, the reference's loss of the three argument arrays is the kernel program's tail of the six. -/
theorem refLoss_eq_tailFn (X : FVec Ideal S2x48x80x80x48 .f32) (P : FVec Ideal S2x2x80x80x48 .f32) (T : IVec S2x1x80x80x48 32)
    (n : FVec Ideal Cert.KernelIdeal.S2x2 .f32) (cen : FVec Ideal Cert.KernelIdeal.S2x2x48 .f32)
    (a0 : FVec Ideal Cert.KernelIdeal.S2x2x1 .f32) (a1 a2 a3 : FVec Ideal Cert.KernelIdeal.S2x1x1 .f32)
    (hn : ∀ b k : Fin 2, n (ix2 b k) = Spec.cnt T b k)
    (hc : ∀ (b k : Fin 2) (ch : Fin 48), cen (ix3 b k ch) = Spec.center X T b k ch)
    (h0 : ∀ b k : Fin 2, a0 (ix3 b k (0 : Fin 1)) = Spec.classSum X P T cen b k)
    (h1 : ∀ b : Fin 2, a1 (ix3 b (0 : Fin 1) (0 : Fin 1)) = Spec.tvRows X P b)
    (h2 : ∀ b : Fin 2, a2 (ix3 b (0 : Fin 1) (0 : Fin 1)) = Spec.tvCols X P b)
    (h3 : ∀ b : Fin 2, a3 (ix3 b (0 : Fin 1) (0 : Fin 1)) = Spec.tvDepth X b) :
    refLoss X P T = Cert.KernelIdeal.Gen.Tail.tailFn n cen a0 a1 a2 a3 := by
  have en : refN T = n := by
    funext i
    obtain ⟨b, k, rfl⟩ : ∃ b k, i = ix2 b k := ⟨i 0, i 1, eq_ix2 i⟩
    rw [refN_apply, hn]
  have ec : refCenter X T = cen := by
    funext i
    obtain ⟨b, k, ch, rfl⟩ : ∃ b k ch, i = ix3 b k ch := ⟨i 0, i 1, i 2, eq_ix3 i⟩
    rw [refCenter_apply, hc]
  have e0 : refClassSum X P T = shapeCast Cert.KernelIdeal.S2x2 a0 Cert.KernelIdeal.Gen.shapeCasts_S2x2x1_S2x2 := by
    funext i
    obtain ⟨b, k, rfl⟩ : ∃ b k, i = ix2 b k := ⟨i 0, i 1, eq_ix2 i⟩
    rw [refClassSum_apply, ec, dropUnit_apply, h0]
  have e1 : refTvH X P = Host.reduceAdd a1 (constant (F := Ideal) S_ .f32 0x00000000#32)
      Cert.KernelIdeal.Gen.reducesTo_S2x1x1_S_d0_1_2 Cert.KernelIdeal.Gen.h_S_ := by
    funext i
    obtain rfl : i = ix0 := eq_ix0 i
    rw [refTvH_apply, sumBatch, Fin.sum_univ_two, h1, h1]
  have e2 : refTvW X P = Host.reduceAdd a2 (constant (F := Ideal) S_ .f32 0x00000000#32)
      Cert.KernelIdeal.Gen.reducesTo_S2x1x1_S_d0_1_2 Cert.KernelIdeal.Gen.h_S_ := by
    funext i
    obtain rfl : i = ix0 := eq_ix0 i
    rw [refTvW_apply, sumBatch, Fin.sum_univ_two, h2, h2]
  have e3 : refTvD X = Host.reduceAdd a3 (constant (F := Ideal) S_ .f32 0x00000000#32)
      Cert.KernelIdeal.Gen.reducesTo_S2x1x1_S_d0_1_2 Cert.KernelIdeal.Gen.h_S_ := by
    funext i
    obtain rfl : i = ix0 := eq_ix0 i
    rw [refTvD_apply, sumBatch, Fin.sum_univ_two, h3, h3]
  rw [tail_bridge]
  unfold refLoss
  rw [en, ec, e0, e1, e2, e3]

end Cert.Proof.TailBridge

end
-- ==== Proof.ResultAssembly.lean ====
/-
  The value equation, assembled. The reference's composed result is its loss function of the three arguments; the memories
  agree on the arguments; the kernel program's result is its tail function of the six arrays the second kernel's exit
  leaves; and the reference's loss is that tail function of any six arrays that hold the specification's quantities. What
  is left to the kernel side is exactly that its six arrays hold them.
-/
import proofs.«158333_j65738769433119_2_alg».proof.Proof.Tail
import proofs.«158333_j65738769433119_2_alg».proof.Proof.RefAssemble
import proofs.«158333_j65738769433119_2_alg».proof.Proof.MainRun

set_option maxRecDepth 16384

noncomputable section

namespace Cert.Proof.Assembly

open Idealize.ShloMosaic Idealize.ShloMosaic.TcCoe Idealize.SL.Sem Idealize.ShloMosaic.ValueIdx
open Cert.KernelIdeal Cert.KernelIdeal.Gen Cert.KernelIdeal.Gen.Whole
open Cert.ReferenceIdeal.RefValue Cert.Proof

variable (m : (ℓ : Loc nD τ sig) → Buf (Elt Ideal) ℓ) (ρ : Dev nD → PrngReg) (c : Dev nD)

/-- The three arguments as the kernel program's memory holds them. -/
abbrev Xm : FVec Ideal S2x48x80x80x48 .f32 := m ((c.tc : Thread nD τ).loc main_arg0)
abbrev Pm : FVec Ideal S2x2x80x80x48 .f32 := m ((c.tc : Thread nD τ).loc main_arg1)
abbrev Tm : IVec S2x1x80x80x48 32 := m ((c.tc : Thread nD τ).loc main_arg2)

/-- The second kernel does not write the counts: they leave it as they entered. -/
theorem W4_counts : W4 (F := Ideal) m ρ c (Proc.devRef .tc main_v13) = W3 (F := Ideal) m ρ c (Proc.devRef .tc main_v13) :=
  W4_of_ne m ρ c main_v13 (by decide)

/-- The centres are an input of the second kernel: they leave it as they entered. -/
theorem W4_centres : W4 (F := Ideal) m ρ c (Proc.devRef .tc main_v18) = W3 (F := Ideal) m ρ c (Proc.devRef .tc main_v18) :=
  (W4_arr m ρ c 3).trans (((Smooth.dat1 (V3 m ρ) c).arrAt_in 3 rfl _).trans (Smooth.A_eq1 (V3 m ρ) c 3))

/-- THE VALUE EQUATION FROM THE KERNEL SIDE'S SIX READINGS: from memories that agree on the three arguments, if the counts and
    the centres the host operations leave before the second kernel, and the second kernel's four accumulators, hold index
    by index the specification's quantities of the kernel memory's arguments, then the reference's composed result term is
    the kernel program's result. -/
theorem result_eq_of
    (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2))
    (hN : ∀ b k : Fin 2, W3 (F := Ideal) m ρ c (Proc.devRef .tc main_v13) (ix2 b k) = Spec.cnt (Tm m c) b k)
    (hC : ∀ (b k : Fin 2) (ch : Fin 48),
      W3 (F := Ideal) m ρ c (Proc.devRef .tc main_v18) (ix3 b k ch) = Spec.center (Xm m c) (Tm m c) b k ch)
    (hCL : ∀ b k : Fin 2, W4 (F := Ideal) m ρ c (Proc.devRef .tc main_v19_0) (ix3 b k (0 : Fin 1))
      = Spec.classSum (Xm m c) (Pm m c) (Tm m c) (fun i => W3 (F := Ideal) m ρ c (Proc.devRef .tc main_v18) i) b k)
    (hH : ∀ b : Fin 2, W4 (F := Ideal) m ρ c (Proc.devRef .tc main_v19_1) (ix3 b (0 : Fin 1) (0 : Fin 1)) = Spec.tvRows (Xm m c) (Pm m c) b)
    (hW : ∀ b : Fin 2, W4 (F := Ideal) m ρ c (Proc.devRef .tc main_v19_2) (ix3 b (0 : Fin 1) (0 : Fin 1)) = Spec.tvCols (Xm m c) (Pm m c) b)
    (hD : ∀ b : Fin 2, W4 (F := Ideal) m ρ c (Proc.devRef .tc main_v19_3) (ix3 b (0 : Fin 1) (0 : Fin 1)) = Spec.tvDepth (Xm m c) b) :
    Cert.ReferenceIdeal.ValueP.res_main_v128 (F := Ideal) m' c = W15 (F := Ideal) m ρ c (Proc.devRef .tc main_v76) := by
  rw [Cert.ReferenceIdeal.RefValue.res_eq m' c, (hagree c).1, (hagree c).2.1, (hagree c).2.2, Tail.tail_value m ρ c]
  refine Cert.Proof.TailBridge.refLoss_eq_tailFn (Xm m c) (Pm m c) (Tm m c) _ _ _ _ _ _ ?_ ?_ ?_ hH hW hD
  · intro b k
    rw [W4_counts]
    exact hN b k
  · intro b k ch
    rw [W4_centres]
    exact hC b k ch
  · intro b k
    rw [W4_centres]
    exact hCL b k

end Cert.Proof.Assembly

end
-- ==== Proof.CentersPay.lean ====
/-
  The first kernel's arithmetic read at an index over the extended reals: the class mask is the indicator of the
  label, a tile's contribution to channel `ch` of class `k` is the sum over the tile's rows, columns and depths of
  the feature times the indicator, and the two stored rows are the rows read plus those contributions.
-/
import proofs.«158333_j65738769433119_2_alg».proof.Proof.Gen.KernelIdeal.Skeleton
import proofs.«158333_j65738769433119_2_alg».proof.Proof.Spec
import Idealize.ShloMosaic.Lib.Pipeline.Value
import Idealize.ShloMosaic.Lib.ValueLayout
import Idealize.ShloMosaic.Lib.Affine
import Idealize.ShloMosaic.PureOps.Ideal.Laws

set_option maxRecDepth 16384

noncomputable section

namespace Cert.KernelIdeal.Gen.CentersValue

open Idealize.ShloMosaic Idealize.ShloMosaic.ValueIdx
open Cert.KernelIdeal Cert.KernelIdeal.Gen
open Cert.Proof

/-- The mask of class `k` at a label word, converted to a real: one on the class's label, zero elsewhere. -/
theorem mask_eq (k : Fin 2) (t : BitVec 32) :
    FloatOps.sitofp (F := Ideal) .f32 ((IntOp.cmpi .eq t (BitVec.ofNat 32 k.val)).setWidth 32) = Spec.ind k t := by
  unfold Spec.ind
  by_cases h : t = BitVec.ofNat 32 k.val
  · rw [if_pos h, IntOp.cmpi_eq.mpr h]
    show (((((1#1 : BitVec 1).setWidth 32).toInt : ℤ) : ℝ) : EReal) = 1
    rw [show ((1#1 : BitVec 1).setWidth 32).toInt = 1 from by decide]
    norm_num
  · rw [if_neg h, eq_zero_of_ne_one (fun e => h (IntOp.cmpi_eq.mp e))]
    show (((((0#1 : BitVec 1).setWidth 32).toInt : ℤ) : ℝ) : EReal) = 0
    rw [show ((0#1 : BitVec 1).setWidth 32).toInt = 0 from by decide]
    norm_num

/-- A sum over the last axis of a [48, 4, 80, 48] vector. -/
theorem red_d (v : FVec Ideal S48x4x80x48 .f32) (ch : Fin 48) (r : Fin 4) (w : Fin 80) :
    multiReduction .add [3] S48x4x80 v 0x00000000#32 reduces_S48x4x80x48_S48x4x80 (.inl rfl) rfl (ix3 ch r w)
      = ∑ d : Fin 48, v (ix4 ch r w d) :=
  (Ideal.multiReduction_add_single v 0x00000000#32 reduces_S48x4x80x48_S48x4x80 (.inl rfl) rfl (ix3 ch r w)).trans
    (Finset.sum_congr rfl fun d _ => congrArg v (funext fun a => match a with
      | ⟨0, _⟩ => rfl | ⟨1, _⟩ => rfl | ⟨2, _⟩ => rfl | ⟨3, _⟩ => rfl))

/-- A sum over the last axis of a [48, 4, 80] vector. -/
theorem red_w (v : FVec Ideal S48x4x80 .f32) (ch : Fin 48) (r : Fin 4) :
    multiReduction .add [2] S48x4 v 0x00000000#32 reduces_S48x4x80_S48x4 (.inl rfl) rfl (ix2 ch r)
      = ∑ w : Fin 80, v (ix3 ch r w) :=
  (Ideal.multiReduction_add_single v 0x00000000#32 reduces_S48x4x80_S48x4 (.inl rfl) rfl (ix2 ch r)).trans
    (Finset.sum_congr rfl fun w _ => congrArg v (funext fun a => match a with
      | ⟨0, _⟩ => rfl | ⟨1, _⟩ => rfl | ⟨2, _⟩ => rfl))

/-- A sum over the last axis of a [48, 4] vector. -/
theorem red_r (v : FVec Ideal S48x4 .f32) (ch : Fin 48) :
    multiReduction .add [1] S48 v 0x00000000#32 reduces_S48x4_S48 (.inl rfl) rfl (ix1 ch)
      = ∑ r : Fin 4, v (ix2 ch r) :=
  (Ideal.multiReduction_add_single v 0x00000000#32 reduces_S48x4_S48 (.inl rfl) rfl (ix1 ch)).trans
    (Finset.sum_congr rfl fun r _ => congrArg v (funext fun a => match a with
      | ⟨0, _⟩ => rfl | ⟨1, _⟩ => rfl))

/-- The feature block with its unit batch axis dropped. -/
theorem pay3_apply (x0 : Vec Ideal S1x48x4x80x48 .f32) (ch : Fin 48) (r : Fin 4) (w : Fin 80) (d : Fin 48) :
    k0_pay3 x0 (ix4 ch r w d) = x0 (ix5 (0 : Fin 1) ch r w d) := by
  unfold k0_pay3
  exact shapeCast_apply x0 _ _ _ (by
    rw [Shape.rowMajor_val_five, Shape.rowMajor_val_four]
    show ((((0 * 48 + ch.val) * 4 + r.val) * 80 + w.val) * 48 + d.val) = (((ch.val * 4 + r.val) * 80 + w.val) * 48 + d.val)
    rw [Nat.zero_mul, Nat.zero_add])

/-- The label block with its two unit axes dropped. -/
theorem pay4_apply (x1 : Vec Ideal S1x1x4x80x48 .i32) (r : Fin 4) (w : Fin 80) (d : Fin 48) :
    k0_pay4 (F := Ideal) x1 (ix3 r w d) = x1 (ix5 (0 : Fin 1) (0 : Fin 1) r w d) := by
  unfold k0_pay4
  exact shapeCast_apply x1 _ _ _ (by
    rw [Shape.rowMajor_val_five, Shape.rowMajor_val_three]
    show ((((0 * 1 + 0) * 4 + r.val) * 80 + w.val) * 48 + d.val) = ((r.val * 80 + w.val) * 48 + d.val)
    simp only [Nat.zero_mul, Nat.zero_add])

/-- A class mask, given a unit leading axis and repeated along the channels, read at (ch, r, w, d): the mask at (r, w, d). -/
theorem mask_bcast_apply (v : FVec Ideal S4x80x48 .f32) (ch : Fin 48) (r : Fin 4) (w : Fin 80) (d : Fin 48) :
    broadcastTo S48x4x80x48 (shapeCast S1x4x80x48 v shapeCasts_S4x80x48_S1x4x80x48) broadcasts_S1x4x80x48_S48x4x80x48 (ix4 ch r w d)
      = v (ix3 r w d) := by
  refine (broadcastTo_apply _ broadcasts_S1x4x80x48_S48x4x80x48 (ix4 ch r w d) (ix4 (0 : Fin 1) r w d) fun ax => ?_).trans
    (shapeCast_abc_1abc_apply v shapeCasts_S4x80x48_S1x4x80x48 0 r w d)
  match ax with
  | ⟨0, _⟩ => rfl
  | ⟨1, _⟩ => rfl
  | ⟨2, _⟩ => rfl
  | ⟨3, _⟩ => rfl

/-- One tile's contribution to channel `ch` of class `k`: over the tile's rows, columns and depths, the feature
    times the indicator of the class at the label. -/
def tileSum (x0 : Vec Ideal S1x48x4x80x48 .f32) (x1 : Vec Ideal S1x1x4x80x48 .i32) (k : Fin 2) (ch : Fin 48) : EReal :=
  ∑ r : Fin 4, ∑ w : Fin 80, ∑ d : Fin 48,
    x0 (ix5 (0 : Fin 1) ch r w d) * Spec.ind k (x1 (ix5 (0 : Fin 1) (0 : Fin 1) r w d))

/-- The sum the body forms for class 1. -/
theorem pay5_apply (x0 : Vec Ideal S1x48x4x80x48 .f32) (x1 : Vec Ideal S1x1x4x80x48 .i32) (ch : Fin 48) :
    k0_pay5 x0 x1 (ix1 ch) = tileSum x0 x1 1 ch := by
  unfold k0_pay5 tileSum
  refine (red_r _ ch).trans (Finset.sum_congr rfl fun r _ => ?_)
  refine (red_w _ ch r).trans (Finset.sum_congr rfl fun w _ => ?_)
  refine (red_d _ ch r w).trans (Finset.sum_congr rfl fun d _ => ?_)
  refine (mulf_apply _ _ _).trans ?_
  refine congrArg₂ (· * ·) (pay3_apply x0 ch r w d) ?_
  refine (mask_bcast_apply _ ch r w d).trans ?_
  refine Eq.trans ?_ (mask_eq 1 (x1 (ix5 (0 : Fin 1) (0 : Fin 1) r w d)))
  show FloatOps.sitofp (F := Ideal) .f32 ((IntOp.cmpi .eq (k0_pay4 (F := Ideal) x1 (ix3 r w d)) 1#32).setWidth 32) = _
  rw [pay4_apply]
  rfl

/-- The row the body stores for class 0: the row read plus the sum it forms for class 0. -/
theorem pay7_apply (x0 : Vec Ideal S1x48x4x80x48 .f32) (x1 : Vec Ideal S1x1x4x80x48 .i32) (v27 : Vec Ideal S1x1x48 .f32) (ch : Fin 48) :
    k0_pay7 x0 x1 v27 (ix1 ch) = v27 (ix3 (0 : Fin 1) (0 : Fin 1) ch) + tileSum x0 x1 0 ch := by
  unfold k0_pay7 tileSum
  refine (addf_apply _ _ _).trans ?_
  refine congrArg₂ (· + ·) ?_ ?_
  · exact shapeCast_apply v27 _ _ _ (by
      rw [Shape.rowMajor_val_three, Shape.rowMajor_val_one]
      show (0 * 1 + 0) * 48 + ch.val = ch.val
      simp only [Nat.zero_mul, Nat.zero_add])
  refine (red_r _ ch).trans (Finset.sum_congr rfl fun r _ => ?_)
  refine (red_w _ ch r).trans (Finset.sum_congr rfl fun w _ => ?_)
  refine (red_d _ ch r w).trans (Finset.sum_congr rfl fun d _ => ?_)
  refine (mulf_apply _ _ _).trans ?_
  refine congrArg₂ (· * ·) (pay3_apply x0 ch r w d) ?_
  refine (mask_bcast_apply _ ch r w d).trans ?_
  refine Eq.trans ?_ (mask_eq 0 (x1 (ix5 (0 : Fin 1) (0 : Fin 1) r w d)))
  show FloatOps.sitofp (F := Ideal) .f32 ((IntOp.cmpi .eq (k0_pay4 (F := Ideal) x1 (ix3 r w d)) 0#32).setWidth 32) = _
  rw [pay4_apply]
  rfl

/-- The row stored for class 0, given its two unit axes. -/
theorem pay1_apply (v29 : FVec Ideal S48 .f32) (ch : Fin 48) :
    k0_pay1 v29 (ix3 (0 : Fin 1) (0 : Fin 1) ch) = v29 (ix1 ch) := by
  unfold k0_pay1
  exact shapeCast_apply v29 _ _ _ (by
    rw [Shape.rowMajor_val_three, Shape.rowMajor_val_one]
    show ch.val = (0 * 1 + 0) * 48 + ch.val
    simp only [Nat.zero_mul, Nat.zero_add])

/-- The row stored for class 1: the row read plus the sum formed for class 1. -/
theorem pay2_apply (v23 : FVec Ideal S48 .f32) (v33 : Vec Ideal S1x1x48 .f32) (ch : Fin 48) :
    k0_pay2 v23 v33 (ix3 (0 : Fin 1) (0 : Fin 1) ch) = v33 (ix3 (0 : Fin 1) (0 : Fin 1) ch) + v23 (ix1 ch) := by
  unfold k0_pay2
  refine (shapeCast_apply _ _ _ (ix1 ch) (by
    rw [Shape.rowMajor_val_three, Shape.rowMajor_val_one]
    show ch.val = (0 * 1 + 0) * 48 + ch.val
    simp only [Nat.zero_mul, Nat.zero_add])).trans ?_
  refine (addf_apply _ _ _).trans (congrArg (· + v23 (ix1 ch)) ?_)
  exact shapeCast_apply v33 _ _ _ (by
    rw [Shape.rowMajor_val_three, Shape.rowMajor_val_one]
    show (0 * 1 + 0) * 48 + ch.val = ch.val
    simp only [Nat.zero_mul, Nat.zero_add])

/-- The block stored at the first tile is zero everywhere. -/
theorem pay6_apply (j : S1x2x48.Idx) : k0_pay6 (F := Ideal) j = 0 := by
  unfold k0_pay6
  exact Ideal.ofBits_zero_f32

end Cert.KernelIdeal.Gen.CentersValue

end
-- ==== Proof.CentersValue.lean ====
/-
  The first kernel's value. Its output block for batch `b` is zeroed at the batch's first tile, and every tile adds, to
  row `k` and channel `ch`, the sum over the tile's four rows, eighty columns and forty-eight depths of the feature
  times the indicator of class `k` at the label. After the batch's last tile the block holds the sum over all eighty
  rows, which is what the array `center_sum[b, k, ch]` ends holding.
-/
import proofs.«158333_j65738769433119_2_alg».proof.Proof.CentersPay
import proofs.«158333_j65738769433119_2_alg».proof.Proof.CentersFrame

set_option maxRecDepth 16384

noncomputable section

namespace Cert.KernelIdeal.Gen.CentersValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Gen.Centers
open Cert.Proof

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

/-! ## The output block's two rows as the body's stores leave them -/

/-- Row 1 of the block, as an index of the block, is where the row-1 store puts its entry `ch`. -/
theorem row1_emb (ch : Fin 48) :
    (ix3 (0 : Fin 1) (1 : Fin 2) ch : S1x2x48.Idx)
      = (Rect.unit (s := S1x2x48) ![0, 1, 0] S1x1x48.size inb_S1x2x48_S1x1x48_0_1_0).emb (ix3 (0 : Fin 1) (0 : Fin 1) ch) := by
  funext a; apply Fin.ext
  match a with
  | ⟨0, _⟩ => rfl
  | ⟨1, _⟩ => rfl
  | ⟨2, _⟩ => show ch.val = 0 + 1 * ch.val; omega

/-- Row 0 likewise, for the row-0 store. -/
theorem row0_emb (ch : Fin 48) :
    (ix3 (0 : Fin 1) (0 : Fin 2) ch : S1x2x48.Idx)
      = (Rect.unit (s := S1x2x48) ![0, 0, 0] S1x1x48.size inb_S1x2x48_S1x1x48_0_0_0).emb (ix3 (0 : Fin 1) (0 : Fin 1) ch) := by
  funext a; apply Fin.ext
  match a with
  | ⟨0, _⟩ => rfl
  | ⟨1, _⟩ => rfl
  | ⟨2, _⟩ => show ch.val = 0 + 1 * ch.val; omega

/-- Row 0 is outside the row-1 store. -/
theorem row0_not_mem (ch : Fin 48) :
    (ix3 (0 : Fin 1) (0 : Fin 2) ch : S1x2x48.Idx) ∉ (Rect.unit (s := S1x2x48) ![0, 1, 0] S1x1x48.size inb_S1x2x48_S1x1x48_0_1_0).set := by
  rw [Rect.mem_set_unit]
  intro h
  exact Nat.not_succ_le_zero 0 (h 1).1

/-- Row 1 is outside the row-0 store. -/
theorem row1_not_mem (ch : Fin 48) :
    (ix3 (0 : Fin 1) (1 : Fin 2) ch : S1x2x48.Idx) ∉ (Rect.unit (s := S1x2x48) ![0, 0, 0] S1x1x48.size inb_S1x2x48_S1x1x48_0_0_0).set := by
  rw [Rect.mem_set_unit]
  intro h
  exact Nat.lt_irrefl 1 (h 1).2

/-- The three rectangles the body stores through: row 1, row 0, the whole block. -/
abbrev R1 : Rect S1x2x48 := Rect.unit (s := S1x2x48) ![0, 1, 0] S1x1x48.size inb_S1x2x48_S1x1x48_0_1_0
abbrev R0 : Rect S1x2x48 := Rect.unit (s := S1x2x48) ![0, 0, 0] S1x1x48.size inb_S1x2x48_S1x1x48_0_0_0
abbrev Rz : Rect S1x2x48 := Rect.unit (s := S1x2x48) ![0, 0, 0] S1x2x48.size inb_S1x2x48_S1x2x48_0_0_0

section Rows
variable {Val : EltTy → Type} [∀ e, Nonempty (Val e)]

/-- After a row-0 store and then a row-1 store, row 1 reads the row-1 store's payload, -/
theorem canon_row1 (w1 : R1.shape.Idx → Val .f32) (w0 : R0.shape.Idx → Val .f32) (L : List (View.Piece Val S1x2x48 .f32)) (ch : Fin 48) :
    View.canon ((⟨R1, w1⟩ : View.Piece Val S1x2x48 .f32) :: ⟨R0, w0⟩ :: L) (ix3 (0 : Fin 1) (1 : Fin 2) ch)
      = w1 (ix3 (0 : Fin 1) (0 : Fin 1) ch) := by
  rw [row1_emb ch]; exact View.canon_cons_emb R1 w1 (⟨R0, w0⟩ :: L) (ix3 (0 : Fin 1) (0 : Fin 1) ch)

/-- and row 0 the row-0 store's. -/
theorem canon_row0 (w1 : R1.shape.Idx → Val .f32) (w0 : R0.shape.Idx → Val .f32) (L : List (View.Piece Val S1x2x48 .f32)) (ch : Fin 48) :
    View.canon ((⟨R1, w1⟩ : View.Piece Val S1x2x48 .f32) :: ⟨R0, w0⟩ :: L) (ix3 (0 : Fin 1) (0 : Fin 2) ch)
      = w0 (ix3 (0 : Fin 1) (0 : Fin 1) ch) := by
  refine (View.canon_cons_of_not_mem (⟨R1, w1⟩ : View.Piece Val S1x2x48 .f32) (⟨R0, w0⟩ :: L) (row0_not_mem ch)).trans ?_
  rw [row0_emb ch]; exact View.canon_cons_emb R0 w0 L (ix3 (0 : Fin 1) (0 : Fin 1) ch)

/-- After only a row-0 store over a whole-block store, row 1 reads the whole-block store's payload. -/
theorem canon_row1_under (w0 : R0.shape.Idx → Val .f32) (wz : S1x2x48.Idx → Val .f32) (ch : Fin 48) :
    View.canon [(⟨R0, w0⟩ : View.Piece Val S1x2x48 .f32), ⟨Rz, wz⟩] (R1.emb (ix3 (0 : Fin 1) (0 : Fin 1) ch))
      = wz (ix3 (0 : Fin 1) (1 : Fin 2) ch) := by
  rw [← row1_emb ch]
  refine (View.canon_cons_of_not_mem (⟨R0, w0⟩ : View.Piece Val S1x2x48 .f32) [⟨Rz, wz⟩] (row1_not_mem ch)).trans ?_
  rw [View.canon_unit_zero hz3]

end Rows

/-! ## What one tile leaves in the output block -/

/-- At a later tile the body leaves every entry at what the block held plus the tile's sum for that class and channel. -/
theorem out_B_apply (c : Dev nD) (i : grid0.Coords) (a2 : Memref sig .tc .vmem S1x48x4x80x48 .f32) (h2 : a2.IsWhole)
    (a3 : Memref sig .tc .vmem S1x1x4x80x48 .i32) (h3 : a3.IsWhole) (a4 : Memref sig .tc .vmem S1x2x48 .f32) (h4 : a4.IsWhole)
    (hc : ¬cond0_0 i) (x0 : Vec Ideal S1x48x4x80x48 .f32) (x1 : Vec Ideal S1x1x4x80x48 .i32) (xo : Vec Ideal S1x2x48 .f32)
    (k : Fin 2) (ch : Fin 48) :
    out0_B_2 (F := Ideal) c i a2 h2 a3 h3 a4 h4 hc x0 x1 xo (ix3 (0 : Fin 1) k ch)
      = xo (ix3 (0 : Fin 1) k ch) + tileSum x0 x1 k ch := by
  unfold out0_B_2
  rw [View.read_writes_eq_canon _ _ _ (cover0_B_2 c i a2 h2 a3 h3 a4 h4 hc x0 x1 xo)]
  unfold kernelRun0_B
  dsimp only
  sl_unfold_words
  simp only [View.readAt_eq_ld, h2.read_unread, h3.read_unread, h4.read_unread,
    View.ld_unit_zero (S := S1x48x4x80x48) hz5, View.ld_unit_zero (S := S1x1x4x80x48) hz5]
  match k with
  | ⟨0, _⟩ =>
    refine (canon_row0 _ _ _ ch).trans ?_
    refine (pay1_apply _ ch).trans ((pay7_apply x0 x1 _ ch).trans ?_)
    exact congrArg (· + tileSum x0 x1 0 ch) (congrArg xo (row0_emb ch).symm)
  | ⟨1, _⟩ =>
    refine (canon_row1 _ _ _ ch).trans ?_
    refine (pay2_apply _ _ ch).trans ?_
    exact congrArg₂ (· + ·) (congrArg xo (row1_emb ch).symm) (pay5_apply x0 x1 ch)

/-- At a batch's first tile the body leaves every entry at the tile's sum for that class and channel. -/
theorem out_A_apply (c : Dev nD) (i : grid0.Coords) (a2 : Memref sig .tc .vmem S1x48x4x80x48 .f32) (h2 : a2.IsWhole)
    (a3 : Memref sig .tc .vmem S1x1x4x80x48 .i32) (h3 : a3.IsWhole) (a4 : Memref sig .tc .vmem S1x2x48 .f32) (h4 : a4.IsWhole)
    (hc : cond0_0 i) (x0 : Vec Ideal S1x48x4x80x48 .f32) (x1 : Vec Ideal S1x1x4x80x48 .i32)
    (k : Fin 2) (ch : Fin 48) :
    out0_A_2 (F := Ideal) c i a2 h2 a3 h3 a4 h4 hc x0 x1 (ix3 (0 : Fin 1) k ch) = tileSum x0 x1 k ch := by
  unfold out0_A_2
  rw [View.read_writes_eq_canon _ _ _ (cover0_A_2 c i a2 h2 a3 h3 a4 h4 hc x0 x1)]
  unfold kernelRun0_A
  dsimp only
  sl_unfold_words
  simp only [View.readAt_eq_ld, h2.read_unread, h3.read_unread,
    View.ld_unit_zero (S := S1x48x4x80x48) hz5, View.ld_unit_zero (S := S1x1x4x80x48) hz5, View.readCov_eq_canon']
  match k with
  | ⟨0, _⟩ =>
    refine (canon_row0 _ _ _ ch).trans ?_
    refine (pay1_apply _ ch).trans ((pay7_apply x0 x1 _ ch).trans ?_)
    simp only [View.canon_unit_zero (Val := Elt Ideal) (S := S1x2x48) hz3, pay6_apply, zero_add]
    rfl
  | ⟨1, _⟩ =>
    refine (canon_row1 _ _ _ ch).trans ?_
    refine (pay2_apply _ _ ch).trans ?_
    refine Eq.trans (congrArg₂ (· + ·) ?_ (pay5_apply x0 x1 ch)) (zero_add _)
    exact (canon_row1_under (Val := Elt Ideal) _ (k0_pay6 (F := Ideal)) ch).trans (pay6_apply (ix3 (0 : Fin 1) (1 : Fin 2) ch))

/-! ## The block after every point: the tiles' sums so far -/

section Acc
variable (V : (c : Dev nD) → (b : Ref sig .tc) → Buf (Elt Ideal) ((c : Thread nD τ).loc b))

/-- A batch's first tile leaves its own sum. -/
theorem pointA (c : Dev nD) (t : Fin cfg0.N) (h0 : t.val % 20 = 0) (k : Fin 2) (ch : Fin 48) :
    outsAt0 V c t.val t.isLt (ix3 (0 : Fin 1) k ch) = tileSum (iblk0 V c 0 t) (iblk0 V c 1 t) k ch := by
  rw [outsAt0_A V c t h0]
  exact out_A_apply c (grid0.coords t) (ms0_0 t) (hs0_0 t) (ms0_1 t) (hs0_1 t) (ms0_2 t) (hs0_2 t) ((hcond0_0 t).mpr h0)
    (iblk0 V c 0 t) (iblk0 V c 1 t) k ch

/-- A later tile adds its sum to what the point before left. -/
theorem pointB (c : Dev nD) (t : Fin cfg0.N) (h0 : ¬t.val % 20 = 0) (k : Fin 2) (ch : Fin 48) :
    outsAt0 V c t.val t.isLt (ix3 (0 : Fin 1) k ch)
      = outsAt0 V c (t.val - 1) (Nat.lt_of_le_of_lt (Nat.sub_le _ _) t.isLt) (ix3 (0 : Fin 1) k ch)
        + tileSum (iblk0 V c 0 t) (iblk0 V c 1 t) k ch := by
  rw [outsAt0_B V c t h0]
  exact out_B_apply c (grid0.coords t) (ms0_0 t) (hs0_0 t) (ms0_1 t) (hs0_1 t) (ms0_2 t) (hs0_2 t) (fun h => h0 ((hcond0_0 t).mp h))
    (iblk0 V c 0 t) (iblk0 V c 1 t) (outsAt0 V c (t.val - 1) (Nat.lt_of_le_of_lt (Nat.sub_le _ _) t.isLt)) k ch

/-- Point `n`'s addend: its tile's sum (zero past the grid, where it is never used). -/
def addend (c : Dev nD) (k : Fin 2) (ch : Fin 48) (n : ℕ) : EReal :=
  if h : n < cfg0.N then tileSum (iblk0 V c 0 ⟨n, h⟩) (iblk0 V c 1 ⟨n, h⟩) k ch else 0

theorem addend_of_lt (c : Dev nD) (k : Fin 2) (ch : Fin 48) (n : ℕ) (h : n < cfg0.N) :
    addend V c k ch n = tileSum (iblk0 V c 0 ⟨n, h⟩) (iblk0 V c 1 ⟨n, h⟩) k ch := dif_pos h

/-- After point `n` the block holds the sums of the batch's tiles up to `n`'s. -/
theorem outsAt_eq (c : Dev nD) (k : Fin 2) (ch : Fin 48) : ∀ (n : ℕ) (hn : n < cfg0.N),
    outsAt0 V c n hn (ix3 (0 : Fin 1) k ch) = ∑ s ∈ Finset.range (n % 20 + 1), addend V c k ch (n - n % 20 + s)
  | 0, hn => by
    refine (pointA V c ⟨0, hn⟩ rfl k ch).trans ?_
    show _ = ∑ s ∈ Finset.range 1, addend V c k ch (0 + s)
    rw [Finset.sum_range_one]
    exact (addend_of_lt V c k ch 0 hn).symm
  | n + 1, hn => by
    have hN : cfg0.N = 40 := N_0
    by_cases h0 : (n + 1) % 20 = 0
    · refine (pointA V c ⟨n + 1, hn⟩ h0 k ch).trans ?_
      rw [h0]
      show _ = ∑ s ∈ Finset.range 1, addend V c k ch (n + 1 + s)
      rw [Finset.sum_range_one]
      exact (addend_of_lt V c k ch (n + 1) hn).symm
    · refine (pointB V c ⟨n + 1, hn⟩ h0 k ch).trans ?_
      show outsAt0 V c n _ (ix3 (0 : Fin 1) k ch) + _ = _
      rw [outsAt_eq c k ch n (Nat.lt_of_succ_lt hn)]
      have e1 : (n + 1) % 20 = n % 20 + 1 := by omega
      have e2 : n + 1 - (n % 20 + 1) = n - n % 20 := by omega
      have e3 : n - n % 20 + (n % 20 + 1) = n + 1 := by omega
      rw [e1, e2, Finset.sum_range_succ _ (n % 20 + 1), e3, addend_of_lt V c k ch (n + 1) hn]

end Acc

/-! ## The blocks a point reads, as entries of the argument arrays -/

section Blocks
variable (V : (c : Dev nD) → (b : Ref sig .tc) → Buf (Elt Ideal) ((c : Thread nD τ).loc b))

/-- The grid's index maps, decided over the forty points: point `t` is batch `t / 20`, tile `t % 20`. -/
theorem idx_facts : ∀ t : Fin cfg0.N,
    win0_0.index t (0 : Fin 5) = t.val / 20 ∧ win0_0.index t (1 : Fin 5) = 0 ∧ win0_0.index t (2 : Fin 5) = t.val % 20
    ∧ win0_0.index t (3 : Fin 5) = 0 ∧ win0_0.index t (4 : Fin 5) = 0
    ∧ win0_1.index t (0 : Fin 5) = t.val / 20 ∧ win0_1.index t (1 : Fin 5) = 0 ∧ win0_1.index t (2 : Fin 5) = t.val % 20
    ∧ win0_1.index t (3 : Fin 5) = 0 ∧ win0_1.index t (4 : Fin 5) = 0
    ∧ win0_2.index t (0 : Fin 3) = t.val / 20 ∧ win0_2.index t (1 : Fin 3) = 0 ∧ win0_2.index t (2 : Fin 3) = 0 :=
  (by decide +kernel : ∀ t : Fin grid0.N, _)

/-- The features and the labels as the kernel finds them, at the specification's index types. -/
abbrev Xv (c : Dev nD) : Spec.SX.Idx → EReal := fun i => V c main_arg0 i
abbrev Tv (c : Dev nD) : Spec.ST.Idx → BitVec 32 := fun i => V c main_arg2 i

/-- The feature block of point `t` holds batch `t / 20`, rows `4 (t % 20) …` of the features. -/
theorem iblk_feat (c : Dev nD) (t : Fin cfg0.N) (b : Fin 2) (hb : b.val = t.val / 20) (h : Fin 80) (ch : Fin 48) (r : Fin 4)
    (hh : h.val = 4 * (t.val % 20) + r.val) (w : Fin 80) (d : Fin 48) :
    (iblk0 V c 0 t : Vec Ideal S1x48x4x80x48 .f32) (ix5 (0 : Fin 1) ch r w d) = Xv V c (ix5 b ch h w d) := by
  obtain ⟨e0, e1, e2, e3, e4, -⟩ := idx_facts t
  unfold iblk0
  rw [View.read_apply]
  show V c main_arg0 _ = V c main_arg0 _
  refine congrArg _ (funext fun a => Fin.ext ?_)
  match a with
  | ⟨0, _⟩ => show win0_0.index t (0 : Fin 5) * 1 + 1 * 0 = b.val; omega
  | ⟨1, _⟩ => show win0_0.index t (1 : Fin 5) * 48 + 1 * ch.val = ch.val; omega
  | ⟨2, _⟩ => show win0_0.index t (2 : Fin 5) * 4 + 1 * r.val = h.val; omega
  | ⟨3, _⟩ => show win0_0.index t (3 : Fin 5) * 80 + 1 * w.val = w.val; omega
  | ⟨4, _⟩ => show win0_0.index t (4 : Fin 5) * 48 + 1 * d.val = d.val; omega

/-- The label block of point `t` holds batch `t / 20`, rows `4 (t % 20) …` of the labels. -/
theorem iblk_lab (c : Dev nD) (t : Fin cfg0.N) (b : Fin 2) (hb : b.val = t.val / 20) (h : Fin 80) (r : Fin 4)
    (hh : h.val = 4 * (t.val % 20) + r.val) (w : Fin 80) (d : Fin 48) :
    (iblk0 V c 1 t : Vec Ideal S1x1x4x80x48 .i32) (ix5 (0 : Fin 1) (0 : Fin 1) r w d) = Tv V c (ix5 b (0 : Fin 1) h w d) := by
  obtain ⟨-, -, -, -, -, e0, e1, e2, e3, e4, -⟩ := idx_facts t
  unfold iblk0
  rw [View.read_apply]
  show V c main_arg2 _ = V c main_arg2 _
  refine congrArg _ (funext fun a => Fin.ext ?_)
  match a with
  | ⟨0, _⟩ => show win0_1.index t (0 : Fin 5) * 1 + 1 * 0 = b.val; omega
  | ⟨1, _⟩ => show win0_1.index t (1 : Fin 5) * 1 + 1 * 0 = 0; omega
  | ⟨2, _⟩ => show win0_1.index t (2 : Fin 5) * 4 + 1 * r.val = h.val; omega
  | ⟨3, _⟩ => show win0_1.index t (3 : Fin 5) * 80 + 1 * w.val = w.val; omega
  | ⟨4, _⟩ => show win0_1.index t (4 : Fin 5) * 48 + 1 * d.val = d.val; omega

/-- Row `r` of tile `s` among a batch's eighty rows. -/
def rowOf (s : Fin 20) (r : Fin 4) : Fin 80 := ⟨4 * s.val + r.val, by omega⟩

/-- The sum a tile contributes, in the specification's terms. -/
theorem tile_eq (c : Dev nD) (t : Fin cfg0.N) (b : Fin 2) (hb : b.val = t.val / 20) (s : Fin 20) (hs : s.val = t.val % 20)
    (k : Fin 2) (ch : Fin 48) :
    tileSum (iblk0 V c 0 t) (iblk0 V c 1 t) k ch
      = ∑ r : Fin 4, ∑ w : Fin 80, ∑ d : Fin 48,
          Spec.feat (Xv V c) b ch (rowOf s r) w d * Spec.ind k (Spec.lab (Tv V c) b (rowOf s r) w d) := by
  unfold tileSum
  refine Finset.sum_congr rfl fun r _ => Finset.sum_congr rfl fun w _ => Finset.sum_congr rfl fun d _ => ?_
  have hrow : (rowOf s r).val = 4 * (t.val % 20) + r.val := by show 4 * s.val + r.val = _; omega
  exact congrArg₂ (· * ·) (iblk_feat V c t b hb (rowOf s r) ch r hrow w d)
    (congrArg (Spec.ind k) (iblk_lab V c t b hb (rowOf s r) r hrow w d))

/-- Eighty rows are twenty tiles of four. -/
theorem sum_rows (g : Fin 80 → EReal) : ∑ h : Fin 80, g h = ∑ s : Fin 20, ∑ r : Fin 4, g (rowOf s r) := by
  have e := Fintype.sum_equiv (finProdFinEquiv (m := 20) (n := 4)) (fun p : Fin 20 × Fin 4 => g (rowOf p.1 p.2))
    (fun h : Fin (20 * 4) => g h) (fun p => congrArg g (Fin.ext (by
      show 4 * p.1.val + p.2.val = p.2.val + 4 * p.1.val; omega)))
  rw [Fintype.sum_prod_type] at e
  exact e.symm

/-- After a batch's last tile the block holds the batch's sums over all eighty rows. -/
theorem outsAt_last (c : Dev nD) (t : Fin cfg0.N) (h19 : t.val % 20 = 19) (b : Fin 2) (hb : b.val = t.val / 20)
    (k : Fin 2) (ch : Fin 48) :
    outsAt0 V c t.val t.isLt (ix3 (0 : Fin 1) k ch) = Spec.csum (Xv V c) (Tv V c) b k ch := by
  have hN : cfg0.N = 40 := N_0
  have ht := t.isLt
  rw [outsAt_eq V c k ch t.val t.isLt, h19]
  unfold Spec.csum
  rw [sum_rows]
  show ∑ s ∈ Finset.range 20, _ = _
  rw [Finset.sum_range]
  refine Finset.sum_congr rfl fun s _ => ?_
  have hs := s.isLt
  have hlt : t.val - 19 + s.val < cfg0.N := by omega
  rw [addend_of_lt V c k ch _ hlt]
  exact tile_eq V c ⟨t.val - 19 + s.val, hlt⟩ b (by show b.val = (t.val - 19 + s.val) / 20; omega) s
    (by show s.val = (t.val - 19 + s.val) % 20; omega) k ch

end Blocks

/-! ## From the blocks to the array -/

section Final
variable (V : (c : Dev nD) → (b : Ref sig .tc) → Buf (Elt Ideal) ((c : Thread nD τ).loc b))

/-- What the array of sums ends holding: the specification's sums, index by index. -/
abbrev sums (c : Dev nD) : S2x2x48.Idx → EReal := fun i => Spec.csum (Xv V c) (Tv V c) (i 0) (i 1) (i 2)

/-- A batch's last tile writes back the batch's block of the sums. -/
theorem flushed_eq (c : Dev nD) (t : Fin cfg0.N) (hf : (cfg0.win 2).flush t = true) :
    (dat0 V c).flushed 2 t = ((cfg0.win 2).blk t).view.read (Elt Ideal) (sums V c) := by
  have h19 : t.val % 20 = 19 := (flush0_2 t).mp hf
  have hN : cfg0.N = 40 := N_0
  have hb : t.val / 20 < 2 := by have := t.isLt; omega
  obtain ⟨-, -, -, -, -, -, -, -, -, -, e0, e1, e2⟩ := idx_facts t
  show (cfg0.win 2).cut (grid0.coords t) ((dat0 V c).after 2 t) = _
  rw [after0_2]
  funext j
  obtain ⟨u, k, ch, rfl⟩ : ∃ (u : Fin 1) (k : Fin 2) (ch : Fin 48), j = ix3 u k ch := ⟨j 0, j 1, j 2, eq_ix3 j⟩
  obtain rfl : u = 0 := Subsingleton.elim _ _
  have hemb : ((cfg0.win 2).blk t).view.emb (ix3 (0 : Fin 1) k ch) = (ix3 (⟨t.val / 20, hb⟩ : Fin 2) k ch : S2x2x48.Idx) := by
    funext a; apply Fin.ext
    match a with
    | ⟨0, _⟩ => show win0_2.index t (0 : Fin 3) * 1 + 1 * 0 = t.val / 20; omega
    | ⟨1, _⟩ => show win0_2.index t (1 : Fin 3) * 2 + 1 * k.val = k.val; omega
    | ⟨2, _⟩ => show win0_2.index t (2 : Fin 3) * 48 + 1 * ch.val = ch.val; omega
  show outsAt0 V c t.val t.isLt (ix3 (0 : Fin 1) k ch) = sums V c (((cfg0.win 2).blk t).view.emb (ix3 (0 : Fin 1) k ch))
  rw [hemb]
  exact outsAt_last V c t h19 ⟨t.val / 20, hb⟩ rfl k ch

/-- Every entry of the array is in the block some batch's last tile writes back. -/
theorem covered (i : S2x2x48.Idx) : ∃ t : Fin cfg0.N, (cfg0.win 2).flush t = true ∧ i ∈ ((cfg0.win 2).blk t).view.set := by
  have hN : cfg0.N = 40 := N_0
  have hi0 : (i 0).val < 2 := (i 0).isLt
  have hi1 : (i 1).val < 2 := (i 1).isLt
  have hi2 : (i 2).val < 48 := (i 2).isLt
  have hlt : 20 * (i 0).val + 19 < cfg0.N := by omega
  refine ⟨⟨20 * (i 0).val + 19, hlt⟩, (flush0_2 _).mpr (by show (20 * (i 0).val + 19) % 20 = 19; omega), ?_⟩
  obtain ⟨-, -, -, -, -, -, -, -, -, -, e0, e1, e2⟩ := idx_facts ⟨20 * (i 0).val + 19, hlt⟩
  have e0' : win0_2.index ⟨20 * (i 0).val + 19, hlt⟩ (0 : Fin 3) = (20 * (i 0).val + 19) / 20 := e0
  show i ∈ ((View.whole main_v0).slice (win0_2.rect ⟨20 * (i 0).val + 19, hlt⟩)).set
  rw [View.set_slice_whole, Rect.mem_set_unit]
  intro a
  match a with
  | ⟨0, _⟩ =>
    show win0_2.index ⟨20 * (i 0).val + 19, hlt⟩ (0 : Fin 3) * 1 ≤ (i 0).val
      ∧ (i 0).val < win0_2.index ⟨20 * (i 0).val + 19, hlt⟩ (0 : Fin 3) * 1 + 1
    omega
  | ⟨1, _⟩ =>
    show win0_2.index ⟨20 * (i 0).val + 19, hlt⟩ (1 : Fin 3) * 2 ≤ (i 1).val
      ∧ (i 1).val < win0_2.index ⟨20 * (i 0).val + 19, hlt⟩ (1 : Fin 3) * 2 + 2
    omega
  | ⟨2, _⟩ =>
    show win0_2.index ⟨20 * (i 0).val + 19, hlt⟩ (2 : Fin 3) * 48 ≤ (i 2).val
      ∧ (i 2).val < win0_2.index ⟨20 * (i 0).val + 19, hlt⟩ (2 : Fin 3) * 48 + 48
    omega

/-- So the array of sums ends holding the specification's sums. -/
theorem final (c : Dev nD) : (dat0 V c).arrAt 2 cfg0.N = sums V c :=
  (dat0 V c).arrAt_eq_of_cover 2 (sums V c) (flushed_eq V c) covered

end Final

end Cert.KernelIdeal.Gen.CentersValue

end
-- ==== Proof.CentersCount.lean ====
/-
  The host's label counts between the two kernels. For each batch and class the host flattens the labels of the batch,
  compares them with the class, and adds the zero/one words as 32-bit integers; there are 307200 positions, so the
  integer sum cannot wrap, and converted to a real it is the number of positions of the batch carrying the class: the
  specification's sum of indicators.
-/
import proofs.«158333_j65738769433119_2_alg».proof.Proof.Gen.KernelIdeal.Skeleton
import proofs.«158333_j65738769433119_2_alg».proof.Proof.Spec
import Idealize.ShloMosaic.Lib.Pipeline.Value
import Idealize.ShloMosaic.Lib.ValueLayout
import Idealize.ShloMosaic.Lib.IndicatorCount
import Idealize.ShloMosaic.Lib.WordArith
import Idealize.ShloMosaic.Lib.Affine
import Idealize.ShloMosaic.PureOps.Ideal.Laws

set_option maxRecDepth 16384

noncomputable section

namespace Cert.KernelIdeal.Gen.CentersValue

open Idealize.ShloMosaic Idealize.ShloMosaic.ValueIdx
open Cert.KernelIdeal Cert.KernelIdeal.Gen
open Cert.Proof

/-- The flattened labels at position `(h · 80 + w) · 48 + d` of batch `b` are the labels at `(b, 0, h, w, d)`. -/
theorem flat_lab (T : IVec S2x1x80x80x48 32) (b : Fin 2) (h w : Fin 80) (d : Fin 48) (n : Fin 307200)
    (hn : n.val = (h.val * 80 + w.val) * 48 + d.val) :
    shapeCast S2x307200 T shapeCasts_S2x1x80x80x48_S2x307200 (ix2 b n) = T (ix5 b (0 : Fin 1) h w d) :=
  shapeCast_apply T _ _ _ (by
    rw [Shape.rowMajor_val_five, Shape.rowMajor_val_two]
    show (((b.val * 1 + 0) * 80 + h.val) * 80 + w.val) * 48 + d.val = b.val * 307200 + n.val
    omega)

/-- The host's count word for the label word `kw`: the integer sum, per batch, of the comparison bits widened to 32 bits. -/
def countWord (T : IVec S2x1x80x80x48 32) (kw : BitVec 32) : IVec S2 32 :=
  Host.reduce IntOp.addi
    (extui 32 (cmpi .eq (shapeCast S2x307200 T shapeCasts_S2x1x80x80x48_S2x307200)
      (broadcastInDim S2x307200 ![] bcast_S_S2x307200 (constantI S_ 32 kw))) natLt_1_32)
    (constantI S_ 32 0#32) reducesTo_S2x307200_S2_d1 h_S_

/-- It is the number of the batch's flattened positions carrying that word. -/
theorem countWord_eq (T : IVec S2x1x80x80x48 32) (kw : BitVec 32) (b : Fin 2) :
    countWord T kw (ix1 b) = BitVec.ofNat 32 (Finset.univ.filter fun n : Fin 307200 =>
      shapeCast S2x307200 T shapeCasts_S2x1x80x80x48_S2x307200 (ix2 b n) = kw).card := by
  have hR : S2x307200.Reduces [1] S2 := by decide
  unfold countWord
  rw [Host.reduce_eq_fold_single IntOp.addi _ _ reducesTo_S2x307200_S2_d1 hR h_S_ (ix1 b)]
  show (Finset.univ : Finset (Fin 307200)).fold IntOp.addi (0#32)
      (fun n => (IntOp.cmpi .eq (shapeCast S2x307200 T shapeCasts_S2x1x80x80x48_S2x307200 (hR.lift (ix1 b) n)) kw).setWidth 32) = _
  refine (IndicatorCount.fold_addi_setWidth_eq_card (w := 32)
    (fun n : Fin 307200 => IntOp.cmpi .eq (shapeCast S2x307200 T shapeCasts_S2x1x80x80x48_S2x307200 (hR.lift (ix1 b) n)) kw)
    Finset.univ).trans ?_
  refine congrArg (fun s : Finset (Fin 307200) => BitVec.ofNat 32 s.card) (Finset.filter_congr fun n _ => ?_)
  rw [IntOp.cmpi_eq]
  have e : hR.lift (ix1 b) n = ix2 b n := funext fun a => match a with
    | ⟨0, _⟩ => rfl
    | ⟨1, _⟩ => rfl
  rw [e]

/-- A real sum's image among the extended reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A count is the sum of the indicators. -/
theorem card_eq_sum (P : Fin 307200 → Prop) [DecidablePred P] :
    (((Finset.univ.filter P).card : ℝ) : EReal) = ∑ n : Fin 307200, (if P n then (1 : EReal) else 0) := by
  rw [Finset.card_filter, Nat.cast_sum, coe_sum]
  refine Finset.sum_congr rfl fun n _ => ?_
  split <;> simp

/-- Position (row, column, depth) among a batch's 307200 flattened positions. -/
def flat (h w : Fin 80) (d : Fin 48) : Fin 307200 := ⟨(h.val * 80 + w.val) * 48 + d.val, by omega⟩

/-- A sum over the flattened positions, row by row, column by column, depth by depth. -/
theorem sum_flat (g : Fin 307200 → EReal) :
    ∑ n : Fin 307200, g n = ∑ h : Fin 80, ∑ w : Fin 80, ∑ d : Fin 48, g (flat h w d) := by
  have e := Fintype.sum_equiv
    ((Equiv.prodCongr (finProdFinEquiv (m := 80) (n := 80)) (Equiv.refl (Fin 48))).trans (finProdFinEquiv (m := 80 * 80) (n := 48)))
    (fun p : (Fin 80 × Fin 80) × Fin 48 => g (flat p.1.1 p.1.2 p.2)) (fun n : Fin (80 * 80 * 48) => g n)
    (fun p => congrArg g (Fin.ext (by
      show (p.1.1.val * 80 + p.1.2.val) * 48 + p.2.val = p.2.val + 48 * (p.1.2.val + 80 * p.1.1.val); omega)))
  rw [Fintype.sum_prod_type, Fintype.sum_prod_type] at e
  exact e.symm

/-- The count word converted to a real is the specification's count. -/
theorem count_apply (T : IVec S2x1x80x80x48 32) (k b : Fin 2) :
    FloatOps.sitofp (F := Ideal) .f32 (countWord T (BitVec.ofNat 32 k.val) (ix1 b))
      = Spec.cnt (fun i => T i : Spec.ST.Idx → BitVec 32) b k := by
  rw [countWord_eq]
  have hle := Finset.card_filter_le (Finset.univ : Finset (Fin 307200))
    (fun n => shapeCast S2x307200 T shapeCasts_S2x1x80x80x48_S2x307200 (ix2 b n) = BitVec.ofNat 32 k.val)
  rw [Finset.card_univ, Fintype.card_fin] at hle
  show ((((BitVec.ofNat 32 _).toInt : ℤ) : ℝ) : EReal) = _
  rw [WordArith.toInt_ofNat_small _ (lt_of_le_of_lt hle (by norm_num)), Int.cast_natCast, card_eq_sum, sum_flat]
  unfold Spec.cnt
  refine Finset.sum_congr rfl fun h _ => Finset.sum_congr rfl fun w _ => Finset.sum_congr rfl fun d _ => ?_
  unfold Spec.ind Spec.lab
  rw [flat_lab T b h w d (flat h w d) rfl]

/-- The counts as the host lays them out: the two classes' count words side by side, converted to reals. -/
def hostCounts (T : IVec S2x1x80x80x48 32) : FVec Ideal S2x2 .f32 :=
  sitofp .f32 (concatenate S2x2 1
    [⟨S2x1, broadcastInDim S2x1 ![0] bcast_S2_S2x1_0 (countWord T 0#32)⟩,
     ⟨S2x1, broadcastInDim S2x1 ![0] bcast_S2_S2x1_0 (countWord T 1#32)⟩] concatenates_S2x1_S2x1_S2x2_d1)

/-- A count word given a unit second axis reads, at (b, 0), the word of batch `b`. -/
theorem count_col (v : IVec S2 32) (b : Fin 2) :
    broadcastInDim S2x1 ![0] bcast_S2_S2x1_0 v (ix2 b (0 : Fin 1)) = v (ix1 b) :=
  broadcastInDim_apply _ bcast_S2_S2x1_0 v (ix2 b (0 : Fin 1)) (ix1 b) fun a => match a with
    | ⟨0, _⟩ => rfl

/-- Entry (b, k) of the host's counts is the specification's count of class `k` in batch `b`. -/
theorem hostCounts_apply (T : IVec S2x1x80x80x48 32) (b k : Fin 2) :
    hostCounts T (ix2 b k) = Spec.cnt (fun i => T i : Spec.ST.Idx → BitVec 32) b k := by
  unfold hostCounts
  refine (sitofp_apply _ _).trans ?_
  match k with
  | ⟨0, _⟩ =>
    refine Eq.trans (congrArg (FloatOps.sitofp (F := Ideal) .f32) ?_) (count_apply T 0 b)
    refine (concatenate_pair_apply_left (t := S2x2) (s₁ := S2x1) (s₂ := S2x1) (1 : Fin 2)
      (broadcastInDim S2x1 ![0] bcast_S2_S2x1_0 (countWord T 0#32)) (broadcastInDim S2x1 ![0] bcast_S2_S2x1_0 (countWord T 1#32))
      concatenates_S2x1_S2x1_S2x2_d1 (ix2 b (0 : Fin 2)) rfl (ix2 b (0 : Fin 1) : S2x1.Idx)
      fun a => match a with | ⟨0, _⟩ => rfl | ⟨1, _⟩ => rfl).trans ?_
    exact count_col _ b
  | ⟨1, _⟩ =>
    refine Eq.trans (congrArg (FloatOps.sitofp (F := Ideal) .f32) ?_) (count_apply T 1 b)
    refine (concatenate_pair_apply_right (t := S2x2) (s₁ := S2x1) (s₂ := S2x1) (1 : Fin 2)
      (broadcastInDim S2x1 ![0] bcast_S2_S2x1_0 (countWord T 0#32)) (broadcastInDim S2x1 ![0] bcast_S2_S2x1_0 (countWord T 1#32))
      concatenates_S2x1_S2x1_S2x2_d1 (ix2 b (1 : Fin 2)) rfl rfl (ix2 b (0 : Fin 1) : S2x1.Idx)
      (fun a => match a with | ⟨0, _⟩ => fun _ => rfl | ⟨1, _⟩ => fun h => absurd rfl h) rfl).trans ?_
    exact count_col _ b

end Cert.KernelIdeal.Gen.CentersValue

end
-- ==== Proof.CentersMain.lean ====
/-
  The first kernel's sums and the host operations that follow it, read as values: after the first kernel the array
  `center_sum` holds, per batch, class and channel, the sum of the feature over the positions carrying the class; the
  host then counts each class's positions per batch and divides the sums by the counts taken at least one. These are
  the specification's sums, counts and centres, from which the second kernel is entered.
-/
import proofs.«158333_j65738769433119_2_alg».proof.Proof.MainRun
import proofs.«158333_j65738769433119_2_alg».proof.Proof.CentersValue
import proofs.«158333_j65738769433119_2_alg».proof.Proof.CentersCount
import Idealize.ShloMosaic.Lib.StableHlo.Run
import Idealize.ShloMosaic.Lib.Tactic

set_option maxRecDepth 16384

noncomputable section

namespace Cert.KernelIdeal.Gen.CentersValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Gen.Centers Cert.KernelIdeal.Gen.Whole
open Cert.Proof

variable (m : (ℓ : Loc nD τ sig) → Buf (Elt Ideal) ℓ) (ρ : Dev nD → PrngReg)

/-- The labels reach the host operations between the kernels as launched. -/
theorem W2_labels (c : Dev nD) : W2 m ρ c (Proc.devRef .tc main_arg2) = m ((c.tc : Thread nD τ).loc main_arg2) :=
  (W2_arr m ρ c 1).trans (((dat0 (Whole.V1 m ρ) c).arrAt_in 1 rfl _).trans (A_eq0 (Whole.V1 m ρ) c 1))

/-- After the first kernel the array of sums holds the specification's sums. -/
theorem centerSums_value (c : Dev nD) (i : S2x2x48.Idx) :
    W2 (F := Ideal) m ρ c (Proc.devRef .tc main_v0) i
      = Spec.csum (fun i => m ((c.tc : Thread nD τ).loc main_arg0) i : Spec.SX.Idx → EReal)
          (fun i => m ((c.tc : Thread nD τ).loc main_arg2) i : Spec.ST.Idx → BitVec 32) (i 0) (i 1) (i 2) :=
  congrFun ((W2_arr m ρ c 2).trans (final (Whole.V1 m ρ) c)) i

/-- The host's counts, as a term of the labels it is handed. -/
theorem W3_counts (c : Dev nD) :
    W3 (F := Ideal) m ρ c (Proc.devRef .tc main_v13) = hostCounts (W2 m ρ c (Proc.devRef .tc main_arg2)) := by
  dsimp only [W3]
  simp only [hostOps1]
  after_results
  rfl

/-- Before the second kernel the counts hold the specification's counts. -/
theorem counts_value (c : Dev nD) (i : S2x2.Idx) :
    W3 (F := Ideal) m ρ c (Proc.devRef .tc main_v13) i
      = Spec.cnt (fun i => m ((c.tc : Thread nD τ).loc main_arg2) i : Spec.ST.Idx → BitVec 32) (i 0) (i 1) := by
  obtain ⟨b, k, rfl⟩ : ∃ (b k : Fin 2), i = ix2 b k := ⟨i 0, i 1, eq_ix2 i⟩
  rw [W3_counts, W2_labels]
  exact hostCounts_apply _ b k

set_option maxHeartbeats 4000000 in
/-- The host's centres, as a term of the sums and the labels it is handed: the sums divided by the counts taken at least one. -/
theorem W3_centers (c : Dev nD) :
    W3 (F := Ideal) m ρ c (Proc.devRef .tc main_v18)
      = Host.divf (F := Ideal) (W2 m ρ c (Proc.devRef .tc main_v0))
          (broadcastInDim S2x2x48 ![0, 1, 2] bcast_S2x2x1_S2x2x48_0_1_2
            (broadcastInDim S2x2x1 ![0, 1] bcast_S2x2_S2x2x1_0_1
              (maximumf (hostCounts (W2 m ρ c (Proc.devRef .tc main_arg2)))
                (broadcastInDim S2x2 ![] bcast_S_S2x2 (constant (F := Ideal) S_ .f32 0x3F800000#32))))) := by
  dsimp only [W3]
  simp only [hostOps1]
  after_results
  rfl

/-- Before the second kernel the centres hold the specification's centres. -/
theorem centers_value (c : Dev nD) (i : S2x2x48.Idx) :
    W3 (F := Ideal) m ρ c (Proc.devRef .tc main_v18) i
      = Spec.center (fun i => m ((c.tc : Thread nD τ).loc main_arg0) i : Spec.SX.Idx → EReal)
          (fun i => m ((c.tc : Thread nD τ).loc main_arg2) i : Spec.ST.Idx → BitVec 32) (i 0) (i 1) (i 2) := by
  obtain ⟨b, k, ch, rfl⟩ : ∃ (b k : Fin 2) (ch : Fin 48), i = ix3 b k ch := ⟨i 0, i 1, i 2, eq_ix3 i⟩
  rw [W3_centers]
  unfold Spec.center
  refine congrArg₂ Ideal.div (centerSums_value m ρ c (ix3 b k ch)) ?_
  refine (broadcastInDim_apply _ bcast_S2x2x1_S2x2x48_0_1_2 _ (ix3 b k ch) (ix3 b k (0 : Fin 1)) fun a => match a with
    | ⟨0, _⟩ => rfl | ⟨1, _⟩ => rfl | ⟨2, _⟩ => rfl).trans ?_
  refine (broadcastInDim_apply _ bcast_S2x2_S2x2x1_0_1 _ (ix3 b k (0 : Fin 1)) (ix2 b k) fun a => match a with
    | ⟨0, _⟩ => rfl | ⟨1, _⟩ => rfl).trans ?_
  refine (maximumf_apply _ _ _).trans ?_
  rw [W2_labels]
  exact congrArg₂ max (hostCounts_apply _ b k) rfl

end Cert.KernelIdeal.Gen.CentersValue

end
-- ==== Proof.SmoothValuePay.lean ====
/-
  The second kernel's arithmetic read at an index over the extended reals, first part: the feature block with its unit
  batch axis dropped, sums over one axis as plain finite sums, and what is stored in the depth-variation block: the value
  read plus, over the tile's channels, rows, columns and neighbouring depth pairs, the squared feature step.
-/
import proofs.«158333_j65738769433119_2_alg».proof.Proof.Gen.KernelIdeal.Skeleton
import proofs.«158333_j65738769433119_2_alg».proof.Proof.Spec
import Idealize.ShloMosaic.Lib.Pipeline.Value
import Idealize.ShloMosaic.Lib.ValueLayout
import Idealize.ShloMosaic.Lib.Affine
import Idealize.ShloMosaic.PureOps.Ideal.Laws

set_option maxRecDepth 16384

noncomputable section

namespace Cert.KernelIdeal.Gen.SmoothValue

open Idealize.ShloMosaic Idealize.ShloMosaic.ValueIdx
open Cert.KernelIdeal Cert.KernelIdeal.Gen
open Cert.Proof

/-- The one index of a [1, 1, 1] block. -/
abbrev o3 : S1x1x1.Idx := ix3 (0 : Fin 1) (0 : Fin 1) (0 : Fin 1)

/-- A sum over the last axis of a [48, 4, 80, 47] vector. -/
theorem red_d47 (v : FVec Ideal S48x4x80x47 .f32) (ch : Fin 48) (r : Fin 4) (w : Fin 80) :
    multiReduction .add [3] S48x4x80 v 0x00000000#32 reduces_S48x4x80x47_S48x4x80 (.inl rfl) rfl (ix3 ch r w)
      = ∑ d : Fin 47, v (ix4 ch r w d) :=
  (Ideal.multiReduction_add_single v 0x00000000#32 reduces_S48x4x80x47_S48x4x80 (.inl rfl) rfl (ix3 ch r w)).trans
    (Finset.sum_congr rfl fun d _ => congrArg v (funext (fun a => match a with | ⟨0, _⟩ => rfl | ⟨1, _⟩ => rfl | ⟨2, _⟩ => rfl | ⟨3, _⟩ => rfl)))

/-- A sum over the last axis of a [48, 4, 80] vector. -/
theorem red_w80 (v : FVec Ideal S48x4x80 .f32) (ch : Fin 48) (r : Fin 4) :
    multiReduction .add [2] S48x4 v 0x00000000#32 reduces_S48x4x80_S48x4 (.inl rfl) rfl (ix2 ch r)
      = ∑ w : Fin 80, v (ix3 ch r w) :=
  (Ideal.multiReduction_add_single v 0x00000000#32 reduces_S48x4x80_S48x4 (.inl rfl) rfl (ix2 ch r)).trans
    (Finset.sum_congr rfl fun w _ => congrArg v (funext (fun a => match a with | ⟨0, _⟩ => rfl | ⟨1, _⟩ => rfl | ⟨2, _⟩ => rfl)))

/-- A sum over the last axis of a [48, 4] vector. -/
theorem red_r4 (v : FVec Ideal S48x4 .f32) (ch : Fin 48) :
    multiReduction .add [1] S48 v 0x00000000#32 reduces_S48x4_S48 (.inl rfl) rfl (ix1 ch)
      = ∑ r : Fin 4, v (ix2 ch r) :=
  (Ideal.multiReduction_add_single v 0x00000000#32 reduces_S48x4_S48 (.inl rfl) rfl (ix1 ch)).trans
    (Finset.sum_congr rfl fun r _ => congrArg v (funext (fun a => match a with | ⟨0, _⟩ => rfl | ⟨1, _⟩ => rfl)))

/-- A sum over the first axis of a [48, 1] vector. -/
theorem red_ch48 (v : FVec Ideal S48x1 .f32) :
    multiReduction .add [0] S1 v 0x00000000#32 reduces_S48x1_S1 (.inl rfl) rfl (ix1 (0 : Fin 1))
      = ∑ ch : Fin 48, v (ix2 ch (0 : Fin 1)) :=
  (Ideal.multiReduction_add_single v 0x00000000#32 reduces_S48x1_S1 (.inl rfl) rfl (ix1 (0 : Fin 1))).trans
    (Finset.sum_congr rfl fun ch _ => congrArg v (funext (fun a => match a with | ⟨0, _⟩ => rfl | ⟨1, _⟩ => rfl)))

/-- The feature block with its unit batch axis dropped. -/
theorem pay5_apply (x0 : Vec Ideal S1x48x4x80x48 .f32) (ch : Fin 48) (r : Fin 4) (w : Fin 80) (d : Fin 48) :
    k1_pay5 x0 (ix4 ch r w d) = x0 (ix5 (0 : Fin 1) ch r w d) := by
  unfold k1_pay5
  exact shapeCast_apply x0 _ _ _ (by
    rw [Shape.rowMajor_val_five, Shape.rowMajor_val_four]
    show ((((0 * 48 + ch.val) * 4 + r.val) * 80 + w.val) * 48 + d.val) = (((ch.val * 4 + r.val) * 80 + w.val) * 48 + d.val)
    rw [Nat.zero_mul, Nat.zero_add])

/-- One tile's depth variation: over channels, rows, columns and neighbouring depth pairs, the squared feature step. -/
def depthTile (v1 : FVec Ideal S48x4x80x48 .f32) : EReal :=
  ∑ ch : Fin 48, ∑ r : Fin 4, ∑ w : Fin 80, ∑ d : Fin 47,
    (v1 (ix4 ch r w d.succ) - v1 (ix4 ch r w d.castSucc)) * (v1 (ix4 ch r w d.succ) - v1 (ix4 ch r w d.castSucc))

/-- What the body stores in the depth-variation block: the value read plus the tile's depth variation. -/
theorem pay4_apply (v1 : FVec Ideal S48x4x80x48 .f32) (v172 : Vec Ideal S1x1x1 .f32) :
    k1_pay4 v1 v172 o3 = v172 o3 + depthTile v1 := by
  unfold k1_pay4 depthTile
  refine (shapeCast_apply _ _ _ (ix2 (0 : Fin 1) (0 : Fin 1)) (by
    rw [Shape.rowMajor_val_two, Shape.rowMajor_val_three]; rfl)).trans ?_
  refine (addf_apply _ _ _).trans ?_
  refine congrArg₂ (· + ·) ?_ ?_
  · exact shapeCast_apply v172 _ _ _ (by rw [Shape.rowMajor_val_two, Shape.rowMajor_val_three]; rfl)
  refine (shapeCast_apply _ _ _ (ix1 (0 : Fin 1)) (by rw [Shape.rowMajor_val_one, Shape.rowMajor_val_two]; rfl)).trans ?_
  refine (red_ch48 _).trans (Finset.sum_congr rfl fun ch _ => ?_)
  refine (shapeCast_apply _ _ _ (ix1 ch) (by
    rw [Shape.rowMajor_val_one, Shape.rowMajor_val_two]
    show ch.val = ch.val * 1 + 0
    omega)).trans ?_
  refine (red_r4 _ ch).trans (Finset.sum_congr rfl fun r _ => ?_)
  refine (red_w80 _ ch r).trans (Finset.sum_congr rfl fun w _ => ?_)
  refine (red_d47 _ ch r w).trans (Finset.sum_congr rfl fun d _ => ?_)
  refine (mulf_apply _ _ _).trans ?_
  have e : subf (extractStridedSlice S48x4x80x47 ![0, 0, 0, 1] v1 slices_S48x4x80x48_o0_0_0_1_S48x4x80x47)
      (extractStridedSlice S48x4x80x47 ![0, 0, 0, 0] v1 slices_S48x4x80x48_o0_0_0_0_S48x4x80x47) (ix4 ch r w d)
      = v1 (ix4 ch r w d.succ) - v1 (ix4 ch r w d.castSucc) :=
    (subf_apply _ _ _).trans (congrArg₂ (· - ·)
      (extractStridedSlice_apply _ v1 _ _ (ix4 ch r w d.succ) (fun a => match a with | ⟨0, _⟩ => (Nat.zero_add _).symm | ⟨1, _⟩ => (Nat.zero_add _).symm | ⟨2, _⟩ => (Nat.zero_add _).symm | ⟨3, _⟩ => (Nat.add_comm _ _)))
      (extractStridedSlice_apply _ v1 _ _ (ix4 ch r w d.castSucc) (fun a => match a with | ⟨0, _⟩ => (Nat.zero_add _).symm | ⟨1, _⟩ => (Nat.zero_add _).symm | ⟨2, _⟩ => (Nat.zero_add _).symm | ⟨3, _⟩ => (Nat.zero_add _).symm)))
  exact congrArg₂ (· * ·) e e

/-- The block stored at the first tile is zero. -/
theorem pay3_apply (j : S1x1x1.Idx) : k1_pay3 (F := Ideal) j = 0 := by
  unfold k1_pay3
  exact Ideal.ofBits_zero_f32

end Cert.KernelIdeal.Gen.SmoothValue

end
-- ==== Proof.SmoothValueCommon.lean ====
/-
  What the second kernel's output values share: the argument arrays as the second kernel finds them (unchanged since
  launch), the windows' block positions at every grid point (batch = position div 20, tile = position mod 20), an input
  block read at an index as the array read at row 4·tile + r, the regrouping of a sum over the eighty rows into tiles of
  four, and the write-back of a per-batch [1,1,1] block after the last tile of its batch.
-/
import proofs.«158333_j65738769433119_2_alg».proof.Proof.MainRun
import proofs.«158333_j65738769433119_2_alg».proof.Proof.SmoothValuePay

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Centers Cert.KernelIdeal.Gen.Smooth Cert.KernelIdeal.Gen.Whole
open Cert.Proof

variable (m : (ℓ : Loc nD τ sig) → Buf (Elt Ideal) ℓ) (ρ : Dev nD → PrngReg)

/-- The three argument arrays at launch, read at the shapes the mathematics is stated over. -/
abbrev Xm (c : Dev nD) : Spec.SX.Idx → EReal := m ((c : Thread nD τ).loc main_arg0)
abbrev Pm (c : Dev nD) : Spec.SP.Idx → EReal := m ((c : Thread nD τ).loc main_arg1)
abbrev Tm (c : Dev nD) : Spec.ST.Idx → BitVec 32 := m ((c : Thread nD τ).loc main_arg2)

/-- The second kernel finds the feature array as launched: no host operation writes it and the first kernel only reads it. -/
theorem V3_arg0 (c : Dev nD) : Whole.V3 m ρ c (Pipeline.arrRef spec1 0) = m ((c : Thread nD τ).loc main_arg0) :=
  (StableHlo.after_of_writes_sub hostOps1 _ hostOps1_writes (by decide)).trans
    ((W2_arr m ρ c 0).trans (((dat0 (Whole.V1 m ρ) c).arrAt_in 0 rfl _).trans (A_eq0 (Whole.V1 m ρ) c 0)))
/-- Likewise the label array (the second kernel's window 1). -/
theorem V3_arg2 (c : Dev nD) : Whole.V3 m ρ c (Pipeline.arrRef spec1 1) = m ((c : Thread nD τ).loc main_arg2) :=
  (StableHlo.after_of_writes_sub hostOps1 _ hostOps1_writes (by decide)).trans
    ((W2_arr m ρ c 1).trans (((dat0 (Whole.V1 m ρ) c).arrAt_in 1 rfl _).trans (A_eq0 (Whole.V1 m ρ) c 1)))
/-- Likewise the logit array (the second kernel's window 2), which the first kernel does not touch. -/
theorem V3_arg1 (c : Dev nD) : Whole.V3 m ρ c (Pipeline.arrRef spec1 2) = m ((c : Thread nD τ).loc main_arg1) :=
  (StableHlo.after_of_writes_sub hostOps1 _ hostOps1_writes (by decide)).trans (W2_of_ne m ρ c main_arg1 (by decide))

/-- Where the input windows' blocks sit at grid point `t`: batch `t / 20`, tile `t % 20` along the rows. -/
theorem idx_facts0 : ∀ t : Fin cfg1.N, win1_0.index t (0 : Fin 5) = t.val / 20 ∧ win1_0.index t (1 : Fin 5) = 0
    ∧ win1_0.index t (2 : Fin 5) = t.val % 20 ∧ win1_0.index t (3 : Fin 5) = 0 ∧ win1_0.index t (4 : Fin 5) = 0 :=
  (by decide +kernel : ∀ t : Fin grid1.N, _)
theorem idx_facts1 : ∀ t : Fin cfg1.N, win1_1.index t (0 : Fin 5) = t.val / 20 ∧ win1_1.index t (1 : Fin 5) = 0
    ∧ win1_1.index t (2 : Fin 5) = t.val % 20 ∧ win1_1.index t (3 : Fin 5) = 0 ∧ win1_1.index t (4 : Fin 5) = 0 :=
  (by decide +kernel : ∀ t : Fin grid1.N, _)
theorem idx_facts2 : ∀ t : Fin cfg1.N, win1_2.index t (0 : Fin 5) = t.val / 20 ∧ win1_2.index t (1 : Fin 5) = 0
    ∧ win1_2.index t (2 : Fin 5) = t.val % 20 ∧ win1_2.index t (3 : Fin 5) = 0 ∧ win1_2.index t (4 : Fin 5) = 0 :=
  (by decide +kernel : ∀ t : Fin grid1.N, _)
/-- The centre window's and the four output windows' blocks sit at the batch. -/
theorem idx_facts3 : ∀ t : Fin cfg1.N, win1_3.index t (0 : Fin 3) = t.val / 20 ∧ win1_3.index t (1 : Fin 3) = 0 ∧ win1_3.index t (2 : Fin 3) = 0 :=
  (by decide +kernel : ∀ t : Fin grid1.N, _)
theorem idx_facts4 : ∀ t : Fin cfg1.N, win1_4.index t (0 : Fin 3) = t.val / 20 ∧ win1_4.index t (1 : Fin 3) = 0 ∧ win1_4.index t (2 : Fin 3) = 0 :=
  (by decide +kernel : ∀ t : Fin grid1.N, _)
theorem idx_facts5 : ∀ t : Fin cfg1.N, win1_5.index t (0 : Fin 3) = t.val / 20 ∧ win1_5.index t (1 : Fin 3) = 0 ∧ win1_5.index t (2 : Fin 3) = 0 :=
  (by decide +kernel : ∀ t : Fin grid1.N, _)
theorem idx_facts6 : ∀ t : Fin cfg1.N, win1_6.index t (0 : Fin 3) = t.val / 20 ∧ win1_6.index t (1 : Fin 3) = 0 ∧ win1_6.index t (2 : Fin 3) = 0 :=
  (by decide +kernel : ∀ t : Fin grid1.N, _)
theorem idx_facts7 : ∀ t : Fin cfg1.N, win1_7.index t (0 : Fin 3) = t.val / 20 ∧ win1_7.index t (1 : Fin 3) = 0 ∧ win1_7.index t (2 : Fin 3) = 0 :=
  (by decide +kernel : ∀ t : Fin grid1.N, _)

/-- The feature block at point `t` read at (0, ch, r, w, d) is the feature array at batch `t / 20`, row `4 (t % 20) + r`. -/
theorem blk0_apply (c : Dev nD) (t : Fin cfg1.N) (ch : Fin 48) (r : Fin 4) (w : Fin 80) (d : Fin 48) (b : Fin 2) (h : Fin 80)
    (hb : b.val = t.val / 20) (hh : h.val = 4 * (t.val % 20) + r.val) :
    (iblk1 (Whole.V3 m ρ) c 0 t : Vec Ideal S1x48x4x80x48 .f32) (ix5 (0 : Fin 1) ch r w d) = Xm m c (ix5 b ch h w d) := by
  obtain ⟨e0, e1, e2, e3, e4⟩ := idx_facts0 t
  unfold iblk1
  rw [View.read_apply]
  show Whole.V3 m ρ c (Pipeline.arrRef spec1 0) (((cfg1.win 0).blk t).view.emb (ix5 (0 : Fin 1) ch r w d)) = m ((c : Thread nD τ).loc main_arg0) (ix5 b ch h w d)
  rw [V3_arg0]
  congr 1
  funext a; apply Fin.ext
  match a with
  | ⟨0, _⟩ => show win1_0.index t (0 : Fin 5) * 1 + 1 * 0 = b.val; omega
  | ⟨1, _⟩ => show win1_0.index t (1 : Fin 5) * 48 + 1 * ch.val = ch.val; omega
  | ⟨2, _⟩ => show win1_0.index t (2 : Fin 5) * 4 + 1 * r.val = h.val; omega
  | ⟨3, _⟩ => show win1_0.index t (3 : Fin 5) * 80 + 1 * w.val = w.val; omega
  | ⟨4, _⟩ => show win1_0.index t (4 : Fin 5) * 48 + 1 * d.val = d.val; omega

/-- The logit block at point `t` read at (0, k, r, w, d). -/
theorem blk2_apply (c : Dev nD) (t : Fin cfg1.N) (k : Fin 2) (r : Fin 4) (w : Fin 80) (d : Fin 48) (b : Fin 2) (h : Fin 80)
    (hb : b.val = t.val / 20) (hh : h.val = 4 * (t.val % 20) + r.val) :
    (iblk1 (Whole.V3 m ρ) c 2 t : Vec Ideal S1x2x4x80x48 .f32) (ix5 (0 : Fin 1) k r w d) = Pm m c (ix5 b k h w d) := by
  obtain ⟨e0, e1, e2, e3, e4⟩ := idx_facts2 t
  unfold iblk1
  rw [View.read_apply]
  show Whole.V3 m ρ c (Pipeline.arrRef spec1 2) (((cfg1.win 2).blk t).view.emb (ix5 (0 : Fin 1) k r w d)) = m ((c : Thread nD τ).loc main_arg1) (ix5 b k h w d)
  rw [V3_arg1]
  congr 1
  funext a; apply Fin.ext
  match a with
  | ⟨0, _⟩ => show win1_2.index t (0 : Fin 5) * 1 + 1 * 0 = b.val; omega
  | ⟨1, _⟩ => show win1_2.index t (1 : Fin 5) * 2 + 1 * k.val = k.val; omega
  | ⟨2, _⟩ => show win1_2.index t (2 : Fin 5) * 4 + 1 * r.val = h.val; omega
  | ⟨3, _⟩ => show win1_2.index t (3 : Fin 5) * 80 + 1 * w.val = w.val; omega
  | ⟨4, _⟩ => show win1_2.index t (4 : Fin 5) * 48 + 1 * d.val = d.val; omega

/-- The label block at point `t` read at (0, 0, r, w, d). -/
theorem blk1_apply (c : Dev nD) (t : Fin cfg1.N) (r : Fin 4) (w : Fin 80) (d : Fin 48) (b : Fin 2) (h : Fin 80)
    (hb : b.val = t.val / 20) (hh : h.val = 4 * (t.val % 20) + r.val) :
    (iblk1 (Whole.V3 m ρ) c 1 t : Vec Ideal S1x1x4x80x48 .i32) (ix5 (0 : Fin 1) (0 : Fin 1) r w d) = Tm m c (ix5 b (0 : Fin 1) h w d) := by
  obtain ⟨e0, e1, e2, e3, e4⟩ := idx_facts1 t
  unfold iblk1
  rw [View.read_apply]
  show Whole.V3 m ρ c (Pipeline.arrRef spec1 1) (((cfg1.win 1).blk t).view.emb (ix5 (0 : Fin 1) (0 : Fin 1) r w d)) = m ((c : Thread nD τ).loc main_arg2) (ix5 b (0 : Fin 1) h w d)
  rw [V3_arg2]
  congr 1
  funext a; apply Fin.ext
  match a with
  | ⟨0, _⟩ => show win1_1.index t (0 : Fin 5) * 1 + 1 * 0 = b.val; omega
  | ⟨1, _⟩ => show win1_1.index t (1 : Fin 5) * 1 + 1 * 0 = 0; omega
  | ⟨2, _⟩ => show win1_1.index t (2 : Fin 5) * 4 + 1 * r.val = h.val; omega
  | ⟨3, _⟩ => show win1_1.index t (3 : Fin 5) * 80 + 1 * w.val = w.val; omega
  | ⟨4, _⟩ => show win1_1.index t (4 : Fin 5) * 48 + 1 * d.val = d.val; omega

/-- Row `r` of tile `j`. -/
def hrow (j : Fin 20) (r : Fin 4) : Fin 80 := ⟨4 * j.val + r.val, by omega⟩

/-- A sum over the eighty rows, regrouped as twenty tiles of four rows. -/
theorem sum_tiles {M : Type*} [AddCommMonoid M] (g : Fin 80 → M) :
    ∑ j : Fin 20, ∑ r : Fin 4, g (hrow j r) = ∑ h : Fin 80, g h := by
  refine (Fintype.sum_prod_type' (fun (j : Fin 20) (r : Fin 4) => g (hrow j r))).symm.trans ?_
  refine Fintype.sum_equiv (finProdFinEquiv (m := 20) (n := 4)) _ _ fun x => congrArg g (Fin.ext ?_)
  rw [finProdFinEquiv_apply_val]
  show 4 * x.1.val + x.2.val = x.2.val + 4 * x.1.val
  omega

/-- A quantity restarted at the first tile of a batch and added to at every later tile is, after each point, the sum of
    the batch's contributions so far. -/
theorem chain_sum (f T : ℕ → EReal) (hA : ∀ n, n < 40 → n % 20 = 0 → f n = T n)
    (hB : ∀ n, n + 1 < 40 → ¬(n + 1) % 20 = 0 → f (n + 1) = f n + T (n + 1)) :
    ∀ n, n < 40 → f n = ∑ j ∈ Finset.range (n % 20 + 1), T (n - n % 20 + j)
  | 0, hn => by
    rw [hA 0 hn rfl]
    show _ = ∑ j ∈ Finset.range 1, T (0 - 0 + j)
    rw [Finset.sum_range_one]
  | n + 1, hn => by
    by_cases h0 : (n + 1) % 20 = 0
    · rw [hA (n + 1) hn h0, h0, Finset.sum_range_one]
      try rfl
    · rw [hB n hn h0, chain_sum f T hA hB n (by omega)]
      have e1 : (n + 1) % 20 = n % 20 + 1 := by omega
      have e2 : n + 1 - (n % 20 + 1) = n - n % 20 := by omega
      have e3 : n - n % 20 + (n % 20 + 1) = n + 1 := by omega
      rw [e1, e2, Finset.sum_range_succ (fun j => T (n - n % 20 + j)) (n % 20 + 1), e3]

/-- After the last tile of batch `b` it is the sum of the batch's twenty contributions. -/
theorem chain_flush (f T : ℕ → EReal) (hA : ∀ n, n < 40 → n % 20 = 0 → f n = T n)
    (hB : ∀ n, n + 1 < 40 → ¬(n + 1) % 20 = 0 → f (n + 1) = f n + T (n + 1)) (b : ℕ) (hb : b < 2) :
    f (20 * b + 19) = ∑ j : Fin 20, T (20 * b + j.val) := by
  rw [chain_sum f T hA hB (20 * b + 19) (by omega)]
  have e1 : (20 * b + 19) % 20 = 19 := by omega
  have e2 : 20 * b + 19 - 19 = 20 * b := by omega
  rw [e1, e2]
  show ∑ j ∈ Finset.range 20, T (20 * b + j) = _
  exact Finset.sum_range (fun j => T (20 * b + j))

/-- The one index of a [1, 1, 1] block, again. -/
theorem eq_o3 (j : S1x1x1.Idx) : j = o3 :=
  funext fun a => match a with
    | ⟨0, _⟩ => Fin.ext (by have h : (j 0).val < 1 := (j 0).isLt; show (j 0).val = 0; omega)
    | ⟨1, _⟩ => Fin.ext (by have h : (j 1).val < 1 := (j 1).isLt; show (j 1).val = 0; omega)
    | ⟨2, _⟩ => Fin.ext (by have h : (j 2).val < 1 := (j 2).isLt; show (j 2).val = 0; omega)

end Cert.KernelIdeal.Gen.SmoothValue

end
-- ==== Proof.SmoothValueDepthA.lean ====
/-
  The depth-variation output of the second kernel, first part: what each case's stores leave in its block as a function
  of the feature block and of what the block held, and from it what the block holds after every grid point — the sum of
  the depth variations of the tiles of the point's batch up to the point's tile.
-/
import proofs.«158333_j65738769433119_2_alg».proof.Proof.SmoothFrame
import proofs.«158333_j65738769433119_2_alg».proof.Proof.SmoothValuePay

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Smooth
open Cert.Proof

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

section AnyValues
variable {F : FTy → Type} [FloatOps F]

/-- At tile 0 the depth-variation block is left at the tile's value added to the zero just stored. -/
theorem out_A_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) :
    out1_A_7 c i arg2 harg2 arg3 harg3 arg4 harg4 arg5 harg5 arg6 harg6 arg7 harg7 arg8 harg8 arg9 harg9 arg10 harg10 arg11 harg11 hc0 x0 x1 x2 x3 xs0 xs1 = k1_pay4 (k1_pay5 x0) (k1_pay3 (F := F)) := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  rw [View.canon_cons_unit_zero (S := S1x1x1) hz3, View.readCov_unit_zero (S := S1x1x1) _ hz3]
  simp only [View.readAt_eq_ld, harg2.read_unread, View.ld_unit_zero (S := S1x48x4x80x48) hz5]

/-- At a later tile the depth-variation block is left at the tile's value added to what it held. -/
theorem out_B_7 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) :
    out1_B_7 c i arg2 harg2 arg3 harg3 arg4 harg4 arg5 harg5 arg6 harg6 arg7 harg7 arg8 harg8 arg9 harg9 arg10 harg10 arg11 harg11 hc0 x0 x1 x2 x3 xs0 xs1 xo4 xo5 xo6 xo7 = k1_pay4 (k1_pay5 x0) xo7 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  rw [View.canon_unit_zero (S := S1x1x1) hz3]
  simp only [View.readAt_eq_ld, harg2.read_unread, harg9.read_unread, View.ld_unit_zero (S := S1x48x4x80x48) hz5,
    View.ld_unit_zero (S := S1x1x1) hz3]

variable (V : (c : Dev nD) → (b : Ref sig .tc) → Buf (Elt F) ((c : Thread nD τ).loc b))

/-- The depth-variation component of what a point of tile 0 leaves. -/
theorem step7_A (c : Dev nD) (t : Fin cfg1.N) (h0 : t.val % 20 = 0) (p : Outs1 F) :
    (stepA1 V c t h0 p).2.2.2.1 = k1_pay4 (k1_pay5 (iblk1 V c 0 t)) (k1_pay3 (F := F)) :=
  out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2

/-- The depth-variation component of what a point of a later tile leaves. -/
theorem step7_B (c : Dev nD) (t : Fin cfg1.N) (h0 : ¬t.val % 20 = 0) (p : Outs1 F) :
    (stepB1 V c t h0 p).2.2.2.1 = k1_pay4 (k1_pay5 (iblk1 V c 0 t)) p.2.2.2.1 :=
  out_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1

end AnyValues

section AtIdeal
variable (V : (c : Dev nD) → (b : Ref sig .tc) → Buf (Elt Ideal) ((c : Thread nD τ).loc b))

/-- The depth variation of the tile at grid position `k` (zero beyond the grid). -/
def depthAt (c : Dev nD) (k : ℕ) : EReal :=
  if h : k < cfg1.N then depthTile (k1_pay5 (iblk1 V c 0 ⟨k, h⟩)) else 0

/-- After every point the depth-variation block holds the depth variations of the batch's tiles so far, summed. -/
theorem outs7_eq (c : Dev nD) : ∀ (n : ℕ) (hn : n < cfg1.N),
    (outsAt1 V c n hn).2.2.2.1 o3 = ∑ j ∈ Finset.range (n % 20 + 1), depthAt V c (n - n % 20 + j)
  | 0, hn => by
    rw [outsAt1_A V c ⟨0, hn⟩ (Nat.zero_mod _), step7_A, pay4_apply, pay3_apply, zero_add]
    show _ = ∑ j ∈ Finset.range 1, depthAt V c (0 - 0 + j)
    rw [Finset.sum_range_one]
    show _ = depthAt V c 0
    unfold depthAt
    rw [dif_pos hn]
  | n + 1, hn => by
    have hN : n + 1 < 40 := lt_of_lt_of_eq hn (show cfg1.N = 40 from N_1)
    by_cases h0 : (n + 1) % 20 = 0
    · rw [outsAt1_A V c ⟨n + 1, hn⟩ h0, step7_A, pay4_apply, pay3_apply, zero_add]
      rw [h0, Finset.sum_range_one]
      show _ = depthAt V c (n + 1)
      unfold depthAt
      rw [dif_pos hn]
    · rw [outsAt1_B V c ⟨n + 1, hn⟩ h0, step7_B, pay4_apply]
      show (outsAt1 V c n _).2.2.2.1 o3 + _ = _
      rw [outs7_eq c n (Nat.lt_of_succ_lt hn)]
      have e1 : (n + 1) % 20 = n % 20 + 1 := by omega
      have e2 : n + 1 - (n % 20 + 1) = n - n % 20 := by omega
      have e3 : n - n % 20 + (n % 20 + 1) = n + 1 := by omega
      rw [e1, e2, Finset.sum_range_succ (fun j => depthAt V c (n - n % 20 + j)) (n % 20 + 1), e3]
      congr 1
      unfold depthAt
      rw [dif_pos hn]

end AtIdeal

end Cert.KernelIdeal.Gen.SmoothValue

end
-- ==== Proof.SmoothValueDepth.lean ====
/-
  The depth-variation output of the second kernel, second part: each tile's value as a sum over the feature array, the
  batch's twenty tiles regrouped into its eighty rows, and the result array: the block of batch b is written back after
  the batch's last tile and holds the depth variation of the batch.
-/
import proofs.«158333_j65738769433119_2_alg».proof.Proof.SmoothValueCommon
import proofs.«158333_j65738769433119_2_alg».proof.Proof.SmoothValueDepthA

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Centers Cert.KernelIdeal.Gen.Smooth Cert.KernelIdeal.Gen.Whole
open Cert.Proof

variable (m : (ℓ : Loc nD τ sig) → Buf (Elt Ideal) ℓ) (ρ : Dev nD → PrngReg)

/-- The depth variation of tile `j` of batch `b`, over the feature array. -/
def depthTerm (X : Spec.SX.Idx → EReal) (b : Fin 2) (j : Fin 20) : EReal :=
  ∑ ch : Fin 48, ∑ r : Fin 4, ∑ w : Fin 80, ∑ d : Fin 47,
    (Spec.feat X b ch (hrow j r) w d.succ - Spec.feat X b ch (hrow j r) w d.castSucc) * (Spec.feat X b ch (hrow j r) w d.succ - Spec.feat X b ch (hrow j r) w d.castSucc)

/-- The tile at grid position 20 b + j contributes tile `j` of batch `b`. -/
theorem depthAt_eq (c : Dev nD) (b : Fin 2) (j : Fin 20) :
    depthAt (Whole.V3 m ρ) c (20 * b.val + j.val) = depthTerm (Xm m c) b j := by
  have hlt : 20 * b.val + j.val < cfg1.N := by rw [show cfg1.N = 40 from N_1]; omega
  unfold depthAt; rw [dif_pos hlt]
  unfold depthTile depthTerm
  refine Finset.sum_congr rfl fun ch _ => Finset.sum_congr rfl fun r _ => Finset.sum_congr rfl fun w _ =>
    Finset.sum_congr rfl fun d _ => ?_
  have e : ∀ d' : Fin 48, k1_pay5 (iblk1 (Whole.V3 m ρ) c 0 ⟨20 * b.val + j.val, hlt⟩) (ix4 ch r w d')
      = Spec.feat (Xm m c) b ch (hrow j r) w d' := fun d' =>
    (pay5_apply (iblk1 (Whole.V3 m ρ) c 0 ⟨20 * b.val + j.val, hlt⟩) ch r w d').trans
      (blk0_apply m ρ c ⟨20 * b.val + j.val, hlt⟩ ch r w d' b (hrow j r)
        (by show b.val = (20 * b.val + j.val) / 20; omega)
        (by show 4 * j.val + r.val = 4 * ((20 * b.val + j.val) % 20) + r.val; omega))
  rw [e, e]

/-- The twenty tiles of a batch make up its depth variation. -/
theorem tvDepth_tiles (X : Spec.SX.Idx → EReal) (b : Fin 2) : ∑ j : Fin 20, depthTerm X b j = Spec.tvDepth X b := by
  unfold depthTerm Spec.tvDepth
  rw [Finset.sum_comm]
  refine Finset.sum_congr rfl fun ch _ => ?_
  exact sum_tiles (fun h => ∑ w : Fin 80, ∑ d : Fin 47,
    (Spec.feat X b ch h w d.succ - Spec.feat X b ch h w d.castSucc) * (Spec.feat X b ch h w d.succ - Spec.feat X b ch h w d.castSucc))

/-- After the last tile of batch `b` the depth-variation block holds the batch's depth variation. -/
theorem outs7_flush (c : Dev nD) (t : Fin cfg1.N) (h19 : t.val % 20 = 19) (b : Fin 2) (hb : b.val = t.val / 20) :
    (outsAt1 (Whole.V3 m ρ) c t.val t.isLt).2.2.2.1 o3 = Spec.tvDepth (Xm m c) b := by
  have hN : t.val < 40 := lt_of_lt_of_eq t.isLt (show cfg1.N = 40 from N_1)
  have hbase : t.val - 19 = 20 * b.val := by omega
  rw [outs7_eq, h19, hbase]
  show ∑ j ∈ Finset.range 20, depthAt (Whole.V3 m ρ) c (20 * b.val + j) = _
  rw [Finset.sum_range (fun j => depthAt (Whole.V3 m ρ) c (20 * b.val + j)), ← tvDepth_tiles]
  exact Finset.sum_congr rfl fun j _ => depthAt_eq m ρ c b j

/-- The result array of the depth variation, by batch. -/
def G7 (c : Dev nD) : S2x1x1.Idx → EReal := fun i => Spec.tvDepth (Xm m c) (i 0)

/-- What a flushing point writes back is its block of that array. -/
theorem flushed7_eq (c : Dev nD) (t : Fin cfg1.N) (hf : (cfg1.win 7).flush t = true) :
    (dat1 (Whole.V3 m ρ) c).flushed 7 t = ((cfg1.win 7).blk t).view.read (Elt Ideal) (G7 m c) := by
  have h19 : t.val % 20 = 19 := (flush1_7 t).mp hf
  have hN : t.val < 40 := lt_of_lt_of_eq t.isLt (show cfg1.N = 40 from N_1)
  obtain ⟨e0, e1, e2⟩ := idx_facts7 t
  show (cfg1.win 7).cut (grid1.coords t) ((dat1 (Whole.V3 m ρ) c).after 7 t) = _
  rw [after1_7]
  refine funext fun (j : S1x1x1.Idx) => ?_
  obtain rfl := eq_o3 j
  show (outsAt1 (Whole.V3 m ρ) c t.val t.isLt).2.2.2.1 o3 = G7 m c (((cfg1.win 7).blk t).view.emb o3)
  rw [outs7_flush m ρ c t h19 ⟨t.val / 20, by omega⟩ rfl]
  unfold G7
  congr 1
  apply Fin.ext
  show t.val / 20 = win1_7.index t (0 : Fin 3) * 1 + 1 * 0
  omega

/-- An index of the result array is in point `t`'s block iff each coordinate is in the block's range on its axis. -/
theorem mem_blk7 (t : Fin cfg1.N) (i : S2x1x1.Idx) :
    i ∈ ((cfg1.win 7).blk t).view.set ↔ ∀ a : Fin 3, win1_7.index t a * S1x1x1.size a ≤ (i a).val ∧ (i a).val < win1_7.index t a * S1x1x1.size a + S1x1x1.size a := by
  show i ∈ ((View.whole main_v19_3).slice (win1_7.rect t)).set ↔ _
  rw [View.set_slice_whole, Rect.mem_set_unit]
  exact Iff.rfl

/-- So the result array ends holding the depth variation of each batch. -/
theorem final7 (c : Dev nD) : (dat1 (Whole.V3 m ρ) c).arrAt 7 cfg1.N = G7 m c :=
  (dat1 (Whole.V3 m ρ) c).arrAt_eq_of_cover 7 (G7 m c) (flushed7_eq m ρ c) fun (i : S2x1x1.Idx) => by
    have hi0 : (i 0).val < 2 := (i 0).isLt
    have hi1 : (i 1).val < 1 := (i 1).isLt
    have hi2 : (i 2).val < 1 := (i 2).isLt
    have hlt : 20 * (i 0).val + 19 < cfg1.N := by rw [show cfg1.N = 40 from N_1]; omega
    obtain ⟨e0, e1, e2⟩ := idx_facts7 ⟨20 * (i 0).val + 19, hlt⟩
    refine ⟨⟨20 * (i 0).val + 19, hlt⟩, (flush1_7 _).mpr (by show (20 * (i 0).val + 19) % 20 = 19; omega), ?_⟩
    rw [mem_blk7]
    intro a
    match a with
    | ⟨0, _⟩ => show win1_7.index ⟨20 * (i 0).val + 19, hlt⟩ (0 : Fin 3) * 1 ≤ (i 0).val ∧ (i 0).val < win1_7.index ⟨20 * (i 0).val + 19, hlt⟩ (0 : Fin 3) * 1 + 1
                have : (20 * (i 0).val + 19) / 20 = (i 0).val := by omega
                rw [e0]; show (20 * (i 0).val + 19) / 20 * 1 ≤ _ ∧ _ < (20 * (i 0).val + 19) / 20 * 1 + 1; omega
    | ⟨1, _⟩ => show win1_7.index ⟨20 * (i 0).val + 19, hlt⟩ (1 : Fin 3) * 1 ≤ (i 1).val ∧ (i 1).val < win1_7.index ⟨20 * (i 0).val + 19, hlt⟩ (1 : Fin 3) * 1 + 1
                rw [e1]; omega
    | ⟨2, _⟩ => show win1_7.index ⟨20 * (i 0).val + 19, hlt⟩ (2 : Fin 3) * 1 ≤ (i 2).val ∧ (i 2).val < win1_7.index ⟨20 * (i 0).val + 19, hlt⟩ (2 : Fin 3) * 1 + 1
                rw [e2]; omega

/-- The depth-variation output: after the second kernel its array holds, at batch b, the sum over channels, positions
    and neighbouring depth pairs of the squared feature step. -/
theorem tvDepth_value (c : Dev nD) (i : S2x1x1.Idx) :
    W4 (F := Ideal) m ρ c (Proc.devRef .tc main_v19_3) i = Spec.tvDepth (Xm m c) (i 0) :=
  congrFun ((W4_arr m ρ c 7).trans (final7 m ρ c)) i

end Cert.KernelIdeal.Gen.SmoothValue

end
-- ==== Proof.SmoothValuePay2.lean ====
/-
  The second kernel's arithmetic read at an index over the extended reals, second part: the confidence (the larger of
  the two softmax probabilities, the maximum logit subtracted first) at a position of the tile, and what is stored in the
  column-variation block: the value read plus, over the tile's rows, neighbouring column pairs and depths, the squared
  feature step summed over channels times half the sum of the two confidences.
-/
import proofs.«158333_j65738769433119_2_alg».proof.Proof.SmoothValuePay

set_option maxRecDepth 16384

noncomputable section

namespace Cert.KernelIdeal.Gen.SmoothValue

open Idealize.ShloMosaic Idealize.ShloMosaic.ValueIdx
open Cert.KernelIdeal Cert.KernelIdeal.Gen
open Cert.Proof

/-- The one index of a [1, 1] vector. -/
abbrev o2 : S1x1.Idx := ix2 (0 : Fin 1) (0 : Fin 1)

/-- The exponential at an index. -/
theorem exp_apply {s : Shape} (a : FVec Ideal s .f32) (i : s.Idx) : exp a i = Ideal.exp (a i) := rfl

/-- The logit block's class-0 slice with its unit axes dropped. -/
theorem pay9_apply (x2 : Vec Ideal S1x2x4x80x48 .f32) (r : Fin 4) (w : Fin 80) (d : Fin 48) :
    k1_pay9 x2 (ix3 r w d) = x2 (ix5 (0 : Fin 1) (0 : Fin 2) r w d) := by
  unfold k1_pay9 k1_pay7
  refine (shapeCast_apply _ _ _ (ix4 (0 : Fin 1) r w d) (by
    rw [Shape.rowMajor_val_four, Shape.rowMajor_val_three]
    show (((0 * 4 + r.val) * 80 + w.val) * 48 + d.val) = ((r.val * 80 + w.val) * 48 + d.val)
    rw [Nat.zero_mul, Nat.zero_add])).trans ?_
  refine (extractStridedSlice_apply _ _ _ _ (ix4 (0 : Fin 2) r w d) (fun a => match a with | ⟨0, _⟩ => rfl | ⟨1, _⟩ => (Nat.zero_add _).symm | ⟨2, _⟩ => (Nat.zero_add _).symm | ⟨3, _⟩ => (Nat.zero_add _).symm)).trans ?_
  exact shapeCast_apply x2 _ _ _ (by
    rw [Shape.rowMajor_val_five, Shape.rowMajor_val_four]
    show ((((0 * 2 + 0) * 4 + r.val) * 80 + w.val) * 48 + d.val) = (((0 * 4 + r.val) * 80 + w.val) * 48 + d.val)
    simp only [Nat.zero_mul, Nat.zero_add])

/-- The logit block's class-1 slice with its unit axes dropped. -/
theorem pay10_apply (x2 : Vec Ideal S1x2x4x80x48 .f32) (r : Fin 4) (w : Fin 80) (d : Fin 48) :
    k1_pay10 x2 (ix3 r w d) = x2 (ix5 (0 : Fin 1) (1 : Fin 2) r w d) := by
  unfold k1_pay10 k1_pay7
  refine (shapeCast_apply _ _ _ (ix4 (0 : Fin 1) r w d) (by
    rw [Shape.rowMajor_val_four, Shape.rowMajor_val_three]
    show (((0 * 4 + r.val) * 80 + w.val) * 48 + d.val) = ((r.val * 80 + w.val) * 48 + d.val)
    rw [Nat.zero_mul, Nat.zero_add])).trans ?_
  refine (extractStridedSlice_apply _ _ _ _ (ix4 (1 : Fin 2) r w d) (fun a => match a with | ⟨0, _⟩ => rfl | ⟨1, _⟩ => (Nat.zero_add _).symm | ⟨2, _⟩ => (Nat.zero_add _).symm | ⟨3, _⟩ => (Nat.zero_add _).symm)).trans ?_
  exact shapeCast_apply x2 _ _ _ (by
    rw [Shape.rowMajor_val_five, Shape.rowMajor_val_four]
    show ((((0 * 2 + 1) * 4 + r.val) * 80 + w.val) * 48 + d.val) = (((1 * 4 + r.val) * 80 + w.val) * 48 + d.val)
    simp only [Nat.zero_mul, Nat.zero_add])

/-- The two softmax probabilities of a pair of logits, and the larger of them. -/
def prob2 (l l' m : EReal) : EReal := Ideal.div (Ideal.exp (l - m)) (Ideal.exp (l - m) + Ideal.exp (l' - m))
def conf2 (l0 l1 : EReal) : EReal :=
  max (Ideal.div (Ideal.exp (l0 - max l0 l1)) (Ideal.exp (l0 - max l0 l1) + Ideal.exp (l1 - max l0 l1)))
    (Ideal.div (Ideal.exp (l1 - max l0 l1)) (Ideal.exp (l0 - max l0 l1) + Ideal.exp (l1 - max l0 l1)))

/-- The class-0 probability at a position of the tile. -/
theorem pay15_apply (x2 : Vec Ideal S1x2x4x80x48 .f32) (r : Fin 4) (w : Fin 80) (d : Fin 48) :
    k1_pay15 x2 (ix3 r w d) = Ideal.div (Ideal.exp (x2 (ix5 (0 : Fin 1) (0 : Fin 2) r w d) - max (x2 (ix5 (0 : Fin 1) (0 : Fin 2) r w d)) (x2 (ix5 (0 : Fin 1) (1 : Fin 2) r w d))))
      (Ideal.exp (x2 (ix5 (0 : Fin 1) (0 : Fin 2) r w d) - max (x2 (ix5 (0 : Fin 1) (0 : Fin 2) r w d)) (x2 (ix5 (0 : Fin 1) (1 : Fin 2) r w d)))
        + Ideal.exp (x2 (ix5 (0 : Fin 1) (1 : Fin 2) r w d) - max (x2 (ix5 (0 : Fin 1) (0 : Fin 2) r w d)) (x2 (ix5 (0 : Fin 1) (1 : Fin 2) r w d)))) := by
  have h : k1_pay15 x2 (ix3 r w d) = Ideal.div (Ideal.exp (k1_pay9 x2 (ix3 r w d) - max (k1_pay9 x2 (ix3 r w d)) (k1_pay10 x2 (ix3 r w d))))
      (Ideal.exp (k1_pay9 x2 (ix3 r w d) - max (k1_pay9 x2 (ix3 r w d)) (k1_pay10 x2 (ix3 r w d)))
        + Ideal.exp (k1_pay10 x2 (ix3 r w d) - max (k1_pay9 x2 (ix3 r w d)) (k1_pay10 x2 (ix3 r w d)))) := rfl
  rw [h, pay9_apply, pay10_apply]

/-- The class-1 probability at a position of the tile. -/
theorem pay16_apply (x2 : Vec Ideal S1x2x4x80x48 .f32) (r : Fin 4) (w : Fin 80) (d : Fin 48) :
    k1_pay16 x2 (ix3 r w d) = Ideal.div (Ideal.exp (x2 (ix5 (0 : Fin 1) (1 : Fin 2) r w d) - max (x2 (ix5 (0 : Fin 1) (0 : Fin 2) r w d)) (x2 (ix5 (0 : Fin 1) (1 : Fin 2) r w d))))
      (Ideal.exp (x2 (ix5 (0 : Fin 1) (0 : Fin 2) r w d) - max (x2 (ix5 (0 : Fin 1) (0 : Fin 2) r w d)) (x2 (ix5 (0 : Fin 1) (1 : Fin 2) r w d)))
        + Ideal.exp (x2 (ix5 (0 : Fin 1) (1 : Fin 2) r w d) - max (x2 (ix5 (0 : Fin 1) (0 : Fin 2) r w d)) (x2 (ix5 (0 : Fin 1) (1 : Fin 2) r w d)))) := by
  have h : k1_pay16 x2 (ix3 r w d) = Ideal.div (Ideal.exp (k1_pay10 x2 (ix3 r w d) - max (k1_pay9 x2 (ix3 r w d)) (k1_pay10 x2 (ix3 r w d))))
      (Ideal.exp (k1_pay9 x2 (ix3 r w d) - max (k1_pay9 x2 (ix3 r w d)) (k1_pay10 x2 (ix3 r w d)))
        + Ideal.exp (k1_pay10 x2 (ix3 r w d) - max (k1_pay9 x2 (ix3 r w d)) (k1_pay10 x2 (ix3 r w d)))) := rfl
  rw [h, pay9_apply, pay10_apply]

/-- The confidence at a position of the tile. -/
theorem pay17_apply (x2 : Vec Ideal S1x2x4x80x48 .f32) (r : Fin 4) (w : Fin 80) (d : Fin 48) :
    k1_pay17 x2 (ix3 r w d) = conf2 (x2 (ix5 (0 : Fin 1) (0 : Fin 2) r w d)) (x2 (ix5 (0 : Fin 1) (1 : Fin 2) r w d)) := by
  have h : k1_pay17 x2 (ix3 r w d) = max (k1_pay15 x2 (ix3 r w d)) (k1_pay16 x2 (ix3 r w d)) := rfl
  rw [h, pay15_apply, pay16_apply]
  rfl

/-- A sum over the first axis of a [48, 4, 79, 48] vector. -/
theorem red_ch_c (v : FVec Ideal S48x4x79x48 .f32) (r : Fin 4) (w : Fin 79) (d : Fin 48) :
    multiReduction .add [0] S4x79x48 v 0x00000000#32 reduces_S48x4x79x48_S4x79x48 (.inl rfl) rfl (ix3 r w d)
      = ∑ ch : Fin 48, v (ix4 ch r w d) :=
  (Ideal.multiReduction_add_single v 0x00000000#32 reduces_S48x4x79x48_S4x79x48 (.inl rfl) rfl (ix3 r w d)).trans
    (Finset.sum_congr rfl fun ch _ => congrArg v (funext (fun a => match a with | ⟨0, _⟩ => rfl | ⟨1, _⟩ => rfl | ⟨2, _⟩ => rfl | ⟨3, _⟩ => rfl)))

/-- A sum over the last axis of a [4, 79, 48] vector. -/
theorem red_d_c (v : FVec Ideal S4x79x48 .f32) (r : Fin 4) (w : Fin 79) :
    multiReduction .add [2] S4x79 v 0x00000000#32 reduces_S4x79x48_S4x79 (.inl rfl) rfl (ix2 r w)
      = ∑ d : Fin 48, v (ix3 r w d) :=
  (Ideal.multiReduction_add_single v 0x00000000#32 reduces_S4x79x48_S4x79 (.inl rfl) rfl (ix2 r w)).trans
    (Finset.sum_congr rfl fun d _ => congrArg v (funext (fun a => match a with | ⟨0, _⟩ => rfl | ⟨1, _⟩ => rfl | ⟨2, _⟩ => rfl)))

/-- A sum over the last axis of a [4, 79] vector. -/
theorem red_w_c (v : FVec Ideal S4x79 .f32) (r : Fin 4) :
    multiReduction .add [1] S4 v 0x00000000#32 reduces_S4x79_S4 (.inl rfl) rfl (ix1 r)
      = ∑ w : Fin 79, v (ix2 r w) :=
  (Ideal.multiReduction_add_single v 0x00000000#32 reduces_S4x79_S4 (.inl rfl) rfl (ix1 r)).trans
    (Finset.sum_congr rfl fun w _ => congrArg v (funext (fun a => match a with | ⟨0, _⟩ => rfl | ⟨1, _⟩ => rfl)))

/-- A sum over the first axis of a [4, 1] vector. -/
theorem red_r41 (v : FVec Ideal S4x1 .f32) :
    multiReduction .add [0] S1 v 0x00000000#32 reduces_S4x1_S1 (.inl rfl) rfl (ix1 (0 : Fin 1))
      = ∑ r : Fin 4, v (ix2 r (0 : Fin 1)) :=
  (Ideal.multiReduction_add_single v 0x00000000#32 reduces_S4x1_S1 (.inl rfl) rfl (ix1 (0 : Fin 1))).trans
    (Finset.sum_congr rfl fun r _ => congrArg v (funext (fun a => match a with | ⟨0, _⟩ => rfl | ⟨1, _⟩ => rfl)))

/-- One tile's column variation: over rows, neighbouring column pairs and depths, the squared feature step summed over
    channels, times half the sum of the two confidences. -/
def colTile (v1 : FVec Ideal S48x4x80x48 .f32) (v20 : FVec Ideal S4x80x48 .f32) : EReal :=
  ∑ r : Fin 4, ∑ w : Fin 79, ∑ d : Fin 48,
    (∑ ch : Fin 48, (v1 (ix4 ch r w.succ d) - v1 (ix4 ch r w.castSucc d)) * (v1 (ix4 ch r w.succ d) - v1 (ix4 ch r w.castSucc d)))
      * (Spec.half * (v20 (ix3 r w.succ d) + v20 (ix3 r w.castSucc d)))

/-- The value the body forms for the column variation of the tile. -/
theorem pay34_apply (v1 : FVec Ideal S48x4x80x48 .f32) (v20 : FVec Ideal S4x80x48 .f32) :
    k1_pay34 v1 v20 o2 = colTile v1 v20 := by
  unfold k1_pay34 colTile
  refine (shapeCast_apply _ _ _ (ix1 (0 : Fin 1)) (by rw [Shape.rowMajor_val_one, Shape.rowMajor_val_two]; rfl)).trans ?_
  refine (red_r41 _).trans (Finset.sum_congr rfl fun r _ => ?_)
  refine (shapeCast_apply _ _ _ (ix1 r) (by
    rw [Shape.rowMajor_val_one, Shape.rowMajor_val_two]
    show r.val = r.val * 1 + 0
    omega)).trans ?_
  refine (red_w_c _ r).trans (Finset.sum_congr rfl fun w _ => ?_)
  refine (red_d_c _ r w).trans (Finset.sum_congr rfl fun d _ => ?_)
  refine (mulf_apply _ _ _).trans (congrArg₂ (· * ·) ?_ ?_)
  · refine (red_ch_c _ r w d).trans (Finset.sum_congr rfl fun ch _ => ?_)
    refine (mulf_apply _ _ _).trans ?_
    have e : subf (extractStridedSlice S48x4x79x48 ![0, 0, 1, 0] v1 slices_S48x4x80x48_o0_0_1_0_S48x4x79x48)
        (extractStridedSlice S48x4x79x48 ![0, 0, 0, 0] v1 slices_S48x4x80x48_o0_0_0_0_S48x4x79x48) (ix4 ch r w d)
        = v1 (ix4 ch r w.succ d) - v1 (ix4 ch r w.castSucc d) :=
      (subf_apply _ _ _).trans (congrArg₂ (· - ·)
        (extractStridedSlice_apply _ v1 _ _ (ix4 ch r w.succ d) (fun a => match a with | ⟨0, _⟩ => (Nat.zero_add _).symm | ⟨1, _⟩ => (Nat.zero_add _).symm | ⟨2, _⟩ => (Nat.add_comm _ _) | ⟨3, _⟩ => (Nat.zero_add _).symm))
        (extractStridedSlice_apply _ v1 _ _ (ix4 ch r w.castSucc d) (fun a => match a with | ⟨0, _⟩ => (Nat.zero_add _).symm | ⟨1, _⟩ => (Nat.zero_add _).symm | ⟨2, _⟩ => (Nat.zero_add _).symm | ⟨3, _⟩ => (Nat.zero_add _).symm)))
    exact congrArg₂ (· * ·) e e
  · refine (mulf_apply _ _ _).trans (congrArg₂ (· * ·) rfl ?_)
    refine (addf_apply _ _ _).trans (congrArg₂ (· + ·) ?_ ?_)
    · exact extractStridedSlice_apply _ v20 _ _ (ix3 r w.succ d) (fun a => match a with | ⟨0, _⟩ => (Nat.zero_add _).symm | ⟨1, _⟩ => (Nat.add_comm _ _) | ⟨2, _⟩ => (Nat.zero_add _).symm)
    · exact extractStridedSlice_apply _ v20 _ _ (ix3 r w.castSucc d) (fun a => match a with | ⟨0, _⟩ => (Nat.zero_add _).symm | ⟨1, _⟩ => (Nat.zero_add _).symm | ⟨2, _⟩ => (Nat.zero_add _).symm)

/-- What the body stores in the column-variation block: the value read plus the tile's value. -/
theorem pay2_apply (v149 : FVec Ideal S1x1 .f32) (v153 : Vec Ideal S1x1x1 .f32) :
    k1_pay2 v149 v153 o3 = v153 o3 + v149 o2 := by
  unfold k1_pay2
  refine (shapeCast_apply _ _ _ o2 (by rw [Shape.rowMajor_val_two, Shape.rowMajor_val_three]; rfl)).trans ?_
  refine (addf_apply _ _ _).trans (congrArg (· + v149 o2) ?_)
  exact shapeCast_apply v153 _ _ _ (by rw [Shape.rowMajor_val_two, Shape.rowMajor_val_three]; rfl)

/-- The block stored at the first tile is zero. -/
theorem pay1_apply (j : S1x1x1.Idx) : k1_pay1 (F := Ideal) j = 0 := by
  unfold k1_pay1
  exact Ideal.ofBits_zero_f32

end Cert.KernelIdeal.Gen.SmoothValue

end
-- ==== Proof.SmoothValueColsA.lean ====
/-
  The column-variation output of the second kernel, first part: what each case's stores leave in its block as a function
  of the feature and logit blocks and of what the block held, and the two facts the running sum needs: at the first tile
  of a batch the block is left at the tile's value, at a later tile at what it held plus the tile's value.
-/
import proofs.«158333_j65738769433119_2_alg».proof.Proof.SmoothFrame
import proofs.«158333_j65738769433119_2_alg».proof.Proof.SmoothValuePay2
import proofs.«158333_j65738769433119_2_alg».proof.Proof.SmoothValueDepthA

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Smooth
open Cert.Proof

section AnyValues
variable {F : FTy → Type} [FloatOps F]

/-- At tile 0 the column-variation block is left at the tile's value added to the zero just stored. -/
theorem out_A_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) :
    out1_A_6 c i arg2 harg2 arg3 harg3 arg4 harg4 arg5 harg5 arg6 harg6 arg7 harg7 arg8 harg8 arg9 harg9 arg10 harg10 arg11 harg11 hc0 x0 x1 x2 x3 xs0 xs1 = k1_pay2 (k1_pay34 (k1_pay5 x0) (k1_pay17 x2)) (k1_pay1 (F := F)) := by
  unfold out1_A_6
  rw [View.read_writes_eq_canon _ _ _ (cover1_A_6 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  rw [View.canon_cons_unit_zero (S := S1x1x1) hz3, View.readCov_unit_zero (S := S1x1x1) _ hz3]
  simp only [View.readAt_eq_ld, harg2.read_unread, harg4.read_unread, View.ld_unit_zero (S := S1x48x4x80x48) hz5,
    View.ld_unit_zero (S := S1x2x4x80x48) hz5]

/-- At a later tile the column-variation block is left at the tile's value added to what it held. -/
theorem out_B_6 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) :
    out1_B_6 c i arg2 harg2 arg3 harg3 arg4 harg4 arg5 harg5 arg6 harg6 arg7 harg7 arg8 harg8 arg9 harg9 arg10 harg10 arg11 harg11 hc0 x0 x1 x2 x3 xs0 xs1 xo4 xo5 xo6 xo7 = k1_pay2 (k1_pay34 (k1_pay5 x0) (k1_pay17 x2)) xo6 := by
  unfold out1_B_6
  rw [View.read_writes_eq_canon _ _ _ (cover1_B_6 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  rw [View.canon_unit_zero (S := S1x1x1) hz3]
  simp only [View.readAt_eq_ld, harg2.read_unread, harg4.read_unread, harg8.read_unread, View.ld_unit_zero (S := S1x48x4x80x48) hz5,
    View.ld_unit_zero (S := S1x2x4x80x48) hz5, View.ld_unit_zero (S := S1x1x1) hz3]

variable (V : (c : Dev nD) → (b : Ref sig .tc) → Buf (Elt F) ((c : Thread nD τ).loc b))

/-- The column-variation component of what a point of tile 0 leaves. -/
theorem step6_A (c : Dev nD) (t : Fin cfg1.N) (h0 : t.val % 20 = 0) (p : Outs1 F) :
    (stepA1 V c t h0 p).2.2.1 = k1_pay2 (k1_pay34 (k1_pay5 (iblk1 V c 0 t)) (k1_pay17 (iblk1 V c 2 t))) (k1_pay1 (F := F)) :=
  out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2

/-- The column-variation component of what a point of a later tile leaves. -/
theorem step6_B (c : Dev nD) (t : Fin cfg1.N) (h0 : ¬t.val % 20 = 0) (p : Outs1 F) :
    (stepB1 V c t h0 p).2.2.1 = k1_pay2 (k1_pay34 (k1_pay5 (iblk1 V c 0 t)) (k1_pay17 (iblk1 V c 2 t))) p.2.2.1 :=
  out_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1

end AnyValues

section AtIdeal
variable (V : (c : Dev nD) → (b : Ref sig .tc) → Buf (Elt Ideal) ((c : Thread nD τ).loc b))

/-- The column variation of the tile at grid position `k` (zero beyond the grid). -/
def colAt (c : Dev nD) (k : ℕ) : EReal :=
  if h : k < cfg1.N then colTile (k1_pay5 (iblk1 V c 0 ⟨k, h⟩)) (k1_pay17 (iblk1 V c 2 ⟨k, h⟩)) else 0

/-- What the column-variation block holds after grid position `k` (zero beyond the grid). -/
def colHeld (c : Dev nD) (k : ℕ) : EReal :=
  if h : k < cfg1.N then (outsAt1 V c k h).2.2.1 o3 else 0

theorem colHeld_A (c : Dev nD) (n : ℕ) (hn : n < 40) (h0 : n % 20 = 0) : colHeld V c n = colAt V c n := by
  have hn' : n < cfg1.N := lt_of_lt_of_eq hn (show cfg1.N = 40 from N_1).symm
  unfold colHeld colAt
  rw [dif_pos hn', dif_pos hn', outsAt1_A V c ⟨n, hn'⟩ h0, step6_A, pay2_apply, pay1_apply, zero_add, pay34_apply]

theorem colHeld_B (c : Dev nD) (n : ℕ) (hn : n + 1 < 40) (h0 : ¬(n + 1) % 20 = 0) :
    colHeld V c (n + 1) = colHeld V c n + colAt V c (n + 1) := by
  have hn' : n + 1 < cfg1.N := lt_of_lt_of_eq hn (show cfg1.N = 40 from N_1).symm
  unfold colHeld colAt
  rw [dif_pos hn', dif_pos hn', dif_pos (Nat.lt_of_succ_lt hn'), outsAt1_B V c ⟨n + 1, hn'⟩ h0, step6_B, pay2_apply, pay34_apply]
  rfl

end AtIdeal

end Cert.KernelIdeal.Gen.SmoothValue

end
-- ==== Proof.SmoothValueCols.lean ====
/-
  The column-variation output of the second kernel, second part: each tile's value as a sum over the feature and logit
  arrays, the batch's twenty tiles regrouped into its eighty rows, and the result array: the block of batch b is written
  back after the batch's last tile and holds the column variation of the batch.
-/
import proofs.«158333_j65738769433119_2_alg».proof.Proof.SmoothValueCommon
import proofs.«158333_j65738769433119_2_alg».proof.Proof.SmoothValueColsA

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Centers Cert.KernelIdeal.Gen.Smooth Cert.KernelIdeal.Gen.Whole
open Cert.Proof

variable (m : (ℓ : Loc nD τ sig) → Buf (Elt Ideal) ℓ) (ρ : Dev nD → PrngReg)

/-- The column variation of tile `j` of batch `b`, over the feature and logit arrays. -/
def colTerm (X : Spec.SX.Idx → EReal) (P : Spec.SP.Idx → EReal) (b : Fin 2) (j : Fin 20) : EReal :=
  ∑ r : Fin 4, ∑ w : Fin 79, ∑ d : Fin 48,
    (∑ ch : Fin 48, (Spec.feat X b ch (hrow j r) w.succ d - Spec.feat X b ch (hrow j r) w.castSucc d) * (Spec.feat X b ch (hrow j r) w.succ d - Spec.feat X b ch (hrow j r) w.castSucc d))
      * (Spec.half * (Spec.conf P b (hrow j r) w.succ d + Spec.conf P b (hrow j r) w.castSucc d))

/-- The tile at grid position 20 b + j contributes tile `j` of batch `b`. -/
theorem colAt_eq (c : Dev nD) (b : Fin 2) (j : Fin 20) :
    colAt (Whole.V3 m ρ) c (20 * b.val + j.val) = colTerm (Xm m c) (Pm m c) b j := by
  have hlt : 20 * b.val + j.val < cfg1.N := by rw [show cfg1.N = 40 from N_1]; omega
  unfold colAt; rw [dif_pos hlt]
  unfold colTile colTerm
  refine Finset.sum_congr rfl fun r _ => Finset.sum_congr rfl fun w _ => Finset.sum_congr rfl fun d _ => ?_
  have e : ∀ (ch : Fin 48) (w' : Fin 80), k1_pay5 (iblk1 (Whole.V3 m ρ) c 0 ⟨20 * b.val + j.val, hlt⟩) (ix4 ch r w' d)
      = Spec.feat (Xm m c) b ch (hrow j r) w' d := fun ch w' =>
    (pay5_apply (iblk1 (Whole.V3 m ρ) c 0 ⟨20 * b.val + j.val, hlt⟩) ch r w' d).trans
      (blk0_apply m ρ c ⟨20 * b.val + j.val, hlt⟩ ch r w' d b (hrow j r)
        (by show b.val = (20 * b.val + j.val) / 20; omega)
        (by show 4 * j.val + r.val = 4 * ((20 * b.val + j.val) % 20) + r.val; omega))
  have ec : ∀ w' : Fin 80, k1_pay17 (iblk1 (Whole.V3 m ρ) c 2 ⟨20 * b.val + j.val, hlt⟩) (ix3 r w' d)
      = Spec.conf (Pm m c) b (hrow j r) w' d := fun w' =>
    (pay17_apply (iblk1 (Whole.V3 m ρ) c 2 ⟨20 * b.val + j.val, hlt⟩) r w' d).trans
      (congrArg₂ conf2
        (blk2_apply m ρ c ⟨20 * b.val + j.val, hlt⟩ (0 : Fin 2) r w' d b (hrow j r)
          (by show b.val = (20 * b.val + j.val) / 20; omega)
          (by show 4 * j.val + r.val = 4 * ((20 * b.val + j.val) % 20) + r.val; omega))
        (blk2_apply m ρ c ⟨20 * b.val + j.val, hlt⟩ (1 : Fin 2) r w' d b (hrow j r)
          (by show b.val = (20 * b.val + j.val) / 20; omega)
          (by show 4 * j.val + r.val = 4 * ((20 * b.val + j.val) % 20) + r.val; omega)))
  rw [ec, ec]
  refine congrArg (· * _) (Finset.sum_congr rfl fun ch _ => ?_)
  rw [e, e]

/-- The twenty tiles of a batch make up its column variation. -/
theorem tvCols_tiles (X : Spec.SX.Idx → EReal) (P : Spec.SP.Idx → EReal) (b : Fin 2) :
    ∑ j : Fin 20, colTerm X P b j = Spec.tvCols X P b := by
  unfold colTerm Spec.tvCols Spec.sqStep
  exact sum_tiles (fun h => ∑ w : Fin 79, ∑ d : Fin 48,
    (∑ ch : Fin 48, (Spec.feat X b ch h w.succ d - Spec.feat X b ch h w.castSucc d) * (Spec.feat X b ch h w.succ d - Spec.feat X b ch h w.castSucc d))
      * (Spec.half * (Spec.conf P b h w.succ d + Spec.conf P b h w.castSucc d)))

/-- After the last tile of batch `b` the column-variation block holds the batch's column variation. -/
theorem outs6_flush (c : Dev nD) (t : Fin cfg1.N) (h19 : t.val % 20 = 19) (b : Fin 2) (hb : b.val = t.val / 20) :
    (outsAt1 (Whole.V3 m ρ) c t.val t.isLt).2.2.1 o3 = Spec.tvCols (Xm m c) (Pm m c) b := by
  have hN : t.val < 40 := lt_of_lt_of_eq t.isLt (show cfg1.N = 40 from N_1)
  have ht : t.val = 20 * b.val + 19 := by omega
  have hheld : colHeld (Whole.V3 m ρ) c t.val = (outsAt1 (Whole.V3 m ρ) c t.val t.isLt).2.2.1 o3 := by
    unfold colHeld; rw [dif_pos t.isLt]
  rw [← hheld, ht, chain_flush (colHeld (Whole.V3 m ρ) c) (colAt (Whole.V3 m ρ) c) (colHeld_A (Whole.V3 m ρ) c)
    (colHeld_B (Whole.V3 m ρ) c) b.val b.isLt, ← tvCols_tiles]
  exact Finset.sum_congr rfl fun j _ => colAt_eq m ρ c b j

/-- The result array of the column variation, by batch. -/
def G6 (c : Dev nD) : S2x1x1.Idx → EReal := fun i => Spec.tvCols (Xm m c) (Pm m c) (i 0)

/-- What a flushing point writes back is its block of that array. -/
theorem flushed6_eq (c : Dev nD) (t : Fin cfg1.N) (hf : (cfg1.win 6).flush t = true) :
    (dat1 (Whole.V3 m ρ) c).flushed 6 t = ((cfg1.win 6).blk t).view.read (Elt Ideal) (G6 m c) := by
  have h19 : t.val % 20 = 19 := (flush1_6 t).mp hf
  have hN : t.val < 40 := lt_of_lt_of_eq t.isLt (show cfg1.N = 40 from N_1)
  obtain ⟨e0, e1, e2⟩ := idx_facts6 t
  show (cfg1.win 6).cut (grid1.coords t) ((dat1 (Whole.V3 m ρ) c).after 6 t) = _
  rw [after1_6]
  refine funext fun (j : S1x1x1.Idx) => ?_
  obtain rfl := eq_o3 j
  show (outsAt1 (Whole.V3 m ρ) c t.val t.isLt).2.2.1 o3 = G6 m c (((cfg1.win 6).blk t).view.emb o3)
  rw [outs6_flush m ρ c t h19 ⟨t.val / 20, by omega⟩ rfl]
  unfold G6
  congr 1
  apply Fin.ext
  show t.val / 20 = win1_6.index t (0 : Fin 3) * 1 + 1 * 0
  omega

/-- An index of the result array is in point `t`'s block iff each coordinate is in the block's range on its axis. -/
theorem mem_blk6 (t : Fin cfg1.N) (i : S2x1x1.Idx) :
    i ∈ ((cfg1.win 6).blk t).view.set ↔ ∀ a : Fin 3, win1_6.index t a * S1x1x1.size a ≤ (i a).val ∧ (i a).val < win1_6.index t a * S1x1x1.size a + S1x1x1.size a := by
  show i ∈ ((View.whole main_v19_2).slice (win1_6.rect t)).set ↔ _
  rw [View.set_slice_whole, Rect.mem_set_unit]
  exact Iff.rfl

/-- So the result array ends holding the column variation of each batch. -/
theorem final6 (c : Dev nD) : (dat1 (Whole.V3 m ρ) c).arrAt 6 cfg1.N = G6 m c :=
  (dat1 (Whole.V3 m ρ) c).arrAt_eq_of_cover 6 (G6 m c) (flushed6_eq m ρ c) fun (i : S2x1x1.Idx) => by
    have hi0 : (i 0).val < 2 := (i 0).isLt
    have hi1 : (i 1).val < 1 := (i 1).isLt
    have hi2 : (i 2).val < 1 := (i 2).isLt
    have hlt : 20 * (i 0).val + 19 < cfg1.N := by rw [show cfg1.N = 40 from N_1]; omega
    obtain ⟨e0, e1, e2⟩ := idx_facts6 ⟨20 * (i 0).val + 19, hlt⟩
    refine ⟨⟨20 * (i 0).val + 19, hlt⟩, (flush1_6 _).mpr (by show (20 * (i 0).val + 19) % 20 = 19; omega), ?_⟩
    rw [mem_blk6]
    intro a
    match a with
    | ⟨0, _⟩ => show win1_6.index ⟨20 * (i 0).val + 19, hlt⟩ (0 : Fin 3) * 1 ≤ (i 0).val ∧ (i 0).val < win1_6.index ⟨20 * (i 0).val + 19, hlt⟩ (0 : Fin 3) * 1 + 1
                have : (20 * (i 0).val + 19) / 20 = (i 0).val := by omega
                rw [e0]; show (20 * (i 0).val + 19) / 20 * 1 ≤ _ ∧ _ < (20 * (i 0).val + 19) / 20 * 1 + 1; omega
    | ⟨1, _⟩ => show win1_6.index ⟨20 * (i 0).val + 19, hlt⟩ (1 : Fin 3) * 1 ≤ (i 1).val ∧ (i 1).val < win1_6.index ⟨20 * (i 0).val + 19, hlt⟩ (1 : Fin 3) * 1 + 1
                rw [e1]; omega
    | ⟨2, _⟩ => show win1_6.index ⟨20 * (i 0).val + 19, hlt⟩ (2 : Fin 3) * 1 ≤ (i 2).val ∧ (i 2).val < win1_6.index ⟨20 * (i 0).val + 19, hlt⟩ (2 : Fin 3) * 1 + 1
                rw [e2]; omega

/-- The column-variation output: after the second kernel its array holds, at batch b, the sum over positions and neighbouring
    column pairs of the squared feature step (summed over channels) times half the sum of the two confidences. -/
theorem tvCols_value (c : Dev nD) (i : S2x1x1.Idx) :
    W4 (F := Ideal) m ρ c (Proc.devRef .tc main_v19_2) i = Spec.tvCols (Xm m c) (Pm m c) (i 0) :=
  congrFun ((W4_arr m ρ c 6).trans (final6 m ρ c)) i

end Cert.KernelIdeal.Gen.SmoothValue

end
-- ==== Proof.SmoothValuePay3.lean ====
/-
  The second kernel's arithmetic read at an index over the extended reals, third part: the row variation. Inside a tile,
  over the three neighbouring row pairs, columns and depths: the squared feature step summed over channels times half
  the sum of the two confidences; across the seam to the tile before, the same for the tile's first row against the
  carried last row; the carried rows themselves; and what is stored in the row-variation block, the seam term entering
  only when the tile coordinate is above zero.
-/
import proofs.«158333_j65738769433119_2_alg».proof.Proof.SmoothValuePay2

set_option maxRecDepth 16384

noncomputable section

namespace Cert.KernelIdeal.Gen.SmoothValue

open Idealize.ShloMosaic Idealize.ShloMosaic.ValueIdx
open Cert.KernelIdeal Cert.KernelIdeal.Gen
open Cert.Proof

/-- A sum over the first axis of a [48, 3, 80, 48] vector. -/
theorem red_ch_r (v : FVec Ideal S48x3x80x48 .f32) (r : Fin 3) (w : Fin 80) (d : Fin 48) :
    multiReduction .add [0] S3x80x48 v 0x00000000#32 reduces_S48x3x80x48_S3x80x48 (.inl rfl) rfl (ix3 r w d)
      = ∑ ch : Fin 48, v (ix4 ch r w d) :=
  (Ideal.multiReduction_add_single v 0x00000000#32 reduces_S48x3x80x48_S3x80x48 (.inl rfl) rfl (ix3 r w d)).trans
    (Finset.sum_congr rfl fun ch _ => congrArg v (funext (fun a => match a with | ⟨0, _⟩ => rfl | ⟨1, _⟩ => rfl | ⟨2, _⟩ => rfl | ⟨3, _⟩ => rfl)))

/-- A sum over the last axis of a [3, 80, 48] vector. -/
theorem red_d_r (v : FVec Ideal S3x80x48 .f32) (r : Fin 3) (w : Fin 80) :
    multiReduction .add [2] S3x80 v 0x00000000#32 reduces_S3x80x48_S3x80 (.inl rfl) rfl (ix2 r w)
      = ∑ d : Fin 48, v (ix3 r w d) :=
  (Ideal.multiReduction_add_single v 0x00000000#32 reduces_S3x80x48_S3x80 (.inl rfl) rfl (ix2 r w)).trans
    (Finset.sum_congr rfl fun d _ => congrArg v (funext (fun a => match a with | ⟨0, _⟩ => rfl | ⟨1, _⟩ => rfl | ⟨2, _⟩ => rfl)))

/-- A sum over the last axis of a [3, 80] vector. -/
theorem red_w_r (v : FVec Ideal S3x80 .f32) (r : Fin 3) :
    multiReduction .add [1] S3 v 0x00000000#32 reduces_S3x80_S3 (.inl rfl) rfl (ix1 r)
      = ∑ w : Fin 80, v (ix2 r w) :=
  (Ideal.multiReduction_add_single v 0x00000000#32 reduces_S3x80_S3 (.inl rfl) rfl (ix1 r)).trans
    (Finset.sum_congr rfl fun w _ => congrArg v (funext (fun a => match a with | ⟨0, _⟩ => rfl | ⟨1, _⟩ => rfl)))

/-- A sum over the first axis of a [3, 1] vector. -/
theorem red_r31 (v : FVec Ideal S3x1 .f32)  :
    multiReduction .add [0] S1 v 0x00000000#32 reduces_S3x1_S1 (.inl rfl) rfl (ix1 (0 : Fin 1))
      = ∑ r : Fin 3, v (ix2 r (0 : Fin 1)) :=
  (Ideal.multiReduction_add_single v 0x00000000#32 reduces_S3x1_S1 (.inl rfl) rfl (ix1 (0 : Fin 1))).trans
    (Finset.sum_congr rfl fun r _ => congrArg v (funext (fun a => match a with | ⟨0, _⟩ => rfl | ⟨1, _⟩ => rfl)))

/-- A sum over the first axis of a [48, 80, 48] vector. -/
theorem red_ch_b (v : FVec Ideal S48x80x48 .f32) (w : Fin 80) (d : Fin 48) :
    multiReduction .add [0] S80x48 v 0x00000000#32 reduces_S48x80x48_S80x48 (.inl rfl) rfl (ix2 w d)
      = ∑ ch : Fin 48, v (ix3 ch w d) :=
  (Ideal.multiReduction_add_single v 0x00000000#32 reduces_S48x80x48_S80x48 (.inl rfl) rfl (ix2 w d)).trans
    (Finset.sum_congr rfl fun ch _ => congrArg v (funext (fun a => match a with | ⟨0, _⟩ => rfl | ⟨1, _⟩ => rfl | ⟨2, _⟩ => rfl)))

/-- A sum over the last axis of a [80, 48] vector. -/
theorem red_d_b (v : FVec Ideal S80x48 .f32) (w : Fin 80) :
    multiReduction .add [1] S80 v 0x00000000#32 reduces_S80x48_S80 (.inl rfl) rfl (ix1 w)
      = ∑ d : Fin 48, v (ix2 w d) :=
  (Ideal.multiReduction_add_single v 0x00000000#32 reduces_S80x48_S80 (.inl rfl) rfl (ix1 w)).trans
    (Finset.sum_congr rfl fun d _ => congrArg v (funext (fun a => match a with | ⟨0, _⟩ => rfl | ⟨1, _⟩ => rfl)))

/-- A sum over the first axis of a [80, 1] vector. -/
theorem red_w801 (v : FVec Ideal S80x1 .f32)  :
    multiReduction .add [0] S1 v 0x00000000#32 reduces_S80x1_S1 (.inl rfl) rfl (ix1 (0 : Fin 1))
      = ∑ w : Fin 80, v (ix2 w (0 : Fin 1)) :=
  (Ideal.multiReduction_add_single v 0x00000000#32 reduces_S80x1_S1 (.inl rfl) rfl (ix1 (0 : Fin 1))).trans
    (Finset.sum_congr rfl fun w _ => congrArg v (funext (fun a => match a with | ⟨0, _⟩ => rfl | ⟨1, _⟩ => rfl)))

/-- One tile's row variation inside the tile: over its three neighbouring row pairs, columns and depths. -/
def rowTile (v1 : FVec Ideal S48x4x80x48 .f32) (v20 : FVec Ideal S4x80x48 .f32) : EReal :=
  ∑ r : Fin 3, ∑ w : Fin 80, ∑ d : Fin 48,
    (∑ ch : Fin 48, (v1 (ix4 ch r.succ w d) - v1 (ix4 ch r.castSucc w d)) * (v1 (ix4 ch r.succ w d) - v1 (ix4 ch r.castSucc w d)))
      * (Spec.half * (v20 (ix3 r.succ w d) + v20 (ix3 r.castSucc w d)))

/-- The value the body forms for the row variation inside the tile. -/
theorem pay26_apply (v1 : FVec Ideal S48x4x80x48 .f32) (v20 : FVec Ideal S4x80x48 .f32) :
    k1_pay26 v1 v20 o2 = rowTile v1 v20 := by
  unfold k1_pay26 rowTile
  refine (shapeCast_apply _ _ _ (ix1 (0 : Fin 1)) (by rw [Shape.rowMajor_val_one, Shape.rowMajor_val_two]; rfl)).trans ?_
  refine (red_r31 _).trans (Finset.sum_congr rfl fun r _ => ?_)
  refine (shapeCast_apply _ _ _ (ix1 r) (by
    rw [Shape.rowMajor_val_one, Shape.rowMajor_val_two]
    show r.val = r.val * 1 + 0
    omega)).trans ?_
  refine (red_w_r _ r).trans (Finset.sum_congr rfl fun w _ => ?_)
  refine (red_d_r _ r w).trans (Finset.sum_congr rfl fun d _ => ?_)
  refine (mulf_apply _ _ _).trans (congrArg₂ (· * ·) ?_ ?_)
  · refine (red_ch_r _ r w d).trans (Finset.sum_congr rfl fun ch _ => ?_)
    refine (mulf_apply _ _ _).trans ?_
    have e : subf (extractStridedSlice S48x3x80x48 ![0, 1, 0, 0] v1 slices_S48x4x80x48_o0_1_0_0_S48x3x80x48)
        (extractStridedSlice S48x3x80x48 ![0, 0, 0, 0] v1 slices_S48x4x80x48_o0_0_0_0_S48x3x80x48) (ix4 ch r w d)
        = v1 (ix4 ch r.succ w d) - v1 (ix4 ch r.castSucc w d) :=
      (subf_apply _ _ _).trans (congrArg₂ (· - ·)
        (extractStridedSlice_apply _ v1 _ _ (ix4 ch r.succ w d) (fun a => match a with | ⟨0, _⟩ => (Nat.zero_add _).symm | ⟨1, _⟩ => (Nat.add_comm _ _) | ⟨2, _⟩ => (Nat.zero_add _).symm | ⟨3, _⟩ => (Nat.zero_add _).symm))
        (extractStridedSlice_apply _ v1 _ _ (ix4 ch r.castSucc w d) (fun a => match a with | ⟨0, _⟩ => (Nat.zero_add _).symm | ⟨1, _⟩ => (Nat.zero_add _).symm | ⟨2, _⟩ => (Nat.zero_add _).symm | ⟨3, _⟩ => (Nat.zero_add _).symm)))
    exact congrArg₂ (· * ·) e e
  · refine (mulf_apply _ _ _).trans (congrArg₂ (· * ·) rfl ?_)
    refine (addf_apply _ _ _).trans (congrArg₂ (· + ·) ?_ ?_)
    · exact extractStridedSlice_apply _ v20 _ _ (ix3 r.succ w d) (fun a => match a with | ⟨0, _⟩ => (Nat.add_comm _ _) | ⟨1, _⟩ => (Nat.zero_add _).symm | ⟨2, _⟩ => (Nat.zero_add _).symm)
    · exact extractStridedSlice_apply _ v20 _ _ (ix3 r.castSucc w d) (fun a => match a with | ⟨0, _⟩ => (Nat.zero_add _).symm | ⟨1, _⟩ => (Nat.zero_add _).symm | ⟨2, _⟩ => (Nat.zero_add _).symm)

/-- The row variation across the seam to the tile before: the tile's first row against the carried rows. -/
def bndTile (v1 : FVec Ideal S48x4x80x48 .f32) (v20 : FVec Ideal S4x80x48 .f32) (s0 : Vec Ideal S48x80x48 .f32) (s1 : Vec Ideal S80x48 .f32) : EReal :=
  ∑ w : Fin 80, ∑ d : Fin 48,
    (∑ ch : Fin 48, (v1 (ix4 ch (0 : Fin 4) w d) - s0 (ix3 ch w d)) * (v1 (ix4 ch (0 : Fin 4) w d) - s0 (ix3 ch w d)))
      * (Spec.half * (v20 (ix3 (0 : Fin 4) w d) + s1 (ix2 w d)))

/-- The value the body forms for the row variation across the seam. -/
theorem pay29_apply (v1 : FVec Ideal S48x4x80x48 .f32) (v20 : FVec Ideal S4x80x48 .f32) (s0 : Vec Ideal S48x80x48 .f32) (s1 : Vec Ideal S80x48 .f32) :
    k1_pay29 v1 v20 s0 s1 o2 = bndTile v1 v20 s0 s1 := by
  unfold k1_pay29 bndTile
  refine (shapeCast_apply _ _ _ (ix1 (0 : Fin 1)) (by rw [Shape.rowMajor_val_one, Shape.rowMajor_val_two]; rfl)).trans ?_
  refine (red_w801 _).trans (Finset.sum_congr rfl fun w _ => ?_)
  refine (shapeCast_apply _ _ _ (ix1 w) (by
    rw [Shape.rowMajor_val_one, Shape.rowMajor_val_two]
    show w.val = w.val * 1 + 0
    omega)).trans ?_
  refine (red_d_b _ w).trans (Finset.sum_congr rfl fun d _ => ?_)
  refine (mulf_apply _ _ _).trans (congrArg₂ (· * ·) ?_ ?_)
  · refine (red_ch_b _ w d).trans (Finset.sum_congr rfl fun ch _ => ?_)
    refine (mulf_apply _ _ _).trans ?_
    have e : subf (shapeCast S48x80x48 (extractStridedSlice S48x1x80x48 ![0, 0, 0, 0] v1 slices_S48x4x80x48_o0_0_0_0_S48x1x80x48) shapeCasts_S48x1x80x48_S48x80x48)
        s0 (ix3 ch w d) = v1 (ix4 ch (0 : Fin 4) w d) - s0 (ix3 ch w d) :=
      (subf_apply _ _ _).trans (congrArg (· - s0 (ix3 ch w d))
        ((shapeCast_apply _ _ _ (ix4 ch (0 : Fin 1) w d) (by
          rw [Shape.rowMajor_val_four, Shape.rowMajor_val_three]
          show (((ch.val * 1 + 0) * 80 + w.val) * 48 + d.val) = ((ch.val * 80 + w.val) * 48 + d.val)
          simp only [Nat.mul_one, Nat.add_zero])).trans
        (extractStridedSlice_apply _ v1 _ _ (ix4 ch (0 : Fin 4) w d) (fun a => match a with | ⟨0, _⟩ => (Nat.zero_add _).symm | ⟨1, _⟩ => rfl | ⟨2, _⟩ => (Nat.zero_add _).symm | ⟨3, _⟩ => (Nat.zero_add _).symm))))
    exact congrArg₂ (· * ·) e e
  · refine (mulf_apply _ _ _).trans (congrArg₂ (· * ·) rfl ?_)
    refine (addf_apply _ _ _).trans (congrArg (· + s1 (ix2 w d)) ?_)
    refine (shapeCast_apply _ _ _ (ix3 (0 : Fin 1) w d) (by
      rw [Shape.rowMajor_val_three, Shape.rowMajor_val_two]
      show ((0 * 80 + w.val) * 48 + d.val) = (w.val * 48 + d.val)
      rw [Nat.zero_mul, Nat.zero_add])).trans ?_
    exact extractStridedSlice_apply _ v20 _ _ (ix3 (0 : Fin 4) w d) (fun a => match a with | ⟨0, _⟩ => rfl | ⟨1, _⟩ => (Nat.zero_add _).symm | ⟨2, _⟩ => (Nat.zero_add _).symm)

/-- The feature row carried to the next tile: the tile's last row. -/
theorem pay27_apply (v1 : FVec Ideal S48x4x80x48 .f32) (ch : Fin 48) (w : Fin 80) (d : Fin 48) :
    k1_pay27 v1 (ix3 ch w d) = v1 (ix4 ch (3 : Fin 4) w d) := by
  unfold k1_pay27
  refine (shapeCast_apply _ _ _ (ix4 ch (0 : Fin 1) w d) (by
    rw [Shape.rowMajor_val_four, Shape.rowMajor_val_three]
    show (((ch.val * 1 + 0) * 80 + w.val) * 48 + d.val) = ((ch.val * 80 + w.val) * 48 + d.val)
    simp only [Nat.mul_one, Nat.add_zero])).trans ?_
  exact extractStridedSlice_apply _ v1 _ _ (ix4 ch (3 : Fin 4) w d) (fun a => match a with | ⟨0, _⟩ => (Nat.zero_add _).symm | ⟨1, _⟩ => rfl | ⟨2, _⟩ => (Nat.zero_add _).symm | ⟨3, _⟩ => (Nat.zero_add _).symm)

/-- The confidence row carried to the next tile: the tile's last row. -/
theorem pay28_apply (v20 : FVec Ideal S4x80x48 .f32) (w : Fin 80) (d : Fin 48) :
    k1_pay28 v20 (ix2 w d) = v20 (ix3 (3 : Fin 4) w d) := by
  unfold k1_pay28
  refine (shapeCast_apply _ _ _ (ix3 (0 : Fin 1) w d) (by
    rw [Shape.rowMajor_val_three, Shape.rowMajor_val_two]
    show ((0 * 80 + w.val) * 48 + d.val) = (w.val * 48 + d.val)
    rw [Nat.zero_mul, Nat.zero_add])).trans ?_
  exact extractStridedSlice_apply _ v20 _ _ (ix3 (3 : Fin 4) w d) (fun a => match a with | ⟨0, _⟩ => rfl | ⟨1, _⟩ => (Nat.zero_add _).symm | ⟨2, _⟩ => (Nat.zero_add _).symm)

/-- Storing the carried rows changes nothing of them. -/
theorem pay30_eq (v99 : FVec Ideal S48x80x48 .f32) : k1_pay30 v99 = v99 := by
  unfold k1_pay30; exact shapeCast_self _ _
theorem pay31_eq (v101 : FVec Ideal S80x48 .f32) : k1_pay31 v101 = v101 := by
  unfold k1_pay31; exact shapeCast_self _ _

theorem select_one1 {α : Type} (a b : α) : Scalar.select 1#1 a b = a := if_pos rfl
theorem select_zero2 {α : Type} (a b : α) : Scalar.select 0#1 a b = b := if_neg (by decide)

/-- What the body stores in the row-variation block when the tile coordinate is above zero: the value read plus the
    inside and the seam terms. -/
theorem pay33_apply_one (v93 v114 : FVec Ideal S1x1 .f32) (v128 : Vec Ideal S1x1x1 .f32) :
    k1_pay33 v93 v114 1#1 v128 o3 = v128 o3 + (v93 o2 + v114 o2) := by
  unfold k1_pay33
  rw [select_one1]
  refine (shapeCast_apply _ _ _ o2 (by rw [Shape.rowMajor_val_two, Shape.rowMajor_val_three]; rfl)).trans ?_
  refine (addf_apply _ _ _).trans (congrArg₂ (· + ·) ?_ (addf_apply _ _ _))
  exact shapeCast_apply v128 _ _ _ (by rw [Shape.rowMajor_val_two, Shape.rowMajor_val_three]; rfl)

/-- And at tile 0: the value read plus the inside term, zero in the seam term's place. -/
theorem pay33_apply_zero (v93 v114 : FVec Ideal S1x1 .f32) (v128 : Vec Ideal S1x1x1 .f32) :
    k1_pay33 v93 v114 0#1 v128 o3 = v128 o3 + (v93 o2 + 0) := by
  unfold k1_pay33
  rw [select_zero2]
  refine (shapeCast_apply _ _ _ o2 (by rw [Shape.rowMajor_val_two, Shape.rowMajor_val_three]; rfl)).trans ?_
  refine (addf_apply _ _ _).trans (congrArg₂ (· + ·) ?_ ((addf_apply _ _ _).trans (congrArg (v93 o2 + ·) Ideal.ofBits_zero_f32)))
  exact shapeCast_apply v128 _ _ _ (by rw [Shape.rowMajor_val_two, Shape.rowMajor_val_three]; rfl)

/-- The block stored at the first tile is zero. -/
theorem pay32_apply (j : S1x1x1.Idx) : k1_pay32 (F := Ideal) j = 0 := by
  unfold k1_pay32
  exact Ideal.ofBits_zero_f32

end Cert.KernelIdeal.Gen.SmoothValue

end
-- ==== Proof.SmoothValueRowsA.lean ====
/-
  The row-variation output of the second kernel, first part: what each case's stores leave in its block and in the two
  scratch buffers as functions of the feature and logit blocks, of what the block held and of the carried rows; the
  scratch buffers hold the tile's last rows after every point; and the two facts the running sum needs, the seam term
  read off the blocks of the point and of the point before.
-/
import proofs.«158333_j65738769433119_2_alg».proof.Proof.SmoothFrame
import proofs.«158333_j65738769433119_2_alg».proof.Proof.SmoothValuePay3
import proofs.«158333_j65738769433119_2_alg».proof.Proof.SmoothValueDepthA

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Smooth
open Cert.Proof

theorem hz2 : (![0, 0] : Fin 2 → Nat) = fun _ => 0 := funext fun a => by fin_cases a <;> rfl

/-- At a later tile of a batch the comparison "tile coordinate above zero" holds. -/
theorem hsgt1_B : ∀ t : Fin cfg1.N, ¬t.val % 20 = 0 → Scalar.cmpi .sgt (BitVec.ofNat 32 ((grid1.coords t) 1).val) 0#32 = 1#1 :=
  (by decide +kernel : ∀ t : Fin grid1.N, ¬t.val % 20 = 0 → Scalar.cmpi .sgt (BitVec.ofNat 32 ((grid1.coords t) 1).val) 0#32 = 1#1)

section AnyValues
variable {F : FTy → Type} [FloatOps F]

/-- At tile 0 the row-variation block is left at the tile's value added to the zero just stored. -/
theorem out_A_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) :
    out1_A_5 c i arg2 harg2 arg3 harg3 arg4 harg4 arg5 harg5 arg6 harg6 arg7 harg7 arg8 harg8 arg9 harg9 arg10 harg10 arg11 harg11 hc0 x0 x1 x2 x3 xs0 xs1 = k1_pay33 (k1_pay26 (k1_pay5 x0) (k1_pay17 x2)) (k1_pay29 (k1_pay5 x0) (k1_pay17 x2) xs0 xs1)
      (Scalar.cmpi .sgt (BitVec.ofNat 32 (i 1).val) 0#32) (k1_pay32 (F := F)) := by
  unfold out1_A_5
  rw [View.read_writes_eq_canon _ _ _ (cover1_A_5 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  rw [View.canon_cons_unit_zero (S := S1x1x1) hz3, View.readCov_unit_zero (S := S1x1x1) _ hz3]
  simp only [View.readAt_eq_ld, harg2.read_unread, harg4.read_unread, harg10.read_unread, harg11.read_unread,
    View.ld_unit_zero (S := S1x48x4x80x48) hz5, View.ld_unit_zero (S := S1x2x4x80x48) hz5,
    View.ld_unit_zero (S := S48x80x48) hz3, View.ld_unit_zero (S := S80x48) hz2]

/-- At a later tile the row-variation block is left at the tile's value added to what it held. -/
theorem out_B_5 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) :
    out1_B_5 c i arg2 harg2 arg3 harg3 arg4 harg4 arg5 harg5 arg6 harg6 arg7 harg7 arg8 harg8 arg9 harg9 arg10 harg10 arg11 harg11 hc0 x0 x1 x2 x3 xs0 xs1 xo4 xo5 xo6 xo7 = k1_pay33 (k1_pay26 (k1_pay5 x0) (k1_pay17 x2)) (k1_pay29 (k1_pay5 x0) (k1_pay17 x2) xs0 xs1)
      (Scalar.cmpi .sgt (BitVec.ofNat 32 (i 1).val) 0#32) xo5 := by
  unfold out1_B_5
  rw [View.read_writes_eq_canon _ _ _ (cover1_B_5 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  rw [View.canon_unit_zero (S := S1x1x1) hz3]
  simp only [View.readAt_eq_ld, harg2.read_unread, harg4.read_unread, harg7.read_unread, harg10.read_unread, harg11.read_unread,
    View.ld_unit_zero (S := S1x48x4x80x48) hz5, View.ld_unit_zero (S := S1x2x4x80x48) hz5,
    View.ld_unit_zero (S := S48x80x48) hz3, View.ld_unit_zero (S := S80x48) hz2, View.ld_unit_zero (S := S1x1x1) hz3]

/-- The feature-row scratch is left at the tile's last feature row. -/
theorem sout_A_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) :
    sout1_A_0 c i arg2 harg2 arg3 harg3 arg4 harg4 arg5 harg5 arg6 harg6 arg7 harg7 arg8 harg8 arg9 harg9 arg10 harg10 arg11 harg11 hc0 x0 x1 x2 x3 xs0 xs1 = k1_pay30 (k1_pay27 (k1_pay5 x0)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  rw [View.canon_unit_zero (S := S48x80x48) hz3]
  simp only [View.readAt_eq_ld, harg2.read_unread, View.ld_unit_zero (S := S1x48x4x80x48) hz5]

/-- The confidence-row scratch is left at the tile's last confidence row. -/
theorem sout_A_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) :
    sout1_A_1 c i arg2 harg2 arg3 harg3 arg4 harg4 arg5 harg5 arg6 harg6 arg7 harg7 arg8 harg8 arg9 harg9 arg10 harg10 arg11 harg11 hc0 x0 x1 x2 x3 xs0 xs1 = k1_pay31 (k1_pay28 (k1_pay17 x2)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  rw [View.canon_unit_zero (S := S80x48) hz2]
  simp only [View.readAt_eq_ld, harg4.read_unread, View.ld_unit_zero (S := S1x2x4x80x48) hz5]

/-- The feature-row scratch is left at the tile's last feature row. -/
theorem sout_B_0 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) :
    sout1_B_0 c i arg2 harg2 arg3 harg3 arg4 harg4 arg5 harg5 arg6 harg6 arg7 harg7 arg8 harg8 arg9 harg9 arg10 harg10 arg11 harg11 hc0 x0 x1 x2 x3 xs0 xs1 xo4 xo5 xo6 xo7 = k1_pay30 (k1_pay27 (k1_pay5 x0)) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  rw [View.canon_unit_zero (S := S48x80x48) hz3]
  simp only [View.readAt_eq_ld, harg2.read_unread, View.ld_unit_zero (S := S1x48x4x80x48) hz5]

/-- The confidence-row scratch is left at the tile's last confidence row. -/
theorem sout_B_1 (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec F S1x48x4x80x48 .f32) (x1 : Vec F S1x1x4x80x48 .i32) (x2 : Vec F S1x2x4x80x48 .f32) (x3 : Vec F S1x2x48 .f32) (xs0 : Vec F S48x80x48 .f32) (xs1 : Vec F S80x48 .f32) (xo4 : Vec F S1x2x1 .f32) (xo5 : Vec F S1x1x1 .f32) (xo6 : Vec F S1x1x1 .f32) (xo7 : Vec F S1x1x1 .f32) :
    sout1_B_1 c i arg2 harg2 arg3 harg3 arg4 harg4 arg5 harg5 arg6 harg6 arg7 harg7 arg8 harg8 arg9 harg9 arg10 harg10 arg11 harg11 hc0 x0 x1 x2 x3 xs0 xs1 xo4 xo5 xo6 xo7 = k1_pay31 (k1_pay28 (k1_pay17 x2)) := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  rw [View.canon_unit_zero (S := S80x48) hz2]
  simp only [View.readAt_eq_ld, harg4.read_unread, View.ld_unit_zero (S := S1x2x4x80x48) hz5]

variable (V : (c : Dev nD) → (b : Ref sig .tc) → Buf (Elt F) ((c : Thread nD τ).loc b))

/-- The row-variation component of what a point of tile 0 leaves. -/
theorem step5_A (c : Dev nD) (t : Fin cfg1.N) (h0 : t.val % 20 = 0) (p : Outs1 F) :
    (stepA1 V c t h0 p).2.1 = k1_pay33 (k1_pay26 (k1_pay5 (iblk1 V c 0 t)) (k1_pay17 (iblk1 V c 2 t))) (k1_pay29 (k1_pay5 (iblk1 V c 0 t)) (k1_pay17 (iblk1 V c 2 t)) p.2.2.2.2.1 p.2.2.2.2.2)
      (Scalar.cmpi .sgt (BitVec.ofNat 32 ((grid1.coords t) 1).val) 0#32) (k1_pay32 (F := F)) :=
  out_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2

/-- The row-variation component of what a point of a later tile leaves. -/
theorem step5_B (c : Dev nD) (t : Fin cfg1.N) (h0 : ¬t.val % 20 = 0) (p : Outs1 F) :
    (stepB1 V c t h0 p).2.1 = k1_pay33 (k1_pay26 (k1_pay5 (iblk1 V c 0 t)) (k1_pay17 (iblk1 V c 2 t))) (k1_pay29 (k1_pay5 (iblk1 V c 0 t)) (k1_pay17 (iblk1 V c 2 t)) p.2.2.2.2.1 p.2.2.2.2.2)
      (Scalar.cmpi .sgt (BitVec.ofNat 32 ((grid1.coords t) 1).val) 0#32) p.2.1 :=
  out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1

/-- The scratch components of what a point leaves, in either case: the tile's last rows. -/
theorem sstep0_A (c : Dev nD) (t : Fin cfg1.N) (h0 : t.val % 20 = 0) (p : Outs1 F) :
    (stepA1 V c t h0 p).2.2.2.2.1 = k1_pay30 (k1_pay27 (k1_pay5 (iblk1 V c 0 t))) :=
  sout_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2
theorem sstep0_B (c : Dev nD) (t : Fin cfg1.N) (h0 : ¬t.val % 20 = 0) (p : Outs1 F) :
    (stepB1 V c t h0 p).2.2.2.2.1 = k1_pay30 (k1_pay27 (k1_pay5 (iblk1 V c 0 t))) :=
  sout_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1
theorem sstep1_A (c : Dev nD) (t : Fin cfg1.N) (h0 : t.val % 20 = 0) (p : Outs1 F) :
    (stepA1 V c t h0 p).2.2.2.2.2 = k1_pay31 (k1_pay28 (k1_pay17 (iblk1 V c 2 t))) :=
  sout_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2
theorem sstep1_B (c : Dev nD) (t : Fin cfg1.N) (h0 : ¬t.val % 20 = 0) (p : Outs1 F) :
    (stepB1 V c t h0 p).2.2.2.2.2 = k1_pay31 (k1_pay28 (k1_pay17 (iblk1 V c 2 t))) :=
  sout_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1

end AnyValues

section AtIdeal
variable (V : (c : Dev nD) → (b : Ref sig .tc) → Buf (Elt Ideal) ((c : Thread nD τ).loc b))

/-- After every point the scratch buffers hold the last feature row and the last confidence row of the point's tile. -/
theorem scr0_eq (c : Dev nD) (n : ℕ) (hn : n < cfg1.N) :
    (outsAt1 V c n hn).2.2.2.2.1 = k1_pay27 (k1_pay5 (iblk1 V c 0 ⟨n, hn⟩)) := by
  by_cases h0 : n % 20 = 0
  · rw [outsAt1_A V c ⟨n, hn⟩ h0, sstep0_A, pay30_eq]
  · rw [outsAt1_B V c ⟨n, hn⟩ h0, sstep0_B, pay30_eq]
theorem scr1_eq (c : Dev nD) (n : ℕ) (hn : n < cfg1.N) :
    (outsAt1 V c n hn).2.2.2.2.2 = k1_pay28 (k1_pay17 (iblk1 V c 2 ⟨n, hn⟩)) := by
  by_cases h0 : n % 20 = 0
  · rw [outsAt1_A V c ⟨n, hn⟩ h0, sstep1_A, pay31_eq]
  · rw [outsAt1_B V c ⟨n, hn⟩ h0, sstep1_B, pay31_eq]

/-- The feature block (its unit batch axis dropped) and the confidences of the tile at grid position `k` (zero beyond
    the grid). -/
def v1At (c : Dev nD) (k : ℕ) : FVec Ideal S48x4x80x48 .f32 :=
  if h : k < cfg1.N then k1_pay5 (iblk1 V c 0 ⟨k, h⟩) else fun _ => 0
def v20At (c : Dev nD) (k : ℕ) : FVec Ideal S4x80x48 .f32 :=
  if h : k < cfg1.N then k1_pay17 (iblk1 V c 2 ⟨k, h⟩) else fun _ => 0

/-- The row variation the tile at grid position `k` contributes: its three inside row pairs and, unless it is the first
    tile of a batch, the pair across the seam to the tile before. -/
def rowAt (c : Dev nD) (k : ℕ) : EReal :=
  rowTile (v1At V c k) (v20At V c k)
    + (if k % 20 = 0 then 0 else bndTile (v1At V c k) (v20At V c k) (k1_pay27 (v1At V c (k - 1))) (k1_pay28 (v20At V c (k - 1))))

/-- What the row-variation block holds after grid position `k` (zero beyond the grid). -/
def rowHeld (c : Dev nD) (k : ℕ) : EReal :=
  if h : k < cfg1.N then (outsAt1 V c k h).2.1 o3 else 0

theorem rowHeld_A (c : Dev nD) (n : ℕ) (hn : n < 40) (h0 : n % 20 = 0) : rowHeld V c n = rowAt V c n := by
  have hn' : n < cfg1.N := lt_of_lt_of_eq hn (show cfg1.N = 40 from N_1).symm
  have e1 : v1At V c n = k1_pay5 (iblk1 V c 0 ⟨n, hn'⟩) := by unfold v1At; rw [dif_pos hn']
  have e2 : v20At V c n = k1_pay17 (iblk1 V c 2 ⟨n, hn'⟩) := by unfold v20At; rw [dif_pos hn']
  unfold rowHeld rowAt
  rw [dif_pos hn', if_pos h0, e1, e2, outsAt1_A V c ⟨n, hn'⟩ h0, step5_A, hsgt1 ⟨n, hn'⟩ h0, pay33_apply_zero, pay32_apply,
    zero_add, pay26_apply]

theorem rowHeld_B (c : Dev nD) (n : ℕ) (hn : n + 1 < 40) (h0 : ¬(n + 1) % 20 = 0) :
    rowHeld V c (n + 1) = rowHeld V c n + rowAt V c (n + 1) := by
  have hn' : n + 1 < cfg1.N := lt_of_lt_of_eq hn (show cfg1.N = 40 from N_1).symm
  have hn'' : n < cfg1.N := Nat.lt_of_succ_lt hn'
  have e1 : v1At V c (n + 1) = k1_pay5 (iblk1 V c 0 ⟨n + 1, hn'⟩) := by unfold v1At; rw [dif_pos hn']
  have e2 : v20At V c (n + 1) = k1_pay17 (iblk1 V c 2 ⟨n + 1, hn'⟩) := by unfold v20At; rw [dif_pos hn']
  have e3 : v1At V c (n + 1 - 1) = k1_pay5 (iblk1 V c 0 ⟨n, hn''⟩) := by
    show v1At V c n = _
    unfold v1At; rw [dif_pos hn'']
  have e4 : v20At V c (n + 1 - 1) = k1_pay17 (iblk1 V c 2 ⟨n, hn''⟩) := by
    show v20At V c n = _
    unfold v20At; rw [dif_pos hn'']
  have hp : outsAt1 V c ((⟨n + 1, hn'⟩ : Fin cfg1.N).val - 1)
      (Nat.lt_of_le_of_lt (Nat.sub_le _ _) (⟨n + 1, hn'⟩ : Fin cfg1.N).isLt) = outsAt1 V c n hn'' := rfl
  unfold rowHeld rowAt
  rw [dif_pos hn', dif_pos hn'', if_neg h0, e1, e2, e3, e4, outsAt1_B V c ⟨n + 1, hn'⟩ h0, step5_B, hsgt1_B ⟨n + 1, hn'⟩ h0,
    pay33_apply_one, pay26_apply, pay29_apply, hp, scr0_eq V c n hn'', scr1_eq V c n hn'']

end AtIdeal

end Cert.KernelIdeal.Gen.SmoothValue

end
-- ==== Proof.SmoothValueRowsSum.lean ====
/-
  The row variation regrouped by tiles. The specification sums, over the seventy-nine neighbouring row pairs of a batch,
  the squared feature step between the two rows (summed over channels) times half the sum of the two confidences. A tile
  of four rows holds three such pairs inside it, and every tile after the first also owns the pair across the seam to
  the tile before: twenty tiles, sixty inside pairs and nineteen seams, each pair exactly once.
-/
import proofs.«158333_j65738769433119_2_alg».proof.Proof.Spec

set_option maxRecDepth 16384

noncomputable section

namespace Cert.KernelIdeal.Gen.SmoothValue

open Idealize.ShloMosaic Idealize.ShloMosaic.ValueIdx
open Cert.Proof

variable (X : Spec.SX.Idx → EReal) (P : Spec.SP.Idx → EReal) (b : Fin 2)

/-- What the neighbouring rows `h`, `h'` of batch `b` contribute to the row variation. -/
def pairTerm (h h' : Fin 80) : EReal :=
  ∑ w : Fin 80, ∑ d : Fin 48,
    (∑ ch : Fin 48, (Spec.feat X b ch h' w d - Spec.feat X b ch h w d) * (Spec.feat X b ch h' w d - Spec.feat X b ch h w d))
      * (Spec.half * (Spec.conf P b h' w d + Spec.conf P b h w d))

/-- The row variation is the sum of the neighbouring pairs' contributions. -/
theorem tvRows_pairs : Spec.tvRows X P b = ∑ h : Fin 79, pairTerm X P b h.castSucc h.succ := by
  unfold Spec.tvRows Spec.sqStep pairTerm
  rfl

/-- The pair (n, n + 1), named by its lower row (zero past the last pair). -/
def pairAt (n : ℕ) : EReal :=
  if h : n + 1 < 80 then pairTerm X P b ⟨n, Nat.lt_of_succ_lt h⟩ ⟨n + 1, h⟩ else 0

theorem pairAt_eq (n : ℕ) (h h' : Fin 80) (e : h.val = n) (e' : h'.val = n + 1) :
    pairAt X P b n = pairTerm X P b h h' := by
  have hlt : n + 1 < 80 := by have := h'.isLt; omega
  unfold pairAt
  rw [dif_pos hlt]
  have e1 : (⟨n, Nat.lt_of_succ_lt hlt⟩ : Fin 80) = h := Fin.ext e.symm
  have e2 : (⟨n + 1, hlt⟩ : Fin 80) = h' := Fin.ext e'.symm
  rw [e1, e2]

theorem tvRows_range : Spec.tvRows X P b = ∑ n ∈ Finset.range 79, pairAt X P b n := by
  rw [tvRows_pairs, Finset.sum_range]
  exact Finset.sum_congr rfl fun h _ => (pairAt_eq X P b h.val h.castSucc h.succ rfl rfl).symm

/-- What tile `j` owns: its three inside pairs and, after the first tile, the pair across the seam to the tile before. -/
def tileRows (j : ℕ) : EReal :=
  pairAt X P b (4 * j) + pairAt X P b (4 * j + 1) + pairAt X P b (4 * j + 2)
    + (if j = 0 then 0 else pairAt X P b (4 * j - 1))

/-- The tiles up to `J` own the pairs below row `4 J + 3`. -/
theorem tiles_range : ∀ J : ℕ,
    ∑ j ∈ Finset.range (J + 1), tileRows X P b j = ∑ n ∈ Finset.range (4 * J + 3), pairAt X P b n
  | 0 => by
    rw [Finset.sum_range_one]
    unfold tileRows
    rw [if_pos rfl, add_zero]
    show _ = ∑ n ∈ Finset.range 3, pairAt X P b n
    rw [Finset.sum_range_succ, Finset.sum_range_succ, Finset.sum_range_one]
  | J + 1 => by
    have e : 4 * (J + 1) + 3 = 4 * J + 3 + 1 + 1 + 1 + 1 := by omega
    have hS : ∑ n ∈ Finset.range (4 * (J + 1) + 3), pairAt X P b n
        = ∑ n ∈ Finset.range (4 * J + 3), pairAt X P b n + pairAt X P b (4 * J + 3) + pairAt X P b (4 * J + 3 + 1)
          + pairAt X P b (4 * J + 3 + 1 + 1) + pairAt X P b (4 * J + 3 + 1 + 1 + 1) := by
      rw [e, Finset.sum_range_succ _ (4 * J + 3 + 1 + 1 + 1), Finset.sum_range_succ _ (4 * J + 3 + 1 + 1),
        Finset.sum_range_succ _ (4 * J + 3 + 1), Finset.sum_range_succ _ (4 * J + 3)]
    rw [hS, Finset.sum_range_succ _ (J + 1), tiles_range J]
    unfold tileRows
    rw [if_neg (Nat.succ_ne_zero J)]
    have a0 : pairAt X P b (4 * (J + 1)) = pairAt X P b (4 * J + 3 + 1) := congrArg _ (by omega)
    have a1 : pairAt X P b (4 * (J + 1) + 1) = pairAt X P b (4 * J + 3 + 1 + 1) := congrArg _ (by omega)
    have a2 : pairAt X P b (4 * (J + 1) + 2) = pairAt X P b (4 * J + 3 + 1 + 1 + 1) := congrArg _ (by omega)
    have a3 : pairAt X P b (4 * (J + 1) - 1) = pairAt X P b (4 * J + 3) := congrArg _ (by omega)
    rw [a0, a1, a2, a3]
    generalize (∑ n ∈ Finset.range (4 * J + 3), pairAt X P b n) = S
    generalize pairAt X P b (4 * J + 3 + 1 + 1 + 1) = p3
    generalize pairAt X P b (4 * J + 3 + 1 + 1) = p2
    generalize pairAt X P b (4 * J + 3 + 1) = p1
    generalize pairAt X P b (4 * J + 3) = p0
    abel

/-- The twenty tiles own every pair exactly once. -/
theorem tvRows_tiles : Spec.tvRows X P b = ∑ j : Fin 20, tileRows X P b j.val := by
  rw [tvRows_range, ← Finset.sum_range (fun j => tileRows X P b j)]
  exact (tiles_range X P b 19).symm

end Cert.KernelIdeal.Gen.SmoothValue

end
-- ==== Proof.SmoothValueRows.lean ====
/-
  The row-variation output of the second kernel, the array side: what each grid point adds — the three neighbouring row
  pairs inside its tile and, after a batch's first tile, the pair across the seam to the tile before, whose lower row is
  the row the kernel carried over — as sums over the feature and logit arrays; the batch's twenty tiles own each of its
  seventy-nine pairs once; and the result array: the block of batch b is written back after the batch's last tile and
  holds the row variation of the batch.
-/
import proofs.«158333_j65738769433119_2_alg».proof.Proof.SmoothValueCommon
import proofs.«158333_j65738769433119_2_alg».proof.Proof.SmoothValueRowsA
import proofs.«158333_j65738769433119_2_alg».proof.Proof.SmoothValueRowsSum

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Centers Cert.KernelIdeal.Gen.Smooth Cert.KernelIdeal.Gen.Whole
open Cert.Proof

variable (m : (ℓ : Loc nD τ sig) → Buf (Elt Ideal) ℓ) (ρ : Dev nD → PrngReg)

/-- The feature block of the point of tile `j` of batch `b`, read at an index: the features at row `4 j + r`. -/
theorem v1At_apply (c : Dev nD) (k : ℕ) (b : Fin 2) (j : Fin 20) (hk : k = 20 * b.val + j.val)
    (ch : Fin 48) (r : Fin 4) (w : Fin 80) (d : Fin 48) :
    v1At (Whole.V3 m ρ) c k (ix4 ch r w d) = Spec.feat (Xm m c) b ch (hrow j r) w d := by
  subst hk
  have hlt : 20 * b.val + j.val < cfg1.N := by rw [show cfg1.N = 40 from N_1]; omega
  unfold v1At
  rw [dif_pos hlt]
  exact (pay5_apply (iblk1 (Whole.V3 m ρ) c 0 ⟨20 * b.val + j.val, hlt⟩) ch r w d).trans
    (blk0_apply m ρ c ⟨20 * b.val + j.val, hlt⟩ ch r w d b (hrow j r)
      (by show b.val = (20 * b.val + j.val) / 20; omega)
      (by show 4 * j.val + r.val = 4 * ((20 * b.val + j.val) % 20) + r.val; omega))

/-- The confidence the point forms, read at an index: the specification's confidence at row `4 j + r`. -/
theorem v20At_apply (c : Dev nD) (k : ℕ) (b : Fin 2) (j : Fin 20) (hk : k = 20 * b.val + j.val)
    (r : Fin 4) (w : Fin 80) (d : Fin 48) :
    v20At (Whole.V3 m ρ) c k (ix3 r w d) = Spec.conf (Pm m c) b (hrow j r) w d := by
  subst hk
  have hlt : 20 * b.val + j.val < cfg1.N := by rw [show cfg1.N = 40 from N_1]; omega
  unfold v20At
  rw [dif_pos hlt]
  exact (pay17_apply (iblk1 (Whole.V3 m ρ) c 2 ⟨20 * b.val + j.val, hlt⟩) r w d).trans
    (congrArg₂ conf2
      (blk2_apply m ρ c ⟨20 * b.val + j.val, hlt⟩ (0 : Fin 2) r w d b (hrow j r)
        (by show b.val = (20 * b.val + j.val) / 20; omega)
        (by show 4 * j.val + r.val = 4 * ((20 * b.val + j.val) % 20) + r.val; omega))
      (blk2_apply m ρ c ⟨20 * b.val + j.val, hlt⟩ (1 : Fin 2) r w d b (hrow j r)
        (by show b.val = (20 * b.val + j.val) / 20; omega)
        (by show 4 * j.val + r.val = 4 * ((20 * b.val + j.val) % 20) + r.val; omega)))

/-- An inside pair of the tile, in the specification's terms. -/
theorem inside_pair (c : Dev nD) (b : Fin 2) (j : Fin 20) (r : Fin 3) :
    (∑ w : Fin 80, ∑ d : Fin 48,
      (∑ ch : Fin 48, (v1At (Whole.V3 m ρ) c (20 * b.val + j.val) (ix4 ch r.succ w d) - v1At (Whole.V3 m ρ) c (20 * b.val + j.val) (ix4 ch r.castSucc w d))
          * (v1At (Whole.V3 m ρ) c (20 * b.val + j.val) (ix4 ch r.succ w d) - v1At (Whole.V3 m ρ) c (20 * b.val + j.val) (ix4 ch r.castSucc w d)))
        * (Spec.half * (v20At (Whole.V3 m ρ) c (20 * b.val + j.val) (ix3 r.succ w d) + v20At (Whole.V3 m ρ) c (20 * b.val + j.val) (ix3 r.castSucc w d))))
      = pairAt (Xm m c) (Pm m c) b (4 * j.val + r.val) := by
  rw [pairAt_eq (Xm m c) (Pm m c) b (4 * j.val + r.val) (hrow j r.castSucc) (hrow j r.succ) rfl
    (by show 4 * j.val + (r.val + 1) = 4 * j.val + r.val + 1; omega)]
  unfold pairTerm
  refine Finset.sum_congr rfl fun w _ => Finset.sum_congr rfl fun d _ => ?_
  refine congrArg₂ (· * ·) (Finset.sum_congr rfl fun ch _ => ?_) ?_
  · rw [v1At_apply m ρ c _ b j rfl ch r.succ w d, v1At_apply m ρ c _ b j rfl ch r.castSucc w d]
  · rw [v20At_apply m ρ c _ b j rfl r.succ w d, v20At_apply m ρ c _ b j rfl r.castSucc w d]

/-- The pair across the seam to the tile before, in the specification's terms. -/
theorem seam_pair (c : Dev nD) (b : Fin 2) (j : Fin 20) (hj : j.val ≠ 0) :
    bndTile (v1At (Whole.V3 m ρ) c (20 * b.val + j.val)) (v20At (Whole.V3 m ρ) c (20 * b.val + j.val))
        (k1_pay27 (v1At (Whole.V3 m ρ) c (20 * b.val + j.val - 1))) (k1_pay28 (v20At (Whole.V3 m ρ) c (20 * b.val + j.val - 1)))
      = pairAt (Xm m c) (Pm m c) b (4 * j.val - 1) := by
  have hj' : j.val - 1 < 20 := by have := j.isLt; omega
  have hk : 20 * b.val + j.val - 1 = 20 * b.val + (⟨j.val - 1, hj'⟩ : Fin 20).val := by show _ = 20 * b.val + (j.val - 1); omega
  rw [pairAt_eq (Xm m c) (Pm m c) b (4 * j.val - 1) (hrow ⟨j.val - 1, hj'⟩ 3) (hrow j 0)
    (by show 4 * (j.val - 1) + 3 = 4 * j.val - 1; omega) (by show 4 * j.val + 0 = 4 * j.val - 1 + 1; omega)]
  unfold bndTile pairTerm
  refine Finset.sum_congr rfl fun w _ => Finset.sum_congr rfl fun d _ => ?_
  refine congrArg₂ (· * ·) (Finset.sum_congr rfl fun ch _ => ?_) ?_
  · rw [pay27_apply, v1At_apply m ρ c _ b j rfl ch 0 w d, v1At_apply m ρ c _ b ⟨j.val - 1, hj'⟩ hk ch 3 w d]
  · rw [pay28_apply, v20At_apply m ρ c _ b j rfl 0 w d, v20At_apply m ρ c _ b ⟨j.val - 1, hj'⟩ hk 3 w d]

/-- The point of tile `j` of batch `b` adds what tile `j` owns. -/
theorem rowAt_eq (c : Dev nD) (b : Fin 2) (j : Fin 20) :
    rowAt (Whole.V3 m ρ) c (20 * b.val + j.val) = tileRows (Xm m c) (Pm m c) b j.val := by
  unfold rowAt tileRows
  refine congrArg₂ (· + ·) ?_ ?_
  · unfold rowTile
    rw [Finset.sum_congr rfl fun r _ => inside_pair m ρ c b j r, Fin.sum_univ_three]
    rfl
  · by_cases hj : j.val = 0
    · rw [if_pos hj, if_pos (by omega)]
    · rw [if_neg hj, if_neg (by omega)]
      exact seam_pair m ρ c b j hj

/-- After the last tile of batch `b` the row-variation block holds the batch's row variation. -/
theorem outs5_flush (c : Dev nD) (t : Fin cfg1.N) (h19 : t.val % 20 = 19) (b : Fin 2) (hb : b.val = t.val / 20) :
    (outsAt1 (Whole.V3 m ρ) c t.val t.isLt).2.1 o3 = Spec.tvRows (Xm m c) (Pm m c) b := by
  have hN : t.val < 40 := lt_of_lt_of_eq t.isLt (show cfg1.N = 40 from N_1)
  have ht : t.val = 20 * b.val + 19 := by omega
  have hheld : rowHeld (Whole.V3 m ρ) c t.val = (outsAt1 (Whole.V3 m ρ) c t.val t.isLt).2.1 o3 := by
    unfold rowHeld; rw [dif_pos t.isLt]
  rw [← hheld, ht, chain_flush (rowHeld (Whole.V3 m ρ) c) (rowAt (Whole.V3 m ρ) c) (rowHeld_A (Whole.V3 m ρ) c)
    (rowHeld_B (Whole.V3 m ρ) c) b.val b.isLt, tvRows_tiles]
  exact Finset.sum_congr rfl fun j _ => rowAt_eq m ρ c b j

/-- The result array of the row variation, by batch. -/
def G5 (c : Dev nD) : S2x1x1.Idx → EReal := fun i => Spec.tvRows (Xm m c) (Pm m c) (i 0)

/-- What a flushing point writes back is its block of that array. -/
theorem flushed5_eq (c : Dev nD) (t : Fin cfg1.N) (hf : (cfg1.win 5).flush t = true) :
    (dat1 (Whole.V3 m ρ) c).flushed 5 t = ((cfg1.win 5).blk t).view.read (Elt Ideal) (G5 m c) := by
  have h19 : t.val % 20 = 19 := (flush1_5 t).mp hf
  have hN : t.val < 40 := lt_of_lt_of_eq t.isLt (show cfg1.N = 40 from N_1)
  obtain ⟨e0, e1, e2⟩ := idx_facts5 t
  show (cfg1.win 5).cut (grid1.coords t) ((dat1 (Whole.V3 m ρ) c).after 5 t) = _
  rw [after1_5]
  refine funext fun (j : S1x1x1.Idx) => ?_
  obtain rfl := eq_o3 j
  show (outsAt1 (Whole.V3 m ρ) c t.val t.isLt).2.1 o3 = G5 m c (((cfg1.win 5).blk t).view.emb o3)
  rw [outs5_flush m ρ c t h19 ⟨t.val / 20, by omega⟩ rfl]
  unfold G5
  congr 1
  apply Fin.ext
  show t.val / 20 = win1_5.index t (0 : Fin 3) * 1 + 1 * 0
  omega

/-- An index of the result array is in point `t`'s block iff each coordinate is in the block's range on its axis. -/
theorem mem_blk5 (t : Fin cfg1.N) (i : S2x1x1.Idx) :
    i ∈ ((cfg1.win 5).blk t).view.set ↔ ∀ a : Fin 3, win1_5.index t a * S1x1x1.size a ≤ (i a).val ∧ (i a).val < win1_5.index t a * S1x1x1.size a + S1x1x1.size a := by
  show i ∈ ((View.whole main_v19_1).slice (win1_5.rect t)).set ↔ _
  rw [View.set_slice_whole, Rect.mem_set_unit]
  exact Iff.rfl

/-- So the result array ends holding the row variation of each batch. -/
theorem final5 (c : Dev nD) : (dat1 (Whole.V3 m ρ) c).arrAt 5 cfg1.N = G5 m c :=
  (dat1 (Whole.V3 m ρ) c).arrAt_eq_of_cover 5 (G5 m c) (flushed5_eq m ρ c) fun (i : S2x1x1.Idx) => by
    have hi0 : (i 0).val < 2 := (i 0).isLt
    have hi1 : (i 1).val < 1 := (i 1).isLt
    have hi2 : (i 2).val < 1 := (i 2).isLt
    have hlt : 20 * (i 0).val + 19 < cfg1.N := by rw [show cfg1.N = 40 from N_1]; omega
    obtain ⟨e0, e1, e2⟩ := idx_facts5 ⟨20 * (i 0).val + 19, hlt⟩
    refine ⟨⟨20 * (i 0).val + 19, hlt⟩, (flush1_5 _).mpr (by show (20 * (i 0).val + 19) % 20 = 19; omega), ?_⟩
    rw [mem_blk5]
    intro a
    match a with
    | ⟨0, _⟩ => show win1_5.index ⟨20 * (i 0).val + 19, hlt⟩ (0 : Fin 3) * 1 ≤ (i 0).val ∧ (i 0).val < win1_5.index ⟨20 * (i 0).val + 19, hlt⟩ (0 : Fin 3) * 1 + 1
                have : (20 * (i 0).val + 19) / 20 = (i 0).val := by omega
                rw [e0]; show (20 * (i 0).val + 19) / 20 * 1 ≤ _ ∧ _ < (20 * (i 0).val + 19) / 20 * 1 + 1; omega
    | ⟨1, _⟩ => show win1_5.index ⟨20 * (i 0).val + 19, hlt⟩ (1 : Fin 3) * 1 ≤ (i 1).val ∧ (i 1).val < win1_5.index ⟨20 * (i 0).val + 19, hlt⟩ (1 : Fin 3) * 1 + 1
                rw [e1]; omega
    | ⟨2, _⟩ => show win1_5.index ⟨20 * (i 0).val + 19, hlt⟩ (2 : Fin 3) * 1 ≤ (i 2).val ∧ (i 2).val < win1_5.index ⟨20 * (i 0).val + 19, hlt⟩ (2 : Fin 3) * 1 + 1
                rw [e2]; omega

/-- The row-variation output: after the second kernel its array holds, at batch b, the sum over positions and neighbouring
    row pairs of the squared feature step (summed over channels) times half the sum of the two confidences. -/
theorem tvRows_value (c : Dev nD) (i : S2x1x1.Idx) :
    W4 (F := Ideal) m ρ c (Proc.devRef .tc main_v19_1) i = Spec.tvRows (Xm m c) (Pm m c) (i 0) :=
  congrFun ((W4_arr m ρ c 5).trans (final5 m ρ c)) i

end Cert.KernelIdeal.Gen.SmoothValue

end
-- ==== Proof.SmoothValueClassPay.lean ====
/-
  The class-sum output of the second kernel. Its block for batch b has one entry per class; it is zeroed at the batch's
  first tile, and every tile adds, to the entry of class k, the sum over the tile's four rows, eighty columns and
  forty-eight depths of the distance of the feature vector to the centre of class k, times the probability of class k,
  times the indicator of class k at the label. After the batch's last tile the entry holds the sum over all eighty rows,
  which is what the array ends holding.
-/
import proofs.«158333_j65738769433119_2_alg».proof.Proof.SmoothFrame
import proofs.«158333_j65738769433119_2_alg».proof.Proof.SmoothValuePay

set_option maxRecDepth 16384

noncomputable section

namespace Cert.KernelIdeal.Gen.SmoothValue.Class

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Smooth
open Cert.Proof
open scoped BigOperators

theorem hz3c : (![0, 0, 0] : Fin 3 → Nat) = fun _ => 0 := funext fun a => by fin_cases a <;> rfl
theorem hz5c : (![0, 0, 0, 0, 0] : Fin 5 → Nat) = fun _ => 0 := funext fun a => by fin_cases a <;> rfl

/-! ## The tile's blocks with their unit axes dropped -/

/-- The label block without its two unit axes. -/
theorem pay6_apply (x1 : Vec Ideal S1x1x4x80x48 .i32) (r : Fin 4) (w : Fin 80) (d : Fin 48) :
    k1_pay6 (F := Ideal) x1 (ix3 r w d) = x1 (ix5 (0 : Fin 1) (0 : Fin 1) r w d) := by
  unfold k1_pay6
  exact shapeCast_apply x1 _ _ _ (by
    rw [Shape.rowMajor_val_five, Shape.rowMajor_val_three]
    show ((((0 * 1 + 0) * 4 + r.val) * 80 + w.val) * 48 + d.val) = ((r.val * 80 + w.val) * 48 + d.val)
    omega)

/-- The logit block without its unit batch axis. -/
theorem pay7_apply (x2 : Vec Ideal S1x2x4x80x48 .f32) (k : Fin 2) (r : Fin 4) (w : Fin 80) (d : Fin 48) :
    k1_pay7 x2 (ix4 k r w d) = x2 (ix5 (0 : Fin 1) k r w d) := by
  unfold k1_pay7
  exact shapeCast_apply x2 _ _ _ (by
    rw [Shape.rowMajor_val_five, Shape.rowMajor_val_four]
    show ((((0 * 2 + k.val) * 4 + r.val) * 80 + w.val) * 48 + d.val) = (((k.val * 4 + r.val) * 80 + w.val) * 48 + d.val)
    omega)

/-- The logits of class 0. -/
theorem pay9_apply (x2 : Vec Ideal S1x2x4x80x48 .f32) (r : Fin 4) (w : Fin 80) (d : Fin 48) :
    k1_pay9 x2 (ix3 r w d) = x2 (ix5 (0 : Fin 1) (0 : Fin 2) r w d) := by
  unfold k1_pay9
  refine (shapeCast_apply _ _ _ (ix4 (0 : Fin 1) r w d) (by
    rw [Shape.rowMajor_val_four, Shape.rowMajor_val_three]
    show (((0 * 4 + r.val) * 80 + w.val) * 48 + d.val) = ((r.val * 80 + w.val) * 48 + d.val)
    omega)).trans ?_
  refine (extractStridedSlice_apply _ _ _ _ (ix4 (0 : Fin 2) r w d) (fun a => match a with
    | ⟨0, _⟩ => (Nat.zero_add _).symm | ⟨1, _⟩ => (Nat.zero_add _).symm | ⟨2, _⟩ => (Nat.zero_add _).symm | ⟨3, _⟩ => (Nat.zero_add _).symm)).trans ?_
  exact pay7_apply x2 0 r w d

/-- The logits of class 1. -/
theorem pay10_apply (x2 : Vec Ideal S1x2x4x80x48 .f32) (r : Fin 4) (w : Fin 80) (d : Fin 48) :
    k1_pay10 x2 (ix3 r w d) = x2 (ix5 (0 : Fin 1) (1 : Fin 2) r w d) := by
  unfold k1_pay10
  refine (shapeCast_apply _ _ _ (ix4 (0 : Fin 1) r w d) (by
    rw [Shape.rowMajor_val_four, Shape.rowMajor_val_three]
    show (((0 * 4 + r.val) * 80 + w.val) * 48 + d.val) = ((r.val * 80 + w.val) * 48 + d.val)
    omega)).trans ?_
  refine (extractStridedSlice_apply _ _ _ _ (ix4 (1 : Fin 2) r w d) (fun a => match a with
    | ⟨0, _⟩ => rfl | ⟨1, _⟩ => (Nat.zero_add _).symm | ⟨2, _⟩ => (Nat.zero_add _).symm | ⟨3, _⟩ => (Nat.zero_add _).symm)).trans ?_
  exact pay7_apply x2 1 r w d

/-- The centre block without its unit batch axis. -/
theorem pay8_apply (x3 : Vec Ideal S1x2x48 .f32) (k : Fin 2) (ch : Fin 48) :
    k1_pay8 x3 (ix2 k ch) = x3 (ix3 (0 : Fin 1) k ch) := by
  unfold k1_pay8
  exact shapeCast_apply x3 _ _ _ (by
    rw [Shape.rowMajor_val_three, Shape.rowMajor_val_two]
    show ((0 * 2 + k.val) * 48 + ch.val) = (k.val * 48 + ch.val)
    omega)

/-! ## The two-class softmax of a tile -/

/-- The probability of class k from the two logits, the larger one subtracted. -/
def soft (k : Fin 2) (l0 l1 : EReal) : EReal :=
  Ideal.div (Ideal.exp (![l0, l1] k - max l0 l1)) (Ideal.exp (l0 - max l0 l1) + Ideal.exp (l1 - max l0 l1))

/-- The tile's probabilities of class 0. -/
theorem pay15_apply (x2 : Vec Ideal S1x2x4x80x48 .f32) (r : Fin 4) (w : Fin 80) (d : Fin 48) :
    k1_pay15 x2 (ix3 r w d) = soft 0 (x2 (ix5 (0 : Fin 1) (0 : Fin 2) r w d)) (x2 (ix5 (0 : Fin 1) (1 : Fin 2) r w d)) := by
  unfold k1_pay15 k1_pay14 k1_pay12 k1_pay13 k1_pay11 soft
  show Ideal.div (Ideal.exp (k1_pay9 x2 (ix3 r w d) - max (k1_pay9 x2 (ix3 r w d)) (k1_pay10 x2 (ix3 r w d))))
      (Ideal.exp (k1_pay9 x2 (ix3 r w d) - max (k1_pay9 x2 (ix3 r w d)) (k1_pay10 x2 (ix3 r w d)))
        + Ideal.exp (k1_pay10 x2 (ix3 r w d) - max (k1_pay9 x2 (ix3 r w d)) (k1_pay10 x2 (ix3 r w d)))) = _
  rw [pay9_apply, pay10_apply]
  rfl

/-- The tile's probabilities of class 1. -/
theorem pay16_apply (x2 : Vec Ideal S1x2x4x80x48 .f32) (r : Fin 4) (w : Fin 80) (d : Fin 48) :
    k1_pay16 x2 (ix3 r w d) = soft 1 (x2 (ix5 (0 : Fin 1) (0 : Fin 2) r w d)) (x2 (ix5 (0 : Fin 1) (1 : Fin 2) r w d)) := by
  unfold k1_pay16 k1_pay14 k1_pay12 k1_pay13 k1_pay11 soft
  show Ideal.div (Ideal.exp (k1_pay10 x2 (ix3 r w d) - max (k1_pay9 x2 (ix3 r w d)) (k1_pay10 x2 (ix3 r w d))))
      (Ideal.exp (k1_pay9 x2 (ix3 r w d) - max (k1_pay9 x2 (ix3 r w d)) (k1_pay10 x2 (ix3 r w d)))
        + Ideal.exp (k1_pay10 x2 (ix3 r w d) - max (k1_pay9 x2 (ix3 r w d)) (k1_pay10 x2 (ix3 r w d)))) = _
  rw [pay9_apply, pay10_apply]
  rfl

/-! ## The class indicators of a tile -/

/-- The comparison bit of a label against class k, widened and converted, is the indicator of class k. -/
theorem sitofp_extui_cmpi (t : BitVec 32) (k : Fin 2) :
    ((((IntOp.cmpi .eq t (BitVec.ofNat 32 k.val)).setWidth 32).toInt : ℝ) : EReal) = Spec.ind k t := by
  unfold Spec.ind
  by_cases h : t = BitVec.ofNat 32 k.val
  · rw [if_pos h]; subst h; simp [IntOp.cmpi]
  · rw [if_neg h]
    have hb : (t == BitVec.ofNat 32 k.val) = false := beq_eq_false_iff_ne.mpr h
    simp [IntOp.cmpi, hb]

/-- The tile's indicator of class 0. -/
theorem pay18_apply (x1 : Vec Ideal S1x1x4x80x48 .i32) (r : Fin 4) (w : Fin 80) (d : Fin 48) :
    k1_pay18 (F := Ideal) x1 (ix3 r w d) = Spec.ind 0 (x1 (ix5 (0 : Fin 1) (0 : Fin 1) r w d)) := by
  unfold k1_pay18
  show ((((IntOp.cmpi .eq (k1_pay6 (F := Ideal) x1 (ix3 r w d)) 0#32).setWidth 32).toInt : ℝ) : EReal) = _
  rw [pay6_apply]
  exact sitofp_extui_cmpi _ 0

/-- The tile's indicator of class 1. -/
theorem pay19_apply (x1 : Vec Ideal S1x1x4x80x48 .i32) (r : Fin 4) (w : Fin 80) (d : Fin 48) :
    k1_pay19 (F := Ideal) x1 (ix3 r w d) = Spec.ind 1 (x1 (ix5 (0 : Fin 1) (0 : Fin 1) r w d)) := by
  unfold k1_pay19
  show ((((IntOp.cmpi .eq (k1_pay6 (F := Ideal) x1 (ix3 r w d)) 1#32).setWidth 32).toInt : ℝ) : EReal) = _
  rw [pay6_apply]
  exact sitofp_extui_cmpi _ 1

/-! ## The centres broadcast over a tile -/

/-- A class's centre, as a [48] vector stretched over the tile, reads the centre's channel. -/
theorem centreBcast_apply (v : FVec Ideal S1x48 .f32) (ch : Fin 48) (r : Fin 4) (w : Fin 80) (d : Fin 48) :
    broadcastTo S48x4x80x48 (shapeCast S48x1x1x1 (shapeCast S48 v shapeCasts_S1x48_S48) shapeCasts_S48_S48x1x1x1)
        broadcasts_S48x1x1x1_S48x4x80x48 (ix4 ch r w d) = v (ix2 (0 : Fin 1) ch) := by
  refine (broadcastTo_apply _ _ _ (ix4 ch (0 : Fin 1) (0 : Fin 1) (0 : Fin 1)) (fun a => match a with
    | ⟨0, _⟩ => rfl | ⟨1, _⟩ => rfl | ⟨2, _⟩ => rfl | ⟨3, _⟩ => rfl)).trans ?_
  refine (shapeCast_apply _ _ _ (ix1 ch) (by
    rw [Shape.rowMajor_val_one, Shape.rowMajor_val_four]
    show ch.val = ((ch.val * 1 + 0) * 1 + 0) * 1 + 0
    omega)).trans ?_
  exact shapeCast_apply _ _ _ (ix2 (0 : Fin 1) ch) (by
    rw [Shape.rowMajor_val_two, Shape.rowMajor_val_one]
    show 0 * 48 + ch.val = ch.val
    omega)

/-- The feature minus the centre of class 0. -/
theorem pay20_apply (x0 : Vec Ideal S1x48x4x80x48 .f32) (x3 : Vec Ideal S1x2x48 .f32) (ch : Fin 48) (r : Fin 4) (w : Fin 80) (d : Fin 48) :
    k1_pay20 x0 x3 (ix4 ch r w d) = x0 (ix5 (0 : Fin 1) ch r w d) - x3 (ix3 (0 : Fin 1) (0 : Fin 2) ch) := by
  unfold k1_pay20
  refine (subf_apply _ _ _).trans (congrArg₂ (· - ·) (pay5_apply x0 ch r w d) ?_)
  refine (centreBcast_apply _ ch r w d).trans ?_
  refine (extractStridedSlice_apply _ _ _ _ (ix2 (0 : Fin 2) ch) (fun a => match a with
    | ⟨0, _⟩ => (Nat.zero_add _).symm | ⟨1, _⟩ => (Nat.zero_add _).symm)).trans ?_
  exact pay8_apply x3 0 ch

/-- The centre of class 1 stretched over the tile. -/
theorem pay21_apply (x3 : Vec Ideal S1x2x48 .f32) (ch : Fin 48) (r : Fin 4) (w : Fin 80) (d : Fin 48) :
    k1_pay21 x3 (ix4 ch r w d) = x3 (ix3 (0 : Fin 1) (1 : Fin 2) ch) := by
  unfold k1_pay21
  refine (centreBcast_apply _ ch r w d).trans ?_
  refine (extractStridedSlice_apply _ _ _ _ (ix2 (1 : Fin 2) ch) (fun a => match a with
    | ⟨0, _⟩ => rfl | ⟨1, _⟩ => (Nat.zero_add _).symm)).trans ?_
  exact pay8_apply x3 1 ch

/-! ## Sums over one axis, and a tile's class contribution -/

/-- A sum over the channel axis of a [48, 4, 80, 48] vector. -/
theorem red_ch0 (v : FVec Ideal S48x4x80x48 .f32) (r : Fin 4) (w : Fin 80) (d : Fin 48) :
    multiReduction .add [0] S4x80x48 v 0x00000000#32 reduces_S48x4x80x48_S4x80x48 (.inl rfl) rfl (ix3 r w d)
      = ∑ ch : Fin 48, v (ix4 ch r w d) :=
  (Ideal.multiReduction_add_single v 0x00000000#32 reduces_S48x4x80x48_S4x80x48 (.inl rfl) rfl (ix3 r w d)).trans
    (Finset.sum_congr rfl fun ch _ => congrArg v (funext (fun a => match a with | ⟨0, _⟩ => rfl | ⟨1, _⟩ => rfl | ⟨2, _⟩ => rfl | ⟨3, _⟩ => rfl)))

/-- A sum over the depth axis of a [4, 80, 48] vector. -/
theorem red_d48 (v : FVec Ideal S4x80x48 .f32) (r : Fin 4) (w : Fin 80) :
    multiReduction .add [2] S4x80 v 0x00000000#32 reduces_S4x80x48_S4x80 (.inl rfl) rfl (ix2 r w)
      = ∑ d : Fin 48, v (ix3 r w d) :=
  (Ideal.multiReduction_add_single v 0x00000000#32 reduces_S4x80x48_S4x80 (.inl rfl) rfl (ix2 r w)).trans
    (Finset.sum_congr rfl fun d _ => congrArg v (funext (fun a => match a with | ⟨0, _⟩ => rfl | ⟨1, _⟩ => rfl | ⟨2, _⟩ => rfl)))

/-- A sum over the column axis of a [4, 80] vector. -/
theorem red_w80c (v : FVec Ideal S4x80 .f32) (r : Fin 4) :
    multiReduction .add [1] S4 v 0x00000000#32 reduces_S4x80_S4 (.inl rfl) rfl (ix1 r)
      = ∑ w : Fin 80, v (ix2 r w) :=
  (Ideal.multiReduction_add_single v 0x00000000#32 reduces_S4x80_S4 (.inl rfl) rfl (ix1 r)).trans
    (Finset.sum_congr rfl fun w _ => congrArg v (funext (fun a => match a with | ⟨0, _⟩ => rfl | ⟨1, _⟩ => rfl)))

/-- A sum over the row axis of a [4, 1] vector. -/
theorem red_r4c (v : FVec Ideal S4x1 .f32) :
    multiReduction .add [0] S1 v 0x00000000#32 reduces_S4x1_S1 (.inl rfl) rfl (ix1 (0 : Fin 1))
      = ∑ r : Fin 4, v (ix2 r (0 : Fin 1)) :=
  (Ideal.multiReduction_add_single v 0x00000000#32 reduces_S4x1_S1 (.inl rfl) rfl (ix1 (0 : Fin 1))).trans
    (Finset.sum_congr rfl fun r _ => congrArg v (funext (fun a => match a with | ⟨0, _⟩ => rfl | ⟨1, _⟩ => rfl)))

/-- The square root of a vector at an index. -/
theorem vsqrt_apply {s : Shape} (v : FVec Ideal s .f32) (i : s.Idx) : sqrt v i = Ideal.sqrt (v i) := rfl

/-- The body's reduction of one class over a tile: from the differences to the centre, the probabilities and the
    indicators, the [1, 1] sum of distance times probability times indicator. -/
def tileReduce (dv : FVec Ideal S48x4x80x48 .f32) (pv mv : FVec Ideal S4x80x48 .f32) : FVec Ideal S1x1 .f32 :=
  shapeCast S1x1 (multiReduction .add [0] S1 (shapeCast S4x1 (multiReduction .add [1] S4 (multiReduction .add [2] S4x80
    (mulf (mulf (sqrt (addf (multiReduction .add [0] S4x80x48 (mulf dv dv) 0x00000000#32 reduces_S48x4x80x48_S4x80x48 (.inl rfl) rfl)
      (broadcast S4x80x48 (Scalar.ofBits (F := Ideal) .f32 0x2B8CBCCC#32)))) pv) mv)
    0x00000000#32 reduces_S4x80x48_S4x80 (.inl rfl) rfl) 0x00000000#32 reduces_S4x80_S4 (.inl rfl) rfl) shapeCasts_S4_S4x1)
    0x00000000#32 reduces_S4x1_S1 (.inl rfl) rfl) shapeCasts_S1_S1x1

/-- That reduction, read: the triple sum over the tile of the root of the summed squared differences plus the small
    constant, times the probability, times the indicator. -/
theorem tileReduce_apply (dv : FVec Ideal S48x4x80x48 .f32) (pv mv : FVec Ideal S4x80x48 .f32) :
    tileReduce dv pv mv (ix2 (0 : Fin 1) (0 : Fin 1))
      = ∑ r : Fin 4, ∑ w : Fin 80, ∑ d : Fin 48,
          Ideal.sqrt ((∑ ch : Fin 48, dv (ix4 ch r w d) * dv (ix4 ch r w d)) + Spec.eps) * pv (ix3 r w d) * mv (ix3 r w d) := by
  unfold tileReduce
  refine (shapeCast_apply _ _ _ (ix1 (0 : Fin 1)) (by rw [Shape.rowMajor_val_one, Shape.rowMajor_val_two]; rfl)).trans ?_
  refine (red_r4c _).trans (Finset.sum_congr rfl fun r _ => ?_)
  refine (shapeCast_apply _ _ _ (ix1 r) (by
    rw [Shape.rowMajor_val_one, Shape.rowMajor_val_two]
    show r.val = r.val * 1 + 0
    omega)).trans ?_
  refine (red_w80c _ r).trans (Finset.sum_congr rfl fun w _ => ?_)
  refine (red_d48 _ r w).trans (Finset.sum_congr rfl fun d _ => ?_)
  refine (mulf_apply _ _ _).trans (congrArg₂ (· * ·) ((mulf_apply _ _ _).trans (congrArg₂ (· * ·) ?_ rfl)) rfl)
  refine (vsqrt_apply _ _).trans (congrArg Ideal.sqrt ?_)
  refine (addf_apply _ _ _).trans (congrArg₂ (· + ·) ?_ rfl)
  exact (red_ch0 _ r w d).trans (Finset.sum_congr rfl fun ch _ => mulf_apply _ _ _)

/-- What a tile contributes to the entry of class k: over its rows, columns and depths, the distance of the feature
    vector to the centre of class k, times the probability of class k, times the indicator of class k at the label. -/
def classTile (k : Fin 2) (x0 : Vec Ideal S1x48x4x80x48 .f32) (x1 : Vec Ideal S1x1x4x80x48 .i32)
    (x2 : Vec Ideal S1x2x4x80x48 .f32) (x3 : Vec Ideal S1x2x48 .f32) : EReal :=
  ∑ r : Fin 4, ∑ w : Fin 80, ∑ d : Fin 48,
    Ideal.sqrt ((∑ ch : Fin 48, (x0 (ix5 (0 : Fin 1) ch r w d) - x3 (ix3 (0 : Fin 1) k ch))
        * (x0 (ix5 (0 : Fin 1) ch r w d) - x3 (ix3 (0 : Fin 1) k ch))) + Spec.eps)
      * soft k (x2 (ix5 (0 : Fin 1) (0 : Fin 2) r w d)) (x2 (ix5 (0 : Fin 1) (1 : Fin 2) r w d))
      * Spec.ind k (x1 (ix5 (0 : Fin 1) (0 : Fin 1) r w d))

/-- What the body stores in the entry of class 0: the value read plus the tile's contribution. -/
theorem class0_apply (x0 : Vec Ideal S1x48x4x80x48 .f32) (x1 : Vec Ideal S1x1x4x80x48 .i32) (x2 : Vec Ideal S1x2x4x80x48 .f32)
    (x3 : Vec Ideal S1x2x48 .f32) (y : Vec Ideal S1x1x1 .f32) :
    k1_pay23 (k1_pay15 x2) (k1_pay18 x1) (k1_pay20 x0 x3) y o3 = y o3 + classTile 0 x0 x1 x2 x3 := by
  have e : k1_pay23 (k1_pay15 x2) (k1_pay18 x1) (k1_pay20 x0 x3) y
      = shapeCast S1x1x1 (addf (shapeCast S1x1 y shapeCasts_S1x1x1_S1x1) (tileReduce (k1_pay20 x0 x3) (k1_pay15 x2) (k1_pay18 x1)))
          shapeCasts_S1x1_S1x1x1 := rfl
  rw [e]
  refine (shapeCast_apply _ _ _ (ix2 (0 : Fin 1) (0 : Fin 1)) (by
    rw [Shape.rowMajor_val_two, Shape.rowMajor_val_three]; rfl)).trans ?_
  refine (addf_apply _ _ _).trans (congrArg₂ (· + ·) ?_ ?_)
  · exact shapeCast_apply y _ _ _ (by rw [Shape.rowMajor_val_two, Shape.rowMajor_val_three]; rfl)
  rw [tileReduce_apply]
  unfold classTile
  refine Finset.sum_congr rfl fun r _ => Finset.sum_congr rfl fun w _ => Finset.sum_congr rfl fun d _ => ?_
  rw [pay15_apply, pay18_apply]
  refine congrArg₂ (· * ·) (congrArg₂ (· * ·) (congrArg Ideal.sqrt (congrArg₂ (· + ·) ?_ rfl)) rfl) rfl
  exact Finset.sum_congr rfl fun ch _ => by rw [pay20_apply]

/-- What the body stores in the entry of class 1: the value read plus the tile's contribution. -/
theorem class1_apply (x0 : Vec Ideal S1x48x4x80x48 .f32) (x1 : Vec Ideal S1x1x4x80x48 .i32) (x2 : Vec Ideal S1x2x4x80x48 .f32)
    (x3 : Vec Ideal S1x2x48 .f32) (y : Vec Ideal S1x1x1 .f32) :
    k1_pay25 (k1_pay24 (k1_pay5 x0) (k1_pay16 x2) (k1_pay19 x1) (k1_pay21 x3) y) o3 = y o3 + classTile 1 x0 x1 x2 x3 := by
  have e : k1_pay25 (k1_pay24 (k1_pay5 x0) (k1_pay16 x2) (k1_pay19 x1) (k1_pay21 x3) y)
      = shapeCast S1x1x1 (addf (shapeCast S1x1 y shapeCasts_S1x1x1_S1x1)
          (tileReduce (subf (k1_pay5 x0) (k1_pay21 x3)) (k1_pay16 x2) (k1_pay19 x1))) shapeCasts_S1x1_S1x1x1 := rfl
  rw [e]
  refine (shapeCast_apply _ _ _ (ix2 (0 : Fin 1) (0 : Fin 1)) (by
    rw [Shape.rowMajor_val_two, Shape.rowMajor_val_three]; rfl)).trans ?_
  refine (addf_apply _ _ _).trans (congrArg₂ (· + ·) ?_ ?_)
  · exact shapeCast_apply y _ _ _ (by rw [Shape.rowMajor_val_two, Shape.rowMajor_val_three]; rfl)
  rw [tileReduce_apply]
  unfold classTile
  refine Finset.sum_congr rfl fun r _ => Finset.sum_congr rfl fun w _ => Finset.sum_congr rfl fun d _ => ?_
  rw [pay16_apply, pay19_apply]
  refine congrArg₂ (· * ·) (congrArg₂ (· * ·) (congrArg Ideal.sqrt (congrArg₂ (· + ·) ?_ rfl)) rfl) rfl
  exact Finset.sum_congr rfl fun ch _ => by rw [subf_apply, pay5_apply, pay21_apply]

/-! ## The class-sum block's two entries as the body's stores leave them -/

/-- The three rectangles the body stores through: the entry of class 1, the entry of class 0, the whole block. -/
abbrev R1c : Rect S1x2x1 := Rect.unit (s := S1x2x1) ![0, 1, 0] S1x1x1.size inb_S1x2x1_S1x1x1_0_1_0
abbrev R0c : Rect S1x2x1 := Rect.unit (s := S1x2x1) ![0, 0, 0] S1x1x1.size inb_S1x2x1_S1x1x1_0_0_0
abbrev Rzc : Rect S1x2x1 := Rect.unit (s := S1x2x1) ![0, 0, 0] S1x2x1.size inb_S1x2x1_S1x2x1_0_0_0

/-- The entry of class 1, as an index of the block, is where the class-1 store puts its one element. -/
theorem row1c_emb : (ix3 (0 : Fin 1) (1 : Fin 2) (0 : Fin 1) : S1x2x1.Idx) = R1c.emb o3 := by
  funext a; apply Fin.ext
  match a with
  | ⟨0, _⟩ => rfl
  | ⟨1, _⟩ => rfl
  | ⟨2, _⟩ => rfl

/-- The entry of class 0 likewise. -/
theorem row0c_emb : (ix3 (0 : Fin 1) (0 : Fin 2) (0 : Fin 1) : S1x2x1.Idx) = R0c.emb o3 := by
  funext a; apply Fin.ext
  match a with
  | ⟨0, _⟩ => rfl
  | ⟨1, _⟩ => rfl
  | ⟨2, _⟩ => rfl

/-- The entry of class 0 is outside the class-1 store. -/
theorem row0c_not_mem : (ix3 (0 : Fin 1) (0 : Fin 2) (0 : Fin 1) : S1x2x1.Idx) ∉ R1c.set := by
  rw [Rect.mem_set_unit]
  intro h
  exact Nat.not_succ_le_zero 0 (h 1).1

/-- The entry of class 1 is outside the class-0 store. -/
theorem row1c_not_mem : (ix3 (0 : Fin 1) (1 : Fin 2) (0 : Fin 1) : S1x2x1.Idx) ∉ R0c.set := by
  rw [Rect.mem_set_unit]
  intro h
  exact Nat.lt_irrefl 1 (h 1).2

section Rows
variable {Val : EltTy → Type} [∀ e, Nonempty (Val e)]

/-- After a class-0 store and then a class-1 store, the entry of class 1 reads the class-1 store's payload, -/
theorem canon_row1c (w1 : R1c.shape.Idx → Val .f32) (w0 : R0c.shape.Idx → Val .f32) (L : List (View.Piece Val S1x2x1 .f32)) :
    View.canon ((⟨R1c, w1⟩ : View.Piece Val S1x2x1 .f32) :: ⟨R0c, w0⟩ :: L) (ix3 (0 : Fin 1) (1 : Fin 2) (0 : Fin 1)) = w1 o3 := by
  rw [row1c_emb]; exact View.canon_cons_emb R1c w1 (⟨R0c, w0⟩ :: L) o3

/-- and the entry of class 0 the class-0 store's. -/
theorem canon_row0c (w1 : R1c.shape.Idx → Val .f32) (w0 : R0c.shape.Idx → Val .f32) (L : List (View.Piece Val S1x2x1 .f32)) :
    View.canon ((⟨R1c, w1⟩ : View.Piece Val S1x2x1 .f32) :: ⟨R0c, w0⟩ :: L) (ix3 (0 : Fin 1) (0 : Fin 2) (0 : Fin 1)) = w0 o3 := by
  refine (View.canon_cons_of_not_mem (⟨R1c, w1⟩ : View.Piece Val S1x2x1 .f32) (⟨R0c, w0⟩ :: L) row0c_not_mem).trans ?_
  rw [row0c_emb]; exact View.canon_cons_emb R0c w0 L o3

/-- After only a class-0 store over a whole-block store, the entry of class 1 reads the whole-block store's payload. -/
theorem canon_row1c_under (w0 : R0c.shape.Idx → Val .f32) (wz : S1x2x1.Idx → Val .f32) :
    View.canon [(⟨R0c, w0⟩ : View.Piece Val S1x2x1 .f32), ⟨Rzc, wz⟩] (R1c.emb o3) = wz (ix3 (0 : Fin 1) (1 : Fin 2) (0 : Fin 1)) := by
  rw [← row1c_emb]
  refine (View.canon_cons_of_not_mem (⟨R0c, w0⟩ : View.Piece Val S1x2x1 .f32) [⟨Rzc, wz⟩] row1c_not_mem).trans ?_
  rw [View.canon_unit_zero hz3c]

end Rows

/-- The block stored at the first tile is zero. -/
theorem pay22_apply (j : S1x2x1.Idx) : k1_pay22 (F := Ideal) j = 0 := by
  unfold k1_pay22
  exact Ideal.ofBits_zero_f32

/-! ## What one tile leaves in the class-sum block -/

/-- At a later tile the body leaves each entry at what the block held plus the tile's contribution for that class. -/
theorem out_B_4_apply (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : ¬cond1_0 i)
    (x0 : Vec Ideal S1x48x4x80x48 .f32) (x1 : Vec Ideal S1x1x4x80x48 .i32) (x2 : Vec Ideal S1x2x4x80x48 .f32) (x3 : Vec Ideal S1x2x48 .f32) (xs0 : Vec Ideal S48x80x48 .f32) (xs1 : Vec Ideal S80x48 .f32) (xo4 : Vec Ideal S1x2x1 .f32) (xo5 : Vec Ideal S1x1x1 .f32) (xo6 : Vec Ideal S1x1x1 .f32) (xo7 : Vec Ideal S1x1x1 .f32) (k : Fin 2) :
    out1_B_4 (F := Ideal) c i arg2 harg2 arg3 harg3 arg4 harg4 arg5 harg5 arg6 harg6 arg7 harg7 arg8 harg8 arg9 harg9 arg10 harg10 arg11 harg11 hc0 x0 x1 x2 x3 xs0 xs1 xo4 xo5 xo6 xo7 (ix3 (0 : Fin 1) k (0 : Fin 1))
      = xo4 (ix3 (0 : Fin 1) k (0 : Fin 1)) + classTile k x0 x1 x2 x3 := by
  unfold out1_B_4
  rw [View.read_writes_eq_canon _ _ _ (cover1_B_4 c i arg2 harg2 arg3 harg3 arg4 harg4 arg5 harg5 arg6 harg6 arg7 harg7 arg8 harg8 arg9 harg9 arg10 harg10 arg11 harg11 hc0 x0 x1 x2 x3 xs0 xs1 xo4 xo5 xo6 xo7)]
  unfold kernelRun1_B
  dsimp only
  sl_unfold_words
  simp only [View.readAt_eq_ld, harg2.read_unread, harg3.read_unread, harg4.read_unread, harg5.read_unread, harg6.read_unread,
    View.ld_unit_zero (S := S1x48x4x80x48) hz5c, View.ld_unit_zero (S := S1x1x4x80x48) hz5c,
    View.ld_unit_zero (S := S1x2x4x80x48) hz5c, View.ld_unit_zero (S := S1x2x48) hz3c]
  match k with
  | ⟨0, _⟩ =>
    refine (canon_row0c _ _ _).trans ?_
    refine (class0_apply x0 x1 x2 x3 _).trans ?_
    exact congrArg (· + classTile 0 x0 x1 x2 x3) (congrArg xo4 row0c_emb.symm)
  | ⟨1, _⟩ =>
    refine (canon_row1c _ _ _).trans ?_
    refine (class1_apply x0 x1 x2 x3 _).trans ?_
    exact congrArg (· + classTile 1 x0 x1 x2 x3) (congrArg xo4 row1c_emb.symm)

/-- At a batch's first tile the body leaves each entry at the tile's contribution for that class. -/
theorem out_A_4_apply (c : Dev nD) (i : grid1.Coords) (arg2 : Memref sig .tc .vmem S1x48x4x80x48 .f32) (harg2 : arg2.IsWhole) (arg3 : Memref sig .tc .vmem S1x1x4x80x48 .i32) (harg3 : arg3.IsWhole) (arg4 : Memref sig .tc .vmem S1x2x4x80x48 .f32) (harg4 : arg4.IsWhole) (arg5 : Memref sig .tc .vmem S1x2x48 .f32) (harg5 : arg5.IsWhole) (arg6 : Memref sig .tc .vmem S1x2x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S48x80x48 .f32) (harg10 : arg10.IsWhole) (arg11 : Memref sig .tc .vmem S80x48 .f32) (harg11 : arg11.IsWhole) (hc0 : cond1_0 i)
    (x0 : Vec Ideal S1x48x4x80x48 .f32) (x1 : Vec Ideal S1x1x4x80x48 .i32) (x2 : Vec Ideal S1x2x4x80x48 .f32) (x3 : Vec Ideal S1x2x48 .f32) (xs0 : Vec Ideal S48x80x48 .f32) (xs1 : Vec Ideal S80x48 .f32) (k : Fin 2) :
    out1_A_4 (F := Ideal) c i arg2 harg2 arg3 harg3 arg4 harg4 arg5 harg5 arg6 harg6 arg7 harg7 arg8 harg8 arg9 harg9 arg10 harg10 arg11 harg11 hc0 x0 x1 x2 x3 xs0 xs1 (ix3 (0 : Fin 1) k (0 : Fin 1)) = classTile k x0 x1 x2 x3 := by
  unfold out1_A_4
  rw [View.read_writes_eq_canon _ _ _ (cover1_A_4 c i arg2 harg2 arg3 harg3 arg4 harg4 arg5 harg5 arg6 harg6 arg7 harg7 arg8 harg8 arg9 harg9 arg10 harg10 arg11 harg11 hc0 x0 x1 x2 x3 xs0 xs1)]
  unfold kernelRun1_A
  dsimp only
  sl_unfold_words
  simp only [View.readAt_eq_ld, harg2.read_unread, harg3.read_unread, harg4.read_unread, harg5.read_unread,
    View.ld_unit_zero (S := S1x48x4x80x48) hz5c, View.ld_unit_zero (S := S1x1x4x80x48) hz5c,
    View.ld_unit_zero (S := S1x2x4x80x48) hz5c, View.ld_unit_zero (S := S1x2x48) hz3c, View.readCov_eq_canon']
  match k with
  | ⟨0, _⟩ =>
    refine (canon_row0c _ _ _).trans ?_
    refine (class0_apply x0 x1 x2 x3 _).trans ?_
    simp only [View.canon_unit_zero (Val := Elt Ideal) (S := S1x2x1) hz3c, pay22_apply, zero_add]
    rfl
  | ⟨1, _⟩ =>
    refine (canon_row1c _ _ _).trans ?_
    refine (class1_apply x0 x1 x2 x3 _).trans ?_
    refine Eq.trans (congrArg (· + classTile 1 x0 x1 x2 x3) ?_) (zero_add _)
    exact (canon_row1c_under (Val := Elt Ideal) _ (k1_pay22 (F := Ideal))).trans (pay22_apply _)

/-! ## The block after every point: the tiles' contributions so far -/

section Acc
variable (V : (c : Dev nD) → (b : Ref sig .tc) → Buf (Elt Ideal) ((c : Thread nD τ).loc b))

/-- The class-sum component of what a point of tile 0 leaves. -/
theorem step4_A (c : Dev nD) (t : Fin cfg1.N) (h0 : t.val % 20 = 0) (p : Outs1 Ideal) (k : Fin 2) :
    (stepA1 V c t h0 p).1 (ix3 (0 : Fin 1) k (0 : Fin 1))
      = classTile k (iblk1 V c 0 t) (iblk1 V c 1 t) (iblk1 V c 2 t) (iblk1 V c 3 t) :=
  out_A_4_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) p.2.2.2.2.1 p.2.2.2.2.2 k

/-- The class-sum component of what a point of a later tile leaves. -/
theorem step4_B (c : Dev nD) (t : Fin cfg1.N) (h0 : ¬t.val % 20 = 0) (p : Outs1 Ideal) (k : Fin 2) :
    (stepB1 V c t h0 p).1 (ix3 (0 : Fin 1) k (0 : Fin 1))
      = p.1 (ix3 (0 : Fin 1) k (0 : Fin 1)) + classTile k (iblk1 V c 0 t) (iblk1 V c 1 t) (iblk1 V c 2 t) (iblk1 V c 3 t) :=
  out_B_4_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) p.2.2.2.2.1 p.2.2.2.2.2 p.1 p.2.1 p.2.2.1 p.2.2.2.1 k

/-- The contribution of the tile at grid position n to the entry of class k (zero beyond the grid). -/
def classAt (c : Dev nD) (k : Fin 2) (n : ℕ) : EReal :=
  if h : n < cfg1.N then classTile k (iblk1 V c 0 ⟨n, h⟩) (iblk1 V c 1 ⟨n, h⟩) (iblk1 V c 2 ⟨n, h⟩) (iblk1 V c 3 ⟨n, h⟩) else 0

theorem classAt_of_lt (c : Dev nD) (k : Fin 2) (n : ℕ) (h : n < cfg1.N) :
    classAt V c k n = classTile k (iblk1 V c 0 ⟨n, h⟩) (iblk1 V c 1 ⟨n, h⟩) (iblk1 V c 2 ⟨n, h⟩) (iblk1 V c 3 ⟨n, h⟩) := dif_pos h

/-- After every point the entry of class k holds the contributions of the batch's tiles so far, summed. -/
theorem outs4_eq (c : Dev nD) (k : Fin 2) : ∀ (n : ℕ) (hn : n < cfg1.N),
    (outsAt1 V c n hn).1 (ix3 (0 : Fin 1) k (0 : Fin 1)) = ∑ j ∈ Finset.range (n % 20 + 1), classAt V c k (n - n % 20 + j)
  | 0, hn => by
    rw [outsAt1_A V c ⟨0, hn⟩ (Nat.zero_mod _), step4_A]
    show _ = ∑ j ∈ Finset.range 1, classAt V c k (0 - 0 + j)
    rw [Finset.sum_range_one]
    exact (classAt_of_lt V c k 0 hn).symm
  | n + 1, hn => by
    have hN : n + 1 < 40 := lt_of_lt_of_eq hn (show cfg1.N = 40 from N_1)
    by_cases h0 : (n + 1) % 20 = 0
    · rw [outsAt1_A V c ⟨n + 1, hn⟩ h0, step4_A]
      rw [h0, Finset.sum_range_one]
      show _ = classAt V c k (n + 1)
      exact (classAt_of_lt V c k (n + 1) hn).symm
    · rw [outsAt1_B V c ⟨n + 1, hn⟩ h0, step4_B]
      show (outsAt1 V c n _).1 (ix3 (0 : Fin 1) k (0 : Fin 1)) + _ = _
      rw [outs4_eq c k n (Nat.lt_of_succ_lt hn)]
      have e1 : (n + 1) % 20 = n % 20 + 1 := by omega
      have e2 : n + 1 - (n % 20 + 1) = n - n % 20 := by omega
      have e3 : n - n % 20 + (n % 20 + 1) = n + 1 := by omega
      rw [e1, e2, Finset.sum_range_succ (fun j => classAt V c k (n - n % 20 + j)) (n % 20 + 1), e3,
        classAt_of_lt V c k (n + 1) hn]

end Acc

end Cert.KernelIdeal.Gen.SmoothValue.Class

end
-- ==== Proof.SmoothValueClass.lean ====
/-
  The class-sum output of the second kernel, the array. After the last tile of batch b the block's entry of class k holds
  the sum, over the batch's eighty rows, eighty columns and forty-eight depths, of the distance to the centre of class k
  (the centres as the second kernel finds them), times the probability of class k, times the indicator of class k at the
  label; the batch's last tile writes the block back, the two batches' blocks cover the array, and so the array of class
  sums ends holding the specification's class sums.
-/
import proofs.«158333_j65738769433119_2_alg».proof.Proof.SmoothValueClassPay
import proofs.«158333_j65738769433119_2_alg».proof.Proof.SmoothValueCommon

set_option maxRecDepth 16384

noncomputable section

namespace Cert.KernelIdeal.Gen.SmoothValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Gen.Centers Cert.KernelIdeal.Gen.Smooth Cert.KernelIdeal.Gen.Whole
open Cert.KernelIdeal.Gen.SmoothValue.Class
open Cert.Proof
open scoped BigOperators

variable (m : (ℓ : Loc nD τ sig) → Buf (Elt Ideal) ℓ) (ρ : Dev nD → PrngReg)

/-- The class centres as the second kernel finds them, at the shape the mathematics is stated over. -/
abbrev Cm (c : Dev nD) : Spec.SC.Idx → EReal := fun j => Whole.W3 (F := Ideal) m ρ c (Proc.devRef .tc main_v18) j

/-- The centre block at point t read at (0, k, ch) is the centre array at batch t / 20. -/
theorem blk3_apply (c : Dev nD) (t : Fin cfg1.N) (k : Fin 2) (ch : Fin 48) (b : Fin 2) (hb : b.val = t.val / 20) :
    (iblk1 (Whole.V3 m ρ) c 3 t : Vec Ideal S1x2x48 .f32) (ix3 (0 : Fin 1) k ch) = Cm m ρ c (ix3 b k ch) := by
  obtain ⟨e0, e1, e2⟩ := idx_facts3 t
  unfold iblk1
  rw [View.read_apply]
  show Whole.V3 m ρ c (Pipeline.arrRef spec1 3) (((cfg1.win 3).blk t).view.emb (ix3 (0 : Fin 1) k ch)) = Whole.V3 m ρ c main_v18 (ix3 b k ch)
  congr 1
  funext a; apply Fin.ext
  match a with
  | ⟨0, _⟩ => show win1_3.index t (0 : Fin 3) * 1 + 1 * 0 = b.val; omega
  | ⟨1, _⟩ => show win1_3.index t (1 : Fin 3) * 2 + 1 * k.val = k.val; omega
  | ⟨2, _⟩ => show win1_3.index t (2 : Fin 3) * 48 + 1 * ch.val = ch.val; omega

/-- The specification's probability is the softmax of the two logits. -/
theorem prob_eq_soft (P : Spec.SP.Idx → EReal) (b k : Fin 2) (h w : Fin 80) (d : Fin 48) :
    Spec.prob P b k h w d = soft k (P (ix5 b (0 : Fin 2) h w d)) (P (ix5 b (1 : Fin 2) h w d)) := by
  fin_cases k <;> rfl

/-- The contribution of a tile, in the specification's terms. -/
theorem tile_eq (c : Dev nD) (t : Fin cfg1.N) (b : Fin 2) (hb : b.val = t.val / 20) (s : Fin 20) (hs : s.val = t.val % 20) (k : Fin 2) :
    classTile k (iblk1 (Whole.V3 m ρ) c 0 t) (iblk1 (Whole.V3 m ρ) c 1 t) (iblk1 (Whole.V3 m ρ) c 2 t) (iblk1 (Whole.V3 m ρ) c 3 t)
      = ∑ r : Fin 4, ∑ w : Fin 80, ∑ d : Fin 48,
          Spec.dist (Xm m c) (Cm m ρ c) b k (hrow s r) w d * Spec.prob (Pm m c) b k (hrow s r) w d
            * Spec.ind k (Spec.lab (Tm m c) b (hrow s r) w d) := by
  unfold classTile
  refine Finset.sum_congr rfl fun r _ => Finset.sum_congr rfl fun w _ => Finset.sum_congr rfl fun d _ => ?_
  have hrow' : (hrow s r).val = 4 * (t.val % 20) + r.val := by show 4 * s.val + r.val = _; omega
  rw [blk2_apply m ρ c t 0 r w d b (hrow s r) hb hrow', blk2_apply m ρ c t 1 r w d b (hrow s r) hb hrow',
    blk1_apply m ρ c t r w d b (hrow s r) hb hrow', prob_eq_soft]
  refine congrArg₂ (· * ·) (congrArg₂ (· * ·) ?_ rfl) rfl
  unfold Spec.dist
  refine congrArg Ideal.sqrt (congrArg₂ (· + ·) (Finset.sum_congr rfl fun ch _ => ?_) rfl)
  rw [blk0_apply m ρ c t ch r w d b (hrow s r) hb hrow', blk3_apply m ρ c t k ch b hb]
  rfl

/-- After a batch's last tile the entry of class k holds the batch's class sum. -/
theorem outs4_last (c : Dev nD) (t : Fin cfg1.N) (h19 : t.val % 20 = 19) (b : Fin 2) (hb : b.val = t.val / 20) (k : Fin 2) :
    (outsAt1 (Whole.V3 m ρ) c t.val t.isLt).1 (ix3 (0 : Fin 1) k (0 : Fin 1))
      = Spec.classSum (Xm m c) (Pm m c) (Tm m c) (Cm m ρ c) b k := by
  have hN : cfg1.N = 40 := N_1
  have ht := t.isLt
  rw [outs4_eq (Whole.V3 m ρ) c k t.val t.isLt, h19]
  unfold Spec.classSum
  rw [← sum_tiles]
  show ∑ s ∈ Finset.range 20, _ = _
  rw [Finset.sum_range]
  refine Finset.sum_congr rfl fun s _ => ?_
  have hs := s.isLt
  have hlt : t.val - 19 + s.val < cfg1.N := by omega
  rw [classAt_of_lt (Whole.V3 m ρ) c k _ hlt]
  exact tile_eq m ρ c ⟨t.val - 19 + s.val, hlt⟩ b (by show b.val = (t.val - 19 + s.val) / 20; omega) s
    (by show s.val = (t.val - 19 + s.val) % 20; omega) k

/-- What the array of class sums ends holding: the specification's class sums, index by index. -/
abbrev csums (c : Dev nD) : S2x2x1.Idx → EReal :=
  fun i => Spec.classSum (Xm m c) (Pm m c) (Tm m c) (Cm m ρ c) (i 0) (i 1)

/-- A batch's last tile writes back the batch's block of the class sums. -/
theorem flushed4_eq (c : Dev nD) (t : Fin cfg1.N) (hf : (cfg1.win 4).flush t = true) :
    (dat1 (Whole.V3 m ρ) c).flushed 4 t = ((cfg1.win 4).blk t).view.read (Elt Ideal) (csums m ρ c) := by
  have h19 : t.val % 20 = 19 := (flush1_4 t).mp hf
  have hN : cfg1.N = 40 := N_1
  have hb : t.val / 20 < 2 := by have := t.isLt; omega
  obtain ⟨e0, e1, e2⟩ := idx_facts4 t
  show (cfg1.win 4).cut (grid1.coords t) ((dat1 (Whole.V3 m ρ) c).after 4 t) = _
  rw [after1_4]
  funext j
  obtain ⟨u, k, z, rfl⟩ : ∃ (u : Fin 1) (k : Fin 2) (z : Fin 1), j = ix3 u k z := ⟨j 0, j 1, j 2, eq_ix3 j⟩
  obtain rfl : u = 0 := Subsingleton.elim _ _
  obtain rfl : z = 0 := Subsingleton.elim _ _
  have hemb : ((cfg1.win 4).blk t).view.emb (ix3 (0 : Fin 1) k (0 : Fin 1))
      = (ix3 (⟨t.val / 20, hb⟩ : Fin 2) k (0 : Fin 1) : S2x2x1.Idx) := by
    funext a; apply Fin.ext
    match a with
    | ⟨0, _⟩ => show win1_4.index t (0 : Fin 3) * 1 + 1 * 0 = t.val / 20; omega
    | ⟨1, _⟩ => show win1_4.index t (1 : Fin 3) * 2 + 1 * k.val = k.val; omega
    | ⟨2, _⟩ => show win1_4.index t (2 : Fin 3) * 1 + 1 * 0 = 0; omega
  show (outsAt1 (Whole.V3 m ρ) c t.val t.isLt).1 (ix3 (0 : Fin 1) k (0 : Fin 1))
    = csums m ρ c (((cfg1.win 4).blk t).view.emb (ix3 (0 : Fin 1) k (0 : Fin 1)))
  rw [hemb]
  exact outs4_last m ρ c t h19 ⟨t.val / 20, hb⟩ rfl k

/-- Every entry of the array is in the block some batch's last tile writes back. -/
theorem covered4 (i : S2x2x1.Idx) : ∃ t : Fin cfg1.N, (cfg1.win 4).flush t = true ∧ i ∈ ((cfg1.win 4).blk t).view.set := by
  have hN : cfg1.N = 40 := N_1
  have hi0 : (i 0).val < 2 := (i 0).isLt
  have hi1 : (i 1).val < 2 := (i 1).isLt
  have hi2 : (i 2).val < 1 := (i 2).isLt
  have hlt : 20 * (i 0).val + 19 < cfg1.N := by omega
  refine ⟨⟨20 * (i 0).val + 19, hlt⟩, (flush1_4 _).mpr (by show (20 * (i 0).val + 19) % 20 = 19; omega), ?_⟩
  obtain ⟨e0, e1, e2⟩ := idx_facts4 ⟨20 * (i 0).val + 19, hlt⟩
  have e0' : win1_4.index ⟨20 * (i 0).val + 19, hlt⟩ (0 : Fin 3) = (20 * (i 0).val + 19) / 20 := e0
  show i ∈ ((View.whole main_v19_0).slice (win1_4.rect ⟨20 * (i 0).val + 19, hlt⟩)).set
  rw [View.set_slice_whole, Rect.mem_set_unit]
  intro a
  match a with
  | ⟨0, _⟩ =>
    show win1_4.index ⟨20 * (i 0).val + 19, hlt⟩ (0 : Fin 3) * 1 ≤ (i 0).val
      ∧ (i 0).val < win1_4.index ⟨20 * (i 0).val + 19, hlt⟩ (0 : Fin 3) * 1 + 1
    omega
  | ⟨1, _⟩ =>
    show win1_4.index ⟨20 * (i 0).val + 19, hlt⟩ (1 : Fin 3) * 2 ≤ (i 1).val
      ∧ (i 1).val < win1_4.index ⟨20 * (i 0).val + 19, hlt⟩ (1 : Fin 3) * 2 + 2
    omega
  | ⟨2, _⟩ =>
    show win1_4.index ⟨20 * (i 0).val + 19, hlt⟩ (2 : Fin 3) * 1 ≤ (i 2).val
      ∧ (i 2).val < win1_4.index ⟨20 * (i 0).val + 19, hlt⟩ (2 : Fin 3) * 1 + 1
    omega

/-- So the array of class sums ends holding the specification's class sums. -/
theorem final4 (c : Dev nD) : (dat1 (Whole.V3 m ρ) c).arrAt 4 cfg1.N = csums m ρ c :=
  (dat1 (Whole.V3 m ρ) c).arrAt_eq_of_cover 4 (csums m ρ c) (flushed4_eq m ρ c) covered4

/-- THE CLASS SUMS: after the second kernel the class-sum array holds, at (b, k, 0), the specification's class sum of
    batch b and class k over the centres the second kernel was given. -/
theorem classSums_value (c : Dev nD) (i : S2x2x1.Idx) :
    Whole.W4 (F := Ideal) m ρ c (Proc.devRef .tc main_v19_0) i
      = Spec.classSum (Xm m c) (Pm m c) (Tm m c) (fun j => Whole.W3 (F := Ideal) m ρ c (Proc.devRef .tc main_v18) j) (i 0) (i 1) :=
  congrFun ((W4_arr m ρ c 4).trans (final4 m ρ c)) i

end Cert.KernelIdeal.Gen.SmoothValue

end
-- ==== Proof.Algebraic.lean ====
/-
  The equality of results. The kernel program's result is read off the last boundary of its run; the reference's off
  its own run; both runs terminate with their arguments unchanged. The two results are one number: the reference's
  tail function of its counts, centres, class sums and three total-variation sums, and the kernel's tail function of
  what its two kernels and the host operations between them leave, meet at the specification's quantities.
-/
import proofs.«158333_j65738769433119_2_alg».proof.Defs
import proofs.«158333_j65738769433119_2_alg».proof.Proof.Gen.Pre_finite_inputs
import proofs.«158333_j65738769433119_2_alg».proof.Proof.MainRun
import proofs.«158333_j65738769433119_2_alg».proof.Proof.RefRunPatched
import proofs.«158333_j65738769433119_2_alg».proof.Proof.ResultAssembly
import proofs.«158333_j65738769433119_2_alg».proof.Proof.CentersMain
import proofs.«158333_j65738769433119_2_alg».proof.Proof.SmoothValueDepth
import proofs.«158333_j65738769433119_2_alg».proof.Proof.SmoothValueCols
import proofs.«158333_j65738769433119_2_alg».proof.Proof.SmoothValueRows
import proofs.«158333_j65738769433119_2_alg».proof.Proof.SmoothValueClass

noncomputable section

namespace Cert.Proof.Bridge

open Idealize.ShloMosaic Idealize.ShloMosaic.TcCoe Idealize.SL.Sem Idealize.ShloMosaic.ValueIdx
open Cert.KernelIdeal.Gen.Whole

/-- The kernel program's result, as extended reals: the scalar buffer the last host operation writes, at the last
    boundary's contents. -/
def kernelResult (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Buf (Elt Ideal) ((c.tc : Thread Cert.KernelIdeal.nD Cert.KernelIdeal.τ).loc Cert.KernelIdeal.main_v76) :=
  W15 (F := Ideal) m ρ c (Proc.devRef .tc Cert.KernelIdeal.main_v76)

/-- THE VALUE EQUATION: from memories that agree on the three arguments, the reference's composed term is the kernel
    program's result. Each of the six arrays the kernel's tail reads is the specification's quantity: the counts and
    centres by the first kernel and the host operations after it, the class sums and the three total-variation sums
    by the second kernel. (No step needs the inputs to be finite: only sums are regrouped.) -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.ValueP.res_main_v128 (F := Ideal) m' c = kernelResult m ρ c :=
  Cert.Proof.Assembly.result_eq_of m ρ c m' hagree
    (fun b k => Cert.KernelIdeal.Gen.CentersValue.counts_value m ρ c (ix2 b k))
    (fun b k ch => Cert.KernelIdeal.Gen.CentersValue.centers_value m ρ c (ix3 b k ch))
    (fun b k => Cert.KernelIdeal.Gen.SmoothValue.classSums_value m ρ c (ix3 b k (0 : Fin 1)))
    (fun b => Cert.KernelIdeal.Gen.SmoothValue.tvRows_value m ρ c (ix3 b (0 : Fin 1) (0 : Fin 1)))
    (fun b => Cert.KernelIdeal.Gen.SmoothValue.tvCols_value m ρ c (ix3 b (0 : Fin 1) (0 : Fin 1)))
    (fun b => Cert.KernelIdeal.Gen.SmoothValue.tvDepth_value m ρ c (ix3 b (0 : Fin 1) (0 : Fin 1)))

/-- Both idealized programs run to the end with unchanged arguments and equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨kernelResult m ρ, ?_, ?_⟩
  · exact (θ_run Cert.KernelIdeal.defs _ _).mono (fun _ h c =>
      ⟨h c _ (mem_uc Cert.KernelIdeal.main_v76 (by decide)),
       (h c _ (mem_uc Cert.KernelIdeal.main_arg0 (by decide))).trans (W15_main_arg0 m ρ c),
       (h c _ (mem_uc Cert.KernelIdeal.main_arg1 (by decide))).trans (W15_main_arg1 m ρ c),
       (h c _ (mem_uc Cert.KernelIdeal.main_arg2 (by decide))).trans (W15_main_arg2 m ρ c)⟩) (run_all (F := Ideal) m ρ)
  · exact (θ_run Cert.ReferenceIdeal.defs _ _).mono (fun _ h c =>
      ⟨(h c).1.trans (result_eq m ρ m' hagree c), (h c).2⟩)
      (Cert.ReferenceIdeal.ValueP.run (F := Ideal) m' ρ')

end Cert.Proof.Bridge

end
-- ==== Proof.lean ====
/-
  The certificate of the two-pass loss kernel against its plain reference.

  The kernel makes two passes over the feature volume on a grid of (batch, row tile): the first accumulates, per batch
  and class, the sum of the feature vectors of the positions labelled with that class; host operations divide by the
  class counts to get the class centres; the second pass accumulates, per batch, the confidence-weighted distances to
  the centres and the three total-variation sums (along rows — with the one row that straddles two tiles carried in a
  scratch buffer from tile to tile —, along columns, and along depth); host operations combine the four accumulators
  into the scalar loss. The reference computes the same loss with whole-array operations.

  Proved here: both kernel programs (the word-level one and its idealization) and the reference run to the end from
  any memory, fault nowhere, and leave the three argument arrays as launched; the idealization rewrote nothing.
  The remaining conjunct — that the idealized kernel's and the reference's results are equal as extended reals — is
  reduced to one equation between the two programs' result terms, which is left open.
-/
import proofs.«158333_j65738769433119_2_alg».proof.Defs
import proofs.«158333_j65738769433119_2_alg».proof.Proof.Gen.Kernel
import proofs.«158333_j65738769433119_2_alg».proof.Proof.Gen.KernelIdeal
import proofs.«158333_j65738769433119_2_alg».proof.Proof.Gen.ReferenceIdeal
import proofs.«158333_j65738769433119_2_alg».proof.Proof.Gen.Pre_finite_inputs
import proofs.«158333_j65738769433119_2_alg».proof.Proof.RefFrame
import proofs.«158333_j65738769433119_2_alg».proof.Proof.MainRun
import proofs.«158333_j65738769433119_2_alg».proof.Proof.KMainRun
import proofs.«158333_j65738769433119_2_alg».proof.Proof.Algebraic
import Idealize.ShloMosaic.Adequacy
import Idealize.ShloMosaic.Init

noncomputable section

namespace Cert.Proof

open Idealize.ShloMosaic Idealize.SL.Sem

/-- The word-level kernel program terminates, faults nowhere and leaves its arguments unchanged. -/
theorem frame_k : Cert.frame_Kernel (hKernel := Cert.Kernel.Gen.facts) (hPre_finite_inputs := Cert.Pre_finite_inputs.Gen.facts) :=
  fun m ρ _ => Cert.Kernel.Gen.Whole.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.Whole.frame (F := Ideal) m ρ

/-- The idealization changed no operation. -/
theorem preserves : Cert.preserves_Kernel_KernelIdeal := trivial

/-- The two idealized programs both run to the end with unchanged arguments; their results are equal given the one value
    equation the reduction module leaves open. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.Bridge.algebraic

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
